-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![256, 512]⟩ ⟨2, ![256, 8192]⟩ 1 16 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![8192, 256]⟩ 0 16 c (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v3) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S256x256 : Shape := ⟨2, ![256, 256]⟩
abbrev S256x512 : Shape := ⟨2, ![256, 512]⟩
abbrev S512x256 : Shape := ⟨2, ![512, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x512 : S_.BroadcastsInDim S256x512 (![] : Fin 0 → Fin S256x512.rank)
  reducesTo_S256x512_S_d0_1 : S256x512.ReducesTo [0, 1] S_
  bcast_S_S512x256 : S_.BroadcastsInDim S512x256 (![] : Fin 0 → Fin S512x256.rank)
  reducesTo_S512x256_S_d0_1 : S512x256.ReducesTo [0, 1] S_

variable [Facts]

def fn {F : FTy → Type} [FloatOps F] (main_arg0 : FVec F S256x256 .f32) (main_arg1 : FVec F S256x512 .f32) (main_arg2 : FVec F S512x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x512 .f32 := Host.absf main_arg1
  let main_cst_0 : FVec F S_ .f32 := constant S_ .f32 0x7F800000#32
  let main_v5 : FVec F S256x512 .f32 := broadcastInDim S256x512 ![] bcast_S_S256x512 main_cst_0
  let main_v6 : IVec S256x512 1 := cmpf .olt main_v4 main_v5
  let main_c_1 : IVec S_ 1 := constantI S_ 1 1#1
  let main_v7 : IVec S_ 1 := (fun x v => Host.reduce IntOp.andi x v reducesTo_S256x512_S_d0_1 h_S_) main_v6 main_c_1
  let main_v8 : IVec S_ 1 := andi main_v3 main_v7
  let main_v9 : FVec F S512x256 .f32 := Host.absf main_arg2
  let main_cst_2 : FVec F S_ .f32 := constant S_ .f32 0x7F800000#32
  let main_v10 : FVec F S512x256 .f32 := broadcastInDim S512x256 ![] bcast_S_S512x256 main_cst_2
  let main_v11 : IVec S512x256 1 := cmpf .olt main_v9 main_v10
  let main_c_3 : IVec S_ 1 := constantI S_ 1 1#1
  let main_v12 : IVec S_ 1 := (fun x v => Host.reduce IntOp.andi x v reducesTo_S512x256_S_d0_1 h_S_) main_v11 main_c_3
  let main_v13 : IVec S_ 1 := andi main_v8 main_v12
  main_v13
-- ==== Pre_finite_inputs_ReferenceIdeal.lean ====
abbrev S256x256 : Shape := ⟨2, ![256, 256]⟩
abbrev S256x8192 : Shape := ⟨2, ![256, 8192]⟩
abbrev S8192x256 : Shape := ⟨2, ![8192, 256]⟩
abbrev S_ : Shape := ⟨0, ![]⟩

class Facts : Prop where
  bcast_S_S256x256 : S_.BroadcastsInDim S256x256 (![] : Fin 0 → Fin S256x256.rank)
  reducesTo_S256x256_S_d0_1 : S256x256.ReducesTo [0, 1] S_
  h_S_ : 0 < S_.numel
  bcast_S_S256x8192 : S_.BroadcastsInDim S256x8192 (![] : Fin 0 → Fin S256x8192.rank)
  reducesTo_S256x8192_S_d0_1 : S256x8192.ReducesTo [0, 1] S_
  bcast_S_S8192x256 : S_.BroadcastsInDim S8192x256 (![] : Fin 0 → Fin S8192x256.rank)
  reducesTo_S8192x256_S_d0_1 : S8192x256.ReducesTo [0, 1] S_

variable [Facts]

def fn {F : FTy → Type} [FloatOps F] (main_arg0 : FVec F S256x256 .f32) (main_arg1 : FVec F S256x8192 .f32) (main_arg2 : FVec F S8192x256 .f32) : IVec S_ 1 :=
  let main_v0 : FVec F S256x256 .f32 := Host.absf main_arg0
  let main_cst : FVec F S_ .f32 := constant S_ .f32 0x7F800000#32
  let main_v1 : FVec F S256x256 .f32 := broadcastInDim S256x256 ![] bcast_S_S256x256 main_cst
  let main_v2 : IVec S256x256 1 := cmpf .olt main_v0 main_v1
  let main_c : IVec S_ 1 := constantI S_ 1 1#1
  let main_v3 : IVec S_ 1 := (fun x v => Host.reduce IntOp.andi x v reducesTo_S256x256_S_d0_1 h_S_) main_v2 main_c
  let main_v4 : FVec F S256x8192 .f32 := Host.absf main_arg1
  let main_cst_0 : FVec F S_ .f32 := constant S_ .f32 0x7F800000#32
  let main_v5 : FVec F S256x8192 .f32 := broadcastInDim S256x8192 ![] bcast_S_S256x8192 main_cst_0
  let main_v6 : IVec S256x8192 1 := cmpf .olt main_v4 main_v5
  let main_c_1 : IVec S_ 1 := constantI S_ 1 1#1
  let main_v7 : IVec S_ 1 := (fun x v => Host.reduce IntOp.andi x v reducesTo_S256x8192_S_d0_1 h_S_) main_v6 main_c_1
  let main_v8 : IVec S_ 1 := andi main_v3 main_v7
  let main_v9 : FVec F S8192x256 .f32 := Host.absf main_arg2
  let main_cst_2 : FVec F S_ .f32 := constant S_ .f32 0x7F800000#32
  let main_v10 : FVec F S8192x256 .f32 := broadcastInDim S8192x256 ![] bcast_S_S8192x256 main_cst_2
  let main_v11 : IVec S8192x256 1 := cmpf .olt main_v9 main_v10
  let main_c_3 : IVec S_ 1 := constantI S_ 1 1#1
  let main_v12 : IVec S_ 1 := (fun x v => Host.reduce IntOp.andi x v reducesTo_S8192x256_S_d0_1 h_S_) main_v11 main_c_3
  let main_v13 : IVec S_ 1 := andi main_v8 main_v12
  main_v13
-- ==== Kernel.lean ====
abbrev S256x256 : Shape := ⟨2, ![256, 256]⟩
abbrev S256x512 : Shape := ⟨2, ![256, 512]⟩
abbrev S512x256 : Shape := ⟨2, ![512, 256]⟩
abbrev S15x16x256 : Shape := ⟨3, ![15, 16, 256]⟩
abbrev S16x256 : Shape := ⟨2, ![16, 256]⟩
abbrev S15 : Shape := ⟨1, ![15]⟩
abbrev S_ : Shape := ⟨0, ![]⟩
abbrev S1 : Shape := ⟨1, ![1]⟩
abbrev S1x16x256 : Shape := ⟨3, ![1, 16, 256]⟩

abbrev nBuf : Space → Nat
  | .hbm => 4
  | .vmem => 7
  | .smem => 0
  | _ => 0

abbrev bufTy : (tb : Table) → Fin (tcTables nBuf tb) → BufTy
  | .hbm, ⟨0, _⟩ => ⟨S256x256, .f32⟩
  | .hbm, ⟨1, _⟩ => ⟨S256x512, .f32⟩
  | .hbm, ⟨2, _⟩ => ⟨S512x256, .f32⟩
  | .hbm, ⟨3, _⟩ => ⟨S256x256, .f32⟩
  | .local _ .vmem, ⟨0, _⟩ => ⟨S256x256, .f32⟩
  | .local _ .vmem, ⟨1, _⟩ => ⟨S256x512, .f32⟩
  | .local _ .vmem, ⟨2, _⟩ => ⟨S512x256, .f32⟩
  | .local _ .vmem, ⟨3, _⟩ => ⟨S256x256, .f32⟩
  | .local _ .vmem, ⟨4, _⟩ => ⟨S256x256, .bf16⟩
  | .local _ .vmem, ⟨5, _⟩ => ⟨S15x16x256, .bf16⟩
  | .local _ .vmem, ⟨6, _⟩ => ⟨S16x256, .f32⟩
  | _, _ => ⟨S256x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 1 → Bool
  | ⟨0, _⟩ => false
  | _ => false

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  { ofTc nBuf bufTy 1 64 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 16
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_0 : BitVec 32 := 1#32
  let v4 : BitVec 32 := Scalar.addi v2 c1_i32_0
  let c16_i32_1 : BitVec 32 := 16#32
  let v5 : BitVec 32 := Scalar.remsi v4 c16_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32 : BitVec 32 := 2#32
  let v8 : BitVec 32 := Scalar.addi v2 c2_i32
  let c16_i32_4 : BitVec 32 := 16#32
  let v9 : BitVec 32 := Scalar.remsi v8 c16_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32 : BitVec 32 := 3#32
  let v12 : BitVec 32 := Scalar.addi v2 c3_i32
  let c16_i32_8 : BitVec 32 := 16#32
  let v13 : BitVec 32 := Scalar.remsi v12 c16_i32_8
  let c1_i32_10 : BitVec 32 := 1#32
  let v14 : BitVec 32 := Scalar.muli v13 c1_i32_10
  let v15 : BitVec 32 := Scalar.addi c0_i32_11 v14
  v15.toNat
def k0_dev4 (d0 : Dev nD) : Nat :=
  let c0_i32_15 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32 : BitVec 32 := 4#32
  let v16 : BitVec 32 := Scalar.addi v2 c4_i32
  let c16_i32_12 : BitVec 32 := 16#32
  let v17 : BitVec 32 := Scalar.remsi v16 c16_i32_12
  let c1_i32_14 : BitVec 32 := 1#32
  let v18 : BitVec 32 := Scalar.muli v17 c1_i32_14
  let v19 : BitVec 32 := Scalar.addi c0_i32_15 v18
  v19.toNat
def k0_dev5 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32 : BitVec 32 := 5#32
  let v20 : BitVec 32 := Scalar.addi v2 c5_i32
  let c16_i32_16 : BitVec 32 := 16#32
  let v21 : BitVec 32 := Scalar.remsi v20 c16_i32_16
  let c1_i32_18 : BitVec 32 := 1#32
  let v22 : BitVec 32 := Scalar.muli v21 c1_i32_18
  let v23 : BitVec 32 := Scalar.addi c0_i32_19 v22
  v23.toNat
def k0_dev6 (d0 : Dev nD) : Nat :=
  let c0_i32_23 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32 : BitVec 32 := 6#32
  let v24 : BitVec 32 := Scalar.addi v2 c6_i32
  let c16_i32_20 : BitVec 32 := 16#32
  let v25 : BitVec 32 := Scalar.remsi v24 c16_i32_20
  let c1_i32_22 : BitVec 32 := 1#32
  let v26 : BitVec 32 := Scalar.muli v25 c1_i32_22
  let v27 : BitVec 32 := Scalar.addi c0_i32_23 v26
  v27.toNat
def k0_dev7 (d0 : Dev nD) : Nat :=
  let c0_i32_27 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32 : BitVec 32 := 7#32
  let v28 : BitVec 32 := Scalar.addi v2 c7_i32
  let c16_i32_24 : BitVec 32 := 16#32
  let v29 : BitVec 32 := Scalar.remsi v28 c16_i32_24
  let c1_i32_26 : BitVec 32 := 1#32
  let v30 : BitVec 32 := Scalar.muli v29 c1_i32_26
  let v31 : BitVec 32 := Scalar.addi c0_i32_27 v30
  v31.toNat
def k0_dev8 (d0 : Dev nD) : Nat :=
  let c0_i32_31 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32 : BitVec 32 := 8#32
  let v32 : BitVec 32 := Scalar.addi v2 c8_i32
  let c16_i32_28 : BitVec 32 := 16#32
  let v33 : BitVec 32 := Scalar.remsi v32 c16_i32_28
  let c1_i32_30 : BitVec 32 := 1#32
  let v34 : BitVec 32 := Scalar.muli v33 c1_i32_30
  let v35 : BitVec 32 := Scalar.addi c0_i32_31 v34
  v35.toNat
def k0_dev9 (d0 : Dev nD) : Nat :=
  let c0_i32_35 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32 : BitVec 32 := 9#32
  let v36 : BitVec 32 := Scalar.addi v2 c9_i32
  let c16_i32_32 : BitVec 32 := 16#32
  let v37 : BitVec 32 := Scalar.remsi v36 c16_i32_32
  let c1_i32_34 : BitVec 32 := 1#32
  let v38 : BitVec 32 := Scalar.muli v37 c1_i32_34
  let v39 : BitVec 32 := Scalar.addi c0_i32_35 v38
  v39.toNat
def k0_dev10 (d0 : Dev nD) : Nat :=
  let c0_i32_39 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32 : BitVec 32 := 10#32
  let v40 : BitVec 32 := Scalar.addi v2 c10_i32
  let c16_i32_36 : BitVec 32 := 16#32
  let v41 : BitVec 32 := Scalar.remsi v40 c16_i32_36
  let c1_i32_38 : BitVec 32 := 1#32
  let v42 : BitVec 32 := Scalar.muli v41 c1_i32_38
  let v43 : BitVec 32 := Scalar.addi c0_i32_39 v42
  v43.toNat
def k0_dev11 (d0 : Dev nD) : Nat :=
  let c0_i32_43 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32 : BitVec 32 := 11#32
  let v44 : BitVec 32 := Scalar.addi v2 c11_i32
  let c16_i32_40 : BitVec 32 := 16#32
  let v45 : BitVec 32 := Scalar.remsi v44 c16_i32_40
  let c1_i32_42 : BitVec 32 := 1#32
  let v46 : BitVec 32 := Scalar.muli v45 c1_i32_42
  let v47 : BitVec 32 := Scalar.addi c0_i32_43 v46
  v47.toNat
def k0_dev12 (d0 : Dev nD) : Nat :=
  let c0_i32_47 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32 : BitVec 32 := 12#32
  let v48 : BitVec 32 := Scalar.addi v2 c12_i32
  let c16_i32_44 : BitVec 32 := 16#32
  let v49 : BitVec 32 := Scalar.remsi v48 c16_i32_44
  let c1_i32_46 : BitVec 32 := 1#32
  let v50 : BitVec 32 := Scalar.muli v49 c1_i32_46
  let v51 : BitVec 32 := Scalar.addi c0_i32_47 v50
  v51.toNat
def k0_dev13 (d0 : Dev nD) : Nat :=
  let c0_i32_51 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32 : BitVec 32 := 13#32
  let v52 : BitVec 32 := Scalar.addi v2 c13_i32
  let c16_i32_48 : BitVec 32 := 16#32
  let v53 : BitVec 32 := Scalar.remsi v52 c16_i32_48
  let c1_i32_50 : BitVec 32 := 1#32
  let v54 : BitVec 32 := Scalar.muli v53 c1_i32_50
  let v55 : BitVec 32 := Scalar.addi c0_i32_51 v54
  v55.toNat
def k0_dev14 (d0 : Dev nD) : Nat :=
  let c0_i32_55 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32 : BitVec 32 := 14#32
  let v56 : BitVec 32 := Scalar.addi v2 c14_i32
  let c16_i32_52 : BitVec 32 := 16#32
  let v57 : BitVec 32 := Scalar.remsi v56 c16_i32_52
  let c1_i32_54 : BitVec 32 := 1#32
  let v58 : BitVec 32 := Scalar.muli v57 c1_i32_54
  let v59 : BitVec 32 := Scalar.addi c0_i32_55 v58
  v59.toNat
def k0_dev15 (d0 : Dev nD) : Nat :=
  let c0_i32_59 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32 : BitVec 32 := 15#32
  let v60 : BitVec 32 := Scalar.addi v2 c15_i32
  let c16_i32_56 : BitVec 32 := 16#32
  let v61 : BitVec 32 := Scalar.remsi v60 c16_i32_56
  let c1_i32_58 : BitVec 32 := 1#32
  let v62 : BitVec 32 := Scalar.muli v61 c1_i32_58
  let v63 : BitVec 32 := Scalar.addi c0_i32_59 v62
  v63.toNat
def k0_off1 (d0 : Dev nD) (c1_i32_70 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v82 : BitVec 32 := Scalar.addi v2 c1_i32_70
  let c16_i32_71 : BitVec 32 := 16#32
  let v83 : BitVec 32 := Scalar.remsi v82 c16_i32_71
  let c16_i32_72 : BitVec 32 := 16#32
  let v84 : BitVec 32 := Scalar.muli v83 c16_i32_72
  let c0_i32_80 : BitVec 32 := 0#32
  ![v84.toNat, 0]
def k0_dev16 (d0 : Dev nD) : Nat :=
  let c0_i32_77 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_70 : BitVec 32 := 1#32
  let v82 : BitVec 32 := Scalar.addi v2 c1_i32_70
  let c16_i32_71 : BitVec 32 := 16#32
  let v83 : BitVec 32 := Scalar.remsi v82 c16_i32_71
  let c1_i32_76 : BitVec 32 := 1#32
  let v85 : BitVec 32 := Scalar.muli v83 c1_i32_76
  let v86 : BitVec 32 := Scalar.addi c0_i32_77 v85
  v86.toNat
def k0_dev17 (d0 : Dev nD) : Nat :=
  let c0_i32_88 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_81 : BitVec 32 := 2#32
  let v94 : BitVec 32 := Scalar.addi v2 c2_i32_81
  let c16_i32_82 : BitVec 32 := 16#32
  let v95 : BitVec 32 := Scalar.remsi v94 c16_i32_82
  let c1_i32_87 : BitVec 32 := 1#32
  let v97 : BitVec 32 := Scalar.muli v95 c1_i32_87
  let v98 : BitVec 32 := Scalar.addi c0_i32_88 v97
  v98.toNat
def k0_dev18 (d0 : Dev nD) : Nat :=
  let c0_i32_99 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_92 : BitVec 32 := 3#32
  let v106 : BitVec 32 := Scalar.addi v2 c3_i32_92
  let c16_i32_93 : BitVec 32 := 16#32
  let v107 : BitVec 32 := Scalar.remsi v106 c16_i32_93
  let c1_i32_98 : BitVec 32 := 1#32
  let v109 : BitVec 32 := Scalar.muli v107 c1_i32_98
  let v110 : BitVec 32 := Scalar.addi c0_i32_99 v109
  v110.toNat
def k0_dev19 (d0 : Dev nD) : Nat :=
  let c0_i32_110 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_103 : BitVec 32 := 4#32
  let v118 : BitVec 32 := Scalar.addi v2 c4_i32_103
  let c16_i32_104 : BitVec 32 := 16#32
  let v119 : BitVec 32 := Scalar.remsi v118 c16_i32_104
  let c1_i32_109 : BitVec 32 := 1#32
  let v121 : BitVec 32 := Scalar.muli v119 c1_i32_109
  let v122 : BitVec 32 := Scalar.addi c0_i32_110 v121
  v122.toNat
def k0_dev20 (d0 : Dev nD) : Nat :=
  let c0_i32_121 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_114 : BitVec 32 := 5#32
  let v130 : BitVec 32 := Scalar.addi v2 c5_i32_114
  let c16_i32_115 : BitVec 32 := 16#32
  let v131 : BitVec 32 := Scalar.remsi v130 c16_i32_115
  let c1_i32_120 : BitVec 32 := 1#32
  let v133 : BitVec 32 := Scalar.muli v131 c1_i32_120
  let v134 : BitVec 32 := Scalar.addi c0_i32_121 v133
  v134.toNat
def k0_dev21 (d0 : Dev nD) : Nat :=
  let c0_i32_132 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_125 : BitVec 32 := 6#32
  let v142 : BitVec 32 := Scalar.addi v2 c6_i32_125
  let c16_i32_126 : BitVec 32 := 16#32
  let v143 : BitVec 32 := Scalar.remsi v142 c16_i32_126
  let c1_i32_131 : BitVec 32 := 1#32
  let v145 : BitVec 32 := Scalar.muli v143 c1_i32_131
  let v146 : BitVec 32 := Scalar.addi c0_i32_132 v145
  v146.toNat
def k0_dev22 (d0 : Dev nD) : Nat :=
  let c0_i32_143 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_136 : BitVec 32 := 7#32
  let v154 : BitVec 32 := Scalar.addi v2 c7_i32_136
  let c16_i32_137 : BitVec 32 := 16#32
  let v155 : BitVec 32 := Scalar.remsi v154 c16_i32_137
  let c1_i32_142 : BitVec 32 := 1#32
  let v157 : BitVec 32 := Scalar.muli v155 c1_i32_142
  let v158 : BitVec 32 := Scalar.addi c0_i32_143 v157
  v158.toNat
def k0_dev23 (d0 : Dev nD) : Nat :=
  let c0_i32_154 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_147 : BitVec 32 := 8#32
  let v166 : BitVec 32 := Scalar.addi v2 c8_i32_147
  let c16_i32_148 : BitVec 32 := 16#32
  let v167 : BitVec 32 := Scalar.remsi v166 c16_i32_148
  let c1_i32_153 : BitVec 32 := 1#32
  let v169 : BitVec 32 := Scalar.muli v167 c1_i32_153
  let v170 : BitVec 32 := Scalar.addi c0_i32_154 v169
  v170.toNat
def k0_dev24 (d0 : Dev nD) : Nat :=
  let c0_i32_165 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_158 : BitVec 32 := 9#32
  let v178 : BitVec 32 := Scalar.addi v2 c9_i32_158
  let c16_i32_159 : BitVec 32 := 16#32
  let v179 : BitVec 32 := Scalar.remsi v178 c16_i32_159
  let c1_i32_164 : BitVec 32 := 1#32
  let v181 : BitVec 32 := Scalar.muli v179 c1_i32_164
  let v182 : BitVec 32 := Scalar.addi c0_i32_165 v181
  v182.toNat
def k0_dev25 (d0 : Dev nD) : Nat :=
  let c0_i32_176 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_169 : BitVec 32 := 10#32
  let v190 : BitVec 32 := Scalar.addi v2 c10_i32_169
  let c16_i32_170 : BitVec 32 := 16#32
  let v191 : BitVec 32 := Scalar.remsi v190 c16_i32_170
  let c1_i32_175 : BitVec 32 := 1#32
  let v193 : BitVec 32 := Scalar.muli v191 c1_i32_175
  let v194 : BitVec 32 := Scalar.addi c0_i32_176 v193
  v194.toNat
def k0_dev26 (d0 : Dev nD) : Nat :=
  let c0_i32_187 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_180 : BitVec 32 := 11#32
  let v202 : BitVec 32 := Scalar.addi v2 c11_i32_180
  let c16_i32_181 : BitVec 32 := 16#32
  let v203 : BitVec 32 := Scalar.remsi v202 c16_i32_181
  let c1_i32_186 : BitVec 32 := 1#32
  let v205 : BitVec 32 := Scalar.muli v203 c1_i32_186
  let v206 : BitVec 32 := Scalar.addi c0_i32_187 v205
  v206.toNat
def k0_dev27 (d0 : Dev nD) : Nat :=
  let c0_i32_198 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_191 : BitVec 32 := 12#32
  let v214 : BitVec 32 := Scalar.addi v2 c12_i32_191
  let c16_i32_192 : BitVec 32 := 16#32
  let v215 : BitVec 32 := Scalar.remsi v214 c16_i32_192
  let c1_i32_197 : BitVec 32 := 1#32
  let v217 : BitVec 32 := Scalar.muli v215 c1_i32_197
  let v218 : BitVec 32 := Scalar.addi c0_i32_198 v217
  v218.toNat
def k0_dev28 (d0 : Dev nD) : Nat :=
  let c0_i32_209 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_202 : BitVec 32 := 13#32
  let v226 : BitVec 32 := Scalar.addi v2 c13_i32_202
  let c16_i32_203 : BitVec 32 := 16#32
  let v227 : BitVec 32 := Scalar.remsi v226 c16_i32_203
  let c1_i32_208 : BitVec 32 := 1#32
  let v229 : BitVec 32 := Scalar.muli v227 c1_i32_208
  let v230 : BitVec 32 := Scalar.addi c0_i32_209 v229
  v230.toNat
def k0_dev29 (d0 : Dev nD) : Nat :=
  let c0_i32_220 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_213 : BitVec 32 := 14#32
  let v238 : BitVec 32 := Scalar.addi v2 c14_i32_213
  let c16_i32_214 : BitVec 32 := 16#32
  let v239 : BitVec 32 := Scalar.remsi v238 c16_i32_214
  let c1_i32_219 : BitVec 32 := 1#32
  let v241 : BitVec 32 := Scalar.muli v239 c1_i32_219
  let v242 : BitVec 32 := Scalar.addi c0_i32_220 v241
  v242.toNat
def k0_dev30 (d0 : Dev nD) : Nat :=
  let c0_i32_231 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_224 : BitVec 32 := 15#32
  let v250 : BitVec 32 := Scalar.addi v2 c15_i32_224
  let c16_i32_225 : BitVec 32 := 16#32
  let v251 : BitVec 32 := Scalar.remsi v250 c16_i32_225
  let c1_i32_230 : BitVec 32 := 1#32
  let v253 : BitVec 32 := Scalar.muli v251 c1_i32_230
  let v254 : BitVec 32 := Scalar.addi c0_i32_231 v253
  v254.toNat
def k0_off2 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_370 : BitVec 32 := 16#32
  let v367 : BitVec 32 := Scalar.muli v2 c16_i32_370
  let v368 : Index := Scalar.indexCast v367
  let c0_371 : Index := 0#32
  ![v368.toNat, 0]
def k0_off3 (d0 : Dev nD) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_382 : BitVec 32 := 16#32
  let v383 : BitVec 32 := Scalar.muli v2 c16_i32_382
  let c0_i32_387 : BitVec 32 := 0#32
  ![v383.toNat, 0]
def k0_dev31 (d0 : Dev nD) : Nat :=
  let c0_i32_386 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_380 : BitVec 32 := 1#32
  let v381 : BitVec 32 := Scalar.addi v2 c1_i32_380
  let c16_i32_381 : BitVec 32 := 16#32
  let v382 : BitVec 32 := Scalar.remsi v381 c16_i32_381
  let c1_i32_385 : BitVec 32 := 1#32
  let v384 : BitVec 32 := Scalar.muli v382 c1_i32_385
  let v385 : BitVec 32 := Scalar.addi c0_i32_386 v384
  v385.toNat
def k0_dev32 (d0 : Dev nD) : Nat :=
  let c0_i32_394 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_388 : BitVec 32 := 2#32
  let v391 : BitVec 32 := Scalar.addi v2 c2_i32_388
  let c16_i32_389 : BitVec 32 := 16#32
  let v392 : BitVec 32 := Scalar.remsi v391 c16_i32_389
  let c1_i32_393 : BitVec 32 := 1#32
  let v394 : BitVec 32 := Scalar.muli v392 c1_i32_393
  let v395 : BitVec 32 := Scalar.addi c0_i32_394 v394
  v395.toNat
def k0_dev33 (d0 : Dev nD) : Nat :=
  let c0_i32_402 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_396 : BitVec 32 := 3#32
  let v401 : BitVec 32 := Scalar.addi v2 c3_i32_396
  let c16_i32_397 : BitVec 32 := 16#32
  let v402 : BitVec 32 := Scalar.remsi v401 c16_i32_397
  let c1_i32_401 : BitVec 32 := 1#32
  let v404 : BitVec 32 := Scalar.muli v402 c1_i32_401
  let v405 : BitVec 32 := Scalar.addi c0_i32_402 v404
  v405.toNat
def k0_dev34 (d0 : Dev nD) : Nat :=
  let c0_i32_410 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_404 : BitVec 32 := 4#32
  let v411 : BitVec 32 := Scalar.addi v2 c4_i32_404
  let c16_i32_405 : BitVec 32 := 16#32
  let v412 : BitVec 32 := Scalar.remsi v411 c16_i32_405
  let c1_i32_409 : BitVec 32 := 1#32
  let v414 : BitVec 32 := Scalar.muli v412 c1_i32_409
  let v415 : BitVec 32 := Scalar.addi c0_i32_410 v414
  v415.toNat
def k0_dev35 (d0 : Dev nD) : Nat :=
  let c0_i32_418 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_412 : BitVec 32 := 5#32
  let v421 : BitVec 32 := Scalar.addi v2 c5_i32_412
  let c16_i32_413 : BitVec 32 := 16#32
  let v422 : BitVec 32 := Scalar.remsi v421 c16_i32_413
  let c1_i32_417 : BitVec 32 := 1#32
  let v424 : BitVec 32 := Scalar.muli v422 c1_i32_417
  let v425 : BitVec 32 := Scalar.addi c0_i32_418 v424
  v425.toNat
def k0_dev36 (d0 : Dev nD) : Nat :=
  let c0_i32_426 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_420 : BitVec 32 := 6#32
  let v431 : BitVec 32 := Scalar.addi v2 c6_i32_420
  let c16_i32_421 : BitVec 32 := 16#32
  let v432 : BitVec 32 := Scalar.remsi v431 c16_i32_421
  let c1_i32_425 : BitVec 32 := 1#32
  let v434 : BitVec 32 := Scalar.muli v432 c1_i32_425
  let v435 : BitVec 32 := Scalar.addi c0_i32_426 v434
  v435.toNat
def k0_dev37 (d0 : Dev nD) : Nat :=
  let c0_i32_434 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_428 : BitVec 32 := 7#32
  let v441 : BitVec 32 := Scalar.addi v2 c7_i32_428
  let c16_i32_429 : BitVec 32 := 16#32
  let v442 : BitVec 32 := Scalar.remsi v441 c16_i32_429
  let c1_i32_433 : BitVec 32 := 1#32
  let v444 : BitVec 32 := Scalar.muli v442 c1_i32_433
  let v445 : BitVec 32 := Scalar.addi c0_i32_434 v444
  v445.toNat
def k0_dev38 (d0 : Dev nD) : Nat :=
  let c0_i32_442 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_436 : BitVec 32 := 8#32
  let v451 : BitVec 32 := Scalar.addi v2 c8_i32_436
  let c16_i32_437 : BitVec 32 := 16#32
  let v452 : BitVec 32 := Scalar.remsi v451 c16_i32_437
  let c1_i32_441 : BitVec 32 := 1#32
  let v454 : BitVec 32 := Scalar.muli v452 c1_i32_441
  let v455 : BitVec 32 := Scalar.addi c0_i32_442 v454
  v455.toNat
def k0_dev39 (d0 : Dev nD) : Nat :=
  let c0_i32_450 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_444 : BitVec 32 := 9#32
  let v461 : BitVec 32 := Scalar.addi v2 c9_i32_444
  let c16_i32_445 : BitVec 32 := 16#32
  let v462 : BitVec 32 := Scalar.remsi v461 c16_i32_445
  let c1_i32_449 : BitVec 32 := 1#32
  let v464 : BitVec 32 := Scalar.muli v462 c1_i32_449
  let v465 : BitVec 32 := Scalar.addi c0_i32_450 v464
  v465.toNat
def k0_dev40 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_452 : BitVec 32 := 10#32
  let v471 : BitVec 32 := Scalar.addi v2 c10_i32_452
  let c16_i32_453 : BitVec 32 := 16#32
  let v472 : BitVec 32 := Scalar.remsi v471 c16_i32_453
  let c1_i32_457 : BitVec 32 := 1#32
  let v474 : BitVec 32 := Scalar.muli v472 c1_i32_457
  let v475 : BitVec 32 := Scalar.addi c0_i32_458 v474
  v475.toNat
def k0_dev41 (d0 : Dev nD) : Nat :=
  let c0_i32_466 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_460 : BitVec 32 := 11#32
  let v481 : BitVec 32 := Scalar.addi v2 c11_i32_460
  let c16_i32_461 : BitVec 32 := 16#32
  let v482 : BitVec 32 := Scalar.remsi v481 c16_i32_461
  let c1_i32_465 : BitVec 32 := 1#32
  let v484 : BitVec 32 := Scalar.muli v482 c1_i32_465
  let v485 : BitVec 32 := Scalar.addi c0_i32_466 v484
  v485.toNat
def k0_dev42 (d0 : Dev nD) : Nat :=
  let c0_i32_474 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_468 : BitVec 32 := 12#32
  let v491 : BitVec 32 := Scalar.addi v2 c12_i32_468
  let c16_i32_469 : BitVec 32 := 16#32
  let v492 : BitVec 32 := Scalar.remsi v491 c16_i32_469
  let c1_i32_473 : BitVec 32 := 1#32
  let v494 : BitVec 32 := Scalar.muli v492 c1_i32_473
  let v495 : BitVec 32 := Scalar.addi c0_i32_474 v494
  v495.toNat
def k0_dev43 (d0 : Dev nD) : Nat :=
  let c0_i32_482 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_476 : BitVec 32 := 13#32
  let v501 : BitVec 32 := Scalar.addi v2 c13_i32_476
  let c16_i32_477 : BitVec 32 := 16#32
  let v502 : BitVec 32 := Scalar.remsi v501 c16_i32_477
  let c1_i32_481 : BitVec 32 := 1#32
  let v504 : BitVec 32 := Scalar.muli v502 c1_i32_481
  let v505 : BitVec 32 := Scalar.addi c0_i32_482 v504
  v505.toNat
def k0_dev44 (d0 : Dev nD) : Nat :=
  let c0_i32_490 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_484 : BitVec 32 := 14#32
  let v511 : BitVec 32 := Scalar.addi v2 c14_i32_484
  let c16_i32_485 : BitVec 32 := 16#32
  let v512 : BitVec 32 := Scalar.remsi v511 c16_i32_485
  let c1_i32_489 : BitVec 32 := 1#32
  let v514 : BitVec 32 := Scalar.muli v512 c1_i32_489
  let v515 : BitVec 32 := Scalar.addi c0_i32_490 v514
  v515.toNat
def k0_dev45 (d0 : Dev nD) : Nat :=
  let c0_i32_498 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_492 : BitVec 32 := 15#32
  let v521 : BitVec 32 := Scalar.addi v2 c15_i32_492
  let c16_i32_493 : BitVec 32 := 16#32
  let v522 : BitVec 32 := Scalar.remsi v521 c16_i32_493
  let c1_i32_497 : BitVec 32 := 1#32
  let v524 : BitVec 32 := Scalar.muli v522 c1_i32_497
  let v525 : BitVec 32 := Scalar.addi c0_i32_498 v524
  v525.toNat
abbrev stage0_0 : Fin 1 → Memref sig .tc .vmem S256x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bitsLt_bf16_f32 : FTy.bits .bf16 < FTy.bits .f32
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S512x256_S512x256_0_0 : ∀ a, (![0, 0] : Fin 2 → Nat) a + S512x256.size a ≤ S512x256.size a
  h_S512x256 : 0 < S512x256.numel
  shapeCasts_S512x256_S512x256 : S512x256.ShapeCasts S512x256
  packedbf16_S256x256_S256x256_0_0 : (Rect.unit (s := S256x256) ![0, 0] S256x256.size inb_S256x256_S256x256_0_0).PackedRows (EltTy.packing .bf16)
  hamt_15 : (15#32 : BitVec 32).msb = false
  inb_S15_S1_0 : ∀ a, (![0] : Fin 1 → Nat) a + S1.size a ≤ S15.size a
  squeezes_S1_S_ : S1.Squeezes S_
  inb_S15x16x256_S1x16x256_0_0_0 : ∀ a, (![0, 0, 0] : Fin 3 → Nat) a + S1x16x256.size a ≤ S15x16x256.size a
  squeezes_S1x16x256_S16x256 : S1x16x256.Squeezes S16x256
  wordsbf16_S15x16x256_S1x16x256_0_0_0 : (Rect.unit (s := S15x16x256) ![0, 0, 0] S1x16x256.size inb_S15x16x256_S1x16x256_0_0_0).WholeWords (EltTy.packing .bf16)
  inb_S15_S1_1 : ∀ a, (![1] : Fin 1 → Nat) a + S1.size a ≤ S15.size a
  inb_S15x16x256_S1x16x256_1_0_0 : ∀ a, (![1, 0, 0] : Fin 3 → Nat) a + S1x16x256.size a ≤ S15x16x256.size a
  wordsbf16_S15x16x256_S1x16x256_1_0_0 : (Rect.unit (s := S15x16x256) ![1, 0, 0] S1x16x256.size inb_S15x16x256_S1x16x256_1_0_0).WholeWords (EltTy.packing .bf16)
  inb_S15_S1_2 : ∀ a, (![2] : Fin 1 → Nat) a + S1.size a ≤ S15.size a
  inb_S15x16x256_S1x16x256_2_0_0 : ∀ a, (![2, 0, 0] : Fin 3 → Nat) a + S1x16x256.size a ≤ S15x16x256.size a
  wordsbf16_S15x16x256_S1x16x256_2_0_0 : (Rect.unit (s := S15x16x256) ![2, 0, 0] S1x16x256.size inb_S15x16x256_S1x16x256_2_0_0).WholeWords (EltTy.packing .bf16)
  inb_S15_S1_3 : ∀ a, (![3] : Fin 1 → Nat) a + S1.size a ≤ S15.size a
  inb_S15x16x256_S1x16x256_3_0_0 : ∀ a, (![3, 0, 0] : Fin 3 → Nat) a + S1x16x256.size a ≤ S15x16x256.size a
  wordsbf16_S15x16x256_S1x16x256_3_0_0 : (Rect.unit (s := S15x16x256) ![3, 0, 0] S1x16x256.size inb_S15x16x256_S1x16x256_3_0_0).WholeWords (EltTy.packing .bf16)
  inb_S15_S1_4 : ∀ a, (![4] : Fin 1 → Nat) a + S1.size a ≤ S15.size a
  inb_S15x16x256_S1x16x256_4_0_0 : ∀ a, (![4, 0, 0] : Fin 3 → Nat) a + S1x16x256.size a ≤ S15x16x256.size a
  wordsbf16_S15x16x256_S1x16x256_4_0_0 : (Rect.unit (s := S15x16x256) ![4, 0, 0] S1x16x256.size inb_S15x16x256_S1x16x256_4_0_0).WholeWords (EltTy.packing .bf16)
  inb_S15_S1_5 : ∀ a, (![5] : Fin 1 → Nat) a + S1.size a ≤ S15.size a
  inb_S15x16x256_S1x16x256_5_0_0 : ∀ a, (![5, 0, 0] : Fin 3 → Nat) a + S1x16x256.size a ≤ S15x16x256.size a
  wordsbf16_S15x16x256_S1x16x256_5_0_0 : (Rect.unit (s := S15x16x256) ![5, 0, 0] S1x16x256.size inb_S15x16x256_S1x16x256_5_0_0).WholeWords (EltTy.packing .bf16)
  inb_S15_S1_6 : ∀ a, (![6] : Fin 1 → Nat) a + S1.size a ≤ S15.size a
  inb_S15x16x256_S1x16x256_6_0_0 : ∀ a, (![6, 0, 0] : Fin 3 → Nat) a + S1x16x256.size a ≤ S15x16x256.size a
  wordsbf16_S15x16x256_S1x16x256_6_0_0 : (Rect.unit (s := S15x16x256) ![6, 0, 0] S1x16x256.size inb_S15x16x256_S1x16x256_6_0_0).WholeWords (EltTy.packing .bf16)
  inb_S15_S1_7 : ∀ a, (![7] : Fin 1 → Nat) a + S1.size a ≤ S15.size a
  inb_S15x16x256_S1x16x256_7_0_0 : ∀ a, (![7, 0, 0] : Fin 3 → Nat) a + S1x16x256.size a ≤ S15x16x256.size a
  wordsbf16_S15x16x256_S1x16x256_7_0_0 : (Rect.unit (s := S15x16x256) ![7, 0, 0] S1x16x256.size inb_S15x16x256_S1x16x256_7_0_0).WholeWords (EltTy.packing .bf16)
  inb_S15_S1_8 : ∀ a, (![8] : Fin 1 → Nat) a + S1.size a ≤ S15.size a
  inb_S15x16x256_S1x16x256_8_0_0 : ∀ a, (![8, 0, 0] : Fin 3 → Nat) a + S1x16x256.size a ≤ S15x16x256.size a
  wordsbf16_S15x16x256_S1x16x256_8_0_0 : (Rect.unit (s := S15x16x256) ![8, 0, 0] S1x16x256.size inb_S15x16x256_S1x16x256_8_0_0).WholeWords (EltTy.packing .bf16)
  inb_S15_S1_9 : ∀ a, (![9] : Fin 1 → Nat) a + S1.size a ≤ S15.size a
  inb_S15x16x256_S1x16x256_9_0_0 : ∀ a, (![9, 0, 0] : Fin 3 → Nat) a + S1x16x256.size a ≤ S15x16x256.size a
  wordsbf16_S15x16x256_S1x16x256_9_0_0 : (Rect.unit (s := S15x16x256) ![9, 0, 0] S1x16x256.size inb_S15x16x256_S1x16x256_9_0_0).WholeWords (EltTy.packing .bf16)
  inb_S15_S1_10 : ∀ a, (![10] : Fin 1 → Nat) a + S1.size a ≤ S15.size a
  inb_S15x16x256_S1x16x256_10_0_0 : ∀ a, (![10, 0, 0] : Fin 3 → Nat) a + S1x16x256.size a ≤ S15x16x256.size a
  wordsbf16_S15x16x256_S1x16x256_10_0_0 : (Rect.unit (s := S15x16x256) ![10, 0, 0] S1x16x256.size inb_S15x16x256_S1x16x256_10_0_0).WholeWords (EltTy.packing .bf16)
  inb_S15_S1_11 : ∀ a, (![11] : Fin 1 → Nat) a + S1.size a ≤ S15.size a
  inb_S15x16x256_S1x16x256_11_0_0 : ∀ a, (![11, 0, 0] : Fin 3 → Nat) a + S1x16x256.size a ≤ S15x16x256.size a
  wordsbf16_S15x16x256_S1x16x256_11_0_0 : (Rect.unit (s := S15x16x256) ![11, 0, 0] S1x16x256.size inb_S15x16x256_S1x16x256_11_0_0).WholeWords (EltTy.packing .bf16)
  inb_S15_S1_12 : ∀ a, (![12] : Fin 1 → Nat) a + S1.size a ≤ S15.size a
  inb_S15x16x256_S1x16x256_12_0_0 : ∀ a, (![12, 0, 0] : Fin 3 → Nat) a + S1x16x256.size a ≤ S15x16x256.size a
  wordsbf16_S15x16x256_S1x16x256_12_0_0 : (Rect.unit (s := S15x16x256) ![12, 0, 0] S1x16x256.size inb_S15x16x256_S1x16x256_12_0_0).WholeWords (EltTy.packing .bf16)
  inb_S15_S1_13 : ∀ a, (![13] : Fin 1 → Nat) a + S1.size a ≤ S15.size a
  inb_S15x16x256_S1x16x256_13_0_0 : ∀ a, (![13, 0, 0] : Fin 3 → Nat) a + S1x16x256.size a ≤ S15x16x256.size a
  wordsbf16_S15x16x256_S1x16x256_13_0_0 : (Rect.unit (s := S15x16x256) ![13, 0, 0] S1x16x256.size inb_S15x16x256_S1x16x256_13_0_0).WholeWords (EltTy.packing .bf16)
  inb_S15_S1_14 : ∀ a, (![14] : Fin 1 → Nat) a + S1.size a ≤ S15.size a
  inb_S15x16x256_S1x16x256_14_0_0 : ∀ a, (![14, 0, 0] : Fin 3 → Nat) a + S1x16x256.size a ≤ S15x16x256.size a
  wordsbf16_S15x16x256_S1x16x256_14_0_0 : (Rect.unit (s := S15x16x256) ![14, 0, 0] S1x16x256.size inb_S15x16x256_S1x16x256_14_0_0).WholeWords (EltTy.packing .bf16)
  inb_S256x256_S16x256_0_0 : ∀ a, (![0, 0] : Fin 2 → Nat) a + S16x256.size a ≤ S256x256.size a
  wordsbf16_S256x256_S16x256_0_0 : (Rect.unit (s := S256x256) ![0, 0] S16x256.size inb_S256x256_S16x256_0_0).WholeWords (EltTy.packing .bf16)
  h_S16x256 : 0 < S16x256.numel
  inb_S15x16x256_S15x16x256_0_0_0 : ∀ a, (![0, 0, 0] : Fin 3 → Nat) a + S15x16x256.size a ≤ S15x16x256.size a
  h_S15x16x256 : 0 < S15x16x256.numel
  reduces_S15x16x256_S16x256 : S15x16x256.Reduces [0] S16x256
  inb_S16x256_S16x256_0_0 : ∀ a, (![0, 0] : Fin 2 → Nat) a + S16x256.size a ≤ S16x256.size a
  shapeCasts_S16x256_S16x256 : S16x256.ShapeCasts S16x256
  dot_S256x256_S256x512_S256x512_1_0_0_1_n_n_wf : DotDims.WF S256x256 S256x512 S256x512 [1] [0] [0] [1] [] []
  dot_S256x512_S512x256_S256x256_1_0_0_1_n_n_wf : DotDims.WF S256x512 S512x256 S256x256 [1] [0] [0] [1] [] []
  hcc0_scratch3 : 4 + S15.numel ≤ 64
  hcc0_scratch4 : 19 + S15.numel ≤ 64
  hcc0_scratch5 : 34 + S15.numel ≤ 64
  hcc0_scratch6 : 49 + S15.numel ≤ 64
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_dev10_lt : ∀ d0 : Dev nD, (k0_dev10 d0) < nD
  k0_dev11_lt : ∀ d0 : Dev nD, (k0_dev11 d0) < nD
  k0_dev12_lt : ∀ d0 : Dev nD, (k0_dev12 d0) < nD
  k0_dev13_lt : ∀ d0 : Dev nD, (k0_dev13 d0) < nD
  k0_dev14_lt : ∀ d0 : Dev nD, (k0_dev14 d0) < nD
  k0_dev15_lt : ∀ d0 : Dev nD, (k0_dev15 d0) < nD
  k0_off1_inb : ∀ d0 : Dev nD, ∀ (r : Fin 15), ∀ a, (k0_off1 d0 (BitVec.ofNat 32 (1 + r.val))) a + S16x256.size a ≤ S256x256.size a
  k0_off1_wordsbf16 : ∀ d0 : Dev nD, ∀ (r : Fin 15), (Rect.unit (s := S256x256) (k0_off1 d0 (BitVec.ofNat 32 (1 + r.val))) S16x256.size (k0_off1_inb d0 r)).WholeWords (EltTy.packing .bf16)
  k0_dev16_lt : ∀ d0 : Dev nD, (k0_dev16 d0) < nD
  k0_dev17_lt : ∀ d0 : Dev nD, (k0_dev17 d0) < nD
  k0_dev18_lt : ∀ d0 : Dev nD, (k0_dev18 d0) < nD
  k0_dev19_lt : ∀ d0 : Dev nD, (k0_dev19 d0) < nD
  k0_dev20_lt : ∀ d0 : Dev nD, (k0_dev20 d0) < nD
  k0_dev21_lt : ∀ d0 : Dev nD, (k0_dev21 d0) < nD
  k0_dev22_lt : ∀ d0 : Dev nD, (k0_dev22 d0) < nD
  k0_dev23_lt : ∀ d0 : Dev nD, (k0_dev23 d0) < nD
  k0_dev24_lt : ∀ d0 : Dev nD, (k0_dev24 d0) < nD
  k0_dev25_lt : ∀ d0 : Dev nD, (k0_dev25 d0) < nD
  k0_dev26_lt : ∀ d0 : Dev nD, (k0_dev26 d0) < nD
  k0_dev27_lt : ∀ d0 : Dev nD, (k0_dev27 d0) < nD
  k0_dev28_lt : ∀ d0 : Dev nD, (k0_dev28 d0) < nD
  k0_dev29_lt : ∀ d0 : Dev nD, (k0_dev29 d0) < nD
  k0_dev30_lt : ∀ d0 : Dev nD, (k0_dev30 d0) < nD
  k0_off2_inb : ∀ d0 : Dev nD, ∀ a, (k0_off2 d0) a + S16x256.size a ≤ S256x256.size a
  k0_off3_inb : ∀ d0 : Dev nD, ∀ a, (k0_off3 d0) a + S16x256.size a ≤ S256x256.size a
  k0_dev31_lt : ∀ d0 : Dev nD, (k0_dev31 d0) < nD
  k0_dev32_lt : ∀ d0 : Dev nD, (k0_dev32 d0) < nD
  k0_dev33_lt : ∀ d0 : Dev nD, (k0_dev33 d0) < nD
  k0_dev34_lt : ∀ d0 : Dev nD, (k0_dev34 d0) < nD
  k0_dev35_lt : ∀ d0 : Dev nD, (k0_dev35 d0) < nD
  k0_dev36_lt : ∀ d0 : Dev nD, (k0_dev36 d0) < nD
  k0_dev37_lt : ∀ d0 : Dev nD, (k0_dev37 d0) < nD
  k0_dev38_lt : ∀ d0 : Dev nD, (k0_dev38 d0) < nD
  k0_dev39_lt : ∀ d0 : Dev nD, (k0_dev39 d0) < nD
  k0_dev40_lt : ∀ d0 : Dev nD, (k0_dev40 d0) < nD
  k0_dev41_lt : ∀ d0 : Dev nD, (k0_dev41 d0) < nD
  k0_dev42_lt : ∀ d0 : Dev nD, (k0_dev42 d0) < nD
  k0_dev43_lt : ∀ d0 : Dev nD, (k0_dev43 d0) < nD
  k0_dev44_lt : ∀ d0 : Dev nD, (k0_dev44 d0) < nD
  k0_dev45_lt : ∀ d0 : Dev nD, (k0_dev45 d0) < nD
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch3 : DmaSems sig S15 := SemArray.consecutive 4 S15 hcc0_scratch3
abbrev cc0_scratch4 : DmaSems sig S15 := SemArray.consecutive 19 S15 hcc0_scratch4
abbrev cc0_scratch5 : DmaSems sig S15 := SemArray.consecutive 34 S15 hcc0_scratch5
abbrev cc0_scratch6 : DmaSems sig S15 := SemArray.consecutive 49 S15 hcc0_scratch6
def dot_S256x256_S256x512_S256x512_1_0_0_1_n_n : DotDims S256x256 S256x512 S256x512 where
  lhsContracting := [1]
  rhsContracting := [0]
  lhsNonContracting := [0]
  rhsNonContracting := [1]
  lhsBatch := []
  rhsBatch := []
  wf := dot_S256x256_S256x512_S256x512_1_0_0_1_n_n_wf
def dot_S256x512_S512x256_S256x256_1_0_0_1_n_n : DotDims S256x512 S512x256 S256x256 where
  lhsContracting := [1]
  rhsContracting := [0]
  lhsNonContracting := [0]
  rhsNonContracting := [1]
  lhsBatch := []
  rhsBatch := []
  wf := dot_S256x512_S512x256_S256x256_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S256x256 : Shape := ⟨2, ![256, 256]⟩
abbrev S256x8192 : Shape := ⟨2, ![256, 8192]⟩
abbrev S8192x256 : Shape := ⟨2, ![8192, 256]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S256x256, .f32⟩
  | .hbm, ⟨1, _⟩ => ⟨S256x8192, .f32⟩
  | .hbm, ⟨2, _⟩ => ⟨S8192x256, .f32⟩
  | .hbm, ⟨3, _⟩ => ⟨S256x8192, .f32⟩
  | .hbm, ⟨4, _⟩ => ⟨S_, .f32⟩
  | .hbm, ⟨5, _⟩ => ⟨S256x8192, .f32⟩
  | .hbm, ⟨6, _⟩ => ⟨S256x8192, .f32⟩
  | .hbm, ⟨7, _⟩ => ⟨S256x256, .f32⟩
  | _, _ => ⟨S256x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]

class Facts₀ : Prop where
  bcast_S_S256x8192 : S_.BroadcastsInDim S256x8192 (![] : Fin 0 → Fin S256x8192.rank)
  dot_S256x256_S256x8192_S256x8192_1_0_0_1_n_n_wf : DotDims.WF S256x256 S256x8192 S256x8192 [1] [0] [0] [1] [] []
  dot_S256x8192_S8192x256_S256x256_1_0_0_1_n_n_wf : DotDims.WF S256x8192 S8192x256 S256x256 [1] [0] [0] [1] [] []

variable [Facts₀]

def dot_S256x256_S256x8192_S256x8192_1_0_0_1_n_n : DotDims S256x256 S256x8192 S256x8192 where
  lhsContracting := [1]
  rhsContracting := [0]
  lhsNonContracting := [0]
  rhsNonContracting := [1]
  lhsBatch := []
  rhsBatch := []
  wf := dot_S256x256_S256x8192_S256x8192_1_0_0_1_n_n_wf
def dot_S256x8192_S8192x256_S256x256_1_0_0_1_n_n : DotDims S256x8192 S8192x256 S256x256 where
  lhsContracting := [1]
  rhsContracting := [0]
  lhsNonContracting := [0]
  rhsNonContracting := [1]
  lhsBatch := []
  rhsBatch := []
  wf := dot_S256x8192_S8192x256_S256x256_1_0_0_1_n_n_wf

class Facts : Prop extends Facts₀ where

variable [Facts]
-- ==== Proof.ValueDefs.lean ====
/-
  The data a device ends with, written as functions of what every device started with.

  Each of the sixteen devices forms a partial product `P e = relu (x · W1ₑ) · W2ₑ` from its own slice of the hidden
  axis. Row block `d` (rows `16 d … 16 d + 15`) of every partial product is gathered on device `d`: its own block stays
  where it is, and the block of the device `k + 1` places before it on the ring lands in slot `k` of its receive buffer.
  Device `d` adds the sixteen blocks (`redOf`), and the sums are then gathered on every device (`outOf`).
-/
import proofs.«900458_g7700000000000459_dist_mlp2_tp_i_m256_h512_out256_v7x_i16_bf16_1_alg».proof.Proof.Gen.KernelIdeal.Skeleton
import Idealize.ShloMosaic.Lib.ValueIdx

noncomputable section

namespace Cert.MlpValue

open Idealize.ShloMosaic Idealize.ShloMosaic.ValueIdx Cert.KernelIdeal Cert.KernelIdeal.Gen

variable {F : FTy → Type} [FloatOps F]

/-- One device's partial product, as its send buffer holds it. -/
def part (x : Vec F S256x256 .f32) (w1 : Vec F S256x512 .f32) (w2 : Vec F S512x256 .f32) : Vec F S256x256 .bf16 :=
  k0_pay2 (k0_pay1 x w1 w2)

/-- Row `16 d + r` of a 256-row array. -/
def rowOf (d : Fin 16) (r : Fin 16) : Fin 256 := ⟨16 * d.val + r.val, by omega⟩

/-- Row block `d` of a 256 × 256 array. -/
def rowBlk {e : EltTy} (v : Vec F S256x256 e) (d : Fin 16) : Vec F S16x256 e :=
  fun y => v (ix2 (rowOf d (y 0)) (y 1))

/-- The device whose block lands in slot `k` of device `d`'s receive buffer: `k + 1` places before `d` on the ring. -/
def sender (d : Fin 16) (k : Fin 15) : Fin 16 := ⟨(d.val + 15 - k.val) % 16, Nat.mod_lt _ (by decide)⟩

variable (P : Fin 16 → Vec F S256x256 .bf16)

/-- Device `d`'s receive buffer once every block has landed. -/
def rsOf (d : Fin 16) : Vec F S15x16x256 .bf16 :=
  fun z => P (sender d (z 0)) (ix2 (rowOf d (z 1)) (z 2))

/-- Device `d`'s sum of the sixteen row blocks `d`. -/
def redOf (d : Fin 16) : FVec F S16x256 .f32 := k0_pay3 (rowBlk (P d) d) (rsOf P d)

/-- The gathered result: row block `d` is device `d`'s sum. -/
def outOf : Vec F S256x256 .f32 :=
  fun i => redOf P ⟨(i 0).val / 16, by have h : (i 0).val < 256 := (i 0).isLt; show (i 0).val / 16 < 16; omega⟩
    (ix2 ⟨(i 0).val % 16, Nat.mod_lt _ (by decide)⟩ (i 1))

end Cert.MlpValue

end
-- ==== Proof.Proto.lean ====
/-
  The cross-device protocol of the sixteen-device kernel, stated over the rounds discipline.

  Every device e forms its partial product, sends row block d of it to device d (fifteen addressed copies, slot k of
  the receiver written by the device k + 1 places before it), adds the sixteen blocks of its own rows, and sends that
  sum to every other device (fifteen more copies, into the rows of the result the sender owns). Before its first
  copy a device waits until every other device has signalled its entry: with that signal a device hands each peer
  the receive slot and the result rows the peer will write.
-/
import proofs.«900458_g7700000000000459_dist_mlp2_tp_i_m256_h512_out256_v7x_i16_bf16_1_alg».proof.Proof.ValueDefs
import proofs.«900458_g7700000000000459_dist_mlp2_tp_i_m256_h512_out256_v7x_i16_bf16_1_alg».proof.Proof.Gen.KernelIdeal
import proofs.«900458_g7700000000000459_dist_mlp2_tp_i_m256_h512_out256_v7x_i16_bf16_1_alg».proof.Proof.Gen.KernelIdeal.Skeleton
import proofs.«900458_g7700000000000459_dist_mlp2_tp_i_m256_h512_out256_v7x_i16_bf16_1_alg».proof.Proof.Gen.KernelIdeal.Launch
import proofs.«900458_g7700000000000459_dist_mlp2_tp_i_m256_h512_out256_v7x_i16_bf16_1_alg».proof.Proof.Gen.KernelIdeal.Points
import proofs.«900458_g7700000000000459_dist_mlp2_tp_i_m256_h512_out256_v7x_i16_bf16_1_alg».proof.Proof.Gen.KernelIdeal.Frame
import Idealize.ShloMosaic.Lib.Pipeline.Launch
import Idealize.ShloMosaic.Lib.Pipeline.Kit
import Idealize.ShloMosaic.Lib.Tactic

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds library's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

/-- The device `k + 1` places after `c`: the target of `c`'s `k`-th signal and of its `k`-th copies. -/
def fwd (c : Dev nD) (k : Fin 15) : Dev nD := ⟨(c.val + k.val + 1) % 16, Nat.mod_lt _ (by decide)⟩
/-- The device `k + 1` places before `c`: the one whose `k`-th copies land on `c`. -/
def bwd (c : Dev nD) (k : Fin 15) : Dev nD := ⟨(c.val + 15 - k.val) % 16, Nat.mod_lt _ (by decide)⟩
def rev (k : Fin 15) : Fin 15 := ⟨14 - k.val, by omega⟩
/-- Which of `c`'s predecessors `d` is (meaningful for `d ≠ c`). -/
def idxOf (c d : Dev nD) : Fin 15 := ⟨min 14 ((c.val + 15 - d.val) % 16), by omega⟩

theorem bwd_fwd : ∀ (c : Dev nD) (k : Fin 15), bwd (fwd c k) k = c := by decide
theorem fwd_bwd : ∀ (c : Dev nD) (k : Fin 15), fwd (bwd c k) k = c := by decide
theorem fwd_eq_bwd_rev : ∀ (c : Dev nD) (k : Fin 15), fwd c k = bwd c (rev k) := by decide
theorem bwd_eq_fwd_rev : ∀ (c : Dev nD) (k : Fin 15), bwd c k = fwd c (rev k) := by decide
theorem rev_rev : ∀ k : Fin 15, rev (rev k) = k := by decide
theorem idxOf_bwd : ∀ (c : Dev nD) (k : Fin 15), idxOf c (bwd c k) = k := by decide
theorem idxOf_fwd : ∀ (c : Dev nD) (k : Fin 15), idxOf (fwd c k) c = k := by decide
theorem fwd_ne : ∀ (c : Dev nD) (k : Fin 15), fwd c k ≠ c := by decide
theorem bwd_ne : ∀ (c : Dev nD) (k : Fin 15), bwd c k ≠ c := by decide
theorem fwd_inj : ∀ (c : Dev nD) (k k' : Fin 15), fwd c k = fwd c k' → k = k' := by decide
theorem bwd_idxOf : ∀ (c d : Dev nD), d ≠ c → bwd c (idxOf c d) = d := by decide
theorem sender_eq_bwd (c : Dev nD) (k : Fin 15) : MlpValue.sender c k = bwd c k := rfl

/-! ## The buffers, as the body's statements name them -/

abbrev xM : Memref sig .tc .vmem S256x256 .f32 := Memref.whole cc0_stg0_0
abbrev w1M : Memref sig .tc .vmem S256x512 .f32 := Memref.whole cc0_stg1_0
abbrev w2M : Memref sig .tc .vmem S512x256 .f32 := Memref.whole cc0_stg2_0
abbrev outM : Memref sig .tc .vmem S256x256 .f32 := Memref.whole cc0_stg3_0
abbrev sendM : Memref sig .tc .vmem S256x256 .bf16 := Memref.whole cc0_scratch0
abbrev rsM : Memref sig .tc .vmem S15x16x256 .bf16 := Memref.whole cc0_scratch1
abbrev redM : Memref sig .tc .vmem S16x256 .f32 := Memref.whole cc0_scratch2

theorem slot_inb (k : Fin 15) : ∀ a, (![k.val, 0, 0] : Fin 3 → Nat) a + S1x16x256.size a ≤ S15x16x256.size a := by revert k; decide
theorem sem_inb (k : Fin 15) : ∀ a, (![k.val] : Fin 1 → Nat) a + S1.size a ≤ S15.size a := by revert k; decide

/-- Slot `k` of the receive buffer. -/
abbrev slotM (k : Fin 15) : Memref sig .tc .vmem S16x256 .bf16 :=
  (rsM.slice (Rect.unit (s := S15x16x256) ![k.val, 0, 0] S1x16x256.size (slot_inb k)) (fun _ => rfl)).squeeze S16x256 squeezes_S1x16x256_S16x256
/-- The rows of the send buffer that device `c`'s `k`-th copy reads: row block `fwd c k`. -/
abbrev srcM (c : Dev nD) (k : Fin 15) : Memref sig .tc .vmem S16x256 .bf16 :=
  sendM.slice (Rect.unit (s := S256x256) (k0_off1 c (BitVec.ofNat 32 (1 + k.val))) S16x256.size (k0_off1_inb c k)) (fun _ => rfl)
/-- The rows of the result buffer that device `c` owns: row block `c` (on whichever device the memref is read). -/
abbrev outRowsM (c : Dev nD) : Memref sig .tc .vmem S16x256 .f32 :=
  outM.slice (Rect.unit (s := S256x256) (k0_off3 c) S16x256.size (k0_off3_inb c)) (fun _ => rfl)

/-! ## The cells -/

abbrev barS : Sem sig := (SemArray.scalar (sig.barrier 0 rfl) : Sems sig S_).sem
/-- The four families of DMA semaphores: first-phase send and receive, second-phase send and receive. -/
def s1 (k : Fin 15) : DmaSem sig := ((cc0_scratch3.slice (Rect.unit (s := S15) ![k.val] S1.size (sem_inb k))).squeeze S_ squeezes_S1_S_).sem
def r1 (k : Fin 15) : DmaSem sig := ((cc0_scratch4.slice (Rect.unit (s := S15) ![k.val] S1.size (sem_inb k))).squeeze S_ squeezes_S1_S_).sem
def s2 (k : Fin 15) : DmaSem sig := ((cc0_scratch5.slice (Rect.unit (s := S15) ![k.val] S1.size (sem_inb k))).squeeze S_ squeezes_S1_S_).sem
def r2 (k : Fin 15) : DmaSem sig := ((cc0_scratch6.slice (Rect.unit (s := S15) ![k.val] S1.size (sem_inb k))).squeeze S_ squeezes_S1_S_).sem

theorem s1_val : ∀ k : Fin 15, (s1 k).val = 4 + k.val := by decide
theorem r1_val : ∀ k : Fin 15, (r1 k).val = 19 + k.val := by decide
theorem s2_val : ∀ k : Fin 15, (s2 k).val = 34 + k.val := by decide
theorem r2_val : ∀ k : Fin 15, (r2 k).val = 49 + k.val := by decide

abbrev barCell (c : Dev nD) : GSem nD τ sig := ((c : Thread nD τ), .reg barS)
abbrev s1Cell (c : Dev nD) (k : Fin 15) : GSem nD τ sig := ((c : Thread nD τ), .dma (s1 k))
abbrev r1Cell (c : Dev nD) (k : Fin 15) : GSem nD τ sig := ((c : Thread nD τ), .dma (r1 k))
abbrev s2Cell (c : Dev nD) (k : Fin 15) : GSem nD τ sig := ((c : Thread nD τ), .dma (s2 k))
abbrev r2Cell (c : Dev nD) (k : Fin 15) : GSem nD τ sig := ((c : Thread nD τ), .dma (r2 k))

inductive Kind where
  | bar | s1 (k : Fin 15) | r1 (k : Fin 15) | s2 (k : Fin 15) | r2 (k : Fin 15) | other
  deriving DecidableEq

def kindOf : SemLoc sig → Kind
  | .reg s => if s = barS then .bar else .other
  | .dma q =>
    if h : 4 ≤ q.val ∧ q.val < 19 then .s1 ⟨q.val - 4, by omega⟩
    else if h : 19 ≤ q.val ∧ q.val < 34 then .r1 ⟨q.val - 19, by omega⟩
    else if h : 34 ≤ q.val ∧ q.val < 49 then .s2 ⟨q.val - 34, by omega⟩
    else if h : 49 ≤ q.val then .r2 ⟨q.val - 49, by have : q.val < 64 := q.isLt; omega⟩
    else .other

theorem kind_bar : kindOf (.reg barS) = .bar := by decide
theorem kind_s1 : ∀ k : Fin 15, kindOf (.dma (s1 k)) = .s1 k := by decide
theorem kind_r1 : ∀ k : Fin 15, kindOf (.dma (r1 k)) = .r1 k := by decide
theorem kind_s2 : ∀ k : Fin 15, kindOf (.dma (s2 k)) = .s2 k := by decide
theorem kind_r2 : ∀ k : Fin 15, kindOf (.dma (r2 k)) = .r2 k := by decide

/-- The credit of a first-phase copy (sixteen rows of bf16) and of a second-phase copy (sixteen rows of f32). -/
abbrev N1 : ℕ := (slotM 0).view.dmaCredit
abbrev N2 : ℕ := (redM : Memref sig .tc .vmem S16x256 .f32).view.dmaCredit
theorem N1_pos : 0 < N1 := View.dmaCredit_pos _ (by decide)
theorem N2_pos : 0 < N2 := View.dmaCredit_pos _ (by decide)

/-! ## What the buffers hold -/

/-- What device `c`'s three argument windows hold when the body runs: its copy of `x` and its blocks of the two weights. -/
def Xc (c : Dev nD) : (cc0_stg0_0 : Ref sig .tc).ty.Contents (Elt F) := iblk m c 0 t0_0
def W1c (c : Dev nD) : (cc0_stg1_0 : Ref sig .tc).ty.Contents (Elt F) := iblk m c 1 t0_0
def W2c (c : Dev nD) : (cc0_stg2_0 : Ref sig .tc).ty.Contents (Elt F) := iblk m c 2 t0_0
/-- Device `c`'s partial product: its send buffer after the store. -/
def Pc (c : Dev nD) : (cc0_scratch0 : Ref sig .tc).ty.Contents (Elt F) := MlpValue.part (Xc m c) (W1c m c) (W2c m c)
/-- Device `c`'s receive buffer once every slot has landed. -/
def RS (c : Dev nD) : (cc0_scratch1 : Ref sig .tc).ty.Contents (Elt F) := MlpValue.rsOf (Pc m) c
/-- Device `c`'s sum of the sixteen row blocks `c`: its reduction buffer after the store. -/
def RB (c : Dev nD) : (cc0_scratch2 : Ref sig .tc).ty.Contents (Elt F) := k0_pay4 (MlpValue.rowBlk (Pc m c) c) (RS m c)
/-- The result every device ends with. -/
def OUT : (cc0_stg3_0 : Ref sig .tc).ty.Contents (Elt F) := MlpValue.outOf (Pc m)

/-! ## Shares of the reduction buffer: fifteen copies read it at once -/

def rpow : ℕ → PosShare TreeShare
  | 0 => fullShare
  | n + 1 => (rpow n).right
def q2 (k : Fin 15) : PosShare TreeShare := (rpow k.val).left

/-! ## The schedule: one round per cell -/

/-- With its entry signal to `c`, device `d` hands over the receive slot and the result rows that `c` will write on `d`. -/
def barPay (c d : Dev nD) : sProp 𝕄 :=
  iprop((∃ f, (slotM (rev (idxOf c d))).view.loc (d : Thread nD τ) ↦[(slotM (rev (idxOf c d))).view.set]{fullShare} f)
      ∗ (∃ f, (outRowsM c).view.loc (d : Thread nD τ) ↦[(outRowsM c).view.set]{fullShare} f))
/-- A first-phase departure returns the rows read. -/
def s1Pay (c : Dev nD) (k : Fin 15) : sProp 𝕄 :=
  (srcM c k).view.loc (c : Thread nD τ) ↦[(srcM c k).view.set]{fullShare} Pc m c
/-- A first-phase arrival: slot `k` holds the sender's row block. -/
def r1Pay (c : Dev nD) (k : Fin 15) : sProp 𝕄 :=
  (slotM k).view.loc (c : Thread nD τ) ↦[(slotM k).view.set]{fullShare} RS m c
/-- A second-phase departure returns the share of the reduction buffer lent. -/
def s2Pay (c : Dev nD) (k : Fin 15) : sProp 𝕄 :=
  (redM : Memref sig .tc .vmem S16x256 .f32).view.loc (c : Thread nD τ) ↦[(redM : Memref sig .tc .vmem S16x256 .f32).view.set]{q2 k} RB m c
/-- A second-phase arrival: the sender's rows of the result hold its sum. -/
def r2Pay (c : Dev nD) (k : Fin 15) : sProp 𝕄 :=
  (outRowsM (bwd c k)).view.loc (c : Thread nD τ) ↦[(outRowsM (bwd c k)).view.set]{fullShare} OUT m

def sched : Rounds.Schedule (GSem nD τ sig) (Dev nD) 𝕄 where
  duties g r :=
    if r = 0 ∧ g.1.2 = .tc then
      match kindOf g.2 with
      | .bar => Finset.univ.erase g.1.1
      | .s1 _ => {g.1.1}
      | .r1 k => {bwd g.1.1 k}
      | .s2 _ => {g.1.1}
      | .r2 k => {bwd g.1.1 k}
      | .other => ∅
    else ∅
  unitless _ := False
  amount g _ _ :=
    match kindOf g.2 with
    | .s1 _ => N1
    | .r1 _ => N1
    | .s2 _ => N2
    | .r2 _ => N2
    | .bar => 1
    | .other => 1
  payload g _ d :=
    match kindOf g.2 with
    | .bar => barPay g.1.1 d
    | .s1 k => s1Pay m g.1.1 k
    | .r1 k => r1Pay m g.1.1 k
    | .s2 k => s2Pay m g.1.1 k
    | .r2 k => r2Pay m g.1.1 k
    | .other => iprop(emp)
  amount_pos g _ _ _ := by
    cases kindOf g.2 <;> first | exact N1_pos | exact N2_pos | exact Nat.one_pos

instance sched_payload_storable (g : GSem nD τ sig) (r : ℕ) (d : Dev nD) :
    BI.Storable (upEmb : UEmb _ 𝕄) ((sched (F := F) m).payload g r d) := by
  show BI.Storable upEmb (match kindOf g.2 with
    | .bar => barPay g.1.1 d
    | .s1 k => s1Pay m g.1.1 k
    | .r1 k => r1Pay m g.1.1 k
    | .s2 k => s2Pay m g.1.1 k
    | .r2 k => r2Pay m g.1.1 k
    | .other => iprop(emp))
  unfold barPay s1Pay r1Pay s2Pay r2Pay
  split <;> infer_instance

section Sched
variable (c : Dev nD) (k : Fin 15)

theorem duties_bar : (sched (F := F) m).duties (barCell c) 0 = Finset.univ.erase c := by
  dsimp only [sched]; rw [if_pos ⟨rfl, rfl⟩, kind_bar]
theorem duties_s1 : (sched (F := F) m).duties (s1Cell c k) 0 = {c} := by
  dsimp only [sched]; rw [if_pos ⟨rfl, rfl⟩, kind_s1]
theorem duties_r1 : (sched (F := F) m).duties (r1Cell c k) 0 = {bwd c k} := by
  dsimp only [sched]; rw [if_pos ⟨rfl, rfl⟩, kind_r1]
theorem duties_s2 : (sched (F := F) m).duties (s2Cell c k) 0 = {c} := by
  dsimp only [sched]; rw [if_pos ⟨rfl, rfl⟩, kind_s2]
theorem duties_r2 : (sched (F := F) m).duties (r2Cell c k) 0 = {bwd c k} := by
  dsimp only [sched]; rw [if_pos ⟨rfl, rfl⟩, kind_r2]
theorem duties_later (g : GSem nD τ sig) : ∀ r, 1 ≤ r → (sched (F := F) m).duties g r = ∅ :=
  fun r hr => by dsimp only [sched]; rw [if_neg fun h => by omega]

theorem amount_bar (d : Dev nD) : (sched (F := F) m).amount (barCell c) 0 d = 1 := by dsimp only [sched]; rw [kind_bar]
theorem amount_s1 (d : Dev nD) : (sched (F := F) m).amount (s1Cell c k) 0 d = N1 := by dsimp only [sched]; rw [kind_s1]
theorem amount_r1 (d : Dev nD) : (sched (F := F) m).amount (r1Cell c k) 0 d = N1 := by dsimp only [sched]; rw [kind_r1]
theorem amount_s2 (d : Dev nD) : (sched (F := F) m).amount (s2Cell c k) 0 d = N2 := by dsimp only [sched]; rw [kind_s2]
theorem amount_r2 (d : Dev nD) : (sched (F := F) m).amount (r2Cell c k) 0 d = N2 := by dsimp only [sched]; rw [kind_r2]

theorem payload_bar (d : Dev nD) : (sched (F := F) m).payload (barCell c) 0 d = barPay c d := by dsimp only [sched]; rw [kind_bar]
theorem payload_s1 (d : Dev nD) : (sched (F := F) m).payload (s1Cell c k) 0 d = s1Pay m c k := by dsimp only [sched]; rw [kind_s1]
theorem payload_r1 (d : Dev nD) : (sched (F := F) m).payload (r1Cell c k) 0 d = r1Pay m c k := by dsimp only [sched]; rw [kind_r1]
theorem payload_s2 (d : Dev nD) : (sched (F := F) m).payload (s2Cell c k) 0 d = s2Pay m c k := by dsimp only [sched]; rw [kind_s2]
theorem payload_r2 (d : Dev nD) : (sched (F := F) m).payload (r2Cell c k) 0 d = r2Pay m c k := by dsimp only [sched]; rw [kind_r2]

theorem expect_bar : (sched (F := F) m).expect (barCell c) 0 = 15 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_s1 : (sched (F := F) m).expect (s1Cell c k) 0 = N1 := by
  unfold Schedule.expect Schedule.amountOf; rw [duties_s1, Finset.sum_singleton, amount_s1]
theorem expect_r1 : (sched (F := F) m).expect (r1Cell c k) 0 = N1 := by
  unfold Schedule.expect Schedule.amountOf; rw [duties_r1, Finset.sum_singleton, amount_r1]
theorem expect_s2 : (sched (F := F) m).expect (s2Cell c k) 0 = N2 := by
  unfold Schedule.expect Schedule.amountOf; rw [duties_s2, Finset.sum_singleton, amount_s2]
theorem expect_r2 : (sched (F := F) m).expect (r2Cell c k) 0 = N2 := by
  unfold Schedule.expect Schedule.amountOf; rw [duties_r2, Finset.sum_singleton, amount_r2]

theorem rest_s1 : bigSep ((sched (F := F) m).duties (s1Cell c k) 0 \ ∅) (fun d => (sched (F := F) m).payload (s1Cell c k) 0 d) = s1Pay m c k := by
  rw [Finset.sdiff_empty, duties_s1, bigSep_singleton, payload_s1]
theorem rest_r1 : bigSep ((sched (F := F) m).duties (r1Cell c k) 0 \ ∅) (fun d => (sched (F := F) m).payload (r1Cell c k) 0 d) = r1Pay m c k := by
  rw [Finset.sdiff_empty, duties_r1, bigSep_singleton, payload_r1]
theorem rest_s2 : bigSep ((sched (F := F) m).duties (s2Cell c k) 0 \ ∅) (fun d => (sched (F := F) m).payload (s2Cell c k) 0 d) = s2Pay m c k := by
  rw [Finset.sdiff_empty, duties_s2, bigSep_singleton, payload_s2]
theorem rest_r2 : bigSep ((sched (F := F) m).duties (r2Cell c k) 0 \ ∅) (fun d => (sched (F := F) m).payload (r2Cell c k) 0 d) = r2Pay m c k := by
  rw [Finset.sdiff_empty, duties_r2, bigSep_singleton, payload_r2]

theorem erase_eq_map : ∀ c : Dev nD, (Finset.univ.erase c : Finset (Dev nD)) = (Finset.univ : Finset (Fin 15)).image (bwd c) := by decide

/-- What the entry wait hands a device: from each of the fifteen others, the slot and the rows it will write there. -/
theorem rest_bar : bigSep ((sched (F := F) m).duties (barCell c) 0 \ ∅) (fun d => (sched (F := F) m).payload (barCell c) 0 d)
    = bigSep (Finset.univ : Finset (Fin 15)) (fun j => barPay (F := F) c (bwd c j)) := by
  rw [Finset.sdiff_empty, duties_bar, erase_eq_map, bigSep_image_of_injOn (fun a _ b _ h => by
    have := congrArg (idxOf c) h; rwa [idxOf_bwd, idxOf_bwd] at this)]
  exact bigSep_congr fun j _ => payload_bar m c _

end Sched

/-! ## What a device owes at launch, and the levels -/

/-- Device `c`'s `j`-th debts: one unit to the `j`-th successor's entry cell, a first-phase and a second-phase arrival's
    credit to its `j`-th receive cells. -/
def tB (c : Dev nD) (j : ℕ) : CellTallies nD τ sig Unit := if h : j < 15 then tallyAt (barCell (fwd c ⟨j, h⟩)) () 1 else 0
def t1 (c : Dev nD) (j : ℕ) : CellTallies nD τ sig Unit := if h : j < 15 then tallyAt (r1Cell (fwd c ⟨j, h⟩) ⟨j, h⟩) () N1 else 0
def t2 (c : Dev nD) (j : ℕ) : CellTallies nD τ sig Unit := if h : j < 15 then tallyAt (r2Cell (fwd c ⟨j, h⟩) ⟨j, h⟩) () N2 else 0
/-- The last `n` of the fifteen debts of a kind, summed so that the earliest still owed is the last summand. -/
def oweB (c : Dev nD) : ℕ → CellTallies nD τ sig Unit
  | 0 => 0
  | n + 1 => oweB c n + tB c (14 - n)
def owe1 (c : Dev nD) : ℕ → CellTallies nD τ sig Unit
  | 0 => 0
  | n + 1 => owe1 c n + t1 c (14 - n)
def owe2 (c : Dev nD) : ℕ → CellTallies nD τ sig Unit
  | 0 => 0
  | n + 1 => owe2 c n + t2 c (14 - n)
/-- What device `c` still owes with `a` entry signals, `b` first-phase and `d` second-phase copies to go. -/
def owing (c : Dev nD) (a b d : ℕ) : CellTallies nD τ sig Unit := (owe2 c d + owe1 c b) + oweB c a
def O₀ (c : Dev nD) : CellTallies nD τ sig Unit := owing c 15 15 15

theorem owing_peelB (c : Dev nD) (k : Fin 15) (b d : ℕ) :
    owing c (15 - k.val) b d = owing c (14 - k.val) b d + tallyAt (barCell (fwd c k)) () 1 := by
  have h : 15 - k.val = (14 - k.val) + 1 := by omega
  unfold owing; rw [h, oweB, ← add_assoc]
  have h2 : 14 - (14 - k.val) = k.val := by omega
  rw [h2, tB, dif_pos k.isLt]
theorem owing_peel1 (c : Dev nD) (k : Fin 15) (a d : ℕ) :
    owing c a (15 - k.val) d = owing c a (14 - k.val) d + tallyAt (r1Cell (fwd c k) k) () N1 := by
  have h : 15 - k.val = (14 - k.val) + 1 := by omega
  unfold owing; rw [h, owe1]
  have h2 : 14 - (14 - k.val) = k.val := by omega
  rw [h2, t1, dif_pos k.isLt]; abel
theorem owing_peel2 (c : Dev nD) (k : Fin 15) (a b : ℕ) :
    owing c a b (15 - k.val) = owing c a b (14 - k.val) + tallyAt (r2Cell (fwd c k) k) () N2 := by
  have h : 15 - k.val = (14 - k.val) + 1 := by omega
  unfold owing; rw [h, owe2]
  have h2 : 14 - (14 - k.val) = k.val := by omega
  rw [h2, t2, dif_pos k.isLt]; abel
theorem owing_zero (c : Dev nD) : owing c 0 0 0 = 0 := by unfold owing owe2 owe1 oweB; simp

def L (g : GSem nD τ sig) : Finset Unit := if g.1.2 = .tc then {()} else ∅
/-- Entry cells at 1, first-phase receive cells at 2, second-phase receive cells at 3, everything else at 0. -/
def lv (g : GSem nD τ sig) (_ : Unit) : ℕ :=
  match kindOf g.2 with
  | .bar => 1
  | .r1 _ => 2
  | .r2 _ => 3
  | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The cells, numbered -/

/-- A device's sixty-one cells: the entry cell, then the four families of fifteen. -/
def csem (i : Fin 61) : SemLoc sig :=
  if h : i.val = 0 then .reg barS
  else if h1 : i.val < 16 then .dma (s1 ⟨i.val - 1, by omega⟩)
  else if h2 : i.val < 31 then .dma (r1 ⟨i.val - 16, by omega⟩)
  else if h3 : i.val < 46 then .dma (s2 ⟨i.val - 31, by omega⟩)
  else .dma (r2 ⟨i.val - 46, by omega⟩)
abbrev kcell (ck : Dev nD × Fin 61) : GSem nD τ sig := ((ck.1 : Thread nD τ), csem ck.2)
def iS1 (k : Fin 15) : Fin 61 := ⟨1 + k.val, by omega⟩
def iR1 (k : Fin 15) : Fin 61 := ⟨16 + k.val, by omega⟩
def iS2 (k : Fin 15) : Fin 61 := ⟨31 + k.val, by omega⟩
def iR2 (k : Fin 15) : Fin 61 := ⟨46 + k.val, by omega⟩
theorem csem_0 : csem 0 = .reg barS := by decide
theorem csem_S1 : ∀ k : Fin 15, csem (iS1 k) = .dma (s1 k) := by decide
theorem csem_R1 : ∀ k : Fin 15, csem (iR1 k) = .dma (r1 k) := by decide
theorem csem_S2 : ∀ k : Fin 15, csem (iS2 k) = .dma (s2 k) := by decide
theorem csem_R2 : ∀ k : Fin 15, csem (iR2 k) = .dma (r2 k) := by decide
theorem csem_injective : Function.Injective csem := by decide

/-! ## The ghost state a device's body starts from -/

/-- Every cell's invariant at the name the launch allocated it at, and that round 0 of every cell is reached. -/
def records (K : Dev nD × Fin 61 → ℕ) : sProp 𝕄 :=
  iprop((bigSep Finset.univ fun ck : Dev nD × Fin 61 => cellInv ER (sched m) (K ck) (kcell ck))
    ∗ bigSep Finset.univ fun ck : Dev nD × Fin 61 => reached ER (kcell ck) 0)

instance records_persistent (K : Dev nD × Fin 61 → ℕ) : BI.Persistent (records m K) := by unfold records; infer_instance

/-- The tokens of the duties device `c` pays: per `k`, its entry signal and its two arrivals at its `k`-th successor,
    and its own two departures. -/
def payToks (c : Dev nD) : sProp 𝕄 :=
  bigSep (Finset.univ : Finset (Fin 15)) fun k =>
    iprop(dutyTok ER (barCell (fwd c k)) 0 c ∗ dutyTok ER (r1Cell (fwd c k) k) 0 c ∗ dutyTok ER (r2Cell (fwd c k) k) 0 c
      ∗ dutyTok ER (s1Cell c k) 0 c ∗ dutyTok ER (s2Cell c k) 0 c)
/-- Device `c`'s positions: at round 0 of each of its cells. -/
def positions (c : Dev nD) : sProp 𝕄 := bigSep (Finset.univ : Finset (Fin 61)) fun i => atPos ER (kcell (c, i)) 0 ∅ 0

def ghost (K : Dev nD × Fin 61 → ℕ) (c : Dev nD) : sProp 𝕄 := iprop(records m K ∗ positions c ∗ payToks c)

/-- The credit a device is dealt at launch: fifteen units on its entry cell, an arrival's credit on each receive cell. -/
def creds (c : Dev nD) : sProp 𝕄 :=
  iprop(cred (tallyAt (barCell c) () 15)
    ∗ (bigSep (Finset.univ : Finset (Fin 15)) fun k => cred (tallyAt (r1Cell c k) () N1))
    ∗ (bigSep (Finset.univ : Finset (Fin 15)) fun k => cred (tallyAt (r2Cell c k) () N2)))

def start (c : Dev nD) : sProp 𝕄 := iprop((∃ K, ghost m K c) ∗ creds c ∗ levAts L lv)

/-- The three scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
/-- After the body: the scratch buffers back whole, and the kernel's sixty own cells closed at zero. -/
def Φ₁ (c : Dev nD) : sProp 𝕄 :=
  iprop(scratch c ∗ bigSep (Finset.univ.erase (0 : Fin 61)) fun i => semVal (kcell (c, i)) 0)

def dats (_ : Fin 1) (c : Dev nD) : Dat τ (Elt F) Unit ℕ UU ℕ cfg0 c where
  A w := m ((cfg0.win w).arr.view.loc (c : Thread nD τ))
  after w _ := match w with
    | ⟨0, _⟩ => Xc m c
    | ⟨1, _⟩ => W1c m c
    | ⟨2, _⟩ => W2c m c
    | ⟨3, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.KernelIdeal.Mlp

end
-- ==== Proof.Steps.lean ====
/-
  One step of a device's protocol at a time: each statement of the body that touches another device, as a rule from
  the state of the phase it belongs to, to that state one step further on.
-/
import proofs.«900458_g7700000000000459_dist_mlp2_tp_i_m256_h512_out256_v7x_i16_bf16_1_alg».proof.Proof.Proto

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The printed device chains are the ring's successors -/

theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 3 := Fin.ext (k0_dev4_eq c)
theorem dev5_eq (c : Dev nD) : (⟨k0_dev5 c, k0_dev5_lt c⟩ : Dev nD) = fwd c 4 := Fin.ext (k0_dev5_eq c)
theorem dev6_eq (c : Dev nD) : (⟨k0_dev6 c, k0_dev6_lt c⟩ : Dev nD) = fwd c 5 := Fin.ext (k0_dev6_eq c)
theorem dev7_eq (c : Dev nD) : (⟨k0_dev7 c, k0_dev7_lt c⟩ : Dev nD) = fwd c 6 := Fin.ext (k0_dev7_eq c)
theorem dev8_eq (c : Dev nD) : (⟨k0_dev8 c, k0_dev8_lt c⟩ : Dev nD) = fwd c 7 := Fin.ext (k0_dev8_eq c)
theorem dev9_eq (c : Dev nD) : (⟨k0_dev9 c, k0_dev9_lt c⟩ : Dev nD) = fwd c 8 := Fin.ext (k0_dev9_eq c)
theorem dev10_eq (c : Dev nD) : (⟨k0_dev10 c, k0_dev10_lt c⟩ : Dev nD) = fwd c 9 := Fin.ext (k0_dev10_eq c)
theorem dev11_eq (c : Dev nD) : (⟨k0_dev11 c, k0_dev11_lt c⟩ : Dev nD) = fwd c 10 := Fin.ext (k0_dev11_eq c)
theorem dev12_eq (c : Dev nD) : (⟨k0_dev12 c, k0_dev12_lt c⟩ : Dev nD) = fwd c 11 := Fin.ext (k0_dev12_eq c)
theorem dev13_eq (c : Dev nD) : (⟨k0_dev13 c, k0_dev13_lt c⟩ : Dev nD) = fwd c 12 := Fin.ext (k0_dev13_eq c)
theorem dev14_eq (c : Dev nD) : (⟨k0_dev14 c, k0_dev14_lt c⟩ : Dev nD) = fwd c 13 := Fin.ext (k0_dev14_eq c)
theorem dev15_eq (c : Dev nD) : (⟨k0_dev15 c, k0_dev15_lt c⟩ : Dev nD) = fwd c 14 := Fin.ext (k0_dev15_eq c)
theorem dev16_eq (c : Dev nD) : (⟨k0_dev16 c, k0_dev16_lt c⟩ : Dev nD) = fwd c 0 := Fin.ext (k0_dev16_eq c)
theorem dev17_eq (c : Dev nD) : (⟨k0_dev17 c, k0_dev17_lt c⟩ : Dev nD) = fwd c 1 := Fin.ext (k0_dev17_eq c)
theorem dev18_eq (c : Dev nD) : (⟨k0_dev18 c, k0_dev18_lt c⟩ : Dev nD) = fwd c 2 := Fin.ext (k0_dev18_eq c)
theorem dev19_eq (c : Dev nD) : (⟨k0_dev19 c, k0_dev19_lt c⟩ : Dev nD) = fwd c 3 := Fin.ext (k0_dev19_eq c)
theorem dev20_eq (c : Dev nD) : (⟨k0_dev20 c, k0_dev20_lt c⟩ : Dev nD) = fwd c 4 := Fin.ext (k0_dev20_eq c)
theorem dev21_eq (c : Dev nD) : (⟨k0_dev21 c, k0_dev21_lt c⟩ : Dev nD) = fwd c 5 := Fin.ext (k0_dev21_eq c)
theorem dev22_eq (c : Dev nD) : (⟨k0_dev22 c, k0_dev22_lt c⟩ : Dev nD) = fwd c 6 := Fin.ext (k0_dev22_eq c)
theorem dev23_eq (c : Dev nD) : (⟨k0_dev23 c, k0_dev23_lt c⟩ : Dev nD) = fwd c 7 := Fin.ext (k0_dev23_eq c)
theorem dev24_eq (c : Dev nD) : (⟨k0_dev24 c, k0_dev24_lt c⟩ : Dev nD) = fwd c 8 := Fin.ext (k0_dev24_eq c)
theorem dev25_eq (c : Dev nD) : (⟨k0_dev25 c, k0_dev25_lt c⟩ : Dev nD) = fwd c 9 := Fin.ext (k0_dev25_eq c)
theorem dev26_eq (c : Dev nD) : (⟨k0_dev26 c, k0_dev26_lt c⟩ : Dev nD) = fwd c 10 := Fin.ext (k0_dev26_eq c)
theorem dev27_eq (c : Dev nD) : (⟨k0_dev27 c, k0_dev27_lt c⟩ : Dev nD) = fwd c 11 := Fin.ext (k0_dev27_eq c)
theorem dev28_eq (c : Dev nD) : (⟨k0_dev28 c, k0_dev28_lt c⟩ : Dev nD) = fwd c 12 := Fin.ext (k0_dev28_eq c)
theorem dev29_eq (c : Dev nD) : (⟨k0_dev29 c, k0_dev29_lt c⟩ : Dev nD) = fwd c 13 := Fin.ext (k0_dev29_eq c)
theorem dev30_eq (c : Dev nD) : (⟨k0_dev30 c, k0_dev30_lt c⟩ : Dev nD) = fwd c 14 := Fin.ext (k0_dev30_eq c)
theorem dev31_eq (c : Dev nD) : (⟨k0_dev31 c, k0_dev31_lt c⟩ : Dev nD) = fwd c 0 := Fin.ext (k0_dev31_eq c)
theorem dev32_eq (c : Dev nD) : (⟨k0_dev32 c, k0_dev32_lt c⟩ : Dev nD) = fwd c 1 := Fin.ext (k0_dev32_eq c)
theorem dev33_eq (c : Dev nD) : (⟨k0_dev33 c, k0_dev33_lt c⟩ : Dev nD) = fwd c 2 := Fin.ext (k0_dev33_eq c)
theorem dev34_eq (c : Dev nD) : (⟨k0_dev34 c, k0_dev34_lt c⟩ : Dev nD) = fwd c 3 := Fin.ext (k0_dev34_eq c)
theorem dev35_eq (c : Dev nD) : (⟨k0_dev35 c, k0_dev35_lt c⟩ : Dev nD) = fwd c 4 := Fin.ext (k0_dev35_eq c)
theorem dev36_eq (c : Dev nD) : (⟨k0_dev36 c, k0_dev36_lt c⟩ : Dev nD) = fwd c 5 := Fin.ext (k0_dev36_eq c)
theorem dev37_eq (c : Dev nD) : (⟨k0_dev37 c, k0_dev37_lt c⟩ : Dev nD) = fwd c 6 := Fin.ext (k0_dev37_eq c)
theorem dev38_eq (c : Dev nD) : (⟨k0_dev38 c, k0_dev38_lt c⟩ : Dev nD) = fwd c 7 := Fin.ext (k0_dev38_eq c)
theorem dev39_eq (c : Dev nD) : (⟨k0_dev39 c, k0_dev39_lt c⟩ : Dev nD) = fwd c 8 := Fin.ext (k0_dev39_eq c)
theorem dev40_eq (c : Dev nD) : (⟨k0_dev40 c, k0_dev40_lt c⟩ : Dev nD) = fwd c 9 := Fin.ext (k0_dev40_eq c)
theorem dev41_eq (c : Dev nD) : (⟨k0_dev41 c, k0_dev41_lt c⟩ : Dev nD) = fwd c 10 := Fin.ext (k0_dev41_eq c)
theorem dev42_eq (c : Dev nD) : (⟨k0_dev42 c, k0_dev42_lt c⟩ : Dev nD) = fwd c 11 := Fin.ext (k0_dev42_eq c)
theorem dev43_eq (c : Dev nD) : (⟨k0_dev43 c, k0_dev43_lt c⟩ : Dev nD) = fwd c 12 := Fin.ext (k0_dev43_eq c)
theorem dev44_eq (c : Dev nD) : (⟨k0_dev44 c, k0_dev44_lt c⟩ : Dev nD) = fwd c 13 := Fin.ext (k0_dev44_eq c)
theorem dev45_eq (c : Dev nD) : (⟨k0_dev45 c, k0_dev45_lt c⟩ : Dev nD) = fwd c 14 := Fin.ext (k0_dev45_eq c)

/-! ## Index sets: the steps still to come, the steps done -/

def ge (n : ℕ) : Finset (Fin 15) := Finset.univ.filter fun k => n ≤ k.val
def lt (n : ℕ) : Finset (Fin 15) := Finset.univ.filter fun k => k.val < n

theorem mem_ge {n : ℕ} {k : Fin 15} : k ∈ ge n ↔ n ≤ k.val := by simp [ge]
theorem mem_lt {n : ℕ} {k : Fin 15} : k ∈ lt n ↔ k.val < n := by simp [lt]
theorem ge_eq_insert (k : Fin 15) : ge k.val = insert k (ge (k.val + 1)) := by
  ext j; rw [Finset.mem_insert, mem_ge, mem_ge, Fin.ext_iff]; omega
theorem not_mem_ge_succ (k : Fin 15) : k ∉ ge (k.val + 1) := by rw [mem_ge]; omega
theorem lt_succ_eq_insert (k : Fin 15) : lt (k.val + 1) = insert k (lt k.val) := by
  ext j; rw [Finset.mem_insert, mem_lt, mem_lt, Fin.ext_iff]; omega
theorem not_mem_lt (k : Fin 15) : k ∉ lt k.val := by rw [mem_lt]; omega
theorem ge_zero : ge 0 = Finset.univ := by ext j; simp [ge]
theorem ge_fifteen : ge 15 = ∅ := by ext j; simp [ge]
theorem lt_zero : lt 0 = ∅ := by ext j; simp [lt]
theorem lt_fifteen : lt 15 = Finset.univ := by ext j; simp [lt]

/-! ## Reading the records -/

theorem kcell_bar (d : Dev nD) : kcell (d, 0) = barCell d := by unfold kcell; rw [csem_0]
theorem kcell_s1 (d : Dev nD) (k : Fin 15) : kcell (d, iS1 k) = s1Cell d k := by unfold kcell; rw [csem_S1]
theorem kcell_r1 (d : Dev nD) (k : Fin 15) : kcell (d, iR1 k) = r1Cell d k := by unfold kcell; rw [csem_R1]
theorem kcell_s2 (d : Dev nD) (k : Fin 15) : kcell (d, iS2 k) = s2Cell d k := by unfold kcell; rw [csem_S2]
theorem kcell_r2 (d : Dev nD) (k : Fin 15) : kcell (d, iR2 k) = r2Cell d k := by unfold kcell; rw [csem_R2]

theorem rec_inv (K : Dev nD × Fin 61 → ℕ) (ck : Dev nD × Fin 61) : records m K ⊢ cellInv ER (sched m) (K ck) (kcell ck) := by
  unfold records
  exact sep_elim_left.trans (bigSep_elim (Φ := fun ck : Dev nD × Fin 61 => (cellInv ER (sched m) (K ck) (kcell ck) : sProp 𝕄)) (Finset.mem_univ ck))
theorem rec_reached (K : Dev nD × Fin 61 → ℕ) (ck : Dev nD × Fin 61) : records m K ⊢ (reached ER (kcell ck) 0 : sProp 𝕄) := by
  unfold records
  exact sep_elim_right.trans (bigSep_elim (Φ := fun ck : Dev nD × Fin 61 => (reached ER (kcell ck) 0 : sProp 𝕄)) (Finset.mem_univ ck))

/-- One summand out of a `bigSep` over an inserted index, in the proof mode's spelling. -/
theorem bigSep_insert' {I : Type} [DecidableEq I] {s : Finset I} {i : I} (hi : i ∉ s) (Φ : I → sProp 𝕄) :
    bigSep (insert i s) Φ = iprop(Φ i ∗ bigSep s Φ) := bigSep_insert hi

/-! ## Phase A: the fifteen entry signals -/

/-- A receive slot, and a row block of the result buffer, on device `c`, at some contents. -/
def slotE (c : Dev nD) (j : Fin 15) : sProp 𝕄 :=
  iprop(∃ f, (slotM j).view.loc (c : Thread nD τ) ↦[(slotM j).view.set]{fullShare} f)
def rowsE (c d : Dev nD) : sProp 𝕄 :=
  iprop(∃ f, (outRowsM d).view.loc (c : Thread nD τ) ↦[(outRowsM d).view.set]{fullShare} f)

theorem barPay_eq (c d : Dev nD) : barPay (F := F) c d = iprop(slotE d (rev (idxOf c d)) ∗ rowsE d c) := rfl

/-- With `n` signals sent: what is still owed, and for each signal to come its token and what it hands over. -/
def SA (K : Dev nD × Fin 61 → ℕ) (c : Dev nD) (n : ℕ) : sProp 𝕄 :=
  iprop(records m K ∗ (∃ W, owes (c : Thread nD τ) (owing c (15 - n) 15 15) W)
    ∗ bigSep (ge n) fun k => iprop(dutyTok ER (barCell (fwd c k)) 0 c ∗ slotE c (rev k) ∗ rowsE c (fwd c k)))

theorem step_sig (K : Dev nD × Fin 61 → ℕ) (c : Dev nD) (k : Fin 15) (n : Dev nD) (hn : n = fwd c k) {k' : ℕ} (hk' : k' = 1)
    {α : Type} {Q : α → sProp 𝕄} {kk : PUnit → Prog (TpuEff nD τ sig (Elt F) Λ₀ .tc) α} :
    SA m K c k.val ⊢ iprop((SA m K c (k.val + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS k') kk) Q) := by
  subst hn hk'
  unfold SA
  rw [ge_eq_insert k, bigSep_insert' (not_mem_ge_succ k)]
  iintro ⟨#Hrec, ⟨%W, HO⟩, ⟨Htok, Hslot, Hrows⟩, Hrest⟩ Hk
  have e : 15 - (k.val + 1) = 14 - k.val := by omega
  iapply (Rounds.wp_signal 𝒱₀ ER (sched m) (c : Thread nD τ) none (dst := (fwd c k : Thread nD τ)) (κ := K (fwd c k, 0)) (d := c)
      (by rw [duties_bar]; exact Finset.mem_erase.mpr ⟨(fwd_ne c k).symm, Finset.mem_univ _⟩) (amount_bar m (fwd c k) c) ()
      (owing c (14 - k.val) 15 15) (owing_peelB c k 15 15)) $$ [HO Htok Hslot Hrows]
  · isplitr
    · ihave H := (rec_inv m K (fwd c k, 0)) $$ Hrec; rw [kcell_bar]; iexact H
    isplitl [HO]; · iexact HO
    isplitl [Htok]; · iexact Htok
    isplitl [Hslot Hrows]
    · rw [payload_bar, barPay_eq, idxOf_fwd]; isplitl [Hslot] <;> iassumption
    · ihave H := (rec_reached m K (fwd c k, 0)) $$ Hrec; rw [kcell_bar]; iexact H
  iintro HO
  iapply Hk
  isplitr; · iexact Hrec
  isplitl [HO]; · iexists W; rw [e]; iexact HO
  iexact Hrest

/-! ## The entry wait -/

def revEquiv : Fin 15 ≃ Fin 15 := ⟨rev, rev, rev_rev, rev_rev⟩

/-- What the fifteen entry signals received hand over, by the successor that sent each: on the `k`-th successor, the
    slot `k` and the rows `c` that `c`'s `k`-th copies will write. -/
theorem bar_payloads (c : Dev nD) :
    bigSep (Finset.univ : Finset (Fin 15)) (fun j => barPay (F := F) c (bwd c j))
      = bigSep (Finset.univ : Finset (Fin 15)) (fun k => iprop(slotE (F := F) (fwd c k) k ∗ rowsE (fwd c k) c)) := by
  rw [bigSep_univ_equiv revEquiv]
  exact bigSep_congr fun k _ => by
    show barPay c (bwd c (rev k)) = _
    rw [barPay_eq, idxOf_bwd, rev_rev, ← fwd_eq_bwd_rev]

theorem step_barwait (K : Dev nD × Fin 61 → ℕ) (c : Dev nD) {k' : ℕ} (hk' : k' = 15) (W : Waits sig Unit)
    (hmay : (levAts L lv : sProp 𝕄) ⊢ MayWait (c : Thread nD τ) (.reg barS) () (owing c 0 15 15))
    {α : Type} {Q : α → sProp 𝕄} {kk : PUnit → Prog (TpuEff nD τ sig (Elt F) Λ₀ .tc) α} :
    iprop(records m K ∗ levAts L lv ∗ cred (tallyAt (barCell c) () 15) ∗ owes (c : Thread nD τ) (owing c 0 15 15) W ∗ atPos ER (barCell c) 0 ∅ 0)
      ⊢ iprop((((∃ W', owes (c : Thread nD τ) (owing c 0 15 15) W') ∗ atPos ER (barCell c) 1 ∅ 0
            ∗ bigSep (Finset.univ : Finset (Fin 15)) fun k => iprop(slotE (F := F) (fwd c k) k ∗ rowsE (fwd c k) c))
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS k') kk) Q) := by
  subst hk'
  iintro ⟨#Hrec, #Hlev, Hc, HO, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owing c 0 15 15) (W := W) (R := 0) (m := 0) (T := ∅)
      (by rw [expect_bar])) $$ [Hc HO Hat]
  · isplitr
    · ihave H := (rec_inv m K (c, 0)) $$ Hrec; rw [kcell_bar]; iexact H
    isplitl [Hc]; · iexact Hc
    isplitl [HO]; · iexact HO
    isplitr; · iapply hmay; iexact Hlev
    iexact Hat
  iintro ⟨HO, Hat, -, Hpay⟩
  iapply Hk
  isplitl [HO]; · iexists _; iexact HO
  isplitl [Hat]; · iexact Hat
  ihave Hp := (Entails.of_eq ((rest_bar m c).trans (bar_payloads c))) $$ Hpay
  iexact Hp

/-! ## Phase B: the fifteen first-phase copies -/

def SB (K : Dev nD × Fin 61 → ℕ) (c : Dev nD) (n : ℕ) : sProp 𝕄 :=
  iprop(records m K ∗ (∃ W, owes (c : Thread nD τ) (owing c 0 (15 - n) 15) W)
    ∗ (bigSep (ge n) fun k => iprop(dutyTok ER (s1Cell c k) 0 c ∗ dutyTok ER (r1Cell (fwd c k) k) 0 c ∗ s1Pay m c k ∗ slotE (fwd c k) k))
    ∗ bigSep (lt n) fun k => cred (tallyAt (s1Cell c k) () N1))

theorem amount_slot : ∀ k : Fin 15, (slotM k).view.amount (SemLoc.dma (r1 k) : SemLoc sig) = N1 := by decide

theorem step_send1 (K : Dev nD × Fin 61 → ℕ) (c : Dev nD) (k : Fin 15) (n : Dev nD) (hn : n = fwd c k)
    (hland : ∀ fd : Buf (Elt F) ((slotM k).view.loc (fwd c k : Thread nD τ)),
      ((slotM k).view.loc (fwd c k : Thread nD τ) ↦[(slotM k).view.set]{fullShare} (slotM k).view.write (Elt F) fd ((srcM c k).view.read (Elt F) (Pc m c)) Finset.univ : sProp 𝕄)
        ⊢ r1Pay m (fwd c k) k)
    {hsc : (slotM k : Memref sig (Dev.tc n : Thread nD τ).2.kind .vmem S16x256 .bf16).view.ref.isScScratch = false}
    {hsrc : (srcM c k).view.WordExact} {hdst : (slotM k).view.WordExact}
    {hsem : DmaTarget.Typed .vmem (.dma (r1 k)) (.remote (Dev.tc n : Thread nD τ) (slotM k) (.dma (s1 k)) hsc)}
    {α : Type} {Q : α → sProp 𝕄} {kk : PUnit → Prog (TpuEff nD τ sig (Elt F) Λ₀ .tc) α} :
    SB m K c k.val ⊢ iprop((SB m K c (k.val + 1) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (srcM c k) (.remote (Dev.tc n : Thread nD τ) (slotM k) (.dma (s1 k)) hsc) (.dma (r1 k)) hsrc hdst hsem) kk) Q) := by
  subst hn
  unfold SB slotE
  rw [ge_eq_insert k, bigSep_insert' (not_mem_ge_succ k), lt_succ_eq_insert k, bigSep_insert' (not_mem_lt k)]
  iintro ⟨#Hrec, ⟨%W, HO⟩, ⟨⟨HtS, HtR, Hsrc, ⟨%fn, Hdst⟩⟩, Hrest⟩, Hcr⟩ Hk
  have e : 15 - (k.val + 1) = 14 - k.val := by omega
  unfold s1Pay
  iapply (Rounds.wp_send_pointsTo 𝒱₀ ER (sched m) (c : Thread nD τ) none (κ₁ := K (c, iS1 k)) (κ₂ := K (fwd c k, iR1 k))
      (r₁ := 0) (r₂ := 0) (d₁ := c) (d₂ := c) (fd := fn)
      (by rw [duties_s1]; exact Finset.mem_singleton_self _) (by rw [duties_r1, bwd_fwd]; exact Finset.mem_singleton_self _)
      () () N1 (amount_slot k) (amount_s1 m c k c) (amount_r1 m (fwd c k) k c) (owing c 0 (14 - k.val) 15) (owing_peel1 c k 0 15) (W := W)
      (by rw [payload_s1]; exact BI.Entails.refl _)
      (by rw [payload_r1]; exact hland fn)) $$ [HO HtS HtR Hsrc Hdst]
  · isplitr
    · ihave H := (rec_inv m K (c, iS1 k)) $$ Hrec; rw [kcell_s1]; iexact H
    isplitr
    · ihave H := (rec_inv m K (fwd c k, iR1 k)) $$ Hrec; rw [kcell_r1]; iexact H
    isplitl [Hsrc]; · iexact Hsrc
    isplitl [Hdst]; · iexact Hdst
    isplitl [HO]; · iexact HO
    isplitl [HtS]; · iexact HtS
    isplitr
    · ihave H := (rec_reached m K (c, iS1 k)) $$ Hrec; rw [kcell_s1]; iexact H
    isplitl [HtR]; · iexact HtR
    · ihave H := (rec_reached m K (fwd c k, iR1 k)) $$ Hrec; rw [kcell_r1]; iexact H
  iintro ⟨Hc, HO⟩
  iapply Hk
  isplitr; · iexact Hrec
  isplitl [HO]; · iexists W; rw [e]; iexact HO
  isplitl [Hrest]; · iexact Hrest
  isplitl [Hc]; · iexact Hc
  iexact Hcr

/-! ## The waits on a device's own DMA cells: one rule for the four families -/

/-- With `n` waits of a family done: the credit and position for each wait to come, the round's payload for each done. -/
def SW (K : Dev nD × Fin 61 → ℕ) (c : Dev nD) (sm : Fin 15 → DmaSem sig) (Nn : ℕ) (Pay : Fin 15 → sProp 𝕄)
    (O : CellTallies nD τ sig Unit) (n : ℕ) : sProp 𝕄 :=
  iprop(records m K ∗ levAts L lv ∗ (∃ W, owes (c : Thread nD τ) O W)
    ∗ (bigSep (ge n) fun k => iprop(cred (tallyAt ((c : Thread nD τ), SemLoc.dma (sm k)) () Nn) ∗ atPos ER ((c : Thread nD τ), SemLoc.dma (sm k)) 0 ∅ 0))
    ∗ bigSep (lt n) fun k => iprop(atPos ER ((c : Thread nD τ), SemLoc.dma (sm k)) 1 ∅ 0 ∗ Pay k))

theorem step_wait (K : Dev nD × Fin 61 → ℕ) (c : Dev nD) (sm : Fin 15 → DmaSem sig) (ix : Fin 15 → Fin 61)
    (hix : ∀ k, kcell (c, ix k) = ((c : Thread nD τ), SemLoc.dma (sm k)))
    (Nn : ℕ) (hexp : ∀ k, (sched (F := F) m).expect ((c : Thread nD τ), SemLoc.dma (sm k)) 0 = Nn)
    (Pay : Fin 15 → sProp 𝕄)
    (hrest : ∀ k, bigSep ((sched (F := F) m).duties ((c : Thread nD τ), SemLoc.dma (sm k)) 0 \ ∅)
        (fun d => (sched (F := F) m).payload ((c : Thread nD τ), SemLoc.dma (sm k)) 0 d) = Pay k)
    (O : CellTallies nD τ sig Unit) (hmay : ∀ k, (levAts L lv : sProp 𝕄) ⊢ MayWait (c : Thread nD τ) (SemLoc.dma (sm k)) () O)
    (k : Fin 15)
    {sp sp' : Space} {s s' : Shape} {e e' : EltTy} {src : Memref sig (c : Thread nD τ).2.kind sp' s' e'} {κ' : Idealize.ShloMosaic.Kind} {dst : Memref sig κ' sp s e}
    {hsrc : src.view.WordExact} {hdst : dst.view.WordExact} (hcr : dst.view.dmaCredit = Nn)
    {α : Type} {Q : α → sProp 𝕄} {kk : PUnit → Prog (TpuEff nD τ sig (Elt F) Λ₀ .tc) α} :
    SW m K c sm Nn Pay O k.val ⊢ iprop((SW m K c sm Nn Pay O (k.val + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 (sm k) src dst hsrc hdst) kk) Q) := by
  unfold SW
  rw [ge_eq_insert k, bigSep_insert' (not_mem_ge_succ k), lt_succ_eq_insert k, bigSep_insert' (not_mem_lt k)]
  iintro ⟨#Hrec, #Hlev, ⟨%W, HO⟩, ⟨⟨Hc, Hat⟩, Hrest⟩, Hdone⟩ Hk
  have hc : (cred (tallyAt ((c : Thread nD τ), SemLoc.dma (sm k)) () Nn) : sProp 𝕄) = cred (tallyAt ((c : Thread nD τ), SemLoc.dma (sm k)) () dst.view.dmaCredit) := by rw [hcr]
  ihave Hc' := (Entails.of_eq hc) $$ Hc
  iapply (Rounds.wp_wait_rest_token 𝒱₀ ER (sched m) (c : Thread nD τ) none (κ := K (c, ix k))
      (wpE_waitDma2_eq 𝒱₀ (c : Thread nD τ) none Set.univ) (Set.mem_univ _) () (O := O) (W := W) (R := 0) (m := 0) (T := ∅)
      (by rw [Nat.zero_add, hexp, hcr])) $$ [Hc' HO Hat]
  · isplitr
    · ihave H := (rec_inv m K (c, ix k)) $$ Hrec; rw [hix]; iexact H
    isplitl [Hc']; · iexact Hc'
    isplitl [HO]; · iexact HO
    isplitr; · iapply (hmay k); iexact Hlev
    iexact Hat
  iintro ⟨HO, Hat, -, Hpay⟩
  iapply Hk
  isplitr; · iexact Hrec
  isplitr; · iexact Hlev
  isplitl [HO]; · iexists _; iexact HO
  isplitl [Hrest]; · iexact Hrest
  isplitl [Hat Hpay]
  · isplitl [Hat]; · iexact Hat
    ihave Hp := (Entails.of_eq (hrest k)) $$ Hpay
    iexact Hp
  iexact Hdone

/-! ## Phase D: the fifteen second-phase copies -/

def SD (K : Dev nD × Fin 61 → ℕ) (c : Dev nD) (n : ℕ) : sProp 𝕄 :=
  iprop(records m K ∗ (∃ W, owes (c : Thread nD τ) (owing c 0 0 (15 - n)) W)
    ∗ (bigSep (ge n) fun k => iprop(dutyTok ER (s2Cell c k) 0 c ∗ dutyTok ER (r2Cell (fwd c k) k) 0 c ∗ s2Pay m c k ∗ rowsE (fwd c k) c))
    ∗ bigSep (lt n) fun k => cred (tallyAt (s2Cell c k) () N2))

theorem amount_rows : ∀ (c : Dev nD) (k : Fin 15), (outRowsM c).view.amount (SemLoc.dma (r2 k) : SemLoc sig) = N2 := by decide

theorem step_send2 (K : Dev nD × Fin 61 → ℕ) (c : Dev nD) (k : Fin 15) (n : Dev nD) (hn : n = fwd c k)
    (hland : ∀ fd : Buf (Elt F) ((outRowsM c).view.loc (fwd c k : Thread nD τ)),
      ((outRowsM c).view.loc (fwd c k : Thread nD τ) ↦[(outRowsM c).view.set]{fullShare}
          (outRowsM c).view.write (Elt F) fd ((redM : Memref sig .tc .vmem S16x256 .f32).view.read (Elt F) (RB m c)) Finset.univ : sProp 𝕄)
        ⊢ r2Pay m (fwd c k) k)
    {hsc : (outRowsM c : Memref sig (Dev.tc n : Thread nD τ).2.kind .vmem S16x256 .f32).view.ref.isScScratch = false}
    {hsrc : (redM : Memref sig .tc .vmem S16x256 .f32).view.WordExact} {hdst : (outRowsM c).view.WordExact}
    {hsem : DmaTarget.Typed .vmem (.dma (r2 k)) (.remote (Dev.tc n : Thread nD τ) (outRowsM c) (.dma (s2 k)) hsc)}
    {α : Type} {Q : α → sProp 𝕄} {kk : PUnit → Prog (TpuEff nD τ sig (Elt F) Λ₀ .tc) α} :
    SD m K c k.val ⊢ iprop((SD m K c (k.val + 1) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (redM : Memref sig .tc .vmem S16x256 .f32) (.remote (Dev.tc n : Thread nD τ) (outRowsM c) (.dma (s2 k)) hsc) (.dma (r2 k)) hsrc hdst hsem) kk) Q) := by
  subst hn
  unfold SD rowsE
  rw [ge_eq_insert k, bigSep_insert' (not_mem_ge_succ k), lt_succ_eq_insert k, bigSep_insert' (not_mem_lt k)]
  iintro ⟨#Hrec, ⟨%W, HO⟩, ⟨⟨HtS, HtR, Hsrc, ⟨%fn, Hdst⟩⟩, Hrest⟩, Hcr⟩ Hk
  have e : 15 - (k.val + 1) = 14 - k.val := by omega
  unfold s2Pay
  iapply (Rounds.wp_send_pointsTo 𝒱₀ ER (sched m) (c : Thread nD τ) none (κ₁ := K (c, iS2 k)) (κ₂ := K (fwd c k, iR2 k))
      (r₁ := 0) (r₂ := 0) (d₁ := c) (d₂ := c) (fd := fn)
      (by rw [duties_s2]; exact Finset.mem_singleton_self _) (by rw [duties_r2, bwd_fwd]; exact Finset.mem_singleton_self _)
      () () N2 (amount_rows c k) (amount_s2 m c k c) (amount_r2 m (fwd c k) k c) (owing c 0 0 (14 - k.val)) (owing_peel2 c k 0 0) (W := W)
      (by rw [payload_s2]; exact BI.Entails.refl _)
      (by rw [payload_r2]; exact hland fn)) $$ [HO HtS HtR Hsrc Hdst]
  · isplitr
    · ihave H := (rec_inv m K (c, iS2 k)) $$ Hrec; rw [kcell_s2]; iexact H
    isplitr
    · ihave H := (rec_inv m K (fwd c k, iR2 k)) $$ Hrec; rw [kcell_r2]; iexact H
    isplitl [Hsrc]; · iexact Hsrc
    isplitl [Hdst]; · iexact Hdst
    isplitl [HO]; · iexact HO
    isplitl [HtS]; · iexact HtS
    isplitr
    · ihave H := (rec_reached m K (c, iS2 k)) $$ Hrec; rw [kcell_s2]; iexact H
    isplitl [HtR]; · iexact HtR
    · ihave H := (rec_reached m K (fwd c k, iR2 k)) $$ Hrec; rw [kcell_r2]; iexact H
  iintro ⟨Hc, HO⟩
  iapply Hk
  isplitr; · iexact Hrec
  isplitl [HO]; · iexists W; rw [e]; iexact HO
  isplitl [Hrest]; · iexact Hrest
  isplitl [Hc]; · iexact Hc
  iexact Hcr

/-! ## The same rules with the step counts as numerals -/

theorem step_sig' (K : Dev nD × Fin 61 → ℕ) (c : Dev nD) (k : Fin 15) (j j' : ℕ) (hj : j = k.val) (hj' : j' = k.val + 1)
    (n : Dev nD) (hn : n = fwd c k) {k' : ℕ} (hk' : k' = 1)
    {α : Type} {Q : α → sProp 𝕄} {kk : PUnit → Prog (TpuEff nD τ sig (Elt F) Λ₀ .tc) α} :
    SA m K c j ⊢ iprop((SA m K c j' -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS k') kk) Q) := by
  subst hj hj'; exact step_sig m K c k n hn hk'

theorem step_send1' (K : Dev nD × Fin 61 → ℕ) (c : Dev nD) (k : Fin 15) (j j' : ℕ) (hj : j = k.val) (hj' : j' = k.val + 1)
    (n : Dev nD) (hn : n = fwd c k)
    (hland : ∀ fd : Buf (Elt F) ((slotM k).view.loc (fwd c k : Thread nD τ)),
      ((slotM k).view.loc (fwd c k : Thread nD τ) ↦[(slotM k).view.set]{fullShare} (slotM k).view.write (Elt F) fd ((srcM c k).view.read (Elt F) (Pc m c)) Finset.univ : sProp 𝕄)
        ⊢ r1Pay m (fwd c k) k)
    {hsc : (slotM k : Memref sig (Dev.tc n : Thread nD τ).2.kind .vmem S16x256 .bf16).view.ref.isScScratch = false}
    {hsrc : (srcM c k).view.WordExact} {hdst : (slotM k).view.WordExact}
    {hsem : DmaTarget.Typed .vmem (.dma (r1 k)) (.remote (Dev.tc n : Thread nD τ) (slotM k) (.dma (s1 k)) hsc)}
    {α : Type} {Q : α → sProp 𝕄} {kk : PUnit → Prog (TpuEff nD τ sig (Elt F) Λ₀ .tc) α} :
    SB m K c j ⊢ iprop((SB m K c j' -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (srcM c k) (.remote (Dev.tc n : Thread nD τ) (slotM k) (.dma (s1 k)) hsc) (.dma (r1 k)) hsrc hdst hsem) kk) Q) := by
  subst hj hj'; exact step_send1 m K c k n hn hland

theorem step_send2' (K : Dev nD × Fin 61 → ℕ) (c : Dev nD) (k : Fin 15) (j j' : ℕ) (hj : j = k.val) (hj' : j' = k.val + 1)
    (n : Dev nD) (hn : n = fwd c k)
    (hland : ∀ fd : Buf (Elt F) ((outRowsM c).view.loc (fwd c k : Thread nD τ)),
      ((outRowsM c).view.loc (fwd c k : Thread nD τ) ↦[(outRowsM c).view.set]{fullShare}
          (outRowsM c).view.write (Elt F) fd ((redM : Memref sig .tc .vmem S16x256 .f32).view.read (Elt F) (RB m c)) Finset.univ : sProp 𝕄)
        ⊢ r2Pay m (fwd c k) k)
    {hsc : (outRowsM c : Memref sig (Dev.tc n : Thread nD τ).2.kind .vmem S16x256 .f32).view.ref.isScScratch = false}
    {hsrc : (redM : Memref sig .tc .vmem S16x256 .f32).view.WordExact} {hdst : (outRowsM c).view.WordExact}
    {hsem : DmaTarget.Typed .vmem (.dma (r2 k)) (.remote (Dev.tc n : Thread nD τ) (outRowsM c) (.dma (s2 k)) hsc)}
    {α : Type} {Q : α → sProp 𝕄} {kk : PUnit → Prog (TpuEff nD τ sig (Elt F) Λ₀ .tc) α} :
    SD m K c j ⊢ iprop((SD m K c j' -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (redM : Memref sig .tc .vmem S16x256 .f32) (.remote (Dev.tc n : Thread nD τ) (outRowsM c) (.dma (s2 k)) hsc) (.dma (r2 k)) hsrc hdst hsem) kk) Q) := by
  subst hj hj'; exact step_send2 m K c k n hn hland

theorem step_wait' (K : Dev nD × Fin 61 → ℕ) (c : Dev nD) (sm : Fin 15 → DmaSem sig) (ix : Fin 15 → Fin 61)
    (hix : ∀ k, kcell (c, ix k) = ((c : Thread nD τ), SemLoc.dma (sm k)))
    (Nn : ℕ) (hexp : ∀ k, (sched (F := F) m).expect ((c : Thread nD τ), SemLoc.dma (sm k)) 0 = Nn)
    (Pay : Fin 15 → sProp 𝕄)
    (hrest : ∀ k, bigSep ((sched (F := F) m).duties ((c : Thread nD τ), SemLoc.dma (sm k)) 0 \ ∅)
        (fun d => (sched (F := F) m).payload ((c : Thread nD τ), SemLoc.dma (sm k)) 0 d) = Pay k)
    (O : CellTallies nD τ sig Unit) (hmay : ∀ k, (levAts L lv : sProp 𝕄) ⊢ MayWait (c : Thread nD τ) (SemLoc.dma (sm k)) () O)
    (k : Fin 15) (j j' : ℕ) (hj : j = k.val) (hj' : j' = k.val + 1) (q : DmaSem sig) (hq : q = sm k)
    {sp sp' : Space} {s s' : Shape} {e e' : EltTy} {src : Memref sig (c : Thread nD τ).2.kind sp' s' e'} {κ' : Idealize.ShloMosaic.Kind} {dst : Memref sig κ' sp s e}
    {hsrc : src.view.WordExact} {hdst : dst.view.WordExact} (hcr : dst.view.dmaCredit = Nn)
    {α : Type} {Q : α → sProp 𝕄} {kk : PUnit → Prog (TpuEff nD τ sig (Elt F) Λ₀ .tc) α} :
    SW m K c sm Nn Pay O j ⊢ iprop((SW m K c sm Nn Pay O j' -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 q src dst hsrc hdst) kk) Q) := by
  subst hj hj' hq; exact step_wait m K c sm ix hix Nn hexp Pay hrest O hmay k hcr

end Cert.KernelIdeal.Mlp

end
-- ==== Proof.Levels.lean ====
/-
  The levels of the cells against what a device owes: a device waits on a cell only while everything it still owes
  sits on cells of a strictly higher level. Entry cells are at level 1, first-phase receive cells at 2, second-phase
  receive cells at 3, every other cell at 0; a device owes entry signals, then first-phase arrivals, then
  second-phase arrivals, each to its successors' cells.
-/
import proofs.«900458_g7700000000000459_dist_mlp2_tp_i_m256_h512_out256_v7x_i16_bf16_1_alg».proof.Proof.Proto

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where a debt is positive -/

theorem tB_pos {c : Dev nD} {j : ℕ} {g : GSem nD τ sig} {u : Unit} (h : 0 < tB c j g u) : ∃ k : Fin 15, g = barCell (fwd c k) := by
  unfold tB at h
  by_cases hj : j < 15
  · rw [dif_pos hj] at h; exact ⟨⟨j, hj⟩, (Pipeline.tallyAt_pos h).1⟩
  · rw [dif_neg hj] at h; exact absurd h (Nat.lt_irrefl 0)
theorem t1_pos {c : Dev nD} {j : ℕ} {g : GSem nD τ sig} {u : Unit} (h : 0 < t1 c j g u) : ∃ k : Fin 15, g = r1Cell (fwd c k) k := by
  unfold t1 at h
  by_cases hj : j < 15
  · rw [dif_pos hj] at h; exact ⟨⟨j, hj⟩, (Pipeline.tallyAt_pos h).1⟩
  · rw [dif_neg hj] at h; exact absurd h (Nat.lt_irrefl 0)
theorem t2_pos {c : Dev nD} {j : ℕ} {g : GSem nD τ sig} {u : Unit} (h : 0 < t2 c j g u) : ∃ k : Fin 15, g = r2Cell (fwd c k) k := by
  unfold t2 at h
  by_cases hj : j < 15
  · rw [dif_pos hj] at h; exact ⟨⟨j, hj⟩, (Pipeline.tallyAt_pos h).1⟩
  · rw [dif_neg hj] at h; exact absurd h (Nat.lt_irrefl 0)

theorem oweB_pos {c : Dev nD} {n : ℕ} {g : GSem nD τ sig} {u : Unit} (h : 0 < oweB c n g u) : 0 < n ∧ ∃ k : Fin 15, g = barCell (fwd c k) := by
  induction n with
  | zero => exact absurd h (Nat.lt_irrefl 0)
  | succ n ih =>
    rw [oweB] at h
    rcases Pipeline.add_pos_cases h with h | h
    · exact ⟨Nat.succ_pos n, (ih h).2⟩
    · exact ⟨Nat.succ_pos n, tB_pos h⟩
theorem owe1_pos {c : Dev nD} {n : ℕ} {g : GSem nD τ sig} {u : Unit} (h : 0 < owe1 c n g u) : 0 < n ∧ ∃ k : Fin 15, g = r1Cell (fwd c k) k := by
  induction n with
  | zero => exact absurd h (Nat.lt_irrefl 0)
  | succ n ih =>
    rw [owe1] at h
    rcases Pipeline.add_pos_cases h with h | h
    · exact ⟨Nat.succ_pos n, (ih h).2⟩
    · exact ⟨Nat.succ_pos n, t1_pos h⟩
theorem owe2_pos {c : Dev nD} {n : ℕ} {g : GSem nD τ sig} {u : Unit} (h : 0 < owe2 c n g u) : 0 < n ∧ ∃ k : Fin 15, g = r2Cell (fwd c k) k := by
  induction n with
  | zero => exact absurd h (Nat.lt_irrefl 0)
  | succ n ih =>
    rw [owe2] at h
    rcases Pipeline.add_pos_cases h with h | h
    · exact ⟨Nat.succ_pos n, (ih h).2⟩
    · exact ⟨Nat.succ_pos n, t2_pos h⟩

/-- Whatever a device still owes sits on a successor's entry cell, first-phase or second-phase receive cell, and only
    while debts of that kind remain. -/
theorem owing_pos {c : Dev nD} {a b d : ℕ} {g : GSem nD τ sig} {u : Unit} (h : 0 < owing c a b d g u) :
    (0 < a ∧ ∃ k : Fin 15, g = barCell (fwd c k)) ∨ (0 < b ∧ ∃ k : Fin 15, g = r1Cell (fwd c k) k)
      ∨ (0 < d ∧ ∃ k : Fin 15, g = r2Cell (fwd c k) k) := by
  unfold owing at h
  rcases Pipeline.add_pos_cases h with h | h
  · rcases Pipeline.add_pos_cases h with h | h
    · exact .inr (.inr (owe2_pos h))
    · exact .inr (.inl (owe1_pos h))
  · exact .inl (oweB_pos h)

/-! ## The levels of the cells -/

theorem lv_bar (c : Dev nD) (u : Unit) : lv (barCell c) u = 1 := by dsimp only [lv]; rw [kind_bar]
theorem lv_s1 (c : Dev nD) (k : Fin 15) (u : Unit) : lv (s1Cell c k) u = 0 := by dsimp only [lv]; rw [kind_s1]
theorem lv_r1 (c : Dev nD) (k : Fin 15) (u : Unit) : lv (r1Cell c k) u = 2 := by dsimp only [lv]; rw [kind_r1]
theorem lv_s2 (c : Dev nD) (k : Fin 15) (u : Unit) : lv (s2Cell c k) u = 0 := by dsimp only [lv]; rw [kind_s2]
theorem lv_r2 (c : Dev nD) (k : Fin 15) (u : Unit) : lv (r2Cell c k) u = 3 := by dsimp only [lv]; rw [kind_r2]

/-- The first four DMA semaphores (the windows' staging semaphores) belong to none of the protocol's families. -/
theorem kind_low (q : DmaSem sig) (hq : q.val < 4) : kindOf (.dma q) = .other := by
  simp only [kindOf]
  split_ifs <;> first | rfl | omega
theorem lv_low (c : Dev nD) (q : DmaSem sig) (hq : q.val < 4) (u : Unit) : lv ((c : Thread nD τ), .dma q) u = 0 := by
  dsimp only [lv]; rw [kind_low q hq]

/-- With `a` entry signals, `b` first-phase and `d` second-phase copies to go, everything owed sits on a
    TensorCore's cell of level above `n`, provided each kind still owed has its level above `n`. -/
theorem owing_above {c : Dev nD} {a b d : ℕ} (n : ℕ) (ha : a = 0 ∨ n < 1) (hb : b = 0 ∨ n < 2) (hd : d = 0 ∨ n < 3)
    {g : GSem nD τ sig} {u : Unit} (h : 0 < owing c a b d g u) : g.1.2 = .tc ∧ n < lv g u := by
  rcases owing_pos h with ⟨h0, k, rfl⟩ | ⟨h0, k, rfl⟩ | ⟨h0, k, rfl⟩
  · refine ⟨rfl, ?_⟩; rw [lv_bar]; rcases ha with ha | ha
    · omega
    · exact ha
  · refine ⟨rfl, ?_⟩; rw [lv_r1]; rcases hb with hb | hb
    · omega
    · exact hb
  · refine ⟨rfl, ?_⟩; rw [lv_r2]; rcases hd with hd | hd
    · omega
    · exact hd

/-! ## The evidence a wait presents -/

/-- A device may wait on a cell of level at most `n` while everything it owes sits above `n`. -/
theorem mayWait_cut (c : Dev nD) (sm : SemLoc sig) (n : ℕ) (O : CellTallies nD τ sig Unit)
    (hsm : lv ((c : Thread nD τ), sm) () ≤ n)
    (hO : ∀ (g : GSem nD τ sig) (u : Unit), 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem mayWait_owing (c : Dev nD) (sm : SemLoc sig) (n a b d : ℕ) (hsm : lv ((c : Thread nD τ), sm) () ≤ n)
    (ha : a = 0 ∨ n < 1) (hb : b = 0 ∨ n < 2) (hd : d = 0 ∨ n < 3) :
    (levAts L lv : sProp 𝕄) ⊢ MayWait (c : Thread nD τ) sm () (owing c a b d) :=
  mayWait_cut c sm n (owing c a b d) hsm fun g u h => owing_above n ha hb hd h

/-- The entry wait: every entry signal sent, a device owes only arrivals, on receive cells (levels 2 and 3, above 1). -/
theorem mayWait_bar (c : Dev nD) (b d : ℕ) : (levAts L lv : sProp 𝕄) ⊢ MayWait (c : Thread nD τ) (.reg barS) () (owing c 0 b d) :=
  mayWait_owing c (.reg barS) 1 0 b d (le_of_eq (lv_bar c ())) (.inl rfl) (.inr (by decide)) (.inr (by decide))
/-- A first-phase arrival's wait: every first-phase copy started, a device owes only second-phase arrivals (level 3, above 2). -/
theorem mayWait_r1 (c : Dev nD) (k : Fin 15) (d : ℕ) : (levAts L lv : sProp 𝕄) ⊢ MayWait (c : Thread nD τ) (.dma (r1 k)) () (owing c 0 0 d) :=
  mayWait_owing c (.dma (r1 k)) 2 0 0 d (le_of_eq (lv_r1 c k ())) (.inl rfl) (.inl rfl) (.inr (by decide))
/-- A second-phase arrival's wait: every copy started, a device owes nothing. -/
theorem mayWait_r2 (c : Dev nD) (k : Fin 15) : (levAts L lv : sProp 𝕄) ⊢ MayWait (c : Thread nD τ) (.dma (r2 k)) () (owing c 0 0 0) :=
  mayWait_owing c (.dma (r2 k)) 3 0 0 0 (le_of_eq (lv_r2 c k ())) (.inl rfl) (.inl rfl) (.inl rfl)
/-- A wait on a cell of level 0 (a staging semaphore, a send cell): whatever the device owes sits above. -/
theorem mayWait_low (c : Dev nD) (sm : SemLoc sig) (hsm : lv ((c : Thread nD τ), sm) () = 0) (a b d : ℕ) :
    (levAts L lv : sProp 𝕄) ⊢ MayWait (c : Thread nD τ) sm () (owing c a b d) :=
  mayWait_owing c sm 0 a b d (le_of_eq hsm) (.inr (by decide)) (.inr (by decide)) (.inr (by decide))
/-- Owing nothing, a device may wait anywhere. -/
theorem mayWait_none (c : Dev nD) (sm : SemLoc sig) : (levAts L lv : sProp 𝕄) ⊢ MayWait (c : Thread nD τ) sm () 0 := by
  rw [← owing_zero c]
  exact mayWait_owing c sm (lv ((c : Thread nD τ), sm) ()) 0 0 0 (le_refl _) (.inl rfl) (.inl rfl) (.inl rfl)

end Cert.KernelIdeal.Mlp

end
-- ==== Proof.Regions.lean ====
/-
  How the kernel's buffers are cut into the parts the devices exchange, and what those parts hold.

  A 256-row buffer is its sixteen blocks of sixteen rows (block `b`: the rows whose number divided by 16 is `b`); the
  receive buffer is its fifteen slots (slot `k`: first coordinate `k`). The blocks are pairwise disjoint and cover the
  buffer, so holding the buffer is holding the blocks separately. The reduction buffer is read by fifteen copies at
  once: its full share is cut into fifteen shares and a remainder by halving fifteen times. A block that a copy or a
  store wrote holds, index by index, the block of the value written.
-/
import proofs.«900458_g7700000000000459_dist_mlp2_tp_i_m256_h512_out256_v7x_i16_bf16_1_alg».proof.Proof.Proto
import Idealize.ShloMosaic.Rules.PointsTo
import Idealize.ShloMosaic.Lib.Pipeline.Value
import Idealize.ShloMosaic.Lib.Memref
import Idealize.ShloMosaic.Lib.ValueIdx
import Idealize.ShloMosaic.Lib.ValueLayout

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Row blocks of a 256-row buffer, and the slots of the receive buffer -/

/-- An index of a 256 × 256 buffer is in the sixteen rows starting at row `16 b` exactly when its row, divided by 16, is `b`. -/
theorem mem_rows {off : Fin 2 → Nat} {b : Nat} (h : off = ![16 * b, 0])
    (inb : ∀ a, off a + S16x256.size a ≤ S256x256.size a) (i : S256x256.Idx) :
    i ∈ (Rect.unit (s := S256x256) off S16x256.size inb).set ↔ (i 0).val / 16 = b := by
  subst h
  rw [Rect.mem_set_unit, Fin.forall_fin_two]
  show ((16 * b ≤ (i 0).val ∧ (i 0).val < 16 * b + 16) ∧ (0 ≤ (i 1).val ∧ (i 1).val < 0 + 256)) ↔ _
  have h1 : (i 1).val < 256 := (i 1).isLt
  constructor
  · rintro ⟨⟨h0, h0'⟩, -⟩; omega
  · intro h; exact ⟨⟨by omega, by omega⟩, Nat.zero_le _, by omega⟩

/-- An index of a 15 × 16 × 256 buffer is in the slab at first coordinate `k` exactly when its first coordinate is `k`. -/
theorem mem_slab {off : Fin 3 → Nat} {k : Nat} (h : off = ![k, 0, 0])
    (inb : ∀ a, off a + S1x16x256.size a ≤ S15x16x256.size a) (i : S15x16x256.Idx) :
    i ∈ (Rect.unit (s := S15x16x256) off S1x16x256.size inb).set ↔ (i 0).val = k := by
  subst h
  rw [Rect.mem_set_unit, Fin.forall_fin_succ, Fin.forall_fin_two]
  show ((k ≤ (i 0).val ∧ (i 0).val < k + 1) ∧ (0 ≤ (i 1).val ∧ (i 1).val < 0 + 16) ∧ (0 ≤ (i 2).val ∧ (i 2).val < 0 + 256)) ↔ _
  have h1 : (i 1).val < 16 := (i 1).isLt
  have h2 : (i 2).val < 256 := (i 2).isLt
  constructor
  · rintro ⟨⟨h0, h0'⟩, -⟩; omega
  · intro h; exact ⟨⟨by omega, by omega⟩, ⟨Nat.zero_le _, by omega⟩, Nat.zero_le _, by omega⟩

/-- An index of the receive buffer is in slot `k` exactly when its first coordinate is `k`. -/
theorem mem_slot (k : Fin 15) (i : S15x16x256.Idx) : i ∈ (slotM k).view.set ↔ (i 0).val = k.val := by
  rw [View.set_reshape, View.set_slice_whole]; exact mem_slab rfl _ i

/-- The rows of the result that device `d` owns: the indices whose row, divided by 16, is `d`. -/
theorem mem_outRows (d : Dev nD) (i : S256x256.Idx) : i ∈ (outRowsM d).view.set ↔ (i 0).val / 16 = d.val := by
  rw [View.set_slice_whole]; exact mem_rows (k0_off3_eq d) _ i

/-- The rows of the send buffer that go to the `k`-th successor: the indices whose row, divided by 16, is that device. -/
theorem mem_src (c : Dev nD) (k : Fin 15) (i : S256x256.Idx) : i ∈ (srcM c k).view.set ↔ (i 0).val / 16 = (fwd c k).val := by
  rw [View.set_slice_whole]; exact mem_rows (k0_off1_eq c k) _ i

/-- A device's own rows of the send buffer. -/
theorem mem_own (c : Dev nD) (i : S256x256.Idx) :
    i ∈ (sendM.access (Rect.unit (s := S256x256) (k0_off2 c) S16x256.size (k0_off2_inb c))).set ↔ (i 0).val / 16 = c.val := by
  rw [View.set_slice_whole]; exact mem_rows (k0_off2_eq c) _ i

/-! ## Cutting the buffers -/

/-- The receive buffer is its fifteen slots. -/
theorem rs_split (c : Dev nD) (f : Buf (Elt F) ((c : Thread nD τ).loc cc0_scratch1)) :
    ((c : Thread nD τ).loc cc0_scratch1 ↦{fullShare} f : sProp 𝕄)
      = bigSep (Finset.univ : Finset (Fin 15)) fun k =>
          (slotM k).view.loc (c : Thread nD τ) ↦[(slotM k).view.set]{fullShare} f := by
  have hU : (Finset.univ : Finset (Idx ((c : Thread nD τ).loc cc0_scratch1)))
      = (Finset.univ : Finset (Fin 15)).biUnion fun k => (slotM k).view.set := by
    ext i
    simp only [Finset.mem_univ, Finset.mem_biUnion, true_and, true_iff]
    exact ⟨⟨(i 0).val, (i 0).isLt⟩, (mem_slot _ i).mpr rfl⟩
  refine (congrArg (fun I => (pointsTo ((c : Thread nD τ).loc cc0_scratch1) I fullShare f : sProp 𝕄)) hU).trans ?_
  exact pointsTo_biUnion _ _ fun k _ k' _ hk => Finset.disjoint_left.mpr fun i hi hi' =>
    hk (Fin.ext (((mem_slot k i).mp hi).symm.trans ((mem_slot k' i).mp hi')))

/-- A row of a 256-row buffer, divided by 16, names a device. -/
theorem row_div_lt (i : S256x256.Idx) : (i 0).val / 16 < nD := by
  have h : (i 0).val < 256 := (i 0).isLt
  show (i 0).val / 16 < 16
  omega

/-- The result buffer is the sixteen devices' row blocks. -/
theorem out_split (c : Dev nD) (f : Buf (Elt F) ((c : Thread nD τ).loc cc0_stg3_0)) :
    ((c : Thread nD τ).loc cc0_stg3_0 ↦{fullShare} f : sProp 𝕄)
      = bigSep (Finset.univ : Finset (Dev nD)) fun d =>
          (outRowsM d).view.loc (c : Thread nD τ) ↦[(outRowsM d).view.set]{fullShare} f := by
  have hU : (Finset.univ : Finset (Idx ((c : Thread nD τ).loc cc0_stg3_0)))
      = (Finset.univ : Finset (Dev nD)).biUnion fun d => (outRowsM d).view.set := by
    ext i
    simp only [Finset.mem_univ, Finset.mem_biUnion, true_and, true_iff]
    exact ⟨⟨(i 0).val / 16, row_div_lt i⟩, (mem_outRows _ i).mpr rfl⟩
  refine (congrArg (fun I => (pointsTo ((c : Thread nD τ).loc cc0_stg3_0) I fullShare f : sProp 𝕄)) hU).trans ?_
  exact pointsTo_biUnion _ _ fun d _ d' _ hd => Finset.disjoint_left.mpr fun i hi hi' =>
    hd (Fin.ext (((mem_outRows d i).mp hi).symm.trans ((mem_outRows d' i).mp hi')))

/-- The send buffer is the device's own row block and the fifteen row blocks that go to its successors. -/
theorem send_split (c : Dev nD) (f : Buf (Elt F) ((c : Thread nD τ).loc cc0_scratch0)) :
    ((c : Thread nD τ).loc cc0_scratch0 ↦{fullShare} f : sProp 𝕄)
      = iprop(((c : Thread nD τ).loc cc0_scratch0
            ↦[(sendM.access (Rect.unit (s := S256x256) (k0_off2 c) S16x256.size (k0_off2_inb c))).set]{fullShare} f)
          ∗ bigSep (Finset.univ : Finset (Fin 15)) fun k =>
              (srcM c k).view.loc (c : Thread nD τ) ↦[(srcM c k).view.set]{fullShare} f) := by
  have hU : (Finset.univ : Finset (Idx ((c : Thread nD τ).loc cc0_scratch0)))
      = (sendM.access (Rect.unit (s := S256x256) (k0_off2 c) S16x256.size (k0_off2_inb c))).set
        ∪ (Finset.univ : Finset (Fin 15)).biUnion fun k => (srcM c k).view.set := by
    ext i
    simp only [Finset.mem_univ, Finset.mem_union, Finset.mem_biUnion, true_and, true_iff]
    by_cases hc : (i 0).val / 16 = c.val
    · exact .inl ((mem_own c i).mpr hc)
    · have hd : (⟨(i 0).val / 16, row_div_lt i⟩ : Dev nD) ≠ c := fun e => hc (congrArg Fin.val e)
      refine .inr ⟨rev (idxOf c ⟨(i 0).val / 16, row_div_lt i⟩), (mem_src c _ i).mpr ?_⟩
      rw [← bwd_eq_fwd_rev, bwd_idxOf c _ hd]
  have hD : Disjoint (sendM.access (Rect.unit (s := S256x256) (k0_off2 c) S16x256.size (k0_off2_inb c))).set
      ((Finset.univ : Finset (Fin 15)).biUnion fun k => (srcM c k).view.set) :=
    (Finset.disjoint_biUnion_right _ _ _).mpr fun k _ => Finset.disjoint_left.mpr fun i hi hi' =>
      fwd_ne c k (Fin.ext (((mem_src c k i).mp hi').symm.trans ((mem_own c i).mp hi)))
  refine (congrArg (fun I => (pointsTo ((c : Thread nD τ).loc cc0_scratch0) I fullShare f : sProp 𝕄)) hU).trans ?_
  have hu := pointsTo_union (Ix := Unit) (Val := Elt F) (Name := ℕ) (U := UU) (Lvl := ℕ) (q := fullShare) (f := f) hD
  refine (BI.equiv_iff.mp ⟨hu.1, hu.2⟩).trans ?_
  refine congrArg (fun X : sProp 𝕄 => iprop(((c : Thread nD τ).loc cc0_scratch0
      ↦[(sendM.access (Rect.unit (s := S256x256) (k0_off2 c) S16x256.size (k0_off2_inb c))).set]{fullShare} f) ∗ X)) ?_
  exact pointsTo_biUnion _ _ fun k _ k' _ hk => Finset.disjoint_left.mpr fun i hi hi' =>
    hk (fwd_inj c k k' (Fin.ext (((mem_src c k i).mp hi).symm.trans ((mem_src c k' i).mp hi'))))

/-- info: 'Cert.KernelIdeal.Mlp.send_split' depends on axioms: [propext, Classical.choice, Quot.sound] -/
#guard_msgs in #print axioms Cert.KernelIdeal.Mlp.send_split

/-! ## Fifteen readers of the reduction buffer -/

/-- A points-to at a share is the points-tos at the share's two halves. -/
theorem pointsTo_halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  have h := pointsTo_share (Ix := Unit) (Val := Elt F) (Name := ℕ) (U := UU) (Lvl := ℕ) (ℓ := ℓ) (I := I) (f := f)
    (PosShare.mem_left_op_right q)
  BI.equiv_iff.mp ⟨h.1, h.2⟩

/-- Halving `n` times: the full share is the left halves taken at the first `n` steps and what is left after them. -/
theorem pointsTo_rpow {ℓ : Loc nD τ sig} (I : Finset (Idx ℓ)) (f : Buf (Elt F) ℓ) (n : ℕ) :
    (ℓ ↦[I]{fullShare} f : sProp 𝕄)
      = iprop((bigSep (Finset.range n) fun j => ℓ ↦[I]{(rpow j).left} f) ∗ ℓ ↦[I]{rpow n} f) := by
  induction n with
  | zero =>
    rw [Finset.range_zero, bigSep_empty]
    exact (BI.equiv_iff.mp ⟨(emp_sep (PROP := sProp 𝕄)).1, (emp_sep (PROP := sProp 𝕄)).2⟩).symm
  | succ n ih =>
    rw [Finset.range_add_one, bigSep_insert Finset.notMem_range_self]
    refine ih.trans ?_
    rw [pointsTo_halves I (rpow n) f]
    show iprop(_ ∗ ((ℓ ↦[I]{(rpow n).left} f) ∗ ℓ ↦[I]{rpow (n + 1)} f)) = _
    have hc := sep_left_comm (PROP := sProp 𝕄)
      (P := bigSep (Finset.range n) fun j => (ℓ ↦[I]{(rpow j).left} f : sProp 𝕄))
      (Q := (ℓ ↦[I]{(rpow n).left} f : sProp 𝕄)) (R := (ℓ ↦[I]{rpow (n + 1)} f : sProp 𝕄))
    have ha := sep_assoc (PROP := sProp 𝕄)
      (P := (ℓ ↦[I]{(rpow n).left} f : sProp 𝕄))
      (Q := bigSep (Finset.range n) fun j => (ℓ ↦[I]{(rpow j).left} f : sProp 𝕄)) (R := (ℓ ↦[I]{rpow (n + 1)} f : sProp 𝕄))
    exact (BI.equiv_iff.mp ⟨hc.1, hc.2⟩).trans (BI.equiv_iff.mp ⟨ha.2, ha.1⟩)

/-- The first fifteen naturals are the values of the fifteen slots' numbers. -/
theorem range_fifteen : Finset.range 15 = (Finset.univ : Finset (Fin 15)).map Fin.valEmbedding := by
  ext j
  simp only [Finset.mem_range, Finset.mem_map, Finset.mem_univ, true_and, Fin.valEmbedding_apply]
  exact ⟨fun h => ⟨⟨j, h⟩, rfl⟩, fun ⟨k, hk⟩ => hk ▸ k.isLt⟩

/-- The reduction buffer's full share is the fifteen shares lent to the fifteen copies that read it, and a remainder. -/
theorem red_split (c : Dev nD) (f : Buf (Elt F) ((c : Thread nD τ).loc cc0_scratch2)) :
    ((c : Thread nD τ).loc cc0_scratch2 ↦{fullShare} f : sProp 𝕄)
      ⊣⊢ iprop((bigSep (Finset.univ : Finset (Fin 15)) fun k =>
            (redM : Memref sig .tc .vmem S16x256 .f32).view.loc (c : Thread nD τ)
              ↦[(redM : Memref sig .tc .vmem S16x256 .f32).view.set]{q2 k} f)
          ∗ ((c : Thread nD τ).loc cc0_scratch2 ↦{rpow 15} f)) := by
  refine .of_eq ((pointsTo_rpow Finset.univ f 15).trans ?_)
  rw [range_fifteen, bigSep_map]
  have hset : (redM : Memref sig .tc .vmem S16x256 .f32).view.set = Finset.univ := View.set_whole _
  rw [hset]
  rfl

/-- info: 'Cert.KernelIdeal.Mlp.red_split' depends on axioms: [propext, Classical.choice, Quot.sound] -/
#guard_msgs in #print axioms Cert.KernelIdeal.Mlp.red_split

/-! ## Where a block's indices sit in its buffer -/

/-- Index `(r, j)` of slot `k` is index `(k, r, j)` of the receive buffer. -/
theorem slot_emb (k : Fin 15) (r : Fin 16) (j : Fin 256) : (slotM k).view.emb (ix2 r j) = ix3 k r j := by
  show (Rect.unit (s := S15x16x256) ![k.val, 0, 0] S1x16x256.size (slot_inb k)).emb (Shape.reshapeEquiv _ (ix2 r j)) = _
  rw [reshapeEquiv_ix2_1ab]
  funext a
  apply Fin.ext
  match a with
  | ⟨0, _⟩ => show k.val + 1 * 0 = k.val; omega
  | ⟨1, _⟩ => show 0 + 1 * r.val = r.val; omega
  | ⟨2, _⟩ => show 0 + 1 * j.val = j.val; omega

/-- Index `(r, j)` of the sixteen rows starting at row `16 b` is index `(16 b + r, j)` of the buffer. -/
theorem rows_emb {off : Fin 2 → Nat} {b : Fin 16} (h : off = ![16 * b.val, 0])
    (inb : ∀ a, off a + S16x256.size a ≤ S256x256.size a) (r : Fin 16) (j : Fin 256) :
    (Rect.unit (s := S256x256) off S16x256.size inb).emb (ix2 r j) = ix2 (MlpValue.rowOf b r) j := by
  subst h
  funext a
  apply Fin.ext
  match a with
  | ⟨0, _⟩ => show 16 * b.val + 1 * r.val = 16 * b.val + r.val; omega
  | ⟨1, _⟩ => show 0 + 1 * j.val = j.val; omega

/-- Index `(r, j)` of the rows that go to the `k`-th successor is index `(16 · fwd c k + r, j)` of the send buffer. -/
theorem src_emb (c : Dev nD) (k : Fin 15) (r : Fin 16) (j : Fin 256) :
    (srcM c k).view.emb (ix2 r j) = ix2 (MlpValue.rowOf (fwd c k) r) j :=
  rows_emb (b := fwd c k) (k0_off1_eq c k) _ r j

/-- Index `(r, j)` of the rows of the result that device `d` owns is index `(16 d + r, j)` of the result buffer. -/
theorem outRows_emb (d : Dev nD) (r : Fin 16) (j : Fin 256) :
    (outRowsM d).view.emb (ix2 r j) = ix2 (MlpValue.rowOf d r) j :=
  rows_emb (b := d) (k0_off3_eq d) _ r j

/-! ## What lands, and what is stored -/

/-- Slot `k` of the `k`-th successor of `c`, once `c`'s copy has landed, holds what that device's receive buffer is to
    hold there: row block `fwd c k` of `c`'s partial product, `c` being the device `k + 1` places before `fwd c k`. -/
theorem land1 (c : Dev nD) (k : Fin 15) (fd : Buf (Elt F) ((slotM k).view.loc (fwd c k : Thread nD τ))) :
    ((slotM k).view.loc (fwd c k : Thread nD τ) ↦[(slotM k).view.set]{fullShare}
        (slotM k).view.write (Elt F) fd ((srcM c k).view.read (Elt F) (Pc m c)) Finset.univ : sProp 𝕄)
      = ((slotM k).view.loc (fwd c k : Thread nD τ) ↦[(slotM k).view.set]{fullShare} RS m (fwd c k)) := by
  refine pointsTo_congr fun i hi => ?_
  obtain ⟨y, rfl⟩ := View.exists_emb_of_mem_set _ hi
  rw [View.write_emb_of_mem _ _ (Finset.mem_univ y)]
  obtain ⟨r, j, rfl⟩ : ∃ r j, y = ix2 r j := ⟨y 0, y 1, eq_ix2 y⟩
  rw [View.read_apply, src_emb, slot_emb]
  rw [cast_cast, cast_eq]
  show _ = Pc m (bwd (fwd c k) k) (ix2 (MlpValue.rowOf (fwd c k) r) j)
  rw [bwd_fwd]

/-- Entry `(16 c + r, j)` of the gathered result is entry `(r, j)` of device `c`'s sum. -/
theorem outOf_rowOf (P : Fin 16 → Vec F S256x256 .bf16) (c r : Fin 16) (j : Fin 256) :
    MlpValue.outOf P (ix2 (MlpValue.rowOf c r) j) = MlpValue.redOf P c (ix2 r j) := by
  have e1 : (16 * c.val + r.val) / 16 = c.val := by omega
  have e2 : (16 * c.val + r.val) % 16 = r.val := by omega
  exact congrArg₂ (fun (d rr : Fin 16) => MlpValue.redOf P d (ix2 rr j))
    (x := ⟨(16 * c.val + r.val) / 16, by omega⟩) (y := ⟨(16 * c.val + r.val) % 16, by omega⟩) (x' := c) (y' := r) (Fin.ext e1) (Fin.ext e2)

/-- Entry `(r, j)` of a device's stored sum is entry `(16 c + r, j)` of the result: the cast to the same shape is the identity. -/
theorem RB_apply (c : Dev nD) (r : Fin 16) (j : Fin 256) :
    RB m c (ix2 r j) = OUT m (ix2 (MlpValue.rowOf c r) j) := by
  unfold RB OUT k0_pay4
  rw [shapeCast_self, outOf_rowOf]
  rfl

/-- The rows of the result that device `c` owns, once `c`'s copy has landed on its `k`-th successor, hold the result. -/
theorem land2 (c : Dev nD) (k : Fin 15) (fd : Buf (Elt F) ((outRowsM c).view.loc (fwd c k : Thread nD τ))) :
    ((outRowsM c).view.loc (fwd c k : Thread nD τ) ↦[(outRowsM c).view.set]{fullShare}
        (outRowsM c).view.write (Elt F) fd ((redM : Memref sig .tc .vmem S16x256 .f32).view.read (Elt F) (RB m c)) Finset.univ : sProp 𝕄)
      = ((outRowsM c).view.loc (fwd c k : Thread nD τ) ↦[(outRowsM c).view.set]{fullShare} OUT m) := by
  refine pointsTo_congr fun i hi => ?_
  obtain ⟨y, rfl⟩ := View.exists_emb_of_mem_set _ hi
  rw [View.write_emb_of_mem _ _ (Finset.mem_univ y)]
  obtain ⟨r, j, rfl⟩ : ∃ r j, y = ix2 r j := ⟨y 0, y 1, eq_ix2 y⟩
  rw [outRows_emb, cast_eq]
  exact RB_apply m c r j

/-- A device's own rows of the result and the rows its store goes through are the same sixteen rows. -/
theorem own_store_set (c : Dev nD) :
    (outM.access (Rect.unit (s := S256x256) (k0_off2 c) S16x256.size (k0_off2_inb c))).setOn Finset.univ
      = (outRowsM c).view.set := by
  rw [View.setOn_univ, View.set_slice_whole, View.set_slice_whole]
  exact Finset.ext fun i => (mem_rows (k0_off2_eq c) _ i).trans (mem_rows (k0_off3_eq c) _ i).symm

/-- A device's own rows of the result, after it stores its sum there, hold the result. -/
theorem store_own (c : Dev nD) (f : Buf (Elt F) ((c : Thread nD τ).loc cc0_stg3_0)) :
    ((c : Thread nD τ).loc cc0_stg3_0 ↦[(outRowsM c).view.set]{fullShare}
        (outM.access (Rect.unit (s := S256x256) (k0_off2 c) S16x256.size (k0_off2_inb c))).write (Elt F) f
          (k0_pay3 (MlpValue.rowBlk (Pc m c) c) (RS m c)) Finset.univ : sProp 𝕄)
      = ((c : Thread nD τ).loc cc0_stg3_0 ↦[(outRowsM c).view.set]{fullShare} OUT m) := by
  refine pointsTo_congr fun i hi => ?_
  obtain ⟨y, rfl⟩ := View.exists_emb_of_mem_set _ hi
  obtain ⟨r, j, rfl⟩ : ∃ r j, y = ix2 r j := ⟨y 0, y 1, eq_ix2 y⟩
  have e : (outRowsM c).view.emb (ix2 r j)
      = (outM.access (Rect.unit (s := S256x256) (k0_off2 c) S16x256.size (k0_off2_inb c))).emb (ix2 r j) :=
    (outRows_emb c r j).trans (rows_emb (b := c) (k0_off2_eq c) _ r j).symm
  rw [e, View.write_emb_of_mem _ _ (Finset.mem_univ _), cast_eq, ← e, outRows_emb]
  exact (outOf_rowOf (Pc m) c r j).symm

/-! ## Loads and whole-buffer stores -/

/-- The load of a device's own rows of its send buffer reads its own row block of the partial product. -/
theorem read_own (c : Dev nD) :
    sendM.view.readAt (Elt F) (Rect.unit (s := S256x256) (k0_off2 c) S16x256.size (k0_off2_inb c)).toLoadRect (Pc m c)
      = MlpValue.rowBlk (Pc m c) c := by
  funext y
  obtain ⟨r, j, rfl⟩ : ∃ r j, y = ix2 r j := ⟨y 0, y 1, eq_ix2 y⟩
  rw [View.readAt_apply, View.read_apply]
  have e : sendM.view.emb ((Rect.unit (s := S256x256) (k0_off2 c) S16x256.size (k0_off2_inb c)).toLoadRect.idx (ix2 r j))
      = ix2 (MlpValue.rowOf c r) j := rows_emb (b := c) (k0_off2_eq c) _ r j
  rw [e, cast_eq]
  rfl

/-- Three zeros are the zero offsets. -/
theorem zeros3 : (![0, 0, 0] : Fin 3 → Nat) = fun _ => 0 := by
  funext a; match a with | ⟨0, _⟩ => rfl | ⟨1, _⟩ => rfl | ⟨2, _⟩ => rfl
/-- Two zeros are the zero offsets. -/
theorem zeros2 : (![0, 0] : Fin 2 → Nat) = fun _ => 0 := by
  funext a; match a with | ⟨0, _⟩ => rfl | ⟨1, _⟩ => rfl

/-- The load of the whole receive buffer reads its contents. -/
theorem read_rs (g : (cc0_scratch1 : Ref sig .tc).ty.Contents (Elt F)) :
    rsM.view.readAt (Elt F) (Rect.unit (s := S15x16x256) ![0, 0, 0] S15x16x256.size inb_S15x16x256_S15x16x256_0_0_0).toLoadRect g = g :=
  Memref.readAt_unit_zero (Elt F) cc0_scratch1 zeros3 _ g

/-- The load of the whole reduction buffer reads its contents. -/
theorem read_red (g : (cc0_scratch2 : Ref sig .tc).ty.Contents (Elt F)) :
    (redM : Memref sig .tc .vmem S16x256 .f32).view.readAt (Elt F)
      (Rect.unit (s := S16x256) ![0, 0] S16x256.size inb_S16x256_S16x256_0_0).toLoadRect g = g :=
  Memref.readAt_unit_zero (Elt F) cc0_scratch2 zeros2 _ g

/-- The load of the whole send buffer reads its contents. -/
theorem read_send (g : (cc0_scratch0 : Ref sig .tc).ty.Contents (Elt F)) :
    sendM.view.readAt (Elt F) (Rect.unit (s := S256x256) ![0, 0] S256x256.size inb_S256x256_S256x256_0_0).toLoadRect g = g :=
  Memref.readAt_unit_zero (Elt F) cc0_scratch0 zeros2 _ g

/-- An unmasked store through the whole send buffer leaves what was stored. -/
theorem write_send (f w : (cc0_scratch0 : Ref sig .tc).ty.Contents (Elt F)) :
    (sendM.access (Rect.unit (s := S256x256) ![0, 0] S256x256.size inb_S256x256_S256x256_0_0)).write (Elt F) f w Finset.univ = w :=
  Memref.write_access_unit_zero_univ (Elt F) cc0_scratch0 zeros2 _ f w

/-- An unmasked store through the whole reduction buffer leaves what was stored. -/
theorem write_red (f w : (cc0_scratch2 : Ref sig .tc).ty.Contents (Elt F)) :
    ((redM : Memref sig .tc .vmem S16x256 .f32).access
      (Rect.unit (s := S16x256) ![0, 0] S16x256.size inb_S16x256_S16x256_0_0)).write (Elt F) f w Finset.univ = w :=
  Memref.write_access_unit_zero_univ (Elt F) cc0_scratch2 zeros2 _ f w

/-- info: 'Cert.KernelIdeal.Mlp.store_own' depends on axioms: [propext, Classical.choice, Quot.sound] -/
#guard_msgs in #print axioms Cert.KernelIdeal.Mlp.store_own
/-- info: 'Cert.KernelIdeal.Mlp.land1' depends on axioms: [propext, Classical.choice, Quot.sound] -/
#guard_msgs in #print axioms Cert.KernelIdeal.Mlp.land1

end Cert.KernelIdeal.Mlp

end
-- ==== Proof.Closing.lean ====
/-
  The end of a device's protocol: it closes the cells it alone still holds, and puts its buffers back together.

  Each of a device's sixty own cells has one round; once the device stands past it, with nothing more due on the cell,
  the cell's counter is the device's again, at zero. The row blocks and slots handed back by the fifteen peers, with the
  device's own, are the whole buffers again; the fifteen lent shares of the reduction buffer and the remainder are its
  full share; and the two stores of the sum of the sixteen row blocks leave the device's sum and its rows of the result.
-/
import proofs.«900458_g7700000000000459_dist_mlp2_tp_i_m256_h512_out256_v7x_i16_bf16_1_alg».proof.Proof.Steps
import proofs.«900458_g7700000000000459_dist_mlp2_tp_i_m256_h512_out256_v7x_i16_bf16_1_alg».proof.Proof.Regions
import Idealize.SL.ProofMode.BigOp

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## A device closes its own cells -/

/-- A device that has consumed the one round of each of fifteen of its own cells closes them: each cell's counter is
    its own again, at zero. No round after the first has a duty, and the device holds its position at round one with
    nothing taken. -/
theorem close_family (K : Dev nD × Fin 61 → ℕ) (c : Dev nD) (sm : Fin 15 → DmaSem sig) (ix : Fin 15 → Fin 61)
    (hix : ∀ k, kcell (c, ix k) = ((c : Thread nD τ), SemLoc.dma (sm k))) :
    iprop(records m K ∗ bigSep (Finset.univ : Finset (Fin 15)) fun k => atPos ER ((c : Thread nD τ), SemLoc.dma (sm k)) 1 ∅ 0)
      ⊢ iprop(|={Set.univ}=> bigSep (Finset.univ : Finset (Fin 15)) fun k => semVal ((c : Thread nD τ), SemLoc.dma (sm k)) 0) := by
  refine (bigSep_with_persistent (R := records m K)
    (Ψ := fun k => iprop(|={Set.univ}=> semVal ((c : Thread nD τ), SemLoc.dma (sm k)) 0)) fun k _ => ?_).trans (bigSep_fupd _ _)
  refine (sep_mono_left ((rec_inv m K (c, ix k)).trans (Entails.of_eq (by rw [hix k])))).trans ?_
  exact Rounds.cell_close ER (sched m) (Set.mem_univ (K (c, ix k))) (fun h => h) (R := 0 + 1) (duties_later m _)

/-! ## The sixty cells of the four families -/

theorem iS1_inj : Function.Injective iS1 := fun a b h =>
  Fin.ext (by have h' : 1 + a.val = 1 + b.val := congrArg Fin.val h; omega)
theorem iR1_inj : Function.Injective iR1 := fun a b h =>
  Fin.ext (by have h' : 16 + a.val = 16 + b.val := congrArg Fin.val h; omega)
theorem iS2_inj : Function.Injective iS2 := fun a b h =>
  Fin.ext (by have h' : 31 + a.val = 31 + b.val := congrArg Fin.val h; omega)
theorem iR2_inj : Function.Injective iR2 := fun a b h =>
  Fin.ext (by have h' : 46 + a.val = 46 + b.val := congrArg Fin.val h; omega)

/-- The numbers 1 … 60 are the four runs of fifteen. -/
theorem erase_zero_families : (Finset.univ.erase (0 : Fin 61))
    = Finset.univ.image iS1 ∪ (Finset.univ.image iR1 ∪ (Finset.univ.image iS2 ∪ Finset.univ.image iR2)) := by
  decide +kernel
theorem disj_S1 : Disjoint (Finset.univ.image iS1) (Finset.univ.image iR1 ∪ (Finset.univ.image iS2 ∪ Finset.univ.image iR2)) := by
  decide +kernel
theorem disj_R1 : Disjoint (Finset.univ.image iR1) (Finset.univ.image iS2 ∪ Finset.univ.image iR2) := by
  decide +kernel
theorem disj_S2 : Disjoint (Finset.univ.image iS2) (Finset.univ.image iR2) := by
  decide +kernel

/-- The four families' closed cells are the device's sixty cells other than the entry cell, closed. -/
theorem phi1_sems (c : Dev nD) :
    (iprop((bigSep Finset.univ fun k : Fin 15 => semVal (s1Cell c k) 0)
        ∗ (bigSep Finset.univ fun k : Fin 15 => semVal (r1Cell c k) 0)
        ∗ (bigSep Finset.univ fun k : Fin 15 => semVal (s2Cell c k) 0)
        ∗ (bigSep Finset.univ fun k : Fin 15 => semVal (r2Cell c k) 0)) : sProp 𝕄)
      ⊢ bigSep (Finset.univ.erase (0 : Fin 61)) fun i => semVal (kcell (c, i)) 0 := by
  rw [erase_zero_families, bigSep_union disj_S1, bigSep_union disj_R1, bigSep_union disj_S2,
    bigSep_image_of_injOn iS1_inj.injOn, bigSep_image_of_injOn iR1_inj.injOn,
    bigSep_image_of_injOn iS2_inj.injOn, bigSep_image_of_injOn iR2_inj.injOn]
  simp only [kcell_s1, kcell_r1, kcell_s2, kcell_r2]
  exact Entails.of_eq rfl

/-! ## Putting the buffers back together -/

/-- A device's own rows of the result and the fifteen other devices' rows are the whole result buffer. -/
theorem out_join (c : Dev nD) :
    (iprop(((outRowsM c).view.loc (c : Thread nD τ) ↦[(outRowsM c).view.set]{fullShare} OUT m)
        ∗ bigSep (Finset.univ : Finset (Fin 15)) fun k =>
            (outRowsM (bwd c k)).view.loc (c : Thread nD τ) ↦[(outRowsM (bwd c k)).view.set]{fullShare} OUT m) : sProp 𝕄)
      ⊢ ((c : Thread nD τ).loc cc0_stg3_0 ↦{fullShare} OUT m) := by
  rw [out_split c (OUT m), bigSep_univ_at _ c, erase_eq_map c, bigSep_image_of_injOn (fun a _ b _ h => by
    have := congrArg (idxOf c) h; rwa [idxOf_bwd, idxOf_bwd] at this)]

/-- A device's own rows of its send buffer and the fifteen row blocks it sent are the whole send buffer. -/
theorem send_join (c : Dev nD) :
    (iprop(((c : Thread nD τ).loc cc0_scratch0
            ↦[(sendM.access (Rect.unit (s := S256x256) (k0_off2 c) S16x256.size (k0_off2_inb c))).set]{fullShare} Pc m c)
        ∗ bigSep (Finset.univ : Finset (Fin 15)) fun k =>
            (srcM c k).view.loc (c : Thread nD τ) ↦[(srcM c k).view.set]{fullShare} Pc m c) : sProp 𝕄)
      ⊢ ((c : Thread nD τ).loc cc0_scratch0 ↦{fullShare} Pc m c) :=
  Entails.of_eq (send_split c (Pc m c)).symm

/-- The fifteen landed slots are the whole receive buffer. -/
theorem rs_join (c : Dev nD) :
    (iprop(bigSep (Finset.univ : Finset (Fin 15)) fun k => r1Pay m c k) : sProp 𝕄)
      ⊢ ((c : Thread nD τ).loc cc0_scratch1 ↦{fullShare} RS m c) := by
  unfold r1Pay
  exact Entails.of_eq (rs_split c (RS m c)).symm

/-- The fifteen shares lent to the copies and the remainder are the reduction buffer's full share. -/
theorem red_join (c : Dev nD) :
    (iprop((bigSep (Finset.univ : Finset (Fin 15)) fun k => s2Pay m c k)
        ∗ ((c : Thread nD τ).loc cc0_scratch2 ↦{rpow 15} RB m c)) : sProp 𝕄)
      ⊢ ((c : Thread nD τ).loc cc0_scratch2 ↦{fullShare} RB m c) := by
  unfold s2Pay
  exact (red_split c (RB m c)).2

/-! ## The two stores of the sum -/

/-- The reduction buffer after the store of the sum of the loaded row blocks holds the device's sum. -/
theorem reduce_red (c : Dev nD) (fD : (cc0_scratch2 : Ref sig .tc).ty.Contents (Elt F)) :
    ((redM : Memref sig .tc .vmem S16x256 .f32).access (Rect.unit (s := S16x256) ![0, 0] S16x256.size inb_S16x256_S16x256_0_0)).write
        (Elt F) fD
        (k0_pay4
          (sendM.view.readAt (Elt F) (Rect.unit (s := S256x256) (k0_off2 c) S16x256.size (k0_off2_inb c)).toLoadRect (Pc m c))
          (rsM.view.readAt (Elt F) (Rect.unit (s := S15x16x256) ![0, 0, 0] S15x16x256.size inb_S15x16x256_S15x16x256_0_0_0).toLoadRect (RS m c)))
        Finset.univ
      = RB m c := by
  rw [write_red, read_own, read_rs]
  rfl

/-- A device's own rows of the result, after the store of the sum of the loaded row blocks, hold the result. -/
theorem store_own_reads (c : Dev nD) (f : Buf (Elt F) ((c : Thread nD τ).loc cc0_stg3_0)) :
    ((c : Thread nD τ).loc cc0_stg3_0 ↦[(outRowsM c).view.set]{fullShare}
        (outM.access (Rect.unit (s := S256x256) (k0_off2 c) S16x256.size (k0_off2_inb c))).write (Elt F) f
          (k0_pay3
            (sendM.view.readAt (Elt F) (Rect.unit (s := S256x256) (k0_off2 c) S16x256.size (k0_off2_inb c)).toLoadRect (Pc m c))
            (rsM.view.readAt (Elt F) (Rect.unit (s := S15x16x256) ![0, 0, 0] S15x16x256.size inb_S15x16x256_S15x16x256_0_0_0).toLoadRect (RS m c)))
          Finset.univ : sProp 𝕄)
      = ((c : Thread nD τ).loc cc0_stg3_0 ↦[(outRowsM c).view.set]{fullShare} OUT m) := by
  rw [read_own, read_rs]
  exact store_own m c f

/-- info: 'Cert.KernelIdeal.Mlp.close_family' depends on axioms: [propext, Classical.choice, Quot.sound] -/
#guard_msgs in #print axioms Cert.KernelIdeal.Mlp.close_family
/-- info: 'Cert.KernelIdeal.Mlp.phi1_sems' depends on axioms: [propext, Classical.choice, Quot.sound] -/
#guard_msgs in #print axioms Cert.KernelIdeal.Mlp.phi1_sems
/-- info: 'Cert.KernelIdeal.Mlp.out_join' depends on axioms: [propext, Classical.choice, Quot.sound] -/
#guard_msgs in #print axioms Cert.KernelIdeal.Mlp.out_join

/-- info: 'Cert.KernelIdeal.Mlp.store_own_reads' depends on axioms: [propext, Classical.choice, Quot.sound] -/
#guard_msgs in #print axioms Cert.KernelIdeal.Mlp.store_own_reads

end Cert.KernelIdeal.Mlp

end
-- ==== Proof.Body.lean ====
/-
  One device's body, stepped from what the launch hands it to what it hands back.
-/
import proofs.«900458_g7700000000000459_dist_mlp2_tp_i_m256_h512_out256_v7x_i16_bf16_1_alg».proof.Proof.Steps
import proofs.«900458_g7700000000000459_dist_mlp2_tp_i_m256_h512_out256_v7x_i16_bf16_1_alg».proof.Proof.Levels
import proofs.«900458_g7700000000000459_dist_mlp2_tp_i_m256_h512_out256_v7x_i16_bf16_1_alg».proof.Proof.Closing

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reindexing -/

theorem bigSep_rev (Φ : Fin 15 → sProp 𝕄) : bigSep Finset.univ (fun k => Φ (rev k)) = bigSep Finset.univ Φ :=
  (bigSep_univ_equiv revEquiv Φ).symm

theorem erase_eq_image_fwd : ∀ c : Dev nD, (Finset.univ.erase c : Finset (Dev nD)) = (Finset.univ : Finset (Fin 15)).image (fwd c) := by decide

theorem others_fwd (c : Dev nD) (Φ : Dev nD → sProp 𝕄) : bigSep (Finset.univ.erase c) Φ = bigSep Finset.univ (fun k : Fin 15 => Φ (fwd c k)) := by
  rw [erase_eq_image_fwd, bigSep_image_of_injOn (fun a _ b _ h => fwd_inj c a b h)]
theorem others_bwd (c : Dev nD) (Φ : Dev nD → sProp 𝕄) : bigSep (Finset.univ.erase c) Φ = bigSep Finset.univ (fun k : Fin 15 => Φ (bwd c k)) := by
  rw [erase_eq_map, bigSep_image_of_injOn (fun a _ b _ h => by have := congrArg (idxOf c) h; rwa [idxOf_bwd, idxOf_bwd] at this)]

theorem fin61_cover : (Finset.univ : Finset (Fin 61)) = insert 0 (((Finset.univ.image iS1 ∪ Finset.univ.image iR1) ∪ Finset.univ.image iS2) ∪ Finset.univ.image iR2) := by decide

/-- A `bigSep` over a device's sixty-one cells: the entry cell and the four families. -/
theorem fin61_split (Φ : Fin 61 → sProp 𝕄) :
    bigSep Finset.univ Φ = iprop(Φ 0 ∗ (((bigSep Finset.univ fun k => Φ (iS1 k)) ∗ bigSep Finset.univ fun k => Φ (iR1 k)) ∗ bigSep Finset.univ fun k => Φ (iS2 k)) ∗ bigSep Finset.univ fun k => Φ (iR2 k)) := by
  rw [fin61_cover, bigSep_insert' (by decide), bigSep_union (by decide), bigSep_union (by decide), bigSep_union (by decide),
    bigSep_image_of_injOn (fun a _ b _ h => iS1_inj h), bigSep_image_of_injOn (fun a _ b _ h => iR1_inj h),
    bigSep_image_of_injOn (fun a _ b _ h => iS2_inj h), bigSep_image_of_injOn (fun a _ b _ h => iR2_inj h)]
  rfl

theorem slotE_intro (c : Dev nD) (k : Fin 15) (f : Buf (Elt F) ((slotM k).view.loc (c : Thread nD τ))) :
    ((slotM k).view.loc (c : Thread nD τ) ↦[(slotM k).view.set]{fullShare} f : sProp 𝕄) ⊢ slotE c k := by
  unfold slotE; iintro H; iexists f; iexact H
theorem rowsE_intro (c d : Dev nD) (f : Buf (Elt F) ((outRowsM d).view.loc (c : Thread nD τ))) :
    ((outRowsM d).view.loc (c : Thread nD τ) ↦[(outRowsM d).view.set]{fullShare} f : sProp 𝕄) ⊢ rowsE c d := by
  unfold rowsE; iintro H; iexists f; iexact H

/-! ## The partial product stored -/

theorem read_x (g : (cc0_stg0_0 : Ref sig .tc).ty.Contents (Elt F)) :
    xM.view.readAt (Elt F) (Rect.unit (s := S256x256) ![0, 0] S256x256.size inb_S256x256_S256x256_0_0).toLoadRect g = g :=
  Memref.readAt_unit_zero (Elt F) cc0_stg0_0 zeros2 _ g
theorem read_w1 (g : (cc0_stg1_0 : Ref sig .tc).ty.Contents (Elt F)) :
    w1M.view.readAt (Elt F) (Rect.unit (s := S256x512) ![0, 0] S256x512.size inb_S256x512_S256x512_0_0).toLoadRect g = g :=
  Memref.readAt_unit_zero (Elt F) cc0_stg1_0 zeros2 _ g
theorem read_w2 (g : (cc0_stg2_0 : Ref sig .tc).ty.Contents (Elt F)) :
    w2M.view.readAt (Elt F) (Rect.unit (s := S512x256) ![0, 0] S512x256.size inb_S512x256_S512x256_0_0).toLoadRect g = g :=
  Memref.readAt_unit_zero (Elt F) cc0_stg2_0 zeros2 _ g

/-- The send buffer after the store holds the device's partial product. -/
theorem send_store (c : Dev nD) (fS : (cc0_scratch0 : Ref sig .tc).ty.Contents (Elt F)) :
    (sendM.access (Rect.unit (s := S256x256) ![0, 0] S256x256.size inb_S256x256_S256x256_0_0)).write (Elt F) fS
      (k0_pay2 (k0_pay1
        (xM.view.readAt (Elt F) (Rect.unit (s := S256x256) ![0, 0] S256x256.size inb_S256x256_S256x256_0_0).toLoadRect (Xc m c))
        (w1M.view.readAt (Elt F) (Rect.unit (s := S256x512) ![0, 0] S256x512.size inb_S256x512_S256x512_0_0).toLoadRect (W1c m c))
        (w2M.view.readAt (Elt F) (Rect.unit (s := S512x256) ![0, 0] S512x256.size inb_S512x256_S512x256_0_0).toLoadRect (W2c m c)))) Finset.univ
      = Pc m c := by
  rw [write_send, read_x, read_w1, read_w2]; rfl

/-! ## The body -/

/-- What the body hands back: the scratch buffers whole and its own cells closed, nothing owed, the three argument windows as
    found and the result window holding the gathered sums. -/
def bodyPost (c : Dev nD) : sProp 𝕄 :=
  iprop(Φ₁ c ∗ (dats m 0 c).owesAt () t0_0.succ
    ∗ (∃ f, ⌜f = (dats m 0 c).after 0 t0_0⌝ ∗ (c : Thread nD τ).loc cc0_stg0_0 ↦{fullShare} f)
    ∗ (∃ f, ⌜f = (dats m 0 c).after 1 t0_0⌝ ∗ (c : Thread nD τ).loc cc0_stg1_0 ↦{fullShare} f)
    ∗ (∃ f, ⌜f = (dats m 0 c).after 2 t0_0⌝ ∗ (c : Thread nD τ).loc cc0_stg2_0 ↦{fullShare} f)
    ∗ (∃ f, ⌜f = (dats m 0 c).after 3 t0_0⌝ ∗ (c : Thread nD τ).loc cc0_stg3_0 ↦{fullShare} f))

set_option maxRecDepth 65536 in
set_option maxHeartbeats 4000000 in
/-- The body, one rule per statement in program order. -/
theorem sound_body (c : Dev nD) (Kt : PUnit → sProp 𝕄) :
    iprop((dats m 0 c).Φ t0_0.castSucc ∗ (dats m 0 c).owesAt () t0_0.castSucc
        ∗ (∃ d f, ⌜f = (dats m 0 c).before 0 t0_0 d⌝ ∗ (c : Thread nD τ).loc cc0_stg0_0 ↦{fullShare} f)
        ∗ (∃ d f, ⌜f = (dats m 0 c).before 1 t0_0 d⌝ ∗ (c : Thread nD τ).loc cc0_stg1_0 ↦{fullShare} f)
        ∗ (∃ d f, ⌜f = (dats m 0 c).before 2 t0_0 d⌝ ∗ (c : Thread nD τ).loc cc0_stg2_0 ↦{fullShare} f)
        ∗ (∃ d f, ⌜f = (dats m 0 c).before 3 t0_0 d⌝ ∗ (c : Thread nD τ).loc cc0_stg3_0 ↦{fullShare} f)
        ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  simp only [k0_part27_eq_skeleton]; unfold k0_part27_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c, dev36_eq c, dev37_eq c, dev38_eq c, dev39_eq c, dev40_eq c, dev41_eq c, dev42_eq c, dev43_eq c, dev44_eq c, dev45_eq c]
  rw [show (dats m 0 c).Φ t0_0.castSucc = Φ₀ m c from rfl]
  unfold Φ₀ start ghost creds scratch payToks positions Dat.owesAt Pipeline.owesWithin
  rw [show (dats m 0 c).owed t0_0.castSucc = O₀ c from rfl, bigSep_sep', bigSep_sep', bigSep_sep', bigSep_sep', fin61_split]
  iintro ⟨⟨⟨⟨%K, #Hrec, ⟨HaB, ⟨⟨⟨HaS1, HaR1⟩, HaS2⟩, HaR2⟩⟩, ⟨HtB, HtR1, HtR2, HtS1, HtS2⟩⟩, ⟨HcB, HcR1, HcR2⟩, #Hlev⟩, ⟨%fS, HS⟩, ⟨%fR, HR⟩, ⟨%fD, HD⟩⟩, ⟨%W0, %hW0, HO⟩,
    ⟨%d0, %g0, %hg0, Hx⟩, ⟨%d1, %g1, %hg1, Hw1⟩, ⟨%d2, %g2, %hg2, Hw2⟩, ⟨%d3, %g3, %hg3, Hout⟩, Hk⟩
  -- the receive buffer by slots, the result buffer by row blocks
  ihave HR := (Entails.of_eq (rs_split c fR)) $$ HR
  ihave Hout := (Entails.of_eq ((out_split c g3).trans ((bigSep_univ_at _ c).trans (congrArg (fun X => iprop(_ ∗ X)) (others_fwd c _))))) $$ Hout
  icases Hout with ⟨Hown, Hothers⟩
  ihave HA := (show iprop(records m K ∗ (∃ W, owes (c : Thread nD τ) (O₀ c) W)
      ∗ (bigSep Finset.univ fun k : Fin 15 => dutyTok ER (barCell (fwd c k)) 0 c)
      ∗ (bigSep Finset.univ fun k : Fin 15 => (slotM k).view.loc (c : Thread nD τ) ↦[(slotM k).view.set]{fullShare} fR)
      ∗ (bigSep Finset.univ fun k : Fin 15 => (outRowsM (fwd c k)).view.loc (c : Thread nD τ) ↦[(outRowsM (fwd c k)).view.set]{fullShare} g3))
      ⊢ SA m K c 0 from by
    unfold SA
    rw [ge_zero, bigSep_sep', bigSep_sep', bigSep_rev (fun j => slotE (F := F) c j)]
    iintro ⟨#H1, H2, H3, H4, H5⟩
    isplitr; · iexact H1
    isplitl [H2]; · iexact H2
    isplitl [H3]; · iexact H3
    isplitl [H4]
    · iapply (show (bigSep Finset.univ (fun k : Fin 15 => (slotM k).view.loc (c : Thread nD τ) ↦[(slotM k).view.set]{fullShare} fR) : sProp 𝕄) ⊢ bigSep Finset.univ (fun k : Fin 15 => slotE c k) from
        bigSep_mono (fun k _ => slotE_intro c k fR)) $$ H4
    · iapply (show (bigSep Finset.univ (fun k : Fin 15 => (outRowsM (fwd c k)).view.loc (c : Thread nD τ) ↦[(outRowsM (fwd c k)).view.set]{fullShare} g3) : sProp 𝕄) ⊢ bigSep Finset.univ (fun k : Fin 15 => rowsE c (fwd c k)) from
        bigSep_mono (fun k _ => rowsE_intro c (fwd c k) g3)) $$ H5) $$ [HO HtB HR Hothers]
  · isplitr; · iexact Hrec
    isplitl [HO]; · iexists W0; iexact HO
    isplitl [HtB]; · iexact HtB
    isplitl [HR]; · iexact HR
    iexact Hothers
  iapply (step_sig' m K c 0 0 1 rfl rfl _ rfl (by decide)) $$ HA; iintro HA
  iapply (step_sig' m K c 1 1 2 rfl rfl _ rfl (by decide)) $$ HA; iintro HA
  iapply (step_sig' m K c 2 2 3 rfl rfl _ rfl (by decide)) $$ HA; iintro HA
  iapply (step_sig' m K c 3 3 4 rfl rfl _ rfl (by decide)) $$ HA; iintro HA
  iapply (step_sig' m K c 4 4 5 rfl rfl _ rfl (by decide)) $$ HA; iintro HA
  iapply (step_sig' m K c 5 5 6 rfl rfl _ rfl (by decide)) $$ HA; iintro HA
  iapply (step_sig' m K c 6 6 7 rfl rfl _ rfl (by decide)) $$ HA; iintro HA
  iapply (step_sig' m K c 7 7 8 rfl rfl _ rfl (by decide)) $$ HA; iintro HA
  iapply (step_sig' m K c 8 8 9 rfl rfl _ rfl (by decide)) $$ HA; iintro HA
  iapply (step_sig' m K c 9 9 10 rfl rfl _ rfl (by decide)) $$ HA; iintro HA
  iapply (step_sig' m K c 10 10 11 rfl rfl _ rfl (by decide)) $$ HA; iintro HA
  iapply (step_sig' m K c 11 11 12 rfl rfl _ rfl (by decide)) $$ HA; iintro HA
  iapply (step_sig' m K c 12 12 13 rfl rfl _ rfl (by decide)) $$ HA; iintro HA
  iapply (step_sig' m K c 13 13 14 rfl rfl _ rfl (by decide)) $$ HA; iintro HA
  iapply (step_sig' m K c 14 14 15 rfl rfl _ rfl (by decide)) $$ HA; iintro HA
  -- the partial product: three loads, then the send buffer stored whole
  have hz2 : (![0, 0] : Fin 2 → Nat) = fun _ => 0 := funext fun a => by fin_cases a <;> rfl
  have hx : g0 = Xc m c := by rw [hg0]; unfold Dat.before; rw [if_pos (fetch0_0 t0_0)]; rfl
  have hw1 : g1 = W1c m c := by rw [hg1]; unfold Dat.before; rw [if_pos (fetch0_1 t0_0)]; rfl
  have hw2 : g2 = W2c m c := by rw [hg2]; unfold Dat.before; rw [if_pos (fetch0_2 t0_0)]; rfl
  subst hx hw1 hw2
  iapply (wp_load 𝒱₀ (c : Thread nD τ) none Set.univ (m := xM) (Finset.subset_univ _)) $$ Hx; iintro Hx
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  iapply (wp_load 𝒱₀ (c : Thread nD τ) none Set.univ (m := sendM) (Finset.subset_univ _)) $$ HS; iintro HS
  iapply (wp_store 𝒱₀ (c : Thread nD τ) none Set.univ (m := sendM) (r := Rect.unit (s := S256x256) ![0, 0] S256x256.size inb_S256x256_S256x256_0_0)
    (Mk := Finset.univ) (Finset.subset_univ _)) $$ HS; iintro HS
  -- the send buffer holds the partial product
  ihave HS := (Entails.of_eq (congrArg (fun f => (((c : Thread nD τ).loc cc0_scratch0) ↦{fullShare} f : sProp 𝕄)) (send_store m c fS))) $$ HS
  -- the entry wait
  ihave HO := (show SA m K c 15 ⊢ iprop(∃ W, owes (c : Thread nD τ) (owing c 0 15 15) W) from by
    unfold SA; rw [ge_fifteen, bigSep_empty]; iintro ⟨-, H, -⟩; iexact H) $$ HA
  icases HO with ⟨%W1, HO⟩
  ihave HaB := (Entails.of_eq (congrArg (fun g => (atPos ER g 0 ∅ 0 : sProp 𝕄)) (kcell_bar c))) $$ HaB
  iapply (step_barwait m K c (by decide) W1 (mayWait_bar c 15 15)) $$ [HcB HO HaB]
  · isplitr; · iexact Hrec
    isplitr; · iexact Hlev
    isplitl [HcB]; · iexact HcB
    isplitl [HO]; · iexact HO
    iexact HaB
  iintro ⟨HO, HaB, Hgot⟩
  ihave Hgot := (Entails.of_eq (bigSep_sep' Finset.univ (fun k : Fin 15 => slotE (F := F) (fwd c k) k) (fun k => rowsE (fwd c k) c))) $$ Hgot
  icases Hgot with ⟨Hslots, Hrows⟩
  -- the send buffer by row blocks
  ihave HS := (Entails.of_eq (send_split c (Pc m c))) $$ HS
  icases HS with ⟨HSown, HSsrc⟩
  ihave HB := (show iprop(records m K ∗ (∃ W, owes (c : Thread nD τ) (owing c 0 15 15) W)
      ∗ (bigSep Finset.univ fun k : Fin 15 => dutyTok ER (s1Cell c k) 0 c)
      ∗ (bigSep Finset.univ fun k : Fin 15 => dutyTok ER (r1Cell (fwd c k) k) 0 c)
      ∗ (bigSep Finset.univ fun k : Fin 15 => (srcM c k).view.loc (c : Thread nD τ) ↦[(srcM c k).view.set]{fullShare} Pc m c)
      ∗ (bigSep Finset.univ fun k : Fin 15 => slotE (F := F) (fwd c k) k))
      ⊢ SB m K c 0 from by
    unfold SB s1Pay
    rw [ge_zero, lt_zero, bigSep_empty, bigSep_sep', bigSep_sep', bigSep_sep']
    iintro ⟨#H1, H2, H3, H4, H5, H6⟩
    isplitr; · iexact H1
    isplitl [H2]; · iexact H2
    isplitl [H3 H4 H5 H6]
    · isplitl [H3]; · iexact H3
      isplitl [H4]; · iexact H4
      isplitl [H5]; · iexact H5
      iexact H6
    iempintro) $$ [HO HtS1 HtR1 HSsrc Hslots]
  · isplitr; · iexact Hrec
    isplitl [HO]; · iexact HO
    isplitl [HtS1]; · iexact HtS1
    isplitl [HtR1]; · iexact HtR1
    isplitl [HSsrc]; · iexact HSsrc
    iexact Hslots
  iapply (step_send1' m K c 0 0 1 rfl rfl _ (dev16_eq c) (fun fd => by unfold r1Pay; exact Entails.of_eq (land1 m c 0 fd))) $$ HB; iintro HB
  iapply (step_send1' m K c 1 1 2 rfl rfl _ (dev17_eq c) (fun fd => by unfold r1Pay; exact Entails.of_eq (land1 m c 1 fd))) $$ HB; iintro HB
  iapply (step_send1' m K c 2 2 3 rfl rfl _ (dev18_eq c) (fun fd => by unfold r1Pay; exact Entails.of_eq (land1 m c 2 fd))) $$ HB; iintro HB
  iapply (step_send1' m K c 3 3 4 rfl rfl _ (dev19_eq c) (fun fd => by unfold r1Pay; exact Entails.of_eq (land1 m c 3 fd))) $$ HB; iintro HB
  iapply (step_send1' m K c 4 4 5 rfl rfl _ (dev20_eq c) (fun fd => by unfold r1Pay; exact Entails.of_eq (land1 m c 4 fd))) $$ HB; iintro HB
  iapply (step_send1' m K c 5 5 6 rfl rfl _ (dev21_eq c) (fun fd => by unfold r1Pay; exact Entails.of_eq (land1 m c 5 fd))) $$ HB; iintro HB
  iapply (step_send1' m K c 6 6 7 rfl rfl _ (dev22_eq c) (fun fd => by unfold r1Pay; exact Entails.of_eq (land1 m c 6 fd))) $$ HB; iintro HB
  iapply (step_send1' m K c 7 7 8 rfl rfl _ (dev23_eq c) (fun fd => by unfold r1Pay; exact Entails.of_eq (land1 m c 7 fd))) $$ HB; iintro HB
  iapply (step_send1' m K c 8 8 9 rfl rfl _ (dev24_eq c) (fun fd => by unfold r1Pay; exact Entails.of_eq (land1 m c 8 fd))) $$ HB; iintro HB
  iapply (step_send1' m K c 9 9 10 rfl rfl _ (dev25_eq c) (fun fd => by unfold r1Pay; exact Entails.of_eq (land1 m c 9 fd))) $$ HB; iintro HB
  iapply (step_send1' m K c 10 10 11 rfl rfl _ (dev26_eq c) (fun fd => by unfold r1Pay; exact Entails.of_eq (land1 m c 10 fd))) $$ HB; iintro HB
  iapply (step_send1' m K c 11 11 12 rfl rfl _ (dev27_eq c) (fun fd => by unfold r1Pay; exact Entails.of_eq (land1 m c 11 fd))) $$ HB; iintro HB
  iapply (step_send1' m K c 12 12 13 rfl rfl _ (dev28_eq c) (fun fd => by unfold r1Pay; exact Entails.of_eq (land1 m c 12 fd))) $$ HB; iintro HB
  iapply (step_send1' m K c 13 13 14 rfl rfl _ (dev29_eq c) (fun fd => by unfold r1Pay; exact Entails.of_eq (land1 m c 13 fd))) $$ HB; iintro HB
  iapply (step_send1' m K c 14 14 15 rfl rfl _ (dev30_eq c) (fun fd => by unfold r1Pay; exact Entails.of_eq (land1 m c 14 fd))) $$ HB; iintro HB
  -- the first-phase arrivals
  ihave HB := (show SB m K c 15 ⊢ iprop((∃ W, owes (c : Thread nD τ) (owing c 0 0 15) W) ∗ (bigSep Finset.univ fun k : Fin 15 => cred (tallyAt (s1Cell c k) () N1))) from by
    unfold SB; rw [ge_fifteen, bigSep_empty, lt_fifteen]
    iintro ⟨-, H, -, H2⟩
    isplitl [H]; · iexact H
    iexact H2) $$ HB
  icases HB with ⟨HO, HcS1⟩
  ihave HaR1 := (Entails.of_eq (bigSep_congr (s := (Finset.univ : Finset (Fin 15))) fun k _ => congrArg (fun g => (atPos ER g 0 ∅ 0 : sProp 𝕄)) (kcell_r1 c k))) $$ HaR1
  ihave HC := (show iprop(records m K ∗ levAts L lv ∗ (∃ W, owes (c : Thread nD τ) (owing c 0 0 15) W)
      ∗ (bigSep Finset.univ fun k : Fin 15 => cred (tallyAt (r1Cell c k) () N1))
      ∗ (bigSep Finset.univ fun k : Fin 15 => atPos ER (r1Cell c k) 0 ∅ 0))
      ⊢ SW m K c r1 N1 (r1Pay m c) (owing c 0 0 15) 0 from by
    unfold SW
    rw [ge_zero, lt_zero, bigSep_empty, bigSep_sep']
    iintro ⟨#H1, #H2, H3, H4, H5⟩
    isplitr; · iexact H1
    isplitr; · iexact H2
    isplitl [H3]; · iexact H3
    isplitl [H4 H5]
    · isplitl [H4]; · iexact H4
      iexact H5
    iempintro) $$ [HO HcR1 HaR1]
  · isplitr; · iexact Hrec
    isplitr; · iexact Hlev
    isplitl [HO]; · iexact HO
    isplitl [HcR1]; · iexact HcR1
    iexact HaR1
  iapply (step_wait' m K c r1 iR1 (kcell_r1 c) N1 (expect_r1 m c) (r1Pay m c) (rest_r1 m c) (owing c 0 0 15) (fun k => mayWait_r1 c k 15) 0 0 1 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 1 1 2 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 2 2 3 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 3 3 4 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 4 4 5 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 5 5 6 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 6 6 7 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 7 7 8 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 8 8 9 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 9 9 10 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 10 10 11 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 11 11 12 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 12 12 13 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 13 13 14 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 14 14 15 rfl rfl _ rfl (by first | rfl | decide)) $$ HC; iintro HC
  ihave HC := (show SW m K c r1 N1 (r1Pay m c) (owing c 0 0 15) 15
      ⊢ iprop((∃ W, owes (c : Thread nD τ) (owing c 0 0 15) W) ∗ (bigSep Finset.univ fun k : Fin 15 => atPos ER (r1Cell c k) 1 ∅ 0) ∗ (bigSep Finset.univ fun k : Fin 15 => r1Pay m c k)) from by
    unfold SW
    rw [ge_fifteen, bigSep_empty, lt_fifteen, bigSep_sep']
    iintro ⟨-, -, H3, -, H5, H6⟩
    isplitl [H3]; · iexact H3
    isplitl [H5]; · iexact H5
    iexact H6) $$ HC
  icases HC with ⟨HO, HaR1, Hslots⟩
  -- the reduction: the own rows, the fifteen slots, their sum into the reduction buffer and into the own rows of the result
  ihave HR := (rs_join m c) $$ Hslots
  iapply (wp_load 𝒱₀ (c : Thread nD τ) none Set.univ (m := sendM) (S := (sendM.access (Rect.unit (s := S256x256) (k0_off2 c) S16x256.size (k0_off2_inb c))).set)
    (by rw [View.set_slice]; exact fun _ h => h)) $$ HSown; iintro HSown
  iapply (wp_load 𝒱₀ (c : Thread nD τ) none Set.univ (m := rsM) (Finset.subset_univ _)) $$ HR; iintro HR
  iapply (wp_load 𝒱₀ (c : Thread nD τ) none Set.univ (m := redM) (Finset.subset_univ _)) $$ HD; iintro HD
  iapply (wp_store 𝒱₀ (c : Thread nD τ) none Set.univ (m := redM) (r := Rect.unit (s := S16x256) ![0, 0] S16x256.size inb_S16x256_S16x256_0_0)
    (Mk := Finset.univ) (Finset.subset_univ _)) $$ HD; iintro HD
  ihave HD := (Entails.of_eq (congrArg (fun f => (((c : Thread nD τ).loc cc0_scratch2) ↦{fullShare} f : sProp 𝕄)) (reduce_red m c fD))) $$ HD
  iapply (wp_load 𝒱₀ (c : Thread nD τ) none Set.univ (m := outM) (S := (outRowsM c).view.set)
    (by rw [← own_store_set c, View.setOn_univ, View.set_slice]; exact fun _ h => h)) $$ Hown; iintro Hown
  iapply (wp_store 𝒱₀ (c : Thread nD τ) none Set.univ (m := outM) (r := Rect.unit (s := S256x256) (k0_off2 c) S16x256.size (k0_off2_inb c))
    (Mk := Finset.univ) (S := (outRowsM c).view.set) (by rw [own_store_set c])) $$ Hown; iintro Hown
  ihave Hown := (Entails.of_eq (store_own_reads m c g3)) $$ Hown
  -- fifteen shares of the reduction buffer, one per copy
  ihave HD := ((red_split c (RB m c)).1) $$ HD
  icases HD with ⟨Hshares, HDrest⟩
  ihave HDD := (show iprop(records m K ∗ (∃ W, owes (c : Thread nD τ) (owing c 0 0 15) W)
      ∗ (bigSep Finset.univ fun k : Fin 15 => dutyTok ER (s2Cell c k) 0 c)
      ∗ (bigSep Finset.univ fun k : Fin 15 => dutyTok ER (r2Cell (fwd c k) k) 0 c)
      ∗ (bigSep Finset.univ fun k : Fin 15 => (redM : Memref sig .tc .vmem S16x256 .f32).view.loc (c : Thread nD τ) ↦[(redM : Memref sig .tc .vmem S16x256 .f32).view.set]{q2 k} RB m c)
      ∗ (bigSep Finset.univ fun k : Fin 15 => rowsE (F := F) (fwd c k) c))
      ⊢ SD m K c 0 from by
    unfold SD s2Pay
    rw [ge_zero, lt_zero, bigSep_empty, bigSep_sep', bigSep_sep', bigSep_sep']
    iintro ⟨#H1, H2, H3, H4, H5, H6⟩
    isplitr; · iexact H1
    isplitl [H2]; · iexact H2
    isplitl [H3 H4 H5 H6]
    · isplitl [H3]; · iexact H3
      isplitl [H4]; · iexact H4
      isplitl [H5]; · iexact H5
      iexact H6
    iempintro) $$ [HO HtS2 HtR2 Hshares Hrows]
  · isplitr; · iexact Hrec
    isplitl [HO]; · iexact HO
    isplitl [HtS2]; · iexact HtS2
    isplitl [HtR2]; · iexact HtR2
    isplitl [Hshares]; · iexact Hshares
    iexact Hrows
  iapply (step_send2' m K c 0 0 1 rfl rfl _ (dev31_eq c) (fun fd => by unfold r2Pay; rw [bwd_fwd]; exact Entails.of_eq (land2 m c 0 fd))) $$ HDD; iintro HDD
  iapply (step_send2' m K c 1 1 2 rfl rfl _ (dev32_eq c) (fun fd => by unfold r2Pay; rw [bwd_fwd]; exact Entails.of_eq (land2 m c 1 fd))) $$ HDD; iintro HDD
  iapply (step_send2' m K c 2 2 3 rfl rfl _ (dev33_eq c) (fun fd => by unfold r2Pay; rw [bwd_fwd]; exact Entails.of_eq (land2 m c 2 fd))) $$ HDD; iintro HDD
  iapply (step_send2' m K c 3 3 4 rfl rfl _ (dev34_eq c) (fun fd => by unfold r2Pay; rw [bwd_fwd]; exact Entails.of_eq (land2 m c 3 fd))) $$ HDD; iintro HDD
  iapply (step_send2' m K c 4 4 5 rfl rfl _ (dev35_eq c) (fun fd => by unfold r2Pay; rw [bwd_fwd]; exact Entails.of_eq (land2 m c 4 fd))) $$ HDD; iintro HDD
  iapply (step_send2' m K c 5 5 6 rfl rfl _ (dev36_eq c) (fun fd => by unfold r2Pay; rw [bwd_fwd]; exact Entails.of_eq (land2 m c 5 fd))) $$ HDD; iintro HDD
  iapply (step_send2' m K c 6 6 7 rfl rfl _ (dev37_eq c) (fun fd => by unfold r2Pay; rw [bwd_fwd]; exact Entails.of_eq (land2 m c 6 fd))) $$ HDD; iintro HDD
  iapply (step_send2' m K c 7 7 8 rfl rfl _ (dev38_eq c) (fun fd => by unfold r2Pay; rw [bwd_fwd]; exact Entails.of_eq (land2 m c 7 fd))) $$ HDD; iintro HDD
  iapply (step_send2' m K c 8 8 9 rfl rfl _ (dev39_eq c) (fun fd => by unfold r2Pay; rw [bwd_fwd]; exact Entails.of_eq (land2 m c 8 fd))) $$ HDD; iintro HDD
  iapply (step_send2' m K c 9 9 10 rfl rfl _ (dev40_eq c) (fun fd => by unfold r2Pay; rw [bwd_fwd]; exact Entails.of_eq (land2 m c 9 fd))) $$ HDD; iintro HDD
  iapply (step_send2' m K c 10 10 11 rfl rfl _ (dev41_eq c) (fun fd => by unfold r2Pay; rw [bwd_fwd]; exact Entails.of_eq (land2 m c 10 fd))) $$ HDD; iintro HDD
  iapply (step_send2' m K c 11 11 12 rfl rfl _ (dev42_eq c) (fun fd => by unfold r2Pay; rw [bwd_fwd]; exact Entails.of_eq (land2 m c 11 fd))) $$ HDD; iintro HDD
  iapply (step_send2' m K c 12 12 13 rfl rfl _ (dev43_eq c) (fun fd => by unfold r2Pay; rw [bwd_fwd]; exact Entails.of_eq (land2 m c 12 fd))) $$ HDD; iintro HDD
  iapply (step_send2' m K c 13 13 14 rfl rfl _ (dev44_eq c) (fun fd => by unfold r2Pay; rw [bwd_fwd]; exact Entails.of_eq (land2 m c 13 fd))) $$ HDD; iintro HDD
  iapply (step_send2' m K c 14 14 15 rfl rfl _ (dev45_eq c) (fun fd => by unfold r2Pay; rw [bwd_fwd]; exact Entails.of_eq (land2 m c 14 fd))) $$ HDD; iintro HDD
  ihave HDD := (show SD m K c 15 ⊢ iprop((∃ W, owes (c : Thread nD τ) (owing c 0 0 0) W) ∗ (bigSep Finset.univ fun k : Fin 15 => cred (tallyAt (s2Cell c k) () N2))) from by
    unfold SD; rw [ge_fifteen, bigSep_empty, lt_fifteen]
    iintro ⟨-, H, -, H2⟩
    isplitl [H]; · iexact H
    iexact H2) $$ HDD
  icases HDD with ⟨HO, HcS2⟩
  -- the second-phase arrivals
  ihave HaR2 := (Entails.of_eq (bigSep_congr (s := (Finset.univ : Finset (Fin 15))) fun k _ => congrArg (fun g => (atPos ER g 0 ∅ 0 : sProp 𝕄)) (kcell_r2 c k))) $$ HaR2
  ihave HE := (show iprop(records m K ∗ levAts L lv ∗ (∃ W, owes (c : Thread nD τ) (owing c 0 0 0) W)
      ∗ (bigSep Finset.univ fun k : Fin 15 => cred (tallyAt (r2Cell c k) () N2))
      ∗ (bigSep Finset.univ fun k : Fin 15 => atPos ER (r2Cell c k) 0 ∅ 0))
      ⊢ SW m K c r2 N2 (r2Pay m c) (owing c 0 0 0) 0 from by
    unfold SW
    rw [ge_zero, lt_zero, bigSep_empty, bigSep_sep']
    iintro ⟨#H1, #H2, H3, H4, H5⟩
    isplitr; · iexact H1
    isplitr; · iexact H2
    isplitl [H3]; · iexact H3
    isplitl [H4 H5]
    · isplitl [H4]; · iexact H4
      iexact H5
    iempintro) $$ [HO HcR2 HaR2]
  · isplitr; · iexact Hrec
    isplitr; · iexact Hlev
    isplitl [HO]; · iexact HO
    isplitl [HcR2]; · iexact HcR2
    iexact HaR2
  iapply (step_wait' m K c r2 iR2 (kcell_r2 c) N2 (expect_r2 m c) (r2Pay m c) (rest_r2 m c) (owing c 0 0 0) (fun k => mayWait_r2 c k) 0 0 1 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 1 1 2 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 2 2 3 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 3 3 4 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 4 4 5 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 5 5 6 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 6 6 7 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 7 7 8 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 8 8 9 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 9 9 10 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 10 10 11 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 11 11 12 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 12 12 13 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 13 13 14 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 14 14 15 rfl rfl _ rfl (by first | rfl | decide)) $$ HE; iintro HE
  ihave HE := (show SW m K c r2 N2 (r2Pay m c) (owing c 0 0 0) 15
      ⊢ iprop((∃ W, owes (c : Thread nD τ) (owing c 0 0 0) W) ∗ (bigSep Finset.univ fun k : Fin 15 => atPos ER (r2Cell c k) 1 ∅ 0) ∗ (bigSep Finset.univ fun k : Fin 15 => r2Pay m c k)) from by
    unfold SW
    rw [ge_fifteen, bigSep_empty, lt_fifteen, bigSep_sep']
    iintro ⟨-, -, H3, -, H5, H6⟩
    isplitl [H3]; · iexact H3
    isplitl [H5]; · iexact H5
    iexact H6) $$ HE
  icases HE with ⟨HO, HaR2, Hrows2⟩
  -- the departures: the rows of the send buffer come back
  ihave HaS1 := (Entails.of_eq (bigSep_congr (s := (Finset.univ : Finset (Fin 15))) fun k _ => congrArg (fun g => (atPos ER g 0 ∅ 0 : sProp 𝕄)) (kcell_s1 c k))) $$ HaS1
  ihave HF := (show iprop(records m K ∗ levAts L lv ∗ (∃ W, owes (c : Thread nD τ) (owing c 0 0 0) W)
      ∗ (bigSep Finset.univ fun k : Fin 15 => cred (tallyAt (s1Cell c k) () N1))
      ∗ (bigSep Finset.univ fun k : Fin 15 => atPos ER (s1Cell c k) 0 ∅ 0))
      ⊢ SW m K c s1 N1 (s1Pay m c) (owing c 0 0 0) 0 from by
    unfold SW
    rw [ge_zero, lt_zero, bigSep_empty, bigSep_sep']
    iintro ⟨#H1, #H2, H3, H4, H5⟩
    isplitr; · iexact H1
    isplitr; · iexact H2
    isplitl [H3]; · iexact H3
    isplitl [H4 H5]
    · isplitl [H4]; · iexact H4
      iexact H5
    iempintro) $$ [HO HcS1 HaS1]
  · isplitr; · iexact Hrec
    isplitr; · iexact Hlev
    isplitl [HO]; · iexact HO
    isplitl [HcS1]; · iexact HcS1
    iexact HaS1
  iapply (step_wait' m K c s1 iS1 (kcell_s1 c) N1 (expect_s1 m c) (s1Pay m c) (rest_s1 m c) (owing c 0 0 0) (fun k => mayWait_low c (SemLoc.dma (s1 k)) (lv_s1 c k ()) 0 0 0) 0 0 1 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 1 1 2 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 2 2 3 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 3 3 4 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 4 4 5 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 5 5 6 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 6 6 7 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 7 7 8 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 8 8 9 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 9 9 10 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 10 10 11 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 11 11 12 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 12 12 13 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 13 13 14 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 14 14 15 rfl rfl _ rfl (by first | rfl | decide)) $$ HF; iintro HF
  ihave HF := (show SW m K c s1 N1 (s1Pay m c) (owing c 0 0 0) 15
      ⊢ iprop((∃ W, owes (c : Thread nD τ) (owing c 0 0 0) W) ∗ (bigSep Finset.univ fun k : Fin 15 => atPos ER (s1Cell c k) 1 ∅ 0) ∗ (bigSep Finset.univ fun k : Fin 15 => s1Pay m c k)) from by
    unfold SW
    rw [ge_fifteen, bigSep_empty, lt_fifteen, bigSep_sep']
    iintro ⟨-, -, H3, -, H5, H6⟩
    isplitl [H3]; · iexact H3
    isplitl [H5]; · iexact H5
    iexact H6) $$ HF
  icases HF with ⟨HO, HaS1, Hsrcs⟩
  -- and the shares of the reduction buffer
  ihave HaS2 := (Entails.of_eq (bigSep_congr (s := (Finset.univ : Finset (Fin 15))) fun k _ => congrArg (fun g => (atPos ER g 0 ∅ 0 : sProp 𝕄)) (kcell_s2 c k))) $$ HaS2
  ihave HG := (show iprop(records m K ∗ levAts L lv ∗ (∃ W, owes (c : Thread nD τ) (owing c 0 0 0) W)
      ∗ (bigSep Finset.univ fun k : Fin 15 => cred (tallyAt (s2Cell c k) () N2))
      ∗ (bigSep Finset.univ fun k : Fin 15 => atPos ER (s2Cell c k) 0 ∅ 0))
      ⊢ SW m K c s2 N2 (s2Pay m c) (owing c 0 0 0) 0 from by
    unfold SW
    rw [ge_zero, lt_zero, bigSep_empty, bigSep_sep']
    iintro ⟨#H1, #H2, H3, H4, H5⟩
    isplitr; · iexact H1
    isplitr; · iexact H2
    isplitl [H3]; · iexact H3
    isplitl [H4 H5]
    · isplitl [H4]; · iexact H4
      iexact H5
    iempintro) $$ [HO HcS2 HaS2]
  · isplitr; · iexact Hrec
    isplitr; · iexact Hlev
    isplitl [HO]; · iexact HO
    isplitl [HcS2]; · iexact HcS2
    iexact HaS2
  iapply (step_wait' m K c s2 iS2 (kcell_s2 c) N2 (expect_s2 m c) (s2Pay m c) (rest_s2 m c) (owing c 0 0 0) (fun k => mayWait_low c (SemLoc.dma (s2 k)) (lv_s2 c k ()) 0 0 0) 0 0 1 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 1 1 2 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 2 2 3 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 3 3 4 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 4 4 5 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 5 5 6 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 6 6 7 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 7 7 8 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 8 8 9 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 9 9 10 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 10 10 11 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 11 11 12 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 12 12 13 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 13 13 14 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 14 14 15 rfl rfl _ rfl (by first | rfl | decide)) $$ HG; iintro HG
  ihave HG := (show SW m K c s2 N2 (s2Pay m c) (owing c 0 0 0) 15
      ⊢ iprop((∃ W, owes (c : Thread nD τ) (owing c 0 0 0) W) ∗ (bigSep Finset.univ fun k : Fin 15 => atPos ER (s2Cell c k) 1 ∅ 0) ∗ (bigSep Finset.univ fun k : Fin 15 => s2Pay m c k)) from by
    unfold SW
    rw [ge_fifteen, bigSep_empty, lt_fifteen, bigSep_sep']
    iintro ⟨-, -, H3, -, H5, H6⟩
    isplitl [H3]; · iexact H3
    isplitl [H5]; · iexact H5
    iexact H6) $$ HG
  icases HG with ⟨HO, HaS2, Hshares⟩
  -- the buffers whole again
  ihave HS := (send_join m c) $$ [HSown Hsrcs]
  · isplitl [HSown]; · iexact HSown
    iexact Hsrcs
  ihave HD := (red_join m c) $$ [Hshares HDrest]
  · isplitl [Hshares]; · iexact Hshares
    iexact HDrest
  ihave Hout := (out_join m c) $$ [Hown Hrows2]
  · isplitl [Hown]; · iexact Hown
    unfold r2Pay; iexact Hrows2
  -- the sixty own cells close
  imod (close_family m K c s1 iS1 (kcell_s1 c)) $$ [HaS1] with HzS1
  · isplitr; · iexact Hrec
    iexact HaS1
  imod (close_family m K c r1 iR1 (kcell_r1 c)) $$ [HaR1] with HzR1
  · isplitr; · iexact Hrec
    iexact HaR1
  imod (close_family m K c s2 iS2 (kcell_s2 c)) $$ [HaS2] with HzS2
  · isplitr; · iexact Hrec
    iexact HaS2
  imod (close_family m K c r2 iR2 (kcell_r2 c)) $$ [HaR2] with HzR2
  · isplitr; · iexact Hrec
    iexact HaR2
  rw [wp_ret]; imodintro
  iapply Hk
  unfold bodyPost Φ₁ scratch Dat.owesAt Pipeline.owesWithin
  rw [show (dats m 0 c).owed t0_0.succ = 0 from rfl]
  isplitl [HS HR HD HzS1 HzR1 HzS2 HzR2]
  · isplitl [HS HR HD]
    · isplitl [HS]; · iexists _; iexact HS
      isplitl [HR]; · iexists _; iexact HR
      iexists _; iexact HD
    iapply (phi1_sems c)
    isplitl [HzS1]; · iexact HzS1
    isplitl [HzR1]; · iexact HzR1
    isplitl [HzS2]; · iexact HzS2
    iexact HzR2
  isplitl [HO]
  · icases HO with ⟨%Wf, HO⟩
    iexists Wf
    isplitr; · ipureintro; exact fun _ _ => Or.inl trivial
    rw [owing_zero]; iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Hout

set_option maxRecDepth 8000 in
/-- The library's body obligation on device `c`: the windows opened, the body run, the windows closed. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show _ ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m c)
  iintro ⟨HΦ, Ho, Hx, Hw1, Hw2, Hout⟩
  iapply (sound_body m c fun _ => bodyPost m c)
  isplitl [HΦ]; · iexact HΦ
  isplitl [Ho]; · iexact Ho
  isplitl [Hx]; · iexact Hx
  isplitl [Hw1]; · iexact Hw1
  isplitl [Hw2]; · iexact Hw2
  isplitl [Hout]; · iexact Hout
  iintro H; iexact H

/-- info: 'Cert.KernelIdeal.Mlp.body_obligation' depends on axioms: [propext, Classical.choice, Quot.sound] -/
#guard_msgs in #print axioms body_obligation

end Cert.KernelIdeal.Mlp

end
-- ==== Proof.Launch.lean ====
/-
  The launch of the sixteen-device kernel: the ghost state of the rounds discipline allocated for all devices under
  one update, the duty tokens dealt to the devices that pay them, the launch credit read as the credit of each device's
  own waits, and the run of @main from any memory with zero counters.
-/
import proofs.«900458_g7700000000000459_dist_mlp2_tp_i_m256_h512_out256_v7x_i16_bf16_1_alg».proof.Proof.Proto
import proofs.«900458_g7700000000000459_dist_mlp2_tp_i_m256_h512_out256_v7x_i16_bf16_1_alg».proof.Proof.Levels

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores -/

/-- The kernel's sixty scoped DMA semaphores, as the launch indexes them: a device's cells but the entry cell. -/
abbrev osem : Fin 60 → SemLoc sig := fun i => csem i.succ

theorem ownSemFacts : Pipeline.OwnSemFacts cfg0.spec osem :=
  ⟨by decide, fun a b h => Fin.succ_injective _ (csem_injective h), by decide⟩

theorem share_eq (m : (ℓ : Loc nD τ sig) → Buf (Elt F) ℓ) (c : Dev nD) (w : Fin cfg0.W) : (dats m 0 c).share w = fullShare := by
  unfold Dat.share; split <;> rfl

/-! ## Sums over `Fin (n + 1)`, the first index apart -/

theorem erase_zero_eq (n : ℕ) : (Finset.univ.erase (0 : Fin (n + 1))) = Finset.univ.map ⟨Fin.succ, Fin.succ_injective n⟩ := by
  ext i
  rw [Finset.mem_erase, Finset.mem_map]
  constructor
  · rintro ⟨hi, -⟩
    obtain ⟨j, rfl⟩ := Fin.exists_succ_eq.mpr hi
    exact ⟨j, Finset.mem_univ _, rfl⟩
  · rintro ⟨j, -, rfl⟩
    exact ⟨Fin.succ_ne_zero j, Finset.mem_univ _⟩

theorem bigSep_erase_zero {n : ℕ} (Φ : Fin (n + 1) → sProp 𝕄) :
    bigSep (Finset.univ.erase (0 : Fin (n + 1))) Φ = bigSep Finset.univ fun k : Fin n => Φ k.succ := by
  rw [erase_zero_eq, bigSep_map]; rfl

theorem bigSep_fin_succ {n : ℕ} (Φ : Fin (n + 1) → sProp 𝕄) :
    bigSep Finset.univ Φ = iprop(Φ 0 ∗ bigSep Finset.univ fun k : Fin n => Φ k.succ) := by
  rw [bigSep_univ_at Φ 0, bigSep_erase_zero]

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## The cells and the tokens the launch element mints -/

theorem kcell_injective : Function.Injective (kcell : Dev nD × Fin 61 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def cellsF : Finset (GSem nD τ sig) := Finset.univ.map ⟨kcell, kcell_injective⟩

/-- The duty tokens, listed by the device `c` that PAYS the duty: per `k`, its entry signal and its two arrivals at its
    `k`-th successor's cells, and its own two departures. -/
def tokCell (c : Dev nD) (k : Fin 15) : Fin 5 → GSem nD τ sig
  | 0 => barCell (fwd c k) | 1 => r1Cell (fwd c k) k | 2 => r2Cell (fwd c k) k | 3 => s1Cell c k | 4 => s2Cell c k
def tokOf (x : Dev nD × Fin 15 × Fin 5) : GSem nD τ sig × ℕ × Dev nD := (tokCell x.1 x.2.1 x.2.2, 0, x.1)

/-- A token names its payer; its cell's kind names which duty and, but for an entry cell, the index; an entry cell's
    device is the payer's successor, which names the index. -/
def tokInvK (c' c : Dev nD) : Kind → Dev nD × Fin 15 × Fin 5
  | .bar => (c, idxOf c' c, 0)
  | .r1 k => (c, k, 1)
  | .r2 k => (c, k, 2)
  | .s1 k => (c, k, 3)
  | .s2 k => (c, k, 4)
  | .other => (c, 0, 0)
def tokInv (y : GSem nD τ sig × ℕ × Dev nD) : Dev nD × Fin 15 × Fin 5 := tokInvK y.1.1.1 y.2.2 (kindOf y.1.2)

theorem tokInv_tokOf : ∀ x : Dev nD × Fin 15 × Fin 5, tokInv (tokOf x) = x
  | (c, k, 0) => by
    show tokInvK (fwd c k) c (kindOf (.reg barS)) = _
    rw [kind_bar]
    show (c, idxOf (fwd c k) c, (0 : Fin 5)) = _
    rw [idxOf_fwd]
  | (c, k, 1) => by show tokInvK (fwd c k) c (kindOf (.dma (r1 k))) = _; rw [kind_r1]; rfl
  | (c, k, 2) => by show tokInvK (fwd c k) c (kindOf (.dma (r2 k))) = _; rw [kind_r2]; rfl
  | (c, k, 3) => by show tokInvK c c (kindOf (.dma (s1 k))) = _; rw [kind_s1]; rfl
  | (c, k, 4) => by show tokInvK c c (kindOf (.dma (s2 k))) = _; rw [kind_s2]; rfl

theorem tokOf_injective : Function.Injective tokOf := Function.LeftInverse.injective tokInv_tokOf
def toksF : Finset (GSem nD τ sig × ℕ × Dev nD) := Finset.univ.map ⟨tokOf, tokOf_injective⟩

def u₀ : UU :=
  (initOf (Pipeline.cells cfgs cellOf_inj) (Pipeline.launchToks cfgs cellOf_inj), initOf cellsF toksF)

/-- What the launch element deals device `c` (the theorem's `G`): the round state, position and reached-mark of each of
    its cells, and the tokens of the duties it pays. -/
def G (m : (ℓ : Loc nD τ sig) → Buf (Elt F) ℓ) (c : Dev nD) : sProp 𝕄 :=
  iprop((bigSep Finset.univ fun i : Fin 61 => roundState ER (sched m) (kcell (c, i)) 0)
    ∗ (bigSep Finset.univ fun i : Fin 61 => iprop(atPos ER (kcell (c, i)) 0 ∅ 0 ∗ reached ER (kcell (c, i)) 0)) ∗ payToks c)

/-- What the global step makes of it (`G'`). -/
def G' (m : (ℓ : Loc nD τ sig) → Buf (Elt F) ℓ) (c : Dev nD) : sProp 𝕄 := iprop(∃ K, ghost m K c)

theorem fund_cells (m : (ℓ : Loc nD τ sig) → Buf (Elt F) ℓ) :
    BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun i : Fin 61 => Φ (kcell (c, i)) := by
    unfold cellsF; rw [bigSep_map, bigSep_univ_prod]; rfl
  have hT : bigSep toksF (fun x => (dutyTok ER x.1 x.2.1 x.2.2 : sProp 𝕄)) = bigSep Finset.univ fun c : Dev nD => payToks c := by
    unfold toksF; rw [bigSep_map, bigSep_univ_prod]
    refine bigSep_congr fun c _ => ?_
    rw [bigSep_univ_prod]
    unfold payToks
    exact bigSep_congr fun k _ => by rw [bigSep_fin5]; rfl
  iintro HX
  imod (Rounds.fund ER (sched m) cellsF toksF) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants allocated, and the regrouping -/

/-- The kernel's own sixty semaphores at zero; -/
theorem ownSems0_eq (c : Dev nD) : (Pipeline.ownSems0 (Ix := Unit) (Name := ℕ) (U := UU) (Lvl := ℕ) (Val := Elt F) (τ := τ) osem c : sProp 𝕄)
    = bigSep Finset.univ fun i : Fin 60 => semVal (kcell (c, i.succ)) 0 := rfl
/-- the runtime's barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 61 => semVal (kcell (c, i)) 0 : sProp 𝕄) := by
  rw [ownSems0_eq, unscopedSems0_eq, bigSep_fin_succ (fun i : Fin 61 => (semVal (kcell (c, i)) 0 : sProp 𝕄))]
  iintro ⟨HS, HB⟩
  isplitl [HB]; · iexact HB
  iexact HS

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 61 => iprop(∃ κ : ℕ, cellInv ER (sched m) κ (kcell (c, i))))
          ∗ (bigSep Finset.univ fun i : Fin 61 => iprop(atPos ER (kcell (c, i)) 0 ∅ 0 ∗ reached ER (kcell (c, i)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun i : Fin 61 => semVal (kcell (c, i)) 0) ∗ bigSep Finset.univ fun i : Fin 61 => roundState ER (sched m) (kcell (c, i)) 0)
      ⊢ (|={Set.univ}=> bigSep Finset.univ fun i : Fin 61 => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (m : (ℓ : Loc nD τ sig) → Buf (Elt F) ℓ) (K : Dev nD × Fin 61 → ℕ) (c : Dev nD) :
    iprop(records m K ∗ positions c ∗ payToks c) ⊢ G' m c := by
  unfold G' ghost
  iintro H; iexists K; iexact H

/-- Every cell's invariant and reached-mark is persistent and goes to every device; a device keeps its positions and
    the tokens of the duties it pays. -/
theorem regroup (m : (ℓ : Loc nD τ sig) → Buf (Elt F) ℓ) :
    (bigSep Finset.univ fun c : Dev nD => iprop((bigSep Finset.univ fun i : Fin 61 => iprop(∃ κ : ℕ, cellInv ER (sched m) κ (kcell (c, i))))
          ∗ (bigSep Finset.univ fun i : Fin 61 => iprop(atPos ER (kcell (c, i)) 0 ∅ 0 ∗ reached ER (kcell (c, i)) 0)) ∗ payToks c) : sProp 𝕄)
      ⊢ bigSep Finset.univ (G' m) := by
  rw [bigSep_sep', bigSep_sep', ← bigSep_univ_prod (fun ck : Dev nD × Fin 61 => iprop(∃ κ : ℕ, cellInv ER (sched m) κ (kcell ck))),
    bigSep_congr (s := Finset.univ) (fun (c : Dev nD) _ => bigSep_sep' Finset.univ (fun i : Fin 61 => (atPos ER (kcell (c, i)) 0 ∅ 0 : sProp 𝕄)) (fun i => reached ER (kcell (c, i)) 0)),
    bigSep_sep', ← bigSep_univ_prod (fun ck : Dev nD × Fin 61 => (reached ER (kcell ck) 0 : sProp 𝕄))]
  iintro ⟨HI, ⟨Hat, #HR⟩, Htok⟩
  ihave HK := (BI.bigSep_exists_pi Finset.univ (fun (ck : Dev nD × Fin 61) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    unfold positions
    isplitl [Hat]; · iexact Hat
    iexact Htok

/-- The global step (`hglob`): own AND unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A debt summed as `owe` sums it — the last of the fifteen first — is the sum over the fifteen indices. -/
theorem owe_range (t owe : ℕ → CellTallies nD τ sig Unit) (h0 : owe 0 = 0) (hs : ∀ n, owe (n + 1) = owe n + t (14 - n)) (n : ℕ) :
    owe n = ∑ i ∈ Finset.range n, t (14 - i) := by
  induction n with
  | zero => rw [h0, Finset.range_zero, Finset.sum_empty]
  | succ n ih => rw [hs, ih, Finset.sum_range_succ]

theorem owe_fin (t owe : ℕ → CellTallies nD τ sig Unit) (h0 : owe 0 = 0) (hs : ∀ n, owe (n + 1) = owe n + t (14 - n)) :
    owe 15 = ∑ k : Fin 15, t k.val := by
  rw [owe_range t owe h0 hs 15, Fin.sum_univ_eq_sum_range (fun j => t j) 15, ← Finset.sum_range_reflect (fun j => t j) 15]

theorem oweB_eq (c : Dev nD) : oweB c 15 = ∑ k : Fin 15, tallyAt (((fwd c k : Dev nD) : Thread nD τ), SemLoc.reg barS) () 1 := by
  rw [owe_fin (tB c) (oweB c) rfl (fun _ => rfl)]
  exact Finset.sum_congr rfl fun k _ => by unfold tB; rw [dif_pos k.isLt]
theorem owe1_eq (c : Dev nD) : owe1 c 15 = ∑ k : Fin 15, tallyAt (((fwd c k : Dev nD) : Thread nD τ), SemLoc.dma (r1 k)) () N1 := by
  rw [owe_fin (t1 c) (owe1 c) rfl (fun _ => rfl)]
  exact Finset.sum_congr rfl fun k _ => by unfold t1; rw [dif_pos k.isLt]
theorem owe2_eq (c : Dev nD) : owe2 c 15 = ∑ k : Fin 15, tallyAt (((fwd c k : Dev nD) : Thread nD τ), SemLoc.dma (r2 k)) () N2 := by
  rw [owe_fin (t2 c) (owe2 c) rfl (fun _ => rfl)]
  exact Finset.sum_congr rfl fun k _ => by unfold t2; rw [dif_pos k.isLt]

/-- Fifteen units on one cell. -/
theorem sum_units (g : GSem nD τ sig) : (∑ _k : Fin 15, (tallyAt g () 1 : CellTallies nD τ sig Unit)) = tallyAt g () 15 := by
  funext g'; ext
  rw [Finset.sum_apply, Finsupp.finsetSum_apply]
  simp only [tallyAt_apply]
  rw [Finset.sum_const, Finset.card_univ, Fintype.card_fin, smul_eq_mul]
  split_ifs <;> rfl

/-- The entry signals all devices owe device `c`: one unit from each of its fifteen predecessors. -/
theorem cred_bar (c : Dev nD) :
    (Pipeline.launchCred (fun d : Dev nD => oweB d 15) c : sProp 𝕄) ⊢ cred (tallyAt (barCell c) () 15) := by
  rw [show (fun d : Dev nD => oweB d 15) = fun d => ∑ k : Fin 15, tallyAt (((fwd d k : Dev nD) : Thread nD τ), SemLoc.reg barS) () 1 from funext fun d => oweB_eq d,
    Pipeline.launchCred_sum]
  refine (bigSep_mono fun k _ => Pipeline.launchCred_tallyAt (.reg barS) (fun d => fwd d k) (fun c => bwd c k) (fun c => fwd_bwd c k) (fun d => bwd_fwd d k) () 1 c).trans ?_
  exact Entails.of_eq ((Pipeline.cred_finsetSum Finset.univ (fun _ : Fin 15 => (tallyAt (barCell c) () 1 : CellTallies nD τ sig Unit))).symm.trans
    (congrArg cred (sum_units (barCell c))))

/-- The first-phase arrivals: on each receive cell `k` of `c`, the credit of the copy its `k`-th predecessor sends. -/
theorem cred_r1 (c : Dev nD) :
    (Pipeline.launchCred (fun d : Dev nD => owe1 d 15) c : sProp 𝕄) ⊢ bigSep (Finset.univ : Finset (Fin 15)) fun k => cred (tallyAt (r1Cell c k) () N1) := by
  rw [show (fun d : Dev nD => owe1 d 15) = fun d => ∑ k : Fin 15, tallyAt (((fwd d k : Dev nD) : Thread nD τ), SemLoc.dma (r1 k)) () N1 from funext fun d => owe1_eq d,
    Pipeline.launchCred_sum]
  exact bigSep_mono fun k _ => Pipeline.launchCred_tallyAt (.dma (r1 k)) (fun d => fwd d k) (fun c => bwd c k) (fun c => fwd_bwd c k) (fun d => bwd_fwd d k) () N1 c
theorem cred_r2 (c : Dev nD) :
    (Pipeline.launchCred (fun d : Dev nD => owe2 d 15) c : sProp 𝕄) ⊢ bigSep (Finset.univ : Finset (Fin 15)) fun k => cred (tallyAt (r2Cell c k) () N2) := by
  rw [show (fun d : Dev nD => owe2 d 15) = fun d => ∑ k : Fin 15, tallyAt (((fwd d k : Dev nD) : Thread nD τ), SemLoc.dma (r2 k)) () N2 from funext fun d => owe2_eq d,
    Pipeline.launchCred_sum]
  exact bigSep_mono fun k _ => Pipeline.launchCred_tallyAt (.dma (r2 k)) (fun d => fwd d k) (fun c => bwd c k) (fun c => fwd_bwd c k) (fun d => bwd_fwd d k) () N2 c

/-- What the launch deals device `c` for the units the others owe its cells. -/
theorem creds_intro (c : Dev nD) : (Pipeline.launchCred O₀ c : sProp 𝕄) ⊢ creds c := by
  show (Pipeline.launchCred (fun d : Dev nD => (owe2 d 15 + owe1 d 15) + oweB d 15) c : sProp 𝕄) ⊢ _
  rw [Pipeline.launchCred_add, Pipeline.launchCred_add]
  unfold creds
  iintro ⟨⟨H2, H1⟩, HB⟩
  isplitl [HB]; · iapply (cred_bar (F := F) c); iexact HB
  isplitl [H1]; · iapply (cred_r1 (F := F) c); iexact H1
  iapply (cred_r2 (F := F) c); iexact H2

/-! ## The theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  rw [bigSep_erase_zero (fun i : Fin 61 => (semVal (kcell (c, i)) 0 : sProp 𝕄))]
  iintro ⟨Hr, Hz⟩
  isplitr; · iempintro
  isplitl [Hz]; · iexact Hz
  iexact Hr

/-- The windows' staging semaphores are the first four DMA semaphores: level 0, below everything a device owes. -/
theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (lv_low c _ (by fin_cases w <;> fin_cases s <;> decide) ()) 15 15 15
    · exact mayWait_none c _

/-! ## The run -/

set_option maxRecDepth 8000 in
/-- At the compiled mesh of sixteen devices, for any float values, from any memory with zero counters: every weakly fair
    execution of @main terminates, and every final state has each device's arrays at the contents the proof data name. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.KernelIdeal.Mlp.run_main' depends on axioms: [propext, Classical.choice, Quot.sound] -/
#guard_msgs in #print axioms run_main

end Cert.KernelIdeal.Mlp

end
-- ==== Proof.Final.lean ====
/-
  What each device's arrays hold after the run: an argument window's block is its whole array, so the argument arrays
  are never written and the one write-back of the result window writes the whole result array; the run of @main read
  at the arguments and at the result.
-/
import proofs.«900458_g7700000000000459_dist_mlp2_tp_i_m256_h512_out256_v7x_i16_bf16_1_alg».proof.Proof.Launch
import proofs.«900458_g7700000000000459_dist_mlp2_tp_i_m256_h512_out256_v7x_i16_bf16_1_alg».proof.Proof.Gen.KernelIdeal.Frame

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the windows' arrays hold after the run -/

/-- An argument window's block is its whole array: every index of the one point is zero. -/
theorem win_off0 (w : Fin cfg0.W) : (fun a => (cfg0.win w).index t0_0 a * (cfg0.win w).size a) = fun _ => 0 := by
  fin_cases w <;> (funext a; fin_cases a <;> rfl)

/-- What device `c` holds of the first argument when the body runs is its copy of the array, -/
theorem Xc_eq (m : (ℓ : Loc nD τ sig) → Buf (Elt F) ℓ) (c : Dev nD) : Xc m c = m ((c : Thread nD τ).loc main_arg0) := by
  unfold Xc iblk
  exact Memref.read_access_unit_zero (Elt F) main_arg0 (win_off0 0) _ _
/-- of the second and third its blocks of the weights. -/
theorem W1c_eq (m : (ℓ : Loc nD τ sig) → Buf (Elt F) ℓ) (c : Dev nD) : W1c m c = m ((c : Thread nD τ).loc main_arg1) := by
  unfold W1c iblk
  exact Memref.read_access_unit_zero (Elt F) main_arg1 (win_off0 1) _ _
theorem W2c_eq (m : (ℓ : Loc nD τ sig) → Buf (Elt F) ℓ) (c : Dev nD) : W2c m c = m ((c : Thread nD τ).loc main_arg2) := by
  unfold W2c iblk
  exact Memref.read_access_unit_zero (Elt F) main_arg2 (win_off0 2) _ _

/-- An argument array is never written. -/
theorem final_in (m : (ℓ : Loc nD τ sig) → Buf (Elt F) ℓ) (c : Dev nD) (w : Fin cfg0.W) (hw : (cfg0.win w).isOut = false) :
    (dats m 0 c).arrAt w cfg0.N = m ((cfg0.win w).arr.view.loc (c : Thread nD τ)) :=
  (dats m 0 c).arrAt_in w hw _

/-- The result array ends holding what the body left in the result window: the one write-back writes the whole array. -/
theorem final_out (m : (ℓ : Loc nD τ sig) → Buf (Elt F) ℓ) (c : Dev nD) : (dats m 0 c).arrAt 3 cfg0.N = OUT m := by
  show (dats m 0 c).arrAt 3 (t0_0.val + 1) = _
  rw [Dat.arrAt_succ, if_pos (flush0_3 t0_0)]
  exact Memref.write_access_unit_zero_univ (Elt F) main_v1 (win_off0 3) _ _ _

/-! ## The run, read at the arguments and at the result -/

/-- The arguments of @main end as they began, on every device. -/
theorem frame_run (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (final_in m c 0 rfl), (h c 1).trans (final_in m c 1 rfl), (h c 2).trans (final_in m c 2 rfl)⟩)
    (run_main m ρ hbody)

/-- And the result array ends, on every device, at the gathered sums. -/
theorem value_run (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 3).trans (final_out m c), (h c 0).trans (final_in m c 0 rfl), (h c 1).trans (final_in m c 1 rfl),
      (h c 2).trans (final_in m c 2 rfl)⟩)
    (run_main m ρ hbody)

end Cert.KernelIdeal.Mlp

end
-- ==== Proof.ValueMath.lean ====
/-
  The mathematics of the sixteen-device two-layer perceptron, at the extended reals.

  Device `e` of sixteen holds the input `x` (256 × 256), columns `512 e … 512 e + 511` of the first weights `W1` (256 × 8192)
  and rows `512 e … 512 e + 511` of the second weights `W2` (8192 × 256). It forms the partial product
  `P e = max (x · W1ₑ) 0 · W2ₑ`, whose entry `(i, j)` is `∑ h < 512, max (∑ k, x (i, k) * W1 (k, 512 e + h)) 0 * W2 (512 e + h, j)`
  (`part_apply`, `w1_block_apply`, `w2_block_apply`): at the extended reals the changes of number format are the identity, so
  nothing is rounded. Row block `d` of the sixteen partial products is added on device `d` — its own block plus the fifteen
  it receives, which come from the fifteen other devices, each once (`redOf_apply`, `sum_sender`) — and the sums are gathered,
  so entry `(i, j)` of the result is `∑ e < 16, P e (i, j)` (`outOf_apply`). The sixteen slices of 512 hidden units are the
  8192 hidden units, each once (`sum_hid`), so this is `∑ H < 8192, max (∑ k, x (i, k) * W1 (k, H)) 0 * W2 (H, j)`, the
  reference's entry (`reference_apply`). Addition of extended reals is commutative and associative, which is all the
  regrouping uses: no entry is assumed finite.
-/
import proofs.«900458_g7700000000000459_dist_mlp2_tp_i_m256_h512_out256_v7x_i16_bf16_1_alg».proof.Proof.ValueDefs
import proofs.«900458_g7700000000000459_dist_mlp2_tp_i_m256_h512_out256_v7x_i16_bf16_1_alg».proof.Proof.Gen.ReferenceIdeal.Read
import Idealize.ShloMosaic.Lib.Layout
import Idealize.ShloMosaic.Lib.ValueIdx
import Idealize.ShloMosaic.Lib.Pipeline.Value
import Idealize.ShloMosaic.PureOps.Ideal.Laws

noncomputable section

namespace Cert.MlpValue

open Idealize.ShloMosaic Idealize.ShloMosaic.ValueIdx Cert.KernelIdeal Cert.KernelIdeal.Gen
open scoped BigOperators

/-! ## A product of two matrices read at an entry -/

/-- The left factor's row is the entry's row. -/
theorem mm1_apply_l0 (i : S256x512.Idx) (q : dot_S256x256_S256x512_S256x512_1_0_0_1_n_n.contr.Idx) :
    (dot_S256x256_S256x512_S256x512_1_0_0_1_n_n.lhsIdx i q 0).val = (i 0).val := by
  unfold DotDims.lhsIdx
  rw [dif_neg (show ¬(0 : Fin S256x256.rank) ∈ dot_S256x256_S256x512_S256x512_1_0_0_1_n_n.lhsBatch by decide),
    dif_pos (show (0 : Fin S256x256.rank) ∈ dot_S256x256_S256x512_S256x512_1_0_0_1_n_n.lhsNonContracting by decide)]
  rfl
/-- The right factor's column is the entry's column. -/
theorem mm1_apply_r1 (i : S256x512.Idx) (q : dot_S256x256_S256x512_S256x512_1_0_0_1_n_n.contr.Idx) :
    (dot_S256x256_S256x512_S256x512_1_0_0_1_n_n.rhsIdx i q 1).val = (i 1).val := by
  unfold DotDims.rhsIdx
  rw [dif_neg (show ¬(1 : Fin S256x512.rank) ∈ dot_S256x256_S256x512_S256x512_1_0_0_1_n_n.rhsBatch by decide),
    dif_pos (show (1 : Fin S256x512.rank) ∈ dot_S256x256_S256x512_S256x512_1_0_0_1_n_n.rhsNonContracting by decide)]
  rfl
/-- The first product (256 × 256 by 256 × 512, summed over the shared axis of 256) into the zero array: entry `(i, h)` is
    `∑ k, a (i, k) * b (k, h)`. -/
theorem mm1_apply {φ₁ φ₂ : FTy} (a : FVec Ideal S256x256 φ₁) (b : FVec Ideal S256x512 φ₂) (i : Fin 256) (h : Fin 512) :
    matmul dot_S256x256_S256x512_S256x512_1_0_0_1_n_n none a b (constant S256x512 .f32 0x00000000#32) (ix2 i h)
      = ∑ k : Fin 256, a (ix2 i k) * b (ix2 k h) := by
  simp only [matmul]
  rw [Ideal.matmul_constant_zero_apply, ← Equiv.sum_comp (contrEquiv1 dot_S256x256_S256x512_S256x512_1_0_0_1_n_n 256 rfl rfl).symm]
  refine Finset.sum_congr rfl fun k _ => ?_
  have hk := contrEquiv1_symm_val dot_S256x256_S256x512_S256x512_1_0_0_1_n_n 256 rfl rfl k
  have el : dot_S256x256_S256x512_S256x512_1_0_0_1_n_n.lhsIdx (ix2 i h) ((contrEquiv1 dot_S256x256_S256x512_S256x512_1_0_0_1_n_n 256 rfl rfl).symm k) = ix2 i k :=
    funext fun c => Fin.ext (by
      match c with
      | ⟨0, _⟩ => exact mm1_apply_l0 _ _
      | ⟨1, _⟩ => exact (dot_S256x256_S256x512_S256x512_1_0_0_1_n_n.lhsIdx_val_of_single rfl _ _).trans hk)
  have er : dot_S256x256_S256x512_S256x512_1_0_0_1_n_n.rhsIdx (ix2 i h) ((contrEquiv1 dot_S256x256_S256x512_S256x512_1_0_0_1_n_n 256 rfl rfl).symm k) = ix2 k h :=
    funext fun c => Fin.ext (by
      match c with
      | ⟨0, _⟩ => exact (dot_S256x256_S256x512_S256x512_1_0_0_1_n_n.rhsIdx_val_of_single rfl _ _).trans hk
      | ⟨1, _⟩ => exact mm1_apply_r1 _ _)
  rw [el, er]

/-- The left factor's row is the entry's row. -/
theorem mm2_apply_l0 (i : S256x256.Idx) (q : dot_S256x512_S512x256_S256x256_1_0_0_1_n_n.contr.Idx) :
    (dot_S256x512_S512x256_S256x256_1_0_0_1_n_n.lhsIdx i q 0).val = (i 0).val := by
  unfold DotDims.lhsIdx
  rw [dif_neg (show ¬(0 : Fin S256x512.rank) ∈ dot_S256x512_S512x256_S256x256_1_0_0_1_n_n.lhsBatch by decide),
    dif_pos (show (0 : Fin S256x512.rank) ∈ dot_S256x512_S512x256_S256x256_1_0_0_1_n_n.lhsNonContracting by decide)]
  rfl
/-- The right factor's column is the entry's column. -/
theorem mm2_apply_r1 (i : S256x256.Idx) (q : dot_S256x512_S512x256_S256x256_1_0_0_1_n_n.contr.Idx) :
    (dot_S256x512_S512x256_S256x256_1_0_0_1_n_n.rhsIdx i q 1).val = (i 1).val := by
  unfold DotDims.rhsIdx
  rw [dif_neg (show ¬(1 : Fin S512x256.rank) ∈ dot_S256x512_S512x256_S256x256_1_0_0_1_n_n.rhsBatch by decide),
    dif_pos (show (1 : Fin S512x256.rank) ∈ dot_S256x512_S512x256_S256x256_1_0_0_1_n_n.rhsNonContracting by decide)]
  rfl
/-- The second product (256 × 512 by 512 × 256, summed over the shared axis of 512) into the zero array: entry `(i, j)` is
    `∑ h, a (i, h) * b (h, j)`. -/
theorem mm2_apply {φ₁ φ₂ : FTy} (a : FVec Ideal S256x512 φ₁) (b : FVec Ideal S512x256 φ₂) (i j : Fin 256) :
    matmul dot_S256x512_S512x256_S256x256_1_0_0_1_n_n none a b (constant S256x256 .f32 0x00000000#32) (ix2 i j)
      = ∑ h : Fin 512, a (ix2 i h) * b (ix2 h j) := by
  simp only [matmul]
  rw [Ideal.matmul_constant_zero_apply, ← Equiv.sum_comp (contrEquiv1 dot_S256x512_S512x256_S256x256_1_0_0_1_n_n 512 rfl rfl).symm]
  refine Finset.sum_congr rfl fun h _ => ?_
  have hk := contrEquiv1_symm_val dot_S256x512_S512x256_S256x256_1_0_0_1_n_n 512 rfl rfl h
  have el : dot_S256x512_S512x256_S256x256_1_0_0_1_n_n.lhsIdx (ix2 i j) ((contrEquiv1 dot_S256x512_S512x256_S256x256_1_0_0_1_n_n 512 rfl rfl).symm h) = ix2 i h :=
    funext fun c => Fin.ext (by
      match c with
      | ⟨0, _⟩ => exact mm2_apply_l0 _ _
      | ⟨1, _⟩ => exact (dot_S256x512_S512x256_S256x256_1_0_0_1_n_n.lhsIdx_val_of_single rfl _ _).trans hk)
  have er : dot_S256x512_S512x256_S256x256_1_0_0_1_n_n.rhsIdx (ix2 i j) ((contrEquiv1 dot_S256x512_S512x256_S256x256_1_0_0_1_n_n 512 rfl rfl).symm h) = ix2 h j :=
    funext fun c => Fin.ext (by
      match c with
      | ⟨0, _⟩ => exact (dot_S256x512_S512x256_S256x256_1_0_0_1_n_n.rhsIdx_val_of_single rfl _ _).trans hk
      | ⟨1, _⟩ => exact mm2_apply_r1 _ _)
  rw [el, er]

/-! ## One device's partial product at an entry -/

/-- The zero word of the wide format is the extended real zero. -/
theorem zero_word : (FloatOps.ofBits (F := Ideal) .f32 0x00000000#32) = 0 := Ideal.ofBits_zero_f32

/-- Entry `(i, j)` of a device's partial product: the hidden layer's entries `max (∑ k, x (i, k) * w1 (k, h)) 0` times the
    second weights, summed over the device's 512 hidden units. The changes of format and the casts to the same shape are the
    identity on extended reals. -/
theorem part_apply (x : Vec Ideal S256x256 .f32) (w1 : Vec Ideal S256x512 .f32) (w2 : Vec Ideal S512x256 .f32)
    (i j : Fin 256) :
    part (F := Ideal) x w1 w2 (ix2 i j)
      = ∑ h : Fin 512, max (∑ k : Fin 256, x (ix2 i k) * w1 (ix2 k h)) 0 * w2 (ix2 h j) := by
  unfold part k0_pay2 k0_pay1
  simp only [shapeCast_self]
  rw [truncf_apply, mm2_apply]
  refine Finset.sum_congr rfl fun h _ => ?_
  rw [truncf_apply, truncf_apply, maximumf_apply, mm1_apply, broadcast_apply, zero_word]
  simp only [truncf_apply]

/-! ## A device's sum of the sixteen row blocks at an entry -/

/-- Entry `(r, j)` of device `d`'s sum: its own block's entry plus the entries of the fifteen blocks it received, all at row
    `16 d + r` and column `j` of the partial products. The sum over the receive buffer's first axis starts from the zero
    word, the neutral element, so nothing else is added. -/
theorem redOf_apply (P : Fin 16 → Vec Ideal S256x256 .bf16) (d : Fin 16) (r : Fin 16) (j : Fin 256) :
    redOf (F := Ideal) P d (ix2 r j)
      = P d (ix2 (rowOf d r) j) + ∑ k : Fin 15, P (sender d k) (ix2 (rowOf d r) j) := by
  unfold redOf k0_pay3
  rw [addf_apply, extf_apply]
  have hm := Ideal.multiReduction_add_single (φ := .f32) (extf (F := Ideal) .f32 (rsOf P d) bitsLt_bf16_f32) 0x00000000#32
    reduces_S15x16x256_S16x256 (.inl rfl) rfl (ix2 r j)
  refine (congrArg (rowBlk (P d) d (ix2 r j) + ·) hm).trans ?_
  refine congrArg₂ (· + ·) rfl (Finset.sum_congr rfl fun k _ => ?_)
  rw [extf_apply]
  have e0 : reduces_S15x16x256_S16x256.lift (ix2 r j) k 0 = k := Fin.ext rfl
  have e1 : reduces_S15x16x256_S16x256.lift (ix2 r j) k 1 = r := Fin.ext rfl
  have e2 : reduces_S15x16x256_S16x256.lift (ix2 r j) k 2 = j := Fin.ext rfl
  show P (sender d (reduces_S15x16x256_S16x256.lift (ix2 r j) k 0))
      (ix2 (rowOf d (reduces_S15x16x256_S16x256.lift (ix2 r j) k 1)) (reduces_S15x16x256_S16x256.lift (ix2 r j) k 2)) = _
  rw [e0, e1, e2]

/-! ## Two facts about finite sums -/

/-- No sender is the receiving device itself. -/
theorem sender_ne (d : Fin 16) (k : Fin 15) : sender d k ≠ d := by
  intro h
  have h' : (d.val + 15 - k.val) % 16 = d.val := congrArg Fin.val h
  have := k.isLt; have := d.isLt; omega

/-- The fifteen senders of device `d` are exactly the fifteen other devices, each once: `k ↦ d - 1 - k` (mod 16) is one to
    one from the fifteen slots onto the devices other than `d`. So a device's own term plus the terms of its senders is the
    sum over all sixteen devices, in any commutative monoid. -/
theorem sum_sender {M : Type*} [AddCommMonoid M] (f : Fin 16 → M) (d : Fin 16) :
    f d + ∑ k : Fin 15, f (sender d k) = ∑ e : Fin 16, f e := by
  rw [← Finset.add_sum_erase Finset.univ f (Finset.mem_univ d)]
  congr 1
  refine Finset.sum_bij (fun k _ => sender d k) (fun k _ => ?_) (fun k₁ _ k₂ _ h => ?_) (fun e he => ?_) (fun _ _ => rfl)
  · exact Finset.mem_erase.mpr ⟨sender_ne d k, Finset.mem_univ _⟩
  · have h' : (d.val + 15 - k₁.val) % 16 = (d.val + 15 - k₂.val) % 16 := congrArg Fin.val h
    exact Fin.ext (by have := k₁.isLt; have := k₂.isLt; have := d.isLt; omega)
  · have hne : e ≠ d := (Finset.mem_erase.mp he).1
    have hv : e.val ≠ d.val := fun h => hne (Fin.ext h)
    refine ⟨⟨(d.val + 15 - e.val) % 16, by have := e.isLt; have := d.isLt; omega⟩, Finset.mem_univ _, Fin.ext ?_⟩
    show (d.val + 15 - (d.val + 15 - e.val) % 16) % 16 = e.val
    have := e.isLt; have := d.isLt; omega

/-- Hidden unit `h` of device `e`'s slice is hidden unit `512 e + h` of the whole layer. -/
def hid (e : Fin 16) (h : Fin 512) : Fin 8192 := ⟨e.val * 512 + h.val, by have := e.isLt; have := h.isLt; omega⟩

/-- A sum over the 8192 hidden units is the sum over the sixteen slices of the sums over each slice's 512 units. -/
theorem sum_hid {M : Type*} [AddCommMonoid M] (g : Fin 8192 → M) :
    ∑ e : Fin 16, ∑ h : Fin 512, g (hid e h) = ∑ H : Fin 8192, g H := by
  rw [← Equiv.sum_comp (finProdFinEquiv (m := 16) (n := 512)) g, Fintype.sum_prod_type]
  refine Finset.sum_congr rfl fun e _ => Finset.sum_congr rfl fun h _ => congrArg g (Fin.ext ?_)
  show e.val * 512 + h.val = h.val + 512 * e.val
  omega

/-! ## A device's slices of the two weight arrays at an entry -/

/-- Column `h` of device `e`'s slice of the first weights is column `512 e + h` of the whole array. -/
theorem w1_block_apply (W1 : Vec Ideal Cert.ReferenceIdeal.S256x8192 .f32) (e : Fin 16)
    (ht : Layout.Tiles ⟨2, ![256, 512]⟩ ⟨2, ![256, 8192]⟩ 1 16) (k : Fin 256) (h : Fin 512) :
    Layout.block ⟨2, ![256, 512]⟩ ⟨2, ![256, 8192]⟩ 1 16 e W1 ht (ix2 k h) = W1 (ix2 k (hid e h)) := by
  rw [Layout.block_apply]
  refine congrArg W1 (funext fun a => Fin.ext ?_)
  match a with
  | ⟨0, _⟩ => rfl
  | ⟨1, _⟩ => rfl

/-- Row `h` of device `e`'s slice of the second weights is row `512 e + h` of the whole array. -/
theorem w2_block_apply (W2 : Vec Ideal Cert.ReferenceIdeal.S8192x256 .f32) (e : Fin 16)
    (ht : Layout.Tiles ⟨2, ![512, 256]⟩ ⟨2, ![8192, 256]⟩ 0 16) (h : Fin 512) (j : Fin 256) :
    Layout.block ⟨2, ![512, 256]⟩ ⟨2, ![8192, 256]⟩ 0 16 e W2 ht (ix2 h j) = W2 (ix2 (hid e h) j) := by
  rw [Layout.block_apply]
  refine congrArg W2 (funext fun a => Fin.ext ?_)
  match a with
  | ⟨0, _⟩ => rfl
  | ⟨1, _⟩ => rfl

/-! ## The reference at an entry -/

/-- Entry `(i, j)` of the reference: the hidden layer's entries `max (∑ k, x (i, k) * W1 (k, H)) 0` times the second weights,
    summed over all 8192 hidden units. -/
theorem reference_apply (x : Vec Ideal S256x256 .f32) (W1 : Vec Ideal Cert.ReferenceIdeal.S256x8192 .f32)
    (W2 : Vec Ideal Cert.ReferenceIdeal.S8192x256 .f32) (i j : Fin 256) :
    Cert.ReferenceIdeal.Read.val_main_v3 (F := Ideal) x W1 W2 (ix2 i j)
      = ∑ H : Fin 8192, max (∑ k : Fin 256, x (ix2 i k) * W1 (ix2 k H)) 0 * W2 (ix2 H j) := by
  rw [Cert.ReferenceIdeal.Read.val_main_v3_apply]
  refine Finset.sum_congr rfl fun H _ => ?_
  have eL : Cert.ReferenceIdeal.Read.lidx_main_v3 (ix2 i j) H = ix2 i H :=
    funext fun a => Fin.ext (by match a with | ⟨0, _⟩ => rfl | ⟨1, _⟩ => rfl)
  have eR : Cert.ReferenceIdeal.Read.ridx_main_v3 (ix2 i j) H = ix2 H j :=
    funext fun a => Fin.ext (by match a with | ⟨0, _⟩ => rfl | ⟨1, _⟩ => rfl)
  have e0L : ∀ k : Fin 256, Cert.ReferenceIdeal.Read.lidx_main_v0 (ix2 i H) k = ix2 i k := fun k =>
    funext fun a => Fin.ext (by match a with | ⟨0, _⟩ => rfl | ⟨1, _⟩ => rfl)
  have e0R : ∀ k : Fin 256, Cert.ReferenceIdeal.Read.ridx_main_v0 (ix2 i H) k = ix2 k H := fun k =>
    funext fun a => Fin.ext (by match a with | ⟨0, _⟩ => rfl | ⟨1, _⟩ => rfl)
  rw [eL, eR, Cert.ReferenceIdeal.Read.val_main_v2_apply, Cert.ReferenceIdeal.Read.val_main_v0_apply,
    Cert.ReferenceIdeal.Read.val_main_v1_apply, Cert.ReferenceIdeal.Read.val_main_cst_apply, zero_word]
  simp only [e0L, e0R]
  rfl

/-! ## The gathered result is the reference -/

/-- Row `i` of a 256-row array is row `i % 16` of row block `i / 16`. -/
theorem rowOf_div_mod (i : Fin 256) (h1 : i.val / 16 < 16) (h2 : i.val % 16 < 16) :
    rowOf ⟨i.val / 16, h1⟩ ⟨i.val % 16, h2⟩ = i :=
  Fin.ext (by show 16 * (i.val / 16) + i.val % 16 = i.val; omega)

/-- Entry `(i, j)` of the gathered result is gathered from device `i / 16`, which added its own block's entry and its
    fifteen senders': the sum of the sixteen partial products' entries `(i, j)`. -/
theorem outOf_apply (P : Fin 16 → Vec Ideal S256x256 .bf16) (i j : Fin 256) :
    outOf (F := Ideal) P (ix2 i j) = ∑ e : Fin 16, P e (ix2 i j) := by
  have h1 : i.val / 16 < 16 := by have := i.isLt; omega
  have h2 : i.val % 16 < 16 := Nat.mod_lt _ (by decide)
  show redOf P ⟨i.val / 16, h1⟩ (ix2 ⟨i.val % 16, h2⟩ j) = _
  rw [redOf_apply, rowOf_div_mod]
  exact sum_sender (fun e => P e (ix2 i j)) _

/-- When device `e` starts with `x`, columns `512 e … 512 e + 511` of the first weights and rows `512 e … 512 e + 511` of the
    second, the gathered result is the reference's: entry `(i, j)` is the sum of the sixteen partial products there, each
    partial product sums over its device's 512 hidden units, and the sixteen slices are the 8192 hidden units, each once. -/
theorem outOf_eq_reference (x : Vec Ideal S256x256 .f32) (W1 : Vec Ideal Cert.ReferenceIdeal.S256x8192 .f32)
    (W2 : Vec Ideal Cert.ReferenceIdeal.S8192x256 .f32) :
    outOf (F := Ideal) (fun e => part x (Layout.block ⟨2, ![256, 512]⟩ ⟨2, ![256, 8192]⟩ 1 16 e W1)
        (Layout.block ⟨2, ![512, 256]⟩ ⟨2, ![8192, 256]⟩ 0 16 e W2))
      = Cert.ReferenceIdeal.Read.val_main_v3 (F := Ideal) x W1 W2 := by
  funext i
  obtain ⟨i0, j, rfl⟩ : ∃ p q, i = ix2 p q := ⟨i 0, i 1, eq_ix2 i⟩
  rw [outOf_apply, reference_apply, ← sum_hid]
  refine Finset.sum_congr rfl fun e _ => ?_
  show part (F := Ideal) x _ _ (ix2 i0 j) = _
  rw [part_apply]
  refine Finset.sum_congr rfl fun h _ => ?_
  rw [w2_block_apply]
  refine congrArg (fun t => max t 0 * W2 (ix2 (hid e h) j)) (Finset.sum_congr rfl fun k _ => ?_)
  rw [w1_block_apply]

/-- info: 'Cert.MlpValue.outOf_eq_reference' depends on axioms: [propext, Classical.choice, Quot.sound] -/
#guard_msgs in #print axioms Cert.MlpValue.outOf_eq_reference

end Cert.MlpValue

end
-- ==== Proof.Assemble.lean ====
/-
  The claims assembled: what each device's arrays hold after the run, read as the arguments unchanged and the result
  the reference's; the reference's own run; and the two frames.
-/
import proofs.«900458_g7700000000000459_dist_mlp2_tp_i_m256_h512_out256_v7x_i16_bf16_1_alg».proof.Proof.Final
import proofs.«900458_g7700000000000459_dist_mlp2_tp_i_m256_h512_out256_v7x_i16_bf16_1_alg».proof.Proof.ValueMath
import proofs.«900458_g7700000000000459_dist_mlp2_tp_i_m256_h512_out256_v7x_i16_bf16_1_alg».proof.Proof.Gen.ReferenceIdeal
import proofs.«900458_g7700000000000459_dist_mlp2_tp_i_m256_h512_out256_v7x_i16_bf16_1_alg».proof.Proof.Gen.ReferenceIdeal.Run
import proofs.«900458_g7700000000000459_dist_mlp2_tp_i_m256_h512_out256_v7x_i16_bf16_1_alg».proof.Proof.Gen.ReferenceIdeal.Read
import proofs.«900458_g7700000000000459_dist_mlp2_tp_i_m256_h512_out256_v7x_i16_bf16_1_alg».proof.Proof.Gen.Pre_finite_inputs_Kernel
import proofs.«900458_g7700000000000459_dist_mlp2_tp_i_m256_h512_out256_v7x_i16_bf16_1_alg».proof.Proof.Gen.Pre_finite_inputs_ReferenceIdeal
import proofs.«900458_g7700000000000459_dist_mlp2_tp_i_m256_h512_out256_v7x_i16_bf16_1_alg».proof.Defs

noncomputable section

namespace Cert.KernelIdeal.Mlp

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's result is the reference's -/

/-- When every device starts with `x`, device `e` with columns `512 e … 512 e + 511` of the first weights and rows
    `512 e … 512 e + 511` of the second, the result every device ends with is the reference's. -/
theorem OUT_eq (m : (ℓ : Loc nD τ sig) → Buf (Elt Ideal) ℓ) (x : Vec Ideal S256x256 .f32) (W1 : Vec Ideal Cert.ReferenceIdeal.S256x8192 .f32)
    (W2 : Vec Ideal Cert.ReferenceIdeal.S8192x256 .f32)
    (hagree : ∀ c : Dev nD, m ((c.tc : Thread nD τ).loc main_arg0) = x
      ∧ m ((c.tc : Thread nD τ).loc main_arg1) = Layout.block ⟨2, ![256, 512]⟩ ⟨2, ![256, 8192]⟩ 1 16 c W1
      ∧ m ((c.tc : Thread nD τ).loc main_arg2) = Layout.block ⟨2, ![512, 256]⟩ ⟨2, ![8192, 256]⟩ 0 16 c W2) :
    OUT m = Cert.ReferenceIdeal.Read.val_main_v3 (F := Ideal) x W1 W2 := by
  unfold OUT
  rw [← Cert.MlpValue.outOf_eq_reference x W1 W2]
  refine congrArg _ (funext fun e => ?_)
  unfold Pc
  rw [Xc_eq, W1c_eq, W2c_eq, (hagree e).1, (hagree e).2.1, (hagree e).2.2]

/-! ## The claims -/

theorem frame_KI (hbody : ∀ (m : (ℓ : Loc nD τ sig) → Buf (Elt Ideal) ℓ) (c : Dev nD), BodyObligation (dats (F := Ideal) m 0 c) (defs₀ (F := Ideal)) 𝒱₀ () Set.univ) :
    Cert.frame_KernelIdeal (hKernelIdeal := Cert.KernelIdeal.Gen.facts) (hPre_finite_inputs_Kernel := Cert.Pre_finite_inputs_Kernel.Gen.facts) :=
  fun m ρ _ => frame_run m ρ (hbody m)

theorem frame_RI : Cert.frame_ReferenceIdeal (hReferenceIdeal := Cert.ReferenceIdeal.Gen.facts) (hPre_finite_inputs_ReferenceIdeal := Cert.Pre_finite_inputs_ReferenceIdeal.Gen.facts) :=
  fun m ρ _ => (θ_run Cert.ReferenceIdeal.defs _ _).mono (fun _ h c => (h c).2) (Cert.ReferenceIdeal.Value.run (F := Ideal) m ρ)

theorem preserves : Cert.preserves_Kernel_KernelIdeal := trivial

/-- At the ideal instance the kernel's result array ends at the gathered sums of the sixteen partial products and the
    reference's at its two products of the whole arrays: one function of arguments that agree. -/
theorem algebraic (hbody : ∀ (m : (ℓ : Loc nD τ sig) → Buf (Elt Ideal) ℓ) (c : Dev nD), BodyObligation (dats (F := Ideal) m 0 c) (defs₀ (F := Ideal)) 𝒱₀ () Set.univ) :
    Cert.algebraic_KernelIdeal_ReferenceIdeal (hKernelIdeal := Cert.KernelIdeal.Gen.facts) (hReferenceIdeal := Cert.ReferenceIdeal.Gen.facts)
    (hPre_finite_inputs_Kernel := Cert.Pre_finite_inputs_Kernel.Gen.facts) := by
  intro m ρ m' ρ' _ hagree
  refine ⟨Cert.ReferenceIdeal.Read.val_main_v3 (F := Ideal)
      (m' (((0 : Dev Cert.ReferenceIdeal.nD).tc : Thread Cert.ReferenceIdeal.nD Cert.ReferenceIdeal.τ).loc Cert.ReferenceIdeal.main_arg0))
      (m' (((0 : Dev Cert.ReferenceIdeal.nD).tc : Thread Cert.ReferenceIdeal.nD Cert.ReferenceIdeal.τ).loc Cert.ReferenceIdeal.main_arg1))
      (m' (((0 : Dev Cert.ReferenceIdeal.nD).tc : Thread Cert.ReferenceIdeal.nD Cert.ReferenceIdeal.τ).loc Cert.ReferenceIdeal.main_arg2)), ?_, ?_⟩
  · exact (θ_run defs _ _).mono (fun _ h c => ⟨(h c).1.trans (OUT_eq m _ _ _ hagree), (h c).2⟩) (value_run m ρ (hbody m))
  · exact (θ_run Cert.ReferenceIdeal.defs _ _).mono (fun _ h => ⟨(h 0).1.trans (Cert.ReferenceIdeal.Read.val_main_v3_eq _ _ _), (h 0).2⟩)
      (Cert.ReferenceIdeal.Value.run (F := Ideal) m' ρ')

/-- info: 'Cert.KernelIdeal.Mlp.frame_KI' depends on axioms: [propext, Classical.choice, Quot.sound] -/
#guard_msgs in #print axioms frame_KI
/-- info: 'Cert.KernelIdeal.Mlp.algebraic' depends on axioms: [propext, Classical.choice, Quot.sound] -/
#guard_msgs in #print axioms algebraic

end Cert.KernelIdeal.Mlp

end
-- ==== Proof.ValueDefsBits.lean ====
/-
  The data a device ends with, written as functions of what every device started with.

  Each of the sixteen devices forms a partial product `P e = relu (x · W1ₑ) · W2ₑ` from its own slice of the hidden
  axis. Row block `d` (rows `16 d … 16 d + 15`) of every partial product is gathered on device `d`: its own block stays
  where it is, and the block of the device `k + 1` places before it on the ring lands in slot `k` of its receive buffer.
  Device `d` adds the sixteen blocks (`redOf`), and the sums are then gathered on every device (`outOf`).
-/
import proofs.«900458_g7700000000000459_dist_mlp2_tp_i_m256_h512_out256_v7x_i16_bf16_1_alg».proof.Proof.Gen.Kernel.Skeleton
import Idealize.ShloMosaic.Lib.ValueIdx

noncomputable section

namespace Cert.MlpValueBits

open Idealize.ShloMosaic Idealize.ShloMosaic.ValueIdx Cert.Kernel Cert.Kernel.Gen

variable {F : FTy → Type} [FloatOps F]

/-- One device's partial product, as its send buffer holds it. -/
def part (x : Vec F S256x256 .f32) (w1 : Vec F S256x512 .f32) (w2 : Vec F S512x256 .f32) : Vec F S256x256 .bf16 :=
  k0_pay2 (k0_pay1 x w1 w2)

/-- Row `16 d + r` of a 256-row array. -/
def rowOf (d : Fin 16) (r : Fin 16) : Fin 256 := ⟨16 * d.val + r.val, by omega⟩

/-- Row block `d` of a 256 × 256 array. -/
def rowBlk {e : EltTy} (v : Vec F S256x256 e) (d : Fin 16) : Vec F S16x256 e :=
  fun y => v (ix2 (rowOf d (y 0)) (y 1))

/-- The device whose block lands in slot `k` of device `d`'s receive buffer: `k + 1` places before `d` on the ring. -/
def sender (d : Fin 16) (k : Fin 15) : Fin 16 := ⟨(d.val + 15 - k.val) % 16, Nat.mod_lt _ (by decide)⟩

variable (P : Fin 16 → Vec F S256x256 .bf16)

/-- Device `d`'s receive buffer once every block has landed. -/
def rsOf (d : Fin 16) : Vec F S15x16x256 .bf16 :=
  fun z => P (sender d (z 0)) (ix2 (rowOf d (z 1)) (z 2))

/-- Device `d`'s sum of the sixteen row blocks `d`. -/
def redOf (d : Fin 16) : FVec F S16x256 .f32 := k0_pay3 (rowBlk (P d) d) (rsOf P d)

/-- The gathered result: row block `d` is device `d`'s sum. -/
def outOf : Vec F S256x256 .f32 :=
  fun i => redOf P ⟨(i 0).val / 16, by have h : (i 0).val < 256 := (i 0).isLt; show (i 0).val / 16 < 16; omega⟩
    (ix2 ⟨(i 0).val % 16, Nat.mod_lt _ (by decide)⟩ (i 1))

end Cert.MlpValueBits

end
-- ==== Proof.ProtoBits.lean ====
/-
  The cross-device protocol of the sixteen-device kernel, stated over the rounds discipline.

  Every device e forms its partial product, sends row block d of it to device d (fifteen addressed copies, slot k of
  the receiver written by the device k + 1 places before it), adds the sixteen blocks of its own rows, and sends that
  sum to every other device (fifteen more copies, into the rows of the result the sender owns). Before its first
  copy a device waits until every other device has signalled its entry: with that signal a device hands each peer
  the receive slot and the result rows the peer will write.
-/
import proofs.«900458_g7700000000000459_dist_mlp2_tp_i_m256_h512_out256_v7x_i16_bf16_1_alg».proof.Proof.ValueDefsBits
import proofs.«900458_g7700000000000459_dist_mlp2_tp_i_m256_h512_out256_v7x_i16_bf16_1_alg».proof.Proof.Gen.Kernel
import proofs.«900458_g7700000000000459_dist_mlp2_tp_i_m256_h512_out256_v7x_i16_bf16_1_alg».proof.Proof.Gen.Kernel.Skeleton
import proofs.«900458_g7700000000000459_dist_mlp2_tp_i_m256_h512_out256_v7x_i16_bf16_1_alg».proof.Proof.Gen.Kernel.Launch
import proofs.«900458_g7700000000000459_dist_mlp2_tp_i_m256_h512_out256_v7x_i16_bf16_1_alg».proof.Proof.Gen.Kernel.Points
import proofs.«900458_g7700000000000459_dist_mlp2_tp_i_m256_h512_out256_v7x_i16_bf16_1_alg».proof.Proof.Gen.Kernel.Frame
import Idealize.ShloMosaic.Lib.Pipeline.Launch
import Idealize.ShloMosaic.Lib.Pipeline.Kit
import Idealize.ShloMosaic.Lib.Tactic

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra: the pipeline library's copy and the rounds library's (duties named by the paying device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ)

/-! ## The ring -/

/-- The device `k + 1` places after `c`: the target of `c`'s `k`-th signal and of its `k`-th copies. -/
def fwd (c : Dev nD) (k : Fin 15) : Dev nD := ⟨(c.val + k.val + 1) % 16, Nat.mod_lt _ (by decide)⟩
/-- The device `k + 1` places before `c`: the one whose `k`-th copies land on `c`. -/
def bwd (c : Dev nD) (k : Fin 15) : Dev nD := ⟨(c.val + 15 - k.val) % 16, Nat.mod_lt _ (by decide)⟩
def rev (k : Fin 15) : Fin 15 := ⟨14 - k.val, by omega⟩
/-- Which of `c`'s predecessors `d` is (meaningful for `d ≠ c`). -/
def idxOf (c d : Dev nD) : Fin 15 := ⟨min 14 ((c.val + 15 - d.val) % 16), by omega⟩

theorem bwd_fwd : ∀ (c : Dev nD) (k : Fin 15), bwd (fwd c k) k = c := by decide
theorem fwd_bwd : ∀ (c : Dev nD) (k : Fin 15), fwd (bwd c k) k = c := by decide
theorem fwd_eq_bwd_rev : ∀ (c : Dev nD) (k : Fin 15), fwd c k = bwd c (rev k) := by decide
theorem bwd_eq_fwd_rev : ∀ (c : Dev nD) (k : Fin 15), bwd c k = fwd c (rev k) := by decide
theorem rev_rev : ∀ k : Fin 15, rev (rev k) = k := by decide
theorem idxOf_bwd : ∀ (c : Dev nD) (k : Fin 15), idxOf c (bwd c k) = k := by decide
theorem idxOf_fwd : ∀ (c : Dev nD) (k : Fin 15), idxOf (fwd c k) c = k := by decide
theorem fwd_ne : ∀ (c : Dev nD) (k : Fin 15), fwd c k ≠ c := by decide
theorem bwd_ne : ∀ (c : Dev nD) (k : Fin 15), bwd c k ≠ c := by decide
theorem fwd_inj : ∀ (c : Dev nD) (k k' : Fin 15), fwd c k = fwd c k' → k = k' := by decide
theorem bwd_idxOf : ∀ (c d : Dev nD), d ≠ c → bwd c (idxOf c d) = d := by decide
theorem sender_eq_bwd (c : Dev nD) (k : Fin 15) : MlpValueBits.sender c k = bwd c k := rfl

/-! ## The buffers, as the body's statements name them -/

abbrev xM : Memref sig .tc .vmem S256x256 .f32 := Memref.whole cc0_stg0_0
abbrev w1M : Memref sig .tc .vmem S256x512 .f32 := Memref.whole cc0_stg1_0
abbrev w2M : Memref sig .tc .vmem S512x256 .f32 := Memref.whole cc0_stg2_0
abbrev outM : Memref sig .tc .vmem S256x256 .f32 := Memref.whole cc0_stg3_0
abbrev sendM : Memref sig .tc .vmem S256x256 .bf16 := Memref.whole cc0_scratch0
abbrev rsM : Memref sig .tc .vmem S15x16x256 .bf16 := Memref.whole cc0_scratch1
abbrev redM : Memref sig .tc .vmem S16x256 .f32 := Memref.whole cc0_scratch2

theorem slot_inb (k : Fin 15) : ∀ a, (![k.val, 0, 0] : Fin 3 → Nat) a + S1x16x256.size a ≤ S15x16x256.size a := by revert k; decide
theorem sem_inb (k : Fin 15) : ∀ a, (![k.val] : Fin 1 → Nat) a + S1.size a ≤ S15.size a := by revert k; decide

/-- Slot `k` of the receive buffer. -/
abbrev slotM (k : Fin 15) : Memref sig .tc .vmem S16x256 .bf16 :=
  (rsM.slice (Rect.unit (s := S15x16x256) ![k.val, 0, 0] S1x16x256.size (slot_inb k)) (fun _ => rfl)).squeeze S16x256 squeezes_S1x16x256_S16x256
/-- The rows of the send buffer that device `c`'s `k`-th copy reads: row block `fwd c k`. -/
abbrev srcM (c : Dev nD) (k : Fin 15) : Memref sig .tc .vmem S16x256 .bf16 :=
  sendM.slice (Rect.unit (s := S256x256) (k0_off1 c (BitVec.ofNat 32 (1 + k.val))) S16x256.size (k0_off1_inb c k)) (fun _ => rfl)
/-- The rows of the result buffer that device `c` owns: row block `c` (on whichever device the memref is read). -/
abbrev outRowsM (c : Dev nD) : Memref sig .tc .vmem S16x256 .f32 :=
  outM.slice (Rect.unit (s := S256x256) (k0_off3 c) S16x256.size (k0_off3_inb c)) (fun _ => rfl)

/-! ## The cells -/

abbrev barS : Sem sig := (SemArray.scalar (sig.barrier 0 rfl) : Sems sig S_).sem
/-- The four families of DMA semaphores: first-phase send and receive, second-phase send and receive. -/
def s1 (k : Fin 15) : DmaSem sig := ((cc0_scratch3.slice (Rect.unit (s := S15) ![k.val] S1.size (sem_inb k))).squeeze S_ squeezes_S1_S_).sem
def r1 (k : Fin 15) : DmaSem sig := ((cc0_scratch4.slice (Rect.unit (s := S15) ![k.val] S1.size (sem_inb k))).squeeze S_ squeezes_S1_S_).sem
def s2 (k : Fin 15) : DmaSem sig := ((cc0_scratch5.slice (Rect.unit (s := S15) ![k.val] S1.size (sem_inb k))).squeeze S_ squeezes_S1_S_).sem
def r2 (k : Fin 15) : DmaSem sig := ((cc0_scratch6.slice (Rect.unit (s := S15) ![k.val] S1.size (sem_inb k))).squeeze S_ squeezes_S1_S_).sem

theorem s1_val : ∀ k : Fin 15, (s1 k).val = 4 + k.val := by decide
theorem r1_val : ∀ k : Fin 15, (r1 k).val = 19 + k.val := by decide
theorem s2_val : ∀ k : Fin 15, (s2 k).val = 34 + k.val := by decide
theorem r2_val : ∀ k : Fin 15, (r2 k).val = 49 + k.val := by decide

abbrev barCell (c : Dev nD) : GSem nD τ sig := ((c : Thread nD τ), .reg barS)
abbrev s1Cell (c : Dev nD) (k : Fin 15) : GSem nD τ sig := ((c : Thread nD τ), .dma (s1 k))
abbrev r1Cell (c : Dev nD) (k : Fin 15) : GSem nD τ sig := ((c : Thread nD τ), .dma (r1 k))
abbrev s2Cell (c : Dev nD) (k : Fin 15) : GSem nD τ sig := ((c : Thread nD τ), .dma (s2 k))
abbrev r2Cell (c : Dev nD) (k : Fin 15) : GSem nD τ sig := ((c : Thread nD τ), .dma (r2 k))

inductive Kind where
  | bar | s1 (k : Fin 15) | r1 (k : Fin 15) | s2 (k : Fin 15) | r2 (k : Fin 15) | other
  deriving DecidableEq

def kindOf : SemLoc sig → Kind
  | .reg s => if s = barS then .bar else .other
  | .dma q =>
    if h : 4 ≤ q.val ∧ q.val < 19 then .s1 ⟨q.val - 4, by omega⟩
    else if h : 19 ≤ q.val ∧ q.val < 34 then .r1 ⟨q.val - 19, by omega⟩
    else if h : 34 ≤ q.val ∧ q.val < 49 then .s2 ⟨q.val - 34, by omega⟩
    else if h : 49 ≤ q.val then .r2 ⟨q.val - 49, by have : q.val < 64 := q.isLt; omega⟩
    else .other

theorem kind_bar : kindOf (.reg barS) = .bar := by decide
theorem kind_s1 : ∀ k : Fin 15, kindOf (.dma (s1 k)) = .s1 k := by decide
theorem kind_r1 : ∀ k : Fin 15, kindOf (.dma (r1 k)) = .r1 k := by decide
theorem kind_s2 : ∀ k : Fin 15, kindOf (.dma (s2 k)) = .s2 k := by decide
theorem kind_r2 : ∀ k : Fin 15, kindOf (.dma (r2 k)) = .r2 k := by decide

/-- The credit of a first-phase copy (sixteen rows of bf16) and of a second-phase copy (sixteen rows of f32). -/
abbrev N1 : ℕ := (slotM 0).view.dmaCredit
abbrev N2 : ℕ := (redM : Memref sig .tc .vmem S16x256 .f32).view.dmaCredit
theorem N1_pos : 0 < N1 := View.dmaCredit_pos _ (by decide)
theorem N2_pos : 0 < N2 := View.dmaCredit_pos _ (by decide)

/-! ## What the buffers hold -/

/-- What device `c`'s three argument windows hold when the body runs: its copy of `x` and its blocks of the two weights. -/
def Xc (c : Dev nD) : (cc0_stg0_0 : Ref sig .tc).ty.Contents (Elt F) := iblk m c 0 t0_0
def W1c (c : Dev nD) : (cc0_stg1_0 : Ref sig .tc).ty.Contents (Elt F) := iblk m c 1 t0_0
def W2c (c : Dev nD) : (cc0_stg2_0 : Ref sig .tc).ty.Contents (Elt F) := iblk m c 2 t0_0
/-- Device `c`'s partial product: its send buffer after the store. -/
def Pc (c : Dev nD) : (cc0_scratch0 : Ref sig .tc).ty.Contents (Elt F) := MlpValueBits.part (Xc m c) (W1c m c) (W2c m c)
/-- Device `c`'s receive buffer once every slot has landed. -/
def RS (c : Dev nD) : (cc0_scratch1 : Ref sig .tc).ty.Contents (Elt F) := MlpValueBits.rsOf (Pc m) c
/-- Device `c`'s sum of the sixteen row blocks `c`: its reduction buffer after the store. -/
def RB (c : Dev nD) : (cc0_scratch2 : Ref sig .tc).ty.Contents (Elt F) := k0_pay4 (MlpValueBits.rowBlk (Pc m c) c) (RS m c)
/-- The result every device ends with. -/
def OUT : (cc0_stg3_0 : Ref sig .tc).ty.Contents (Elt F) := MlpValueBits.outOf (Pc m)

/-! ## Shares of the reduction buffer: fifteen copies read it at once -/

def rpow : ℕ → PosShare TreeShare
  | 0 => fullShare
  | n + 1 => (rpow n).right
def q2 (k : Fin 15) : PosShare TreeShare := (rpow k.val).left

/-! ## The schedule: one round per cell -/

/-- With its entry signal to `c`, device `d` hands over the receive slot and the result rows that `c` will write on `d`. -/
def barPay (c d : Dev nD) : sProp 𝕄 :=
  iprop((∃ f, (slotM (rev (idxOf c d))).view.loc (d : Thread nD τ) ↦[(slotM (rev (idxOf c d))).view.set]{fullShare} f)
      ∗ (∃ f, (outRowsM c).view.loc (d : Thread nD τ) ↦[(outRowsM c).view.set]{fullShare} f))
/-- A first-phase departure returns the rows read. -/
def s1Pay (c : Dev nD) (k : Fin 15) : sProp 𝕄 :=
  (srcM c k).view.loc (c : Thread nD τ) ↦[(srcM c k).view.set]{fullShare} Pc m c
/-- A first-phase arrival: slot `k` holds the sender's row block. -/
def r1Pay (c : Dev nD) (k : Fin 15) : sProp 𝕄 :=
  (slotM k).view.loc (c : Thread nD τ) ↦[(slotM k).view.set]{fullShare} RS m c
/-- A second-phase departure returns the share of the reduction buffer lent. -/
def s2Pay (c : Dev nD) (k : Fin 15) : sProp 𝕄 :=
  (redM : Memref sig .tc .vmem S16x256 .f32).view.loc (c : Thread nD τ) ↦[(redM : Memref sig .tc .vmem S16x256 .f32).view.set]{q2 k} RB m c
/-- A second-phase arrival: the sender's rows of the result hold its sum. -/
def r2Pay (c : Dev nD) (k : Fin 15) : sProp 𝕄 :=
  (outRowsM (bwd c k)).view.loc (c : Thread nD τ) ↦[(outRowsM (bwd c k)).view.set]{fullShare} OUT m

def sched : Rounds.Schedule (GSem nD τ sig) (Dev nD) 𝕄 where
  duties g r :=
    if r = 0 ∧ g.1.2 = .tc then
      match kindOf g.2 with
      | .bar => Finset.univ.erase g.1.1
      | .s1 _ => {g.1.1}
      | .r1 k => {bwd g.1.1 k}
      | .s2 _ => {g.1.1}
      | .r2 k => {bwd g.1.1 k}
      | .other => ∅
    else ∅
  unitless _ := False
  amount g _ _ :=
    match kindOf g.2 with
    | .s1 _ => N1
    | .r1 _ => N1
    | .s2 _ => N2
    | .r2 _ => N2
    | .bar => 1
    | .other => 1
  payload g _ d :=
    match kindOf g.2 with
    | .bar => barPay g.1.1 d
    | .s1 k => s1Pay m g.1.1 k
    | .r1 k => r1Pay m g.1.1 k
    | .s2 k => s2Pay m g.1.1 k
    | .r2 k => r2Pay m g.1.1 k
    | .other => iprop(emp)
  amount_pos g _ _ _ := by
    cases kindOf g.2 <;> first | exact N1_pos | exact N2_pos | exact Nat.one_pos

instance sched_payload_storable (g : GSem nD τ sig) (r : ℕ) (d : Dev nD) :
    BI.Storable (upEmb : UEmb _ 𝕄) ((sched (F := F) m).payload g r d) := by
  show BI.Storable upEmb (match kindOf g.2 with
    | .bar => barPay g.1.1 d
    | .s1 k => s1Pay m g.1.1 k
    | .r1 k => r1Pay m g.1.1 k
    | .s2 k => s2Pay m g.1.1 k
    | .r2 k => r2Pay m g.1.1 k
    | .other => iprop(emp))
  unfold barPay s1Pay r1Pay s2Pay r2Pay
  split <;> infer_instance

section Sched
variable (c : Dev nD) (k : Fin 15)

theorem duties_bar : (sched (F := F) m).duties (barCell c) 0 = Finset.univ.erase c := by
  dsimp only [sched]; rw [if_pos ⟨rfl, rfl⟩, kind_bar]
theorem duties_s1 : (sched (F := F) m).duties (s1Cell c k) 0 = {c} := by
  dsimp only [sched]; rw [if_pos ⟨rfl, rfl⟩, kind_s1]
theorem duties_r1 : (sched (F := F) m).duties (r1Cell c k) 0 = {bwd c k} := by
  dsimp only [sched]; rw [if_pos ⟨rfl, rfl⟩, kind_r1]
theorem duties_s2 : (sched (F := F) m).duties (s2Cell c k) 0 = {c} := by
  dsimp only [sched]; rw [if_pos ⟨rfl, rfl⟩, kind_s2]
theorem duties_r2 : (sched (F := F) m).duties (r2Cell c k) 0 = {bwd c k} := by
  dsimp only [sched]; rw [if_pos ⟨rfl, rfl⟩, kind_r2]
theorem duties_later (g : GSem nD τ sig) : ∀ r, 1 ≤ r → (sched (F := F) m).duties g r = ∅ :=
  fun r hr => by dsimp only [sched]; rw [if_neg fun h => by omega]

theorem amount_bar (d : Dev nD) : (sched (F := F) m).amount (barCell c) 0 d = 1 := by dsimp only [sched]; rw [kind_bar]
theorem amount_s1 (d : Dev nD) : (sched (F := F) m).amount (s1Cell c k) 0 d = N1 := by dsimp only [sched]; rw [kind_s1]
theorem amount_r1 (d : Dev nD) : (sched (F := F) m).amount (r1Cell c k) 0 d = N1 := by dsimp only [sched]; rw [kind_r1]
theorem amount_s2 (d : Dev nD) : (sched (F := F) m).amount (s2Cell c k) 0 d = N2 := by dsimp only [sched]; rw [kind_s2]
theorem amount_r2 (d : Dev nD) : (sched (F := F) m).amount (r2Cell c k) 0 d = N2 := by dsimp only [sched]; rw [kind_r2]

theorem payload_bar (d : Dev nD) : (sched (F := F) m).payload (barCell c) 0 d = barPay c d := by dsimp only [sched]; rw [kind_bar]
theorem payload_s1 (d : Dev nD) : (sched (F := F) m).payload (s1Cell c k) 0 d = s1Pay m c k := by dsimp only [sched]; rw [kind_s1]
theorem payload_r1 (d : Dev nD) : (sched (F := F) m).payload (r1Cell c k) 0 d = r1Pay m c k := by dsimp only [sched]; rw [kind_r1]
theorem payload_s2 (d : Dev nD) : (sched (F := F) m).payload (s2Cell c k) 0 d = s2Pay m c k := by dsimp only [sched]; rw [kind_s2]
theorem payload_r2 (d : Dev nD) : (sched (F := F) m).payload (r2Cell c k) 0 d = r2Pay m c k := by dsimp only [sched]; rw [kind_r2]

theorem expect_bar : (sched (F := F) m).expect (barCell c) 0 = 15 := by
  unfold Schedule.expect Schedule.amountOf
  rw [duties_bar, Finset.sum_congr rfl fun d _ => amount_bar m c d, Finset.sum_const, Finset.card_erase_of_mem (Finset.mem_univ _),
    Finset.card_univ, Fintype.card_fin, smul_eq_mul]
  rfl
theorem expect_s1 : (sched (F := F) m).expect (s1Cell c k) 0 = N1 := by
  unfold Schedule.expect Schedule.amountOf; rw [duties_s1, Finset.sum_singleton, amount_s1]
theorem expect_r1 : (sched (F := F) m).expect (r1Cell c k) 0 = N1 := by
  unfold Schedule.expect Schedule.amountOf; rw [duties_r1, Finset.sum_singleton, amount_r1]
theorem expect_s2 : (sched (F := F) m).expect (s2Cell c k) 0 = N2 := by
  unfold Schedule.expect Schedule.amountOf; rw [duties_s2, Finset.sum_singleton, amount_s2]
theorem expect_r2 : (sched (F := F) m).expect (r2Cell c k) 0 = N2 := by
  unfold Schedule.expect Schedule.amountOf; rw [duties_r2, Finset.sum_singleton, amount_r2]

theorem rest_s1 : bigSep ((sched (F := F) m).duties (s1Cell c k) 0 \ ∅) (fun d => (sched (F := F) m).payload (s1Cell c k) 0 d) = s1Pay m c k := by
  rw [Finset.sdiff_empty, duties_s1, bigSep_singleton, payload_s1]
theorem rest_r1 : bigSep ((sched (F := F) m).duties (r1Cell c k) 0 \ ∅) (fun d => (sched (F := F) m).payload (r1Cell c k) 0 d) = r1Pay m c k := by
  rw [Finset.sdiff_empty, duties_r1, bigSep_singleton, payload_r1]
theorem rest_s2 : bigSep ((sched (F := F) m).duties (s2Cell c k) 0 \ ∅) (fun d => (sched (F := F) m).payload (s2Cell c k) 0 d) = s2Pay m c k := by
  rw [Finset.sdiff_empty, duties_s2, bigSep_singleton, payload_s2]
theorem rest_r2 : bigSep ((sched (F := F) m).duties (r2Cell c k) 0 \ ∅) (fun d => (sched (F := F) m).payload (r2Cell c k) 0 d) = r2Pay m c k := by
  rw [Finset.sdiff_empty, duties_r2, bigSep_singleton, payload_r2]

theorem erase_eq_map : ∀ c : Dev nD, (Finset.univ.erase c : Finset (Dev nD)) = (Finset.univ : Finset (Fin 15)).image (bwd c) := by decide

/-- What the entry wait hands a device: from each of the fifteen others, the slot and the rows it will write there. -/
theorem rest_bar : bigSep ((sched (F := F) m).duties (barCell c) 0 \ ∅) (fun d => (sched (F := F) m).payload (barCell c) 0 d)
    = bigSep (Finset.univ : Finset (Fin 15)) (fun j => barPay (F := F) c (bwd c j)) := by
  rw [Finset.sdiff_empty, duties_bar, erase_eq_map, bigSep_image_of_injOn (fun a _ b _ h => by
    have := congrArg (idxOf c) h; rwa [idxOf_bwd, idxOf_bwd] at this)]
  exact bigSep_congr fun j _ => payload_bar m c _

end Sched

/-! ## What a device owes at launch, and the levels -/

/-- Device `c`'s `j`-th debts: one unit to the `j`-th successor's entry cell, a first-phase and a second-phase arrival's
    credit to its `j`-th receive cells. -/
def tB (c : Dev nD) (j : ℕ) : CellTallies nD τ sig Unit := if h : j < 15 then tallyAt (barCell (fwd c ⟨j, h⟩)) () 1 else 0
def t1 (c : Dev nD) (j : ℕ) : CellTallies nD τ sig Unit := if h : j < 15 then tallyAt (r1Cell (fwd c ⟨j, h⟩) ⟨j, h⟩) () N1 else 0
def t2 (c : Dev nD) (j : ℕ) : CellTallies nD τ sig Unit := if h : j < 15 then tallyAt (r2Cell (fwd c ⟨j, h⟩) ⟨j, h⟩) () N2 else 0
/-- The last `n` of the fifteen debts of a kind, summed so that the earliest still owed is the last summand. -/
def oweB (c : Dev nD) : ℕ → CellTallies nD τ sig Unit
  | 0 => 0
  | n + 1 => oweB c n + tB c (14 - n)
def owe1 (c : Dev nD) : ℕ → CellTallies nD τ sig Unit
  | 0 => 0
  | n + 1 => owe1 c n + t1 c (14 - n)
def owe2 (c : Dev nD) : ℕ → CellTallies nD τ sig Unit
  | 0 => 0
  | n + 1 => owe2 c n + t2 c (14 - n)
/-- What device `c` still owes with `a` entry signals, `b` first-phase and `d` second-phase copies to go. -/
def owing (c : Dev nD) (a b d : ℕ) : CellTallies nD τ sig Unit := (owe2 c d + owe1 c b) + oweB c a
def O₀ (c : Dev nD) : CellTallies nD τ sig Unit := owing c 15 15 15

theorem owing_peelB (c : Dev nD) (k : Fin 15) (b d : ℕ) :
    owing c (15 - k.val) b d = owing c (14 - k.val) b d + tallyAt (barCell (fwd c k)) () 1 := by
  have h : 15 - k.val = (14 - k.val) + 1 := by omega
  unfold owing; rw [h, oweB, ← add_assoc]
  have h2 : 14 - (14 - k.val) = k.val := by omega
  rw [h2, tB, dif_pos k.isLt]
theorem owing_peel1 (c : Dev nD) (k : Fin 15) (a d : ℕ) :
    owing c a (15 - k.val) d = owing c a (14 - k.val) d + tallyAt (r1Cell (fwd c k) k) () N1 := by
  have h : 15 - k.val = (14 - k.val) + 1 := by omega
  unfold owing; rw [h, owe1]
  have h2 : 14 - (14 - k.val) = k.val := by omega
  rw [h2, t1, dif_pos k.isLt]; abel
theorem owing_peel2 (c : Dev nD) (k : Fin 15) (a b : ℕ) :
    owing c a b (15 - k.val) = owing c a b (14 - k.val) + tallyAt (r2Cell (fwd c k) k) () N2 := by
  have h : 15 - k.val = (14 - k.val) + 1 := by omega
  unfold owing; rw [h, owe2]
  have h2 : 14 - (14 - k.val) = k.val := by omega
  rw [h2, t2, dif_pos k.isLt]; abel
theorem owing_zero (c : Dev nD) : owing c 0 0 0 = 0 := by unfold owing owe2 owe1 oweB; simp

def L (g : GSem nD τ sig) : Finset Unit := if g.1.2 = .tc then {()} else ∅
/-- Entry cells at 1, first-phase receive cells at 2, second-phase receive cells at 3, everything else at 0. -/
def lv (g : GSem nD τ sig) (_ : Unit) : ℕ :=
  match kindOf g.2 with
  | .bar => 1
  | .r1 _ => 2
  | .r2 _ => 3
  | _ => 0

theorem L_of_ne (g : GSem nD τ sig) (h : g.1.2 ≠ .tc) : L g = ∅ := if_neg h
theorem L_tc (c : Dev nD) (sm : SemLoc sig) : L ((c : Thread nD τ), sm) = {()} := if_pos rfl

/-! ## The cells, numbered -/

/-- A device's sixty-one cells: the entry cell, then the four families of fifteen. -/
def csem (i : Fin 61) : SemLoc sig :=
  if h : i.val = 0 then .reg barS
  else if h1 : i.val < 16 then .dma (s1 ⟨i.val - 1, by omega⟩)
  else if h2 : i.val < 31 then .dma (r1 ⟨i.val - 16, by omega⟩)
  else if h3 : i.val < 46 then .dma (s2 ⟨i.val - 31, by omega⟩)
  else .dma (r2 ⟨i.val - 46, by omega⟩)
abbrev kcell (ck : Dev nD × Fin 61) : GSem nD τ sig := ((ck.1 : Thread nD τ), csem ck.2)
def iS1 (k : Fin 15) : Fin 61 := ⟨1 + k.val, by omega⟩
def iR1 (k : Fin 15) : Fin 61 := ⟨16 + k.val, by omega⟩
def iS2 (k : Fin 15) : Fin 61 := ⟨31 + k.val, by omega⟩
def iR2 (k : Fin 15) : Fin 61 := ⟨46 + k.val, by omega⟩
theorem csem_0 : csem 0 = .reg barS := by decide
theorem csem_S1 : ∀ k : Fin 15, csem (iS1 k) = .dma (s1 k) := by decide
theorem csem_R1 : ∀ k : Fin 15, csem (iR1 k) = .dma (r1 k) := by decide
theorem csem_S2 : ∀ k : Fin 15, csem (iS2 k) = .dma (s2 k) := by decide
theorem csem_R2 : ∀ k : Fin 15, csem (iR2 k) = .dma (r2 k) := by decide
theorem csem_injective : Function.Injective csem := by decide

/-! ## The ghost state a device's body starts from -/

/-- Every cell's invariant at the name the launch allocated it at, and that round 0 of every cell is reached. -/
def records (K : Dev nD × Fin 61 → ℕ) : sProp 𝕄 :=
  iprop((bigSep Finset.univ fun ck : Dev nD × Fin 61 => cellInv ER (sched m) (K ck) (kcell ck))
    ∗ bigSep Finset.univ fun ck : Dev nD × Fin 61 => reached ER (kcell ck) 0)

instance records_persistent (K : Dev nD × Fin 61 → ℕ) : BI.Persistent (records m K) := by unfold records; infer_instance

/-- The tokens of the duties device `c` pays: per `k`, its entry signal and its two arrivals at its `k`-th successor,
    and its own two departures. -/
def payToks (c : Dev nD) : sProp 𝕄 :=
  bigSep (Finset.univ : Finset (Fin 15)) fun k =>
    iprop(dutyTok ER (barCell (fwd c k)) 0 c ∗ dutyTok ER (r1Cell (fwd c k) k) 0 c ∗ dutyTok ER (r2Cell (fwd c k) k) 0 c
      ∗ dutyTok ER (s1Cell c k) 0 c ∗ dutyTok ER (s2Cell c k) 0 c)
/-- Device `c`'s positions: at round 0 of each of its cells. -/
def positions (c : Dev nD) : sProp 𝕄 := bigSep (Finset.univ : Finset (Fin 61)) fun i => atPos ER (kcell (c, i)) 0 ∅ 0

def ghost (K : Dev nD × Fin 61 → ℕ) (c : Dev nD) : sProp 𝕄 := iprop(records m K ∗ positions c ∗ payToks c)

/-- The credit a device is dealt at launch: fifteen units on its entry cell, an arrival's credit on each receive cell. -/
def creds (c : Dev nD) : sProp 𝕄 :=
  iprop(cred (tallyAt (barCell c) () 15)
    ∗ (bigSep (Finset.univ : Finset (Fin 15)) fun k => cred (tallyAt (r1Cell c k) () N1))
    ∗ (bigSep (Finset.univ : Finset (Fin 15)) fun k => cred (tallyAt (r2Cell c k) () N2)))

def start (c : Dev nD) : sProp 𝕄 := iprop((∃ K, ghost m K c) ∗ creds c ∗ levAts L lv)

/-- The three scratch buffers, whole, at some contents. -/
def scratch (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

def Φ₀ (c : Dev nD) : sProp 𝕄 := iprop(start m c ∗ scratch c)
/-- After the body: the scratch buffers back whole, and the kernel's sixty own cells closed at zero. -/
def Φ₁ (c : Dev nD) : sProp 𝕄 :=
  iprop(scratch c ∗ bigSep (Finset.univ.erase (0 : Fin 61)) fun i => semVal (kcell (c, i)) 0)

def dats (_ : Fin 1) (c : Dev nD) : Dat τ (Elt F) Unit ℕ UU ℕ cfg0 c where
  A w := m ((cfg0.win w).arr.view.loc (c : Thread nD τ))
  after w _ := match w with
    | ⟨0, _⟩ => Xc m c
    | ⟨1, _⟩ => W1c m c
    | ⟨2, _⟩ => W2c m c
    | ⟨3, _⟩ => OUT m
  Φ t := match t with
    | ⟨0, _⟩ => Φ₀ m c
    | ⟨_ + 1, _⟩ => Φ₁ c
  q _ := fullShare
  owed t := match t with
    | ⟨0, _⟩ => O₀ c
    | ⟨_ + 1, _⟩ => 0

abbrev 𝒱₀ : Variants := Variants.none

end Cert.Kernel.Mlp

end
-- ==== Proof.StepsBits.lean ====
/-
  One step of a device's protocol at a time: each statement of the body that touches another device, as a rule from
  the state of the phase it belongs to, to that state one step further on.
-/
import proofs.«900458_g7700000000000459_dist_mlp2_tp_i_m256_h512_out256_v7x_i16_bf16_1_alg».proof.Proof.ProtoBits

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

/-! ## The printed device chains are the ring's successors -/

theorem dev1_eq (c : Dev nD) : (⟨k0_dev1 c, k0_dev1_lt c⟩ : Dev nD) = fwd c 0 := Fin.ext (k0_dev1_eq c)
theorem dev2_eq (c : Dev nD) : (⟨k0_dev2 c, k0_dev2_lt c⟩ : Dev nD) = fwd c 1 := Fin.ext (k0_dev2_eq c)
theorem dev3_eq (c : Dev nD) : (⟨k0_dev3 c, k0_dev3_lt c⟩ : Dev nD) = fwd c 2 := Fin.ext (k0_dev3_eq c)
theorem dev4_eq (c : Dev nD) : (⟨k0_dev4 c, k0_dev4_lt c⟩ : Dev nD) = fwd c 3 := Fin.ext (k0_dev4_eq c)
theorem dev5_eq (c : Dev nD) : (⟨k0_dev5 c, k0_dev5_lt c⟩ : Dev nD) = fwd c 4 := Fin.ext (k0_dev5_eq c)
theorem dev6_eq (c : Dev nD) : (⟨k0_dev6 c, k0_dev6_lt c⟩ : Dev nD) = fwd c 5 := Fin.ext (k0_dev6_eq c)
theorem dev7_eq (c : Dev nD) : (⟨k0_dev7 c, k0_dev7_lt c⟩ : Dev nD) = fwd c 6 := Fin.ext (k0_dev7_eq c)
theorem dev8_eq (c : Dev nD) : (⟨k0_dev8 c, k0_dev8_lt c⟩ : Dev nD) = fwd c 7 := Fin.ext (k0_dev8_eq c)
theorem dev9_eq (c : Dev nD) : (⟨k0_dev9 c, k0_dev9_lt c⟩ : Dev nD) = fwd c 8 := Fin.ext (k0_dev9_eq c)
theorem dev10_eq (c : Dev nD) : (⟨k0_dev10 c, k0_dev10_lt c⟩ : Dev nD) = fwd c 9 := Fin.ext (k0_dev10_eq c)
theorem dev11_eq (c : Dev nD) : (⟨k0_dev11 c, k0_dev11_lt c⟩ : Dev nD) = fwd c 10 := Fin.ext (k0_dev11_eq c)
theorem dev12_eq (c : Dev nD) : (⟨k0_dev12 c, k0_dev12_lt c⟩ : Dev nD) = fwd c 11 := Fin.ext (k0_dev12_eq c)
theorem dev13_eq (c : Dev nD) : (⟨k0_dev13 c, k0_dev13_lt c⟩ : Dev nD) = fwd c 12 := Fin.ext (k0_dev13_eq c)
theorem dev14_eq (c : Dev nD) : (⟨k0_dev14 c, k0_dev14_lt c⟩ : Dev nD) = fwd c 13 := Fin.ext (k0_dev14_eq c)
theorem dev15_eq (c : Dev nD) : (⟨k0_dev15 c, k0_dev15_lt c⟩ : Dev nD) = fwd c 14 := Fin.ext (k0_dev15_eq c)
theorem dev16_eq (c : Dev nD) : (⟨k0_dev16 c, k0_dev16_lt c⟩ : Dev nD) = fwd c 0 := Fin.ext (k0_dev16_eq c)
theorem dev17_eq (c : Dev nD) : (⟨k0_dev17 c, k0_dev17_lt c⟩ : Dev nD) = fwd c 1 := Fin.ext (k0_dev17_eq c)
theorem dev18_eq (c : Dev nD) : (⟨k0_dev18 c, k0_dev18_lt c⟩ : Dev nD) = fwd c 2 := Fin.ext (k0_dev18_eq c)
theorem dev19_eq (c : Dev nD) : (⟨k0_dev19 c, k0_dev19_lt c⟩ : Dev nD) = fwd c 3 := Fin.ext (k0_dev19_eq c)
theorem dev20_eq (c : Dev nD) : (⟨k0_dev20 c, k0_dev20_lt c⟩ : Dev nD) = fwd c 4 := Fin.ext (k0_dev20_eq c)
theorem dev21_eq (c : Dev nD) : (⟨k0_dev21 c, k0_dev21_lt c⟩ : Dev nD) = fwd c 5 := Fin.ext (k0_dev21_eq c)
theorem dev22_eq (c : Dev nD) : (⟨k0_dev22 c, k0_dev22_lt c⟩ : Dev nD) = fwd c 6 := Fin.ext (k0_dev22_eq c)
theorem dev23_eq (c : Dev nD) : (⟨k0_dev23 c, k0_dev23_lt c⟩ : Dev nD) = fwd c 7 := Fin.ext (k0_dev23_eq c)
theorem dev24_eq (c : Dev nD) : (⟨k0_dev24 c, k0_dev24_lt c⟩ : Dev nD) = fwd c 8 := Fin.ext (k0_dev24_eq c)
theorem dev25_eq (c : Dev nD) : (⟨k0_dev25 c, k0_dev25_lt c⟩ : Dev nD) = fwd c 9 := Fin.ext (k0_dev25_eq c)
theorem dev26_eq (c : Dev nD) : (⟨k0_dev26 c, k0_dev26_lt c⟩ : Dev nD) = fwd c 10 := Fin.ext (k0_dev26_eq c)
theorem dev27_eq (c : Dev nD) : (⟨k0_dev27 c, k0_dev27_lt c⟩ : Dev nD) = fwd c 11 := Fin.ext (k0_dev27_eq c)
theorem dev28_eq (c : Dev nD) : (⟨k0_dev28 c, k0_dev28_lt c⟩ : Dev nD) = fwd c 12 := Fin.ext (k0_dev28_eq c)
theorem dev29_eq (c : Dev nD) : (⟨k0_dev29 c, k0_dev29_lt c⟩ : Dev nD) = fwd c 13 := Fin.ext (k0_dev29_eq c)
theorem dev30_eq (c : Dev nD) : (⟨k0_dev30 c, k0_dev30_lt c⟩ : Dev nD) = fwd c 14 := Fin.ext (k0_dev30_eq c)
theorem dev31_eq (c : Dev nD) : (⟨k0_dev31 c, k0_dev31_lt c⟩ : Dev nD) = fwd c 0 := Fin.ext (k0_dev31_eq c)
theorem dev32_eq (c : Dev nD) : (⟨k0_dev32 c, k0_dev32_lt c⟩ : Dev nD) = fwd c 1 := Fin.ext (k0_dev32_eq c)
theorem dev33_eq (c : Dev nD) : (⟨k0_dev33 c, k0_dev33_lt c⟩ : Dev nD) = fwd c 2 := Fin.ext (k0_dev33_eq c)
theorem dev34_eq (c : Dev nD) : (⟨k0_dev34 c, k0_dev34_lt c⟩ : Dev nD) = fwd c 3 := Fin.ext (k0_dev34_eq c)
theorem dev35_eq (c : Dev nD) : (⟨k0_dev35 c, k0_dev35_lt c⟩ : Dev nD) = fwd c 4 := Fin.ext (k0_dev35_eq c)
theorem dev36_eq (c : Dev nD) : (⟨k0_dev36 c, k0_dev36_lt c⟩ : Dev nD) = fwd c 5 := Fin.ext (k0_dev36_eq c)
theorem dev37_eq (c : Dev nD) : (⟨k0_dev37 c, k0_dev37_lt c⟩ : Dev nD) = fwd c 6 := Fin.ext (k0_dev37_eq c)
theorem dev38_eq (c : Dev nD) : (⟨k0_dev38 c, k0_dev38_lt c⟩ : Dev nD) = fwd c 7 := Fin.ext (k0_dev38_eq c)
theorem dev39_eq (c : Dev nD) : (⟨k0_dev39 c, k0_dev39_lt c⟩ : Dev nD) = fwd c 8 := Fin.ext (k0_dev39_eq c)
theorem dev40_eq (c : Dev nD) : (⟨k0_dev40 c, k0_dev40_lt c⟩ : Dev nD) = fwd c 9 := Fin.ext (k0_dev40_eq c)
theorem dev41_eq (c : Dev nD) : (⟨k0_dev41 c, k0_dev41_lt c⟩ : Dev nD) = fwd c 10 := Fin.ext (k0_dev41_eq c)
theorem dev42_eq (c : Dev nD) : (⟨k0_dev42 c, k0_dev42_lt c⟩ : Dev nD) = fwd c 11 := Fin.ext (k0_dev42_eq c)
theorem dev43_eq (c : Dev nD) : (⟨k0_dev43 c, k0_dev43_lt c⟩ : Dev nD) = fwd c 12 := Fin.ext (k0_dev43_eq c)
theorem dev44_eq (c : Dev nD) : (⟨k0_dev44 c, k0_dev44_lt c⟩ : Dev nD) = fwd c 13 := Fin.ext (k0_dev44_eq c)
theorem dev45_eq (c : Dev nD) : (⟨k0_dev45 c, k0_dev45_lt c⟩ : Dev nD) = fwd c 14 := Fin.ext (k0_dev45_eq c)

/-! ## Index sets: the steps still to come, the steps done -/

def ge (n : ℕ) : Finset (Fin 15) := Finset.univ.filter fun k => n ≤ k.val
def lt (n : ℕ) : Finset (Fin 15) := Finset.univ.filter fun k => k.val < n

theorem mem_ge {n : ℕ} {k : Fin 15} : k ∈ ge n ↔ n ≤ k.val := by simp [ge]
theorem mem_lt {n : ℕ} {k : Fin 15} : k ∈ lt n ↔ k.val < n := by simp [lt]
theorem ge_eq_insert (k : Fin 15) : ge k.val = insert k (ge (k.val + 1)) := by
  ext j; rw [Finset.mem_insert, mem_ge, mem_ge, Fin.ext_iff]; omega
theorem not_mem_ge_succ (k : Fin 15) : k ∉ ge (k.val + 1) := by rw [mem_ge]; omega
theorem lt_succ_eq_insert (k : Fin 15) : lt (k.val + 1) = insert k (lt k.val) := by
  ext j; rw [Finset.mem_insert, mem_lt, mem_lt, Fin.ext_iff]; omega
theorem not_mem_lt (k : Fin 15) : k ∉ lt k.val := by rw [mem_lt]; omega
theorem ge_zero : ge 0 = Finset.univ := by ext j; simp [ge]
theorem ge_fifteen : ge 15 = ∅ := by ext j; simp [ge]
theorem lt_zero : lt 0 = ∅ := by ext j; simp [lt]
theorem lt_fifteen : lt 15 = Finset.univ := by ext j; simp [lt]

/-! ## Reading the records -/

theorem kcell_bar (d : Dev nD) : kcell (d, 0) = barCell d := by unfold kcell; rw [csem_0]
theorem kcell_s1 (d : Dev nD) (k : Fin 15) : kcell (d, iS1 k) = s1Cell d k := by unfold kcell; rw [csem_S1]
theorem kcell_r1 (d : Dev nD) (k : Fin 15) : kcell (d, iR1 k) = r1Cell d k := by unfold kcell; rw [csem_R1]
theorem kcell_s2 (d : Dev nD) (k : Fin 15) : kcell (d, iS2 k) = s2Cell d k := by unfold kcell; rw [csem_S2]
theorem kcell_r2 (d : Dev nD) (k : Fin 15) : kcell (d, iR2 k) = r2Cell d k := by unfold kcell; rw [csem_R2]

theorem rec_inv (K : Dev nD × Fin 61 → ℕ) (ck : Dev nD × Fin 61) : records m K ⊢ cellInv ER (sched m) (K ck) (kcell ck) := by
  unfold records
  exact sep_elim_left.trans (bigSep_elim (Φ := fun ck : Dev nD × Fin 61 => (cellInv ER (sched m) (K ck) (kcell ck) : sProp 𝕄)) (Finset.mem_univ ck))
theorem rec_reached (K : Dev nD × Fin 61 → ℕ) (ck : Dev nD × Fin 61) : records m K ⊢ (reached ER (kcell ck) 0 : sProp 𝕄) := by
  unfold records
  exact sep_elim_right.trans (bigSep_elim (Φ := fun ck : Dev nD × Fin 61 => (reached ER (kcell ck) 0 : sProp 𝕄)) (Finset.mem_univ ck))

/-- One summand out of a `bigSep` over an inserted index, in the proof mode's spelling. -/
theorem bigSep_insert' {I : Type} [DecidableEq I] {s : Finset I} {i : I} (hi : i ∉ s) (Φ : I → sProp 𝕄) :
    bigSep (insert i s) Φ = iprop(Φ i ∗ bigSep s Φ) := bigSep_insert hi

/-! ## Phase A: the fifteen entry signals -/

/-- A receive slot, and a row block of the result buffer, on device `c`, at some contents. -/
def slotE (c : Dev nD) (j : Fin 15) : sProp 𝕄 :=
  iprop(∃ f, (slotM j).view.loc (c : Thread nD τ) ↦[(slotM j).view.set]{fullShare} f)
def rowsE (c d : Dev nD) : sProp 𝕄 :=
  iprop(∃ f, (outRowsM d).view.loc (c : Thread nD τ) ↦[(outRowsM d).view.set]{fullShare} f)

theorem barPay_eq (c d : Dev nD) : barPay (F := F) c d = iprop(slotE d (rev (idxOf c d)) ∗ rowsE d c) := rfl

/-- With `n` signals sent: what is still owed, and for each signal to come its token and what it hands over. -/
def SA (K : Dev nD × Fin 61 → ℕ) (c : Dev nD) (n : ℕ) : sProp 𝕄 :=
  iprop(records m K ∗ (∃ W, owes (c : Thread nD τ) (owing c (15 - n) 15 15) W)
    ∗ bigSep (ge n) fun k => iprop(dutyTok ER (barCell (fwd c k)) 0 c ∗ slotE c (rev k) ∗ rowsE c (fwd c k)))

theorem step_sig (K : Dev nD × Fin 61 → ℕ) (c : Dev nD) (k : Fin 15) (n : Dev nD) (hn : n = fwd c k) {k' : ℕ} (hk' : k' = 1)
    {α : Type} {Q : α → sProp 𝕄} {kk : PUnit → Prog (TpuEff nD τ sig (Elt F) Λ₀ .tc) α} :
    SA m K c k.val ⊢ iprop((SA m K c (k.val + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS k') kk) Q) := by
  subst hn hk'
  unfold SA
  rw [ge_eq_insert k, bigSep_insert' (not_mem_ge_succ k)]
  iintro ⟨#Hrec, ⟨%W, HO⟩, ⟨Htok, Hslot, Hrows⟩, Hrest⟩ Hk
  have e : 15 - (k.val + 1) = 14 - k.val := by omega
  iapply (Rounds.wp_signal 𝒱₀ ER (sched m) (c : Thread nD τ) none (dst := (fwd c k : Thread nD τ)) (κ := K (fwd c k, 0)) (d := c)
      (by rw [duties_bar]; exact Finset.mem_erase.mpr ⟨(fwd_ne c k).symm, Finset.mem_univ _⟩) (amount_bar m (fwd c k) c) ()
      (owing c (14 - k.val) 15 15) (owing_peelB c k 15 15)) $$ [HO Htok Hslot Hrows]
  · isplitr
    · ihave H := (rec_inv m K (fwd c k, 0)) $$ Hrec; rw [kcell_bar]; iexact H
    isplitl [HO]; · iexact HO
    isplitl [Htok]; · iexact Htok
    isplitl [Hslot Hrows]
    · rw [payload_bar, barPay_eq, idxOf_fwd]; isplitl [Hslot] <;> iassumption
    · ihave H := (rec_reached m K (fwd c k, 0)) $$ Hrec; rw [kcell_bar]; iexact H
  iintro HO
  iapply Hk
  isplitr; · iexact Hrec
  isplitl [HO]; · iexists W; rw [e]; iexact HO
  iexact Hrest

/-! ## The entry wait -/

def revEquiv : Fin 15 ≃ Fin 15 := ⟨rev, rev, rev_rev, rev_rev⟩

/-- What the fifteen entry signals received hand over, by the successor that sent each: on the `k`-th successor, the
    slot `k` and the rows `c` that `c`'s `k`-th copies will write. -/
theorem bar_payloads (c : Dev nD) :
    bigSep (Finset.univ : Finset (Fin 15)) (fun j => barPay (F := F) c (bwd c j))
      = bigSep (Finset.univ : Finset (Fin 15)) (fun k => iprop(slotE (F := F) (fwd c k) k ∗ rowsE (fwd c k) c)) := by
  rw [bigSep_univ_equiv revEquiv]
  exact bigSep_congr fun k _ => by
    show barPay c (bwd c (rev k)) = _
    rw [barPay_eq, idxOf_bwd, rev_rev, ← fwd_eq_bwd_rev]

theorem step_barwait (K : Dev nD × Fin 61 → ℕ) (c : Dev nD) {k' : ℕ} (hk' : k' = 15) (W : Waits sig Unit)
    (hmay : (levAts L lv : sProp 𝕄) ⊢ MayWait (c : Thread nD τ) (.reg barS) () (owing c 0 15 15))
    {α : Type} {Q : α → sProp 𝕄} {kk : PUnit → Prog (TpuEff nD τ sig (Elt F) Λ₀ .tc) α} :
    iprop(records m K ∗ levAts L lv ∗ cred (tallyAt (barCell c) () 15) ∗ owes (c : Thread nD τ) (owing c 0 15 15) W ∗ atPos ER (barCell c) 0 ∅ 0)
      ⊢ iprop((((∃ W', owes (c : Thread nD τ) (owing c 0 15 15) W') ∗ atPos ER (barCell c) 1 ∅ 0
            ∗ bigSep (Finset.univ : Finset (Fin 15)) fun k => iprop(slotE (F := F) (fwd c k) k ∗ rowsE (fwd c k) c))
          -∗ wp frame (wpE (defs₀ (F := F)) 𝒱₀ (c : Thread nD τ) none) Set.univ (kk ⟨⟩) Q)
        -∗ wp frame (wpE (defs₀ (F := F)) 𝒱₀ (c : Thread nD τ) none) Set.univ (.op (.semWait barS k') kk) Q) := by
  subst hk'
  iintro ⟨#Hrec, #Hlev, Hc, HO, Hat⟩ Hk
  iapply (Rounds.wp_wait_rest_token 𝒱₀ ER (sched m) (c : Thread nD τ) none (κ := K (c, 0))
      (wpE_semWait_eq 𝒱₀ (c : Thread nD τ) none Set.univ) (Set.mem_univ _) () (O := owing c 0 15 15) (W := W) (R := 0) (m := 0) (T := ∅)
      (by rw [expect_bar])) $$ [Hc HO Hat]
  · isplitr
    · ihave H := (rec_inv m K (c, 0)) $$ Hrec; rw [kcell_bar]; iexact H
    isplitl [Hc]; · iexact Hc
    isplitl [HO]; · iexact HO
    isplitr; · iapply hmay; iexact Hlev
    iexact Hat
  iintro ⟨HO, Hat, -, Hpay⟩
  iapply Hk
  isplitl [HO]; · iexists _; iexact HO
  isplitl [Hat]; · iexact Hat
  ihave Hp := (Entails.of_eq ((rest_bar m c).trans (bar_payloads c))) $$ Hpay
  iexact Hp

/-! ## Phase B: the fifteen first-phase copies -/

def SB (K : Dev nD × Fin 61 → ℕ) (c : Dev nD) (n : ℕ) : sProp 𝕄 :=
  iprop(records m K ∗ (∃ W, owes (c : Thread nD τ) (owing c 0 (15 - n) 15) W)
    ∗ (bigSep (ge n) fun k => iprop(dutyTok ER (s1Cell c k) 0 c ∗ dutyTok ER (r1Cell (fwd c k) k) 0 c ∗ s1Pay m c k ∗ slotE (fwd c k) k))
    ∗ bigSep (lt n) fun k => cred (tallyAt (s1Cell c k) () N1))

theorem amount_slot : ∀ k : Fin 15, (slotM k).view.amount (SemLoc.dma (r1 k) : SemLoc sig) = N1 := by decide

theorem step_send1 (K : Dev nD × Fin 61 → ℕ) (c : Dev nD) (k : Fin 15) (n : Dev nD) (hn : n = fwd c k)
    (hland : ∀ fd : Buf (Elt F) ((slotM k).view.loc (fwd c k : Thread nD τ)),
      ((slotM k).view.loc (fwd c k : Thread nD τ) ↦[(slotM k).view.set]{fullShare} (slotM k).view.write (Elt F) fd ((srcM c k).view.read (Elt F) (Pc m c)) Finset.univ : sProp 𝕄)
        ⊢ r1Pay m (fwd c k) k)
    {hsc : (slotM k : Memref sig (Dev.tc n : Thread nD τ).2.kind .vmem S16x256 .bf16).view.ref.isScScratch = false}
    {hsrc : (srcM c k).view.WordExact} {hdst : (slotM k).view.WordExact}
    {hsem : DmaTarget.Typed .vmem (.dma (r1 k)) (.remote (Dev.tc n : Thread nD τ) (slotM k) (.dma (s1 k)) hsc)}
    {α : Type} {Q : α → sProp 𝕄} {kk : PUnit → Prog (TpuEff nD τ sig (Elt F) Λ₀ .tc) α} :
    SB m K c k.val ⊢ iprop((SB m K c (k.val + 1) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (srcM c k) (.remote (Dev.tc n : Thread nD τ) (slotM k) (.dma (s1 k)) hsc) (.dma (r1 k)) hsrc hdst hsem) kk) Q) := by
  subst hn
  unfold SB slotE
  rw [ge_eq_insert k, bigSep_insert' (not_mem_ge_succ k), lt_succ_eq_insert k, bigSep_insert' (not_mem_lt k)]
  iintro ⟨#Hrec, ⟨%W, HO⟩, ⟨⟨HtS, HtR, Hsrc, ⟨%fn, Hdst⟩⟩, Hrest⟩, Hcr⟩ Hk
  have e : 15 - (k.val + 1) = 14 - k.val := by omega
  unfold s1Pay
  iapply (Rounds.wp_send_pointsTo 𝒱₀ ER (sched m) (c : Thread nD τ) none (κ₁ := K (c, iS1 k)) (κ₂ := K (fwd c k, iR1 k))
      (r₁ := 0) (r₂ := 0) (d₁ := c) (d₂ := c) (fd := fn)
      (by rw [duties_s1]; exact Finset.mem_singleton_self _) (by rw [duties_r1, bwd_fwd]; exact Finset.mem_singleton_self _)
      () () N1 (amount_slot k) (amount_s1 m c k c) (amount_r1 m (fwd c k) k c) (owing c 0 (14 - k.val) 15) (owing_peel1 c k 0 15) (W := W)
      (by rw [payload_s1]; exact BI.Entails.refl _)
      (by rw [payload_r1]; exact hland fn)) $$ [HO HtS HtR Hsrc Hdst]
  · isplitr
    · ihave H := (rec_inv m K (c, iS1 k)) $$ Hrec; rw [kcell_s1]; iexact H
    isplitr
    · ihave H := (rec_inv m K (fwd c k, iR1 k)) $$ Hrec; rw [kcell_r1]; iexact H
    isplitl [Hsrc]; · iexact Hsrc
    isplitl [Hdst]; · iexact Hdst
    isplitl [HO]; · iexact HO
    isplitl [HtS]; · iexact HtS
    isplitr
    · ihave H := (rec_reached m K (c, iS1 k)) $$ Hrec; rw [kcell_s1]; iexact H
    isplitl [HtR]; · iexact HtR
    · ihave H := (rec_reached m K (fwd c k, iR1 k)) $$ Hrec; rw [kcell_r1]; iexact H
  iintro ⟨Hc, HO⟩
  iapply Hk
  isplitr; · iexact Hrec
  isplitl [HO]; · iexists W; rw [e]; iexact HO
  isplitl [Hrest]; · iexact Hrest
  isplitl [Hc]; · iexact Hc
  iexact Hcr

/-! ## The waits on a device's own DMA cells: one rule for the four families -/

/-- With `n` waits of a family done: the credit and position for each wait to come, the round's payload for each done. -/
def SW (K : Dev nD × Fin 61 → ℕ) (c : Dev nD) (sm : Fin 15 → DmaSem sig) (Nn : ℕ) (Pay : Fin 15 → sProp 𝕄)
    (O : CellTallies nD τ sig Unit) (n : ℕ) : sProp 𝕄 :=
  iprop(records m K ∗ levAts L lv ∗ (∃ W, owes (c : Thread nD τ) O W)
    ∗ (bigSep (ge n) fun k => iprop(cred (tallyAt ((c : Thread nD τ), SemLoc.dma (sm k)) () Nn) ∗ atPos ER ((c : Thread nD τ), SemLoc.dma (sm k)) 0 ∅ 0))
    ∗ bigSep (lt n) fun k => iprop(atPos ER ((c : Thread nD τ), SemLoc.dma (sm k)) 1 ∅ 0 ∗ Pay k))

theorem step_wait (K : Dev nD × Fin 61 → ℕ) (c : Dev nD) (sm : Fin 15 → DmaSem sig) (ix : Fin 15 → Fin 61)
    (hix : ∀ k, kcell (c, ix k) = ((c : Thread nD τ), SemLoc.dma (sm k)))
    (Nn : ℕ) (hexp : ∀ k, (sched (F := F) m).expect ((c : Thread nD τ), SemLoc.dma (sm k)) 0 = Nn)
    (Pay : Fin 15 → sProp 𝕄)
    (hrest : ∀ k, bigSep ((sched (F := F) m).duties ((c : Thread nD τ), SemLoc.dma (sm k)) 0 \ ∅)
        (fun d => (sched (F := F) m).payload ((c : Thread nD τ), SemLoc.dma (sm k)) 0 d) = Pay k)
    (O : CellTallies nD τ sig Unit) (hmay : ∀ k, (levAts L lv : sProp 𝕄) ⊢ MayWait (c : Thread nD τ) (SemLoc.dma (sm k)) () O)
    (k : Fin 15)
    {sp sp' : Space} {s s' : Shape} {e e' : EltTy} {src : Memref sig (c : Thread nD τ).2.kind sp' s' e'} {κ' : Idealize.ShloMosaic.Kind} {dst : Memref sig κ' sp s e}
    {hsrc : src.view.WordExact} {hdst : dst.view.WordExact} (hcr : dst.view.dmaCredit = Nn)
    {α : Type} {Q : α → sProp 𝕄} {kk : PUnit → Prog (TpuEff nD τ sig (Elt F) Λ₀ .tc) α} :
    SW m K c sm Nn Pay O k.val ⊢ iprop((SW m K c sm Nn Pay O (k.val + 1) -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 (sm k) src dst hsrc hdst) kk) Q) := by
  unfold SW
  rw [ge_eq_insert k, bigSep_insert' (not_mem_ge_succ k), lt_succ_eq_insert k, bigSep_insert' (not_mem_lt k)]
  iintro ⟨#Hrec, #Hlev, ⟨%W, HO⟩, ⟨⟨Hc, Hat⟩, Hrest⟩, Hdone⟩ Hk
  have hc : (cred (tallyAt ((c : Thread nD τ), SemLoc.dma (sm k)) () Nn) : sProp 𝕄) = cred (tallyAt ((c : Thread nD τ), SemLoc.dma (sm k)) () dst.view.dmaCredit) := by rw [hcr]
  ihave Hc' := (Entails.of_eq hc) $$ Hc
  iapply (Rounds.wp_wait_rest_token 𝒱₀ ER (sched m) (c : Thread nD τ) none (κ := K (c, ix k))
      (wpE_waitDma2_eq 𝒱₀ (c : Thread nD τ) none Set.univ) (Set.mem_univ _) () (O := O) (W := W) (R := 0) (m := 0) (T := ∅)
      (by rw [Nat.zero_add, hexp, hcr])) $$ [Hc' HO Hat]
  · isplitr
    · ihave H := (rec_inv m K (c, ix k)) $$ Hrec; rw [hix]; iexact H
    isplitl [Hc']; · iexact Hc'
    isplitl [HO]; · iexact HO
    isplitr; · iapply (hmay k); iexact Hlev
    iexact Hat
  iintro ⟨HO, Hat, -, Hpay⟩
  iapply Hk
  isplitr; · iexact Hrec
  isplitr; · iexact Hlev
  isplitl [HO]; · iexists _; iexact HO
  isplitl [Hrest]; · iexact Hrest
  isplitl [Hat Hpay]
  · isplitl [Hat]; · iexact Hat
    ihave Hp := (Entails.of_eq (hrest k)) $$ Hpay
    iexact Hp
  iexact Hdone

/-! ## Phase D: the fifteen second-phase copies -/

def SD (K : Dev nD × Fin 61 → ℕ) (c : Dev nD) (n : ℕ) : sProp 𝕄 :=
  iprop(records m K ∗ (∃ W, owes (c : Thread nD τ) (owing c 0 0 (15 - n)) W)
    ∗ (bigSep (ge n) fun k => iprop(dutyTok ER (s2Cell c k) 0 c ∗ dutyTok ER (r2Cell (fwd c k) k) 0 c ∗ s2Pay m c k ∗ rowsE (fwd c k) c))
    ∗ bigSep (lt n) fun k => cred (tallyAt (s2Cell c k) () N2))

theorem amount_rows : ∀ (c : Dev nD) (k : Fin 15), (outRowsM c).view.amount (SemLoc.dma (r2 k) : SemLoc sig) = N2 := by decide

theorem step_send2 (K : Dev nD × Fin 61 → ℕ) (c : Dev nD) (k : Fin 15) (n : Dev nD) (hn : n = fwd c k)
    (hland : ∀ fd : Buf (Elt F) ((outRowsM c).view.loc (fwd c k : Thread nD τ)),
      ((outRowsM c).view.loc (fwd c k : Thread nD τ) ↦[(outRowsM c).view.set]{fullShare}
          (outRowsM c).view.write (Elt F) fd ((redM : Memref sig .tc .vmem S16x256 .f32).view.read (Elt F) (RB m c)) Finset.univ : sProp 𝕄)
        ⊢ r2Pay m (fwd c k) k)
    {hsc : (outRowsM c : Memref sig (Dev.tc n : Thread nD τ).2.kind .vmem S16x256 .f32).view.ref.isScScratch = false}
    {hsrc : (redM : Memref sig .tc .vmem S16x256 .f32).view.WordExact} {hdst : (outRowsM c).view.WordExact}
    {hsem : DmaTarget.Typed .vmem (.dma (r2 k)) (.remote (Dev.tc n : Thread nD τ) (outRowsM c) (.dma (s2 k)) hsc)}
    {α : Type} {Q : α → sProp 𝕄} {kk : PUnit → Prog (TpuEff nD τ sig (Elt F) Λ₀ .tc) α} :
    SD m K c k.val ⊢ iprop((SD m K c (k.val + 1) -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (redM : Memref sig .tc .vmem S16x256 .f32) (.remote (Dev.tc n : Thread nD τ) (outRowsM c) (.dma (s2 k)) hsc) (.dma (r2 k)) hsrc hdst hsem) kk) Q) := by
  subst hn
  unfold SD rowsE
  rw [ge_eq_insert k, bigSep_insert' (not_mem_ge_succ k), lt_succ_eq_insert k, bigSep_insert' (not_mem_lt k)]
  iintro ⟨#Hrec, ⟨%W, HO⟩, ⟨⟨HtS, HtR, Hsrc, ⟨%fn, Hdst⟩⟩, Hrest⟩, Hcr⟩ Hk
  have e : 15 - (k.val + 1) = 14 - k.val := by omega
  unfold s2Pay
  iapply (Rounds.wp_send_pointsTo 𝒱₀ ER (sched m) (c : Thread nD τ) none (κ₁ := K (c, iS2 k)) (κ₂ := K (fwd c k, iR2 k))
      (r₁ := 0) (r₂ := 0) (d₁ := c) (d₂ := c) (fd := fn)
      (by rw [duties_s2]; exact Finset.mem_singleton_self _) (by rw [duties_r2, bwd_fwd]; exact Finset.mem_singleton_self _)
      () () N2 (amount_rows c k) (amount_s2 m c k c) (amount_r2 m (fwd c k) k c) (owing c 0 0 (14 - k.val)) (owing_peel2 c k 0 0) (W := W)
      (by rw [payload_s2]; exact BI.Entails.refl _)
      (by rw [payload_r2]; exact hland fn)) $$ [HO HtS HtR Hsrc Hdst]
  · isplitr
    · ihave H := (rec_inv m K (c, iS2 k)) $$ Hrec; rw [kcell_s2]; iexact H
    isplitr
    · ihave H := (rec_inv m K (fwd c k, iR2 k)) $$ Hrec; rw [kcell_r2]; iexact H
    isplitl [Hsrc]; · iexact Hsrc
    isplitl [Hdst]; · iexact Hdst
    isplitl [HO]; · iexact HO
    isplitl [HtS]; · iexact HtS
    isplitr
    · ihave H := (rec_reached m K (c, iS2 k)) $$ Hrec; rw [kcell_s2]; iexact H
    isplitl [HtR]; · iexact HtR
    · ihave H := (rec_reached m K (fwd c k, iR2 k)) $$ Hrec; rw [kcell_r2]; iexact H
  iintro ⟨Hc, HO⟩
  iapply Hk
  isplitr; · iexact Hrec
  isplitl [HO]; · iexists W; rw [e]; iexact HO
  isplitl [Hrest]; · iexact Hrest
  isplitl [Hc]; · iexact Hc
  iexact Hcr

/-! ## The same rules with the step counts as numerals -/

theorem step_sig' (K : Dev nD × Fin 61 → ℕ) (c : Dev nD) (k : Fin 15) (j j' : ℕ) (hj : j = k.val) (hj' : j' = k.val + 1)
    (n : Dev nD) (hn : n = fwd c k) {k' : ℕ} (hk' : k' = 1)
    {α : Type} {Q : α → sProp 𝕄} {kk : PUnit → Prog (TpuEff nD τ sig (Elt F) Λ₀ .tc) α} :
    SA m K c j ⊢ iprop((SA m K c j' -∗ wp frame (wpE (defs₀ (F := F)) 𝒱₀ (c : Thread nD τ) none) Set.univ (kk ⟨⟩) Q)
      -∗ wp frame (wpE (defs₀ (F := F)) 𝒱₀ (c : Thread nD τ) none) Set.univ (.op (.semSignal (n : Thread nD τ) barS k') kk) Q) := by
  subst hj hj'; exact step_sig m K c k n hn hk'

theorem step_send1' (K : Dev nD × Fin 61 → ℕ) (c : Dev nD) (k : Fin 15) (j j' : ℕ) (hj : j = k.val) (hj' : j' = k.val + 1)
    (n : Dev nD) (hn : n = fwd c k)
    (hland : ∀ fd : Buf (Elt F) ((slotM k).view.loc (fwd c k : Thread nD τ)),
      ((slotM k).view.loc (fwd c k : Thread nD τ) ↦[(slotM k).view.set]{fullShare} (slotM k).view.write (Elt F) fd ((srcM c k).view.read (Elt F) (Pc m c)) Finset.univ : sProp 𝕄)
        ⊢ r1Pay m (fwd c k) k)
    {hsc : (slotM k : Memref sig (Dev.tc n : Thread nD τ).2.kind .vmem S16x256 .bf16).view.ref.isScScratch = false}
    {hsrc : (srcM c k).view.WordExact} {hdst : (slotM k).view.WordExact}
    {hsem : DmaTarget.Typed .vmem (.dma (r1 k)) (.remote (Dev.tc n : Thread nD τ) (slotM k) (.dma (s1 k)) hsc)}
    {α : Type} {Q : α → sProp 𝕄} {kk : PUnit → Prog (TpuEff nD τ sig (Elt F) Λ₀ .tc) α} :
    SB m K c j ⊢ iprop((SB m K c j' -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (srcM c k) (.remote (Dev.tc n : Thread nD τ) (slotM k) (.dma (s1 k)) hsc) (.dma (r1 k)) hsrc hdst hsem) kk) Q) := by
  subst hj hj'; exact step_send1 m K c k n hn hland

theorem step_send2' (K : Dev nD × Fin 61 → ℕ) (c : Dev nD) (k : Fin 15) (j j' : ℕ) (hj : j = k.val) (hj' : j' = k.val + 1)
    (n : Dev nD) (hn : n = fwd c k)
    (hland : ∀ fd : Buf (Elt F) ((outRowsM c).view.loc (fwd c k : Thread nD τ)),
      ((outRowsM c).view.loc (fwd c k : Thread nD τ) ↦[(outRowsM c).view.set]{fullShare}
          (outRowsM c).view.write (Elt F) fd ((redM : Memref sig .tc .vmem S16x256 .f32).view.read (Elt F) (RB m c)) Finset.univ : sProp 𝕄)
        ⊢ r2Pay m (fwd c k) k)
    {hsc : (outRowsM c : Memref sig (Dev.tc n : Thread nD τ).2.kind .vmem S16x256 .f32).view.ref.isScScratch = false}
    {hsrc : (redM : Memref sig .tc .vmem S16x256 .f32).view.WordExact} {hdst : (outRowsM c).view.WordExact}
    {hsem : DmaTarget.Typed .vmem (.dma (r2 k)) (.remote (Dev.tc n : Thread nD τ) (outRowsM c) (.dma (s2 k)) hsc)}
    {α : Type} {Q : α → sProp 𝕄} {kk : PUnit → Prog (TpuEff nD τ sig (Elt F) Λ₀ .tc) α} :
    SD m K c j ⊢ iprop((SD m K c j' -∗ wp frame (wpE (defs₀ (F := F)) 𝒱₀ (c : Thread nD τ) none) Set.univ (kk ⟨⟩) Q)
      -∗ wp frame (wpE (defs₀ (F := F)) 𝒱₀ (c : Thread nD τ) none) Set.univ
          (.op (.enqueueDma (redM : Memref sig .tc .vmem S16x256 .f32) (.remote (Dev.tc n : Thread nD τ) (outRowsM c) (.dma (s2 k)) hsc) (.dma (r2 k)) hsrc hdst hsem) kk) Q) := by
  subst hj hj'; exact step_send2 m K c k n hn hland

theorem step_wait' (K : Dev nD × Fin 61 → ℕ) (c : Dev nD) (sm : Fin 15 → DmaSem sig) (ix : Fin 15 → Fin 61)
    (hix : ∀ k, kcell (c, ix k) = ((c : Thread nD τ), SemLoc.dma (sm k)))
    (Nn : ℕ) (hexp : ∀ k, (sched (F := F) m).expect ((c : Thread nD τ), SemLoc.dma (sm k)) 0 = Nn)
    (Pay : Fin 15 → sProp 𝕄)
    (hrest : ∀ k, bigSep ((sched (F := F) m).duties ((c : Thread nD τ), SemLoc.dma (sm k)) 0 \ ∅)
        (fun d => (sched (F := F) m).payload ((c : Thread nD τ), SemLoc.dma (sm k)) 0 d) = Pay k)
    (O : CellTallies nD τ sig Unit) (hmay : ∀ k, (levAts L lv : sProp 𝕄) ⊢ MayWait (c : Thread nD τ) (SemLoc.dma (sm k)) () O)
    (k : Fin 15) (j j' : ℕ) (hj : j = k.val) (hj' : j' = k.val + 1) (q : DmaSem sig) (hq : q = sm k)
    {sp sp' : Space} {s s' : Shape} {e e' : EltTy} {src : Memref sig (c : Thread nD τ).2.kind sp' s' e'} {κ' : Idealize.ShloMosaic.Kind} {dst : Memref sig κ' sp s e}
    {hsrc : src.view.WordExact} {hdst : dst.view.WordExact} (hcr : dst.view.dmaCredit = Nn)
    {α : Type} {Q : α → sProp 𝕄} {kk : PUnit → Prog (TpuEff nD τ sig (Elt F) Λ₀ .tc) α} :
    SW m K c sm Nn Pay O j ⊢ iprop((SW m K c sm Nn Pay O j' -∗ wp frame (wpE (defs₀ (F := F)) 𝒱₀ (c : Thread nD τ) none) Set.univ (kk ⟨⟩) Q)
      -∗ wp frame (wpE (defs₀ (F := F)) 𝒱₀ (c : Thread nD τ) none) Set.univ (.op (.waitDma2 q src dst hsrc hdst) kk) Q) := by
  subst hj hj' hq; exact step_wait m K c sm ix hix Nn hexp Pay hrest O hmay k hcr

end Cert.Kernel.Mlp

end
-- ==== Proof.LevelsBits.lean ====
/-
  The levels of the cells against what a device owes: a device waits on a cell only while everything it still owes
  sits on cells of a strictly higher level. Entry cells are at level 1, first-phase receive cells at 2, second-phase
  receive cells at 3, every other cell at 0; a device owes entry signals, then first-phase arrivals, then
  second-phase arrivals, each to its successors' cells.
-/
import proofs.«900458_g7700000000000459_dist_mlp2_tp_i_m256_h512_out256_v7x_i16_bf16_1_alg».proof.Proof.ProtoBits

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## Where a debt is positive -/

theorem tB_pos {c : Dev nD} {j : ℕ} {g : GSem nD τ sig} {u : Unit} (h : 0 < tB c j g u) : ∃ k : Fin 15, g = barCell (fwd c k) := by
  unfold tB at h
  by_cases hj : j < 15
  · rw [dif_pos hj] at h; exact ⟨⟨j, hj⟩, (Pipeline.tallyAt_pos h).1⟩
  · rw [dif_neg hj] at h; exact absurd h (Nat.lt_irrefl 0)
theorem t1_pos {c : Dev nD} {j : ℕ} {g : GSem nD τ sig} {u : Unit} (h : 0 < t1 c j g u) : ∃ k : Fin 15, g = r1Cell (fwd c k) k := by
  unfold t1 at h
  by_cases hj : j < 15
  · rw [dif_pos hj] at h; exact ⟨⟨j, hj⟩, (Pipeline.tallyAt_pos h).1⟩
  · rw [dif_neg hj] at h; exact absurd h (Nat.lt_irrefl 0)
theorem t2_pos {c : Dev nD} {j : ℕ} {g : GSem nD τ sig} {u : Unit} (h : 0 < t2 c j g u) : ∃ k : Fin 15, g = r2Cell (fwd c k) k := by
  unfold t2 at h
  by_cases hj : j < 15
  · rw [dif_pos hj] at h; exact ⟨⟨j, hj⟩, (Pipeline.tallyAt_pos h).1⟩
  · rw [dif_neg hj] at h; exact absurd h (Nat.lt_irrefl 0)

theorem oweB_pos {c : Dev nD} {n : ℕ} {g : GSem nD τ sig} {u : Unit} (h : 0 < oweB c n g u) : 0 < n ∧ ∃ k : Fin 15, g = barCell (fwd c k) := by
  induction n with
  | zero => exact absurd h (Nat.lt_irrefl 0)
  | succ n ih =>
    rw [oweB] at h
    rcases Pipeline.add_pos_cases h with h | h
    · exact ⟨Nat.succ_pos n, (ih h).2⟩
    · exact ⟨Nat.succ_pos n, tB_pos h⟩
theorem owe1_pos {c : Dev nD} {n : ℕ} {g : GSem nD τ sig} {u : Unit} (h : 0 < owe1 c n g u) : 0 < n ∧ ∃ k : Fin 15, g = r1Cell (fwd c k) k := by
  induction n with
  | zero => exact absurd h (Nat.lt_irrefl 0)
  | succ n ih =>
    rw [owe1] at h
    rcases Pipeline.add_pos_cases h with h | h
    · exact ⟨Nat.succ_pos n, (ih h).2⟩
    · exact ⟨Nat.succ_pos n, t1_pos h⟩
theorem owe2_pos {c : Dev nD} {n : ℕ} {g : GSem nD τ sig} {u : Unit} (h : 0 < owe2 c n g u) : 0 < n ∧ ∃ k : Fin 15, g = r2Cell (fwd c k) k := by
  induction n with
  | zero => exact absurd h (Nat.lt_irrefl 0)
  | succ n ih =>
    rw [owe2] at h
    rcases Pipeline.add_pos_cases h with h | h
    · exact ⟨Nat.succ_pos n, (ih h).2⟩
    · exact ⟨Nat.succ_pos n, t2_pos h⟩

/-- Whatever a device still owes sits on a successor's entry cell, first-phase or second-phase receive cell, and only
    while debts of that kind remain. -/
theorem owing_pos {c : Dev nD} {a b d : ℕ} {g : GSem nD τ sig} {u : Unit} (h : 0 < owing c a b d g u) :
    (0 < a ∧ ∃ k : Fin 15, g = barCell (fwd c k)) ∨ (0 < b ∧ ∃ k : Fin 15, g = r1Cell (fwd c k) k)
      ∨ (0 < d ∧ ∃ k : Fin 15, g = r2Cell (fwd c k) k) := by
  unfold owing at h
  rcases Pipeline.add_pos_cases h with h | h
  · rcases Pipeline.add_pos_cases h with h | h
    · exact .inr (.inr (owe2_pos h))
    · exact .inr (.inl (owe1_pos h))
  · exact .inl (oweB_pos h)

/-! ## The levels of the cells -/

theorem lv_bar (c : Dev nD) (u : Unit) : lv (barCell c) u = 1 := by dsimp only [lv]; rw [kind_bar]
theorem lv_s1 (c : Dev nD) (k : Fin 15) (u : Unit) : lv (s1Cell c k) u = 0 := by dsimp only [lv]; rw [kind_s1]
theorem lv_r1 (c : Dev nD) (k : Fin 15) (u : Unit) : lv (r1Cell c k) u = 2 := by dsimp only [lv]; rw [kind_r1]
theorem lv_s2 (c : Dev nD) (k : Fin 15) (u : Unit) : lv (s2Cell c k) u = 0 := by dsimp only [lv]; rw [kind_s2]
theorem lv_r2 (c : Dev nD) (k : Fin 15) (u : Unit) : lv (r2Cell c k) u = 3 := by dsimp only [lv]; rw [kind_r2]

/-- The first four DMA semaphores (the windows' staging semaphores) belong to none of the protocol's families. -/
theorem kind_low (q : DmaSem sig) (hq : q.val < 4) : kindOf (.dma q) = .other := by
  simp only [kindOf]
  split_ifs <;> first | rfl | omega
theorem lv_low (c : Dev nD) (q : DmaSem sig) (hq : q.val < 4) (u : Unit) : lv ((c : Thread nD τ), .dma q) u = 0 := by
  dsimp only [lv]; rw [kind_low q hq]

/-- With `a` entry signals, `b` first-phase and `d` second-phase copies to go, everything owed sits on a
    TensorCore's cell of level above `n`, provided each kind still owed has its level above `n`. -/
theorem owing_above {c : Dev nD} {a b d : ℕ} (n : ℕ) (ha : a = 0 ∨ n < 1) (hb : b = 0 ∨ n < 2) (hd : d = 0 ∨ n < 3)
    {g : GSem nD τ sig} {u : Unit} (h : 0 < owing c a b d g u) : g.1.2 = .tc ∧ n < lv g u := by
  rcases owing_pos h with ⟨h0, k, rfl⟩ | ⟨h0, k, rfl⟩ | ⟨h0, k, rfl⟩
  · refine ⟨rfl, ?_⟩; rw [lv_bar]; rcases ha with ha | ha
    · omega
    · exact ha
  · refine ⟨rfl, ?_⟩; rw [lv_r1]; rcases hb with hb | hb
    · omega
    · exact hb
  · refine ⟨rfl, ?_⟩; rw [lv_r2]; rcases hd with hd | hd
    · omega
    · exact hd

/-! ## The evidence a wait presents -/

/-- A device may wait on a cell of level at most `n` while everything it owes sits above `n`. -/
theorem mayWait_cut (c : Dev nD) (sm : SemLoc sig) (n : ℕ) (O : CellTallies nD τ sig Unit)
    (hsm : lv ((c : Thread nD τ), sm) () ≤ n)
    (hO : ∀ (g : GSem nD τ sig) (u : Unit), 0 < O g u → g.1.2 = .tc ∧ n < lv g u) :
    (levAts L lv : sProp 𝕄) ⊢ MayWait (c : Thread nD τ) sm () O :=
  MayOwe.of_cut (L := L) (lev := lv) n
    (fun p hp => by rw [Finset.mem_singleton.mp hp, L_tc]; exact Finset.mem_singleton_self _)
    (fun g u hg => by unfold L; rw [if_pos (hO g u hg).1]; exact Finset.mem_singleton_self _)
    (fun p hp => by rw [Finset.mem_singleton.mp hp]; exact hsm)
    (fun g u hg => (hO g u hg).2)

theorem mayWait_owing (c : Dev nD) (sm : SemLoc sig) (n a b d : ℕ) (hsm : lv ((c : Thread nD τ), sm) () ≤ n)
    (ha : a = 0 ∨ n < 1) (hb : b = 0 ∨ n < 2) (hd : d = 0 ∨ n < 3) :
    (levAts L lv : sProp 𝕄) ⊢ MayWait (c : Thread nD τ) sm () (owing c a b d) :=
  mayWait_cut c sm n (owing c a b d) hsm fun g u h => owing_above n ha hb hd h

/-- The entry wait: every entry signal sent, a device owes only arrivals, on receive cells (levels 2 and 3, above 1). -/
theorem mayWait_bar (c : Dev nD) (b d : ℕ) : (levAts L lv : sProp 𝕄) ⊢ MayWait (c : Thread nD τ) (.reg barS) () (owing c 0 b d) :=
  mayWait_owing c (.reg barS) 1 0 b d (le_of_eq (lv_bar c ())) (.inl rfl) (.inr (by decide)) (.inr (by decide))
/-- A first-phase arrival's wait: every first-phase copy started, a device owes only second-phase arrivals (level 3, above 2). -/
theorem mayWait_r1 (c : Dev nD) (k : Fin 15) (d : ℕ) : (levAts L lv : sProp 𝕄) ⊢ MayWait (c : Thread nD τ) (.dma (r1 k)) () (owing c 0 0 d) :=
  mayWait_owing c (.dma (r1 k)) 2 0 0 d (le_of_eq (lv_r1 c k ())) (.inl rfl) (.inl rfl) (.inr (by decide))
/-- A second-phase arrival's wait: every copy started, a device owes nothing. -/
theorem mayWait_r2 (c : Dev nD) (k : Fin 15) : (levAts L lv : sProp 𝕄) ⊢ MayWait (c : Thread nD τ) (.dma (r2 k)) () (owing c 0 0 0) :=
  mayWait_owing c (.dma (r2 k)) 3 0 0 0 (le_of_eq (lv_r2 c k ())) (.inl rfl) (.inl rfl) (.inl rfl)
/-- A wait on a cell of level 0 (a staging semaphore, a send cell): whatever the device owes sits above. -/
theorem mayWait_low (c : Dev nD) (sm : SemLoc sig) (hsm : lv ((c : Thread nD τ), sm) () = 0) (a b d : ℕ) :
    (levAts L lv : sProp 𝕄) ⊢ MayWait (c : Thread nD τ) sm () (owing c a b d) :=
  mayWait_owing c sm 0 a b d (le_of_eq hsm) (.inr (by decide)) (.inr (by decide)) (.inr (by decide))
/-- Owing nothing, a device may wait anywhere. -/
theorem mayWait_none (c : Dev nD) (sm : SemLoc sig) : (levAts L lv : sProp 𝕄) ⊢ MayWait (c : Thread nD τ) sm () 0 := by
  rw [← owing_zero c]
  exact mayWait_owing c sm (lv ((c : Thread nD τ), sm) ()) 0 0 0 (le_refl _) (.inl rfl) (.inl rfl) (.inl rfl)

end Cert.Kernel.Mlp

end
-- ==== Proof.RegionsBits.lean ====
/-
  How the kernel's buffers are cut into the parts the devices exchange, and what those parts hold.

  A 256-row buffer is its sixteen blocks of sixteen rows (block `b`: the rows whose number divided by 16 is `b`); the
  receive buffer is its fifteen slots (slot `k`: first coordinate `k`). The blocks are pairwise disjoint and cover the
  buffer, so holding the buffer is holding the blocks separately. The reduction buffer is read by fifteen copies at
  once: its full share is cut into fifteen shares and a remainder by halving fifteen times. A block that a copy or a
  store wrote holds, index by index, the block of the value written.
-/
import proofs.«900458_g7700000000000459_dist_mlp2_tp_i_m256_h512_out256_v7x_i16_bf16_1_alg».proof.Proof.ProtoBits
import Idealize.ShloMosaic.Rules.PointsTo
import Idealize.ShloMosaic.Lib.Pipeline.Value
import Idealize.ShloMosaic.Lib.Memref
import Idealize.ShloMosaic.Lib.ValueIdx
import Idealize.ShloMosaic.Lib.ValueLayout

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## Row blocks of a 256-row buffer, and the slots of the receive buffer -/

/-- An index of a 256 × 256 buffer is in the sixteen rows starting at row `16 b` exactly when its row, divided by 16, is `b`. -/
theorem mem_rows {off : Fin 2 → Nat} {b : Nat} (h : off = ![16 * b, 0])
    (inb : ∀ a, off a + S16x256.size a ≤ S256x256.size a) (i : S256x256.Idx) :
    i ∈ (Rect.unit (s := S256x256) off S16x256.size inb).set ↔ (i 0).val / 16 = b := by
  subst h
  rw [Rect.mem_set_unit, Fin.forall_fin_two]
  show ((16 * b ≤ (i 0).val ∧ (i 0).val < 16 * b + 16) ∧ (0 ≤ (i 1).val ∧ (i 1).val < 0 + 256)) ↔ _
  have h1 : (i 1).val < 256 := (i 1).isLt
  constructor
  · rintro ⟨⟨h0, h0'⟩, -⟩; omega
  · intro h; exact ⟨⟨by omega, by omega⟩, Nat.zero_le _, by omega⟩

/-- An index of a 15 × 16 × 256 buffer is in the slab at first coordinate `k` exactly when its first coordinate is `k`. -/
theorem mem_slab {off : Fin 3 → Nat} {k : Nat} (h : off = ![k, 0, 0])
    (inb : ∀ a, off a + S1x16x256.size a ≤ S15x16x256.size a) (i : S15x16x256.Idx) :
    i ∈ (Rect.unit (s := S15x16x256) off S1x16x256.size inb).set ↔ (i 0).val = k := by
  subst h
  rw [Rect.mem_set_unit, Fin.forall_fin_succ, Fin.forall_fin_two]
  show ((k ≤ (i 0).val ∧ (i 0).val < k + 1) ∧ (0 ≤ (i 1).val ∧ (i 1).val < 0 + 16) ∧ (0 ≤ (i 2).val ∧ (i 2).val < 0 + 256)) ↔ _
  have h1 : (i 1).val < 16 := (i 1).isLt
  have h2 : (i 2).val < 256 := (i 2).isLt
  constructor
  · rintro ⟨⟨h0, h0'⟩, -⟩; omega
  · intro h; exact ⟨⟨by omega, by omega⟩, ⟨Nat.zero_le _, by omega⟩, Nat.zero_le _, by omega⟩

/-- An index of the receive buffer is in slot `k` exactly when its first coordinate is `k`. -/
theorem mem_slot (k : Fin 15) (i : S15x16x256.Idx) : i ∈ (slotM k).view.set ↔ (i 0).val = k.val := by
  rw [View.set_reshape, View.set_slice_whole]; exact mem_slab rfl _ i

/-- The rows of the result that device `d` owns: the indices whose row, divided by 16, is `d`. -/
theorem mem_outRows (d : Dev nD) (i : S256x256.Idx) : i ∈ (outRowsM d).view.set ↔ (i 0).val / 16 = d.val := by
  rw [View.set_slice_whole]; exact mem_rows (k0_off3_eq d) _ i

/-- The rows of the send buffer that go to the `k`-th successor: the indices whose row, divided by 16, is that device. -/
theorem mem_src (c : Dev nD) (k : Fin 15) (i : S256x256.Idx) : i ∈ (srcM c k).view.set ↔ (i 0).val / 16 = (fwd c k).val := by
  rw [View.set_slice_whole]; exact mem_rows (k0_off1_eq c k) _ i

/-- A device's own rows of the send buffer. -/
theorem mem_own (c : Dev nD) (i : S256x256.Idx) :
    i ∈ (sendM.access (Rect.unit (s := S256x256) (k0_off2 c) S16x256.size (k0_off2_inb c))).set ↔ (i 0).val / 16 = c.val := by
  rw [View.set_slice_whole]; exact mem_rows (k0_off2_eq c) _ i

/-! ## Cutting the buffers -/

/-- The receive buffer is its fifteen slots. -/
theorem rs_split (c : Dev nD) (f : Buf (Elt F) ((c : Thread nD τ).loc cc0_scratch1)) :
    ((c : Thread nD τ).loc cc0_scratch1 ↦{fullShare} f : sProp 𝕄)
      = bigSep (Finset.univ : Finset (Fin 15)) fun k =>
          (slotM k).view.loc (c : Thread nD τ) ↦[(slotM k).view.set]{fullShare} f := by
  have hU : (Finset.univ : Finset (Idx ((c : Thread nD τ).loc cc0_scratch1)))
      = (Finset.univ : Finset (Fin 15)).biUnion fun k => (slotM k).view.set := by
    ext i
    simp only [Finset.mem_univ, Finset.mem_biUnion, true_and, true_iff]
    exact ⟨⟨(i 0).val, (i 0).isLt⟩, (mem_slot _ i).mpr rfl⟩
  refine (congrArg (fun I => (pointsTo ((c : Thread nD τ).loc cc0_scratch1) I fullShare f : sProp 𝕄)) hU).trans ?_
  exact pointsTo_biUnion _ _ fun k _ k' _ hk => Finset.disjoint_left.mpr fun i hi hi' =>
    hk (Fin.ext (((mem_slot k i).mp hi).symm.trans ((mem_slot k' i).mp hi')))

/-- A row of a 256-row buffer, divided by 16, names a device. -/
theorem row_div_lt (i : S256x256.Idx) : (i 0).val / 16 < nD := by
  have h : (i 0).val < 256 := (i 0).isLt
  show (i 0).val / 16 < 16
  omega

/-- The result buffer is the sixteen devices' row blocks. -/
theorem out_split (c : Dev nD) (f : Buf (Elt F) ((c : Thread nD τ).loc cc0_stg3_0)) :
    ((c : Thread nD τ).loc cc0_stg3_0 ↦{fullShare} f : sProp 𝕄)
      = bigSep (Finset.univ : Finset (Dev nD)) fun d =>
          (outRowsM d).view.loc (c : Thread nD τ) ↦[(outRowsM d).view.set]{fullShare} f := by
  have hU : (Finset.univ : Finset (Idx ((c : Thread nD τ).loc cc0_stg3_0)))
      = (Finset.univ : Finset (Dev nD)).biUnion fun d => (outRowsM d).view.set := by
    ext i
    simp only [Finset.mem_univ, Finset.mem_biUnion, true_and, true_iff]
    exact ⟨⟨(i 0).val / 16, row_div_lt i⟩, (mem_outRows _ i).mpr rfl⟩
  refine (congrArg (fun I => (pointsTo ((c : Thread nD τ).loc cc0_stg3_0) I fullShare f : sProp 𝕄)) hU).trans ?_
  exact pointsTo_biUnion _ _ fun d _ d' _ hd => Finset.disjoint_left.mpr fun i hi hi' =>
    hd (Fin.ext (((mem_outRows d i).mp hi).symm.trans ((mem_outRows d' i).mp hi')))

/-- The send buffer is the device's own row block and the fifteen row blocks that go to its successors. -/
theorem send_split (c : Dev nD) (f : Buf (Elt F) ((c : Thread nD τ).loc cc0_scratch0)) :
    ((c : Thread nD τ).loc cc0_scratch0 ↦{fullShare} f : sProp 𝕄)
      = iprop(((c : Thread nD τ).loc cc0_scratch0
            ↦[(sendM.access (Rect.unit (s := S256x256) (k0_off2 c) S16x256.size (k0_off2_inb c))).set]{fullShare} f)
          ∗ bigSep (Finset.univ : Finset (Fin 15)) fun k =>
              (srcM c k).view.loc (c : Thread nD τ) ↦[(srcM c k).view.set]{fullShare} f) := by
  have hU : (Finset.univ : Finset (Idx ((c : Thread nD τ).loc cc0_scratch0)))
      = (sendM.access (Rect.unit (s := S256x256) (k0_off2 c) S16x256.size (k0_off2_inb c))).set
        ∪ (Finset.univ : Finset (Fin 15)).biUnion fun k => (srcM c k).view.set := by
    ext i
    simp only [Finset.mem_univ, Finset.mem_union, Finset.mem_biUnion, true_and, true_iff]
    by_cases hc : (i 0).val / 16 = c.val
    · exact .inl ((mem_own c i).mpr hc)
    · have hd : (⟨(i 0).val / 16, row_div_lt i⟩ : Dev nD) ≠ c := fun e => hc (congrArg Fin.val e)
      refine .inr ⟨rev (idxOf c ⟨(i 0).val / 16, row_div_lt i⟩), (mem_src c _ i).mpr ?_⟩
      rw [← bwd_eq_fwd_rev, bwd_idxOf c _ hd]
  have hD : Disjoint (sendM.access (Rect.unit (s := S256x256) (k0_off2 c) S16x256.size (k0_off2_inb c))).set
      ((Finset.univ : Finset (Fin 15)).biUnion fun k => (srcM c k).view.set) :=
    (Finset.disjoint_biUnion_right _ _ _).mpr fun k _ => Finset.disjoint_left.mpr fun i hi hi' =>
      fwd_ne c k (Fin.ext (((mem_src c k i).mp hi').symm.trans ((mem_own c i).mp hi)))
  refine (congrArg (fun I => (pointsTo ((c : Thread nD τ).loc cc0_scratch0) I fullShare f : sProp 𝕄)) hU).trans ?_
  have hu := pointsTo_union (Ix := Unit) (Val := Elt F) (Name := ℕ) (U := UU) (Lvl := ℕ) (q := fullShare) (f := f) hD
  refine (BI.equiv_iff.mp ⟨hu.1, hu.2⟩).trans ?_
  refine congrArg (fun X : sProp 𝕄 => iprop(((c : Thread nD τ).loc cc0_scratch0
      ↦[(sendM.access (Rect.unit (s := S256x256) (k0_off2 c) S16x256.size (k0_off2_inb c))).set]{fullShare} f) ∗ X)) ?_
  exact pointsTo_biUnion _ _ fun k _ k' _ hk => Finset.disjoint_left.mpr fun i hi hi' =>
    hk (fwd_inj c k k' (Fin.ext (((mem_src c k i).mp hi).symm.trans ((mem_src c k' i).mp hi'))))

/-- info: 'Cert.Kernel.Mlp.send_split' depends on axioms: [propext, Classical.choice, Quot.sound] -/
#guard_msgs in #print axioms Cert.Kernel.Mlp.send_split

/-! ## Fifteen readers of the reduction buffer -/

/-- A points-to at a share is the points-tos at the share's two halves. -/
theorem pointsTo_halves {ℓ : Loc nD τ sig} (I : Finset (Idx ℓ)) (q : PosShare TreeShare) (f : Buf (Elt F) ℓ) :
    (ℓ ↦[I]{q} f : sProp 𝕄) = iprop((ℓ ↦[I]{q.left} f) ∗ ℓ ↦[I]{q.right} f) :=
  have h := pointsTo_share (Ix := Unit) (Val := Elt F) (Name := ℕ) (U := UU) (Lvl := ℕ) (ℓ := ℓ) (I := I) (f := f)
    (PosShare.mem_left_op_right q)
  BI.equiv_iff.mp ⟨h.1, h.2⟩

/-- Halving `n` times: the full share is the left halves taken at the first `n` steps and what is left after them. -/
theorem pointsTo_rpow {ℓ : Loc nD τ sig} (I : Finset (Idx ℓ)) (f : Buf (Elt F) ℓ) (n : ℕ) :
    (ℓ ↦[I]{fullShare} f : sProp 𝕄)
      = iprop((bigSep (Finset.range n) fun j => ℓ ↦[I]{(rpow j).left} f) ∗ ℓ ↦[I]{rpow n} f) := by
  induction n with
  | zero =>
    rw [Finset.range_zero, bigSep_empty]
    exact (BI.equiv_iff.mp ⟨(emp_sep (PROP := sProp 𝕄)).1, (emp_sep (PROP := sProp 𝕄)).2⟩).symm
  | succ n ih =>
    rw [Finset.range_add_one, bigSep_insert Finset.notMem_range_self]
    refine ih.trans ?_
    rw [pointsTo_halves I (rpow n) f]
    show iprop(_ ∗ ((ℓ ↦[I]{(rpow n).left} f) ∗ ℓ ↦[I]{rpow (n + 1)} f)) = _
    have hc := sep_left_comm (PROP := sProp 𝕄)
      (P := bigSep (Finset.range n) fun j => (ℓ ↦[I]{(rpow j).left} f : sProp 𝕄))
      (Q := (ℓ ↦[I]{(rpow n).left} f : sProp 𝕄)) (R := (ℓ ↦[I]{rpow (n + 1)} f : sProp 𝕄))
    have ha := sep_assoc (PROP := sProp 𝕄)
      (P := (ℓ ↦[I]{(rpow n).left} f : sProp 𝕄))
      (Q := bigSep (Finset.range n) fun j => (ℓ ↦[I]{(rpow j).left} f : sProp 𝕄)) (R := (ℓ ↦[I]{rpow (n + 1)} f : sProp 𝕄))
    exact (BI.equiv_iff.mp ⟨hc.1, hc.2⟩).trans (BI.equiv_iff.mp ⟨ha.2, ha.1⟩)

/-- The first fifteen naturals are the values of the fifteen slots' numbers. -/
theorem range_fifteen : Finset.range 15 = (Finset.univ : Finset (Fin 15)).map Fin.valEmbedding := by
  ext j
  simp only [Finset.mem_range, Finset.mem_map, Finset.mem_univ, true_and, Fin.valEmbedding_apply]
  exact ⟨fun h => ⟨⟨j, h⟩, rfl⟩, fun ⟨k, hk⟩ => hk ▸ k.isLt⟩

/-- The reduction buffer's full share is the fifteen shares lent to the fifteen copies that read it, and a remainder. -/
theorem red_split (c : Dev nD) (f : Buf (Elt F) ((c : Thread nD τ).loc cc0_scratch2)) :
    ((c : Thread nD τ).loc cc0_scratch2 ↦{fullShare} f : sProp 𝕄)
      ⊣⊢ iprop((bigSep (Finset.univ : Finset (Fin 15)) fun k =>
            (redM : Memref sig .tc .vmem S16x256 .f32).view.loc (c : Thread nD τ)
              ↦[(redM : Memref sig .tc .vmem S16x256 .f32).view.set]{q2 k} f)
          ∗ ((c : Thread nD τ).loc cc0_scratch2 ↦{rpow 15} f)) := by
  refine .of_eq ((pointsTo_rpow Finset.univ f 15).trans ?_)
  rw [range_fifteen, bigSep_map]
  have hset : (redM : Memref sig .tc .vmem S16x256 .f32).view.set = Finset.univ := View.set_whole _
  rw [hset]
  rfl

/-- info: 'Cert.Kernel.Mlp.red_split' depends on axioms: [propext, Classical.choice, Quot.sound] -/
#guard_msgs in #print axioms Cert.Kernel.Mlp.red_split

/-! ## Where a block's indices sit in its buffer -/

/-- Index `(r, j)` of slot `k` is index `(k, r, j)` of the receive buffer. -/
theorem slot_emb (k : Fin 15) (r : Fin 16) (j : Fin 256) : (slotM k).view.emb (ix2 r j) = ix3 k r j := by
  show (Rect.unit (s := S15x16x256) ![k.val, 0, 0] S1x16x256.size (slot_inb k)).emb (Shape.reshapeEquiv _ (ix2 r j)) = _
  rw [reshapeEquiv_ix2_1ab]
  funext a
  apply Fin.ext
  match a with
  | ⟨0, _⟩ => show k.val + 1 * 0 = k.val; omega
  | ⟨1, _⟩ => show 0 + 1 * r.val = r.val; omega
  | ⟨2, _⟩ => show 0 + 1 * j.val = j.val; omega

/-- Index `(r, j)` of the sixteen rows starting at row `16 b` is index `(16 b + r, j)` of the buffer. -/
theorem rows_emb {off : Fin 2 → Nat} {b : Fin 16} (h : off = ![16 * b.val, 0])
    (inb : ∀ a, off a + S16x256.size a ≤ S256x256.size a) (r : Fin 16) (j : Fin 256) :
    (Rect.unit (s := S256x256) off S16x256.size inb).emb (ix2 r j) = ix2 (MlpValueBits.rowOf b r) j := by
  subst h
  funext a
  apply Fin.ext
  match a with
  | ⟨0, _⟩ => show 16 * b.val + 1 * r.val = 16 * b.val + r.val; omega
  | ⟨1, _⟩ => show 0 + 1 * j.val = j.val; omega

/-- Index `(r, j)` of the rows that go to the `k`-th successor is index `(16 · fwd c k + r, j)` of the send buffer. -/
theorem src_emb (c : Dev nD) (k : Fin 15) (r : Fin 16) (j : Fin 256) :
    (srcM c k).view.emb (ix2 r j) = ix2 (MlpValueBits.rowOf (fwd c k) r) j :=
  rows_emb (b := fwd c k) (k0_off1_eq c k) _ r j

/-- Index `(r, j)` of the rows of the result that device `d` owns is index `(16 d + r, j)` of the result buffer. -/
theorem outRows_emb (d : Dev nD) (r : Fin 16) (j : Fin 256) :
    (outRowsM d).view.emb (ix2 r j) = ix2 (MlpValueBits.rowOf d r) j :=
  rows_emb (b := d) (k0_off3_eq d) _ r j

/-! ## What lands, and what is stored -/

/-- Slot `k` of the `k`-th successor of `c`, once `c`'s copy has landed, holds what that device's receive buffer is to
    hold there: row block `fwd c k` of `c`'s partial product, `c` being the device `k + 1` places before `fwd c k`. -/
theorem land1 (c : Dev nD) (k : Fin 15) (fd : Buf (Elt F) ((slotM k).view.loc (fwd c k : Thread nD τ))) :
    ((slotM k).view.loc (fwd c k : Thread nD τ) ↦[(slotM k).view.set]{fullShare}
        (slotM k).view.write (Elt F) fd ((srcM c k).view.read (Elt F) (Pc m c)) Finset.univ : sProp 𝕄)
      = ((slotM k).view.loc (fwd c k : Thread nD τ) ↦[(slotM k).view.set]{fullShare} RS m (fwd c k)) := by
  refine pointsTo_congr fun i hi => ?_
  obtain ⟨y, rfl⟩ := View.exists_emb_of_mem_set _ hi
  rw [View.write_emb_of_mem _ _ (Finset.mem_univ y)]
  obtain ⟨r, j, rfl⟩ : ∃ r j, y = ix2 r j := ⟨y 0, y 1, eq_ix2 y⟩
  rw [View.read_apply, src_emb, slot_emb]
  rw [cast_cast, cast_eq]
  show _ = Pc m (bwd (fwd c k) k) (ix2 (MlpValueBits.rowOf (fwd c k) r) j)
  rw [bwd_fwd]

/-- Entry `(16 c + r, j)` of the gathered result is entry `(r, j)` of device `c`'s sum. -/
theorem outOf_rowOf (P : Fin 16 → Vec F S256x256 .bf16) (c r : Fin 16) (j : Fin 256) :
    MlpValueBits.outOf P (ix2 (MlpValueBits.rowOf c r) j) = MlpValueBits.redOf P c (ix2 r j) := by
  have e1 : (16 * c.val + r.val) / 16 = c.val := by omega
  have e2 : (16 * c.val + r.val) % 16 = r.val := by omega
  exact congrArg₂ (fun (d rr : Fin 16) => MlpValueBits.redOf P d (ix2 rr j))
    (x := ⟨(16 * c.val + r.val) / 16, by omega⟩) (y := ⟨(16 * c.val + r.val) % 16, by omega⟩) (x' := c) (y' := r) (Fin.ext e1) (Fin.ext e2)

/-- Entry `(r, j)` of a device's stored sum is entry `(16 c + r, j)` of the result: the cast to the same shape is the identity. -/
theorem RB_apply (c : Dev nD) (r : Fin 16) (j : Fin 256) :
    RB m c (ix2 r j) = OUT m (ix2 (MlpValueBits.rowOf c r) j) := by
  unfold RB OUT k0_pay4
  rw [shapeCast_self, outOf_rowOf]
  rfl

/-- The rows of the result that device `c` owns, once `c`'s copy has landed on its `k`-th successor, hold the result. -/
theorem land2 (c : Dev nD) (k : Fin 15) (fd : Buf (Elt F) ((outRowsM c).view.loc (fwd c k : Thread nD τ))) :
    ((outRowsM c).view.loc (fwd c k : Thread nD τ) ↦[(outRowsM c).view.set]{fullShare}
        (outRowsM c).view.write (Elt F) fd ((redM : Memref sig .tc .vmem S16x256 .f32).view.read (Elt F) (RB m c)) Finset.univ : sProp 𝕄)
      = ((outRowsM c).view.loc (fwd c k : Thread nD τ) ↦[(outRowsM c).view.set]{fullShare} OUT m) := by
  refine pointsTo_congr fun i hi => ?_
  obtain ⟨y, rfl⟩ := View.exists_emb_of_mem_set _ hi
  rw [View.write_emb_of_mem _ _ (Finset.mem_univ y)]
  obtain ⟨r, j, rfl⟩ : ∃ r j, y = ix2 r j := ⟨y 0, y 1, eq_ix2 y⟩
  rw [outRows_emb, cast_eq]
  exact RB_apply m c r j

/-- A device's own rows of the result and the rows its store goes through are the same sixteen rows. -/
theorem own_store_set (c : Dev nD) :
    (outM.access (Rect.unit (s := S256x256) (k0_off2 c) S16x256.size (k0_off2_inb c))).setOn Finset.univ
      = (outRowsM c).view.set := by
  rw [View.setOn_univ, View.set_slice_whole, View.set_slice_whole]
  exact Finset.ext fun i => (mem_rows (k0_off2_eq c) _ i).trans (mem_rows (k0_off3_eq c) _ i).symm

/-- A device's own rows of the result, after it stores its sum there, hold the result. -/
theorem store_own (c : Dev nD) (f : Buf (Elt F) ((c : Thread nD τ).loc cc0_stg3_0)) :
    ((c : Thread nD τ).loc cc0_stg3_0 ↦[(outRowsM c).view.set]{fullShare}
        (outM.access (Rect.unit (s := S256x256) (k0_off2 c) S16x256.size (k0_off2_inb c))).write (Elt F) f
          (k0_pay3 (MlpValueBits.rowBlk (Pc m c) c) (RS m c)) Finset.univ : sProp 𝕄)
      = ((c : Thread nD τ).loc cc0_stg3_0 ↦[(outRowsM c).view.set]{fullShare} OUT m) := by
  refine pointsTo_congr fun i hi => ?_
  obtain ⟨y, rfl⟩ := View.exists_emb_of_mem_set _ hi
  obtain ⟨r, j, rfl⟩ : ∃ r j, y = ix2 r j := ⟨y 0, y 1, eq_ix2 y⟩
  have e : (outRowsM c).view.emb (ix2 r j)
      = (outM.access (Rect.unit (s := S256x256) (k0_off2 c) S16x256.size (k0_off2_inb c))).emb (ix2 r j) :=
    (outRows_emb c r j).trans (rows_emb (b := c) (k0_off2_eq c) _ r j).symm
  rw [e, View.write_emb_of_mem _ _ (Finset.mem_univ _), cast_eq, ← e, outRows_emb]
  exact (outOf_rowOf (Pc m) c r j).symm

/-! ## Loads and whole-buffer stores -/

/-- The load of a device's own rows of its send buffer reads its own row block of the partial product. -/
theorem read_own (c : Dev nD) :
    sendM.view.readAt (Elt F) (Rect.unit (s := S256x256) (k0_off2 c) S16x256.size (k0_off2_inb c)).toLoadRect (Pc m c)
      = MlpValueBits.rowBlk (Pc m c) c := by
  funext y
  obtain ⟨r, j, rfl⟩ : ∃ r j, y = ix2 r j := ⟨y 0, y 1, eq_ix2 y⟩
  rw [View.readAt_apply, View.read_apply]
  have e : sendM.view.emb ((Rect.unit (s := S256x256) (k0_off2 c) S16x256.size (k0_off2_inb c)).toLoadRect.idx (ix2 r j))
      = ix2 (MlpValueBits.rowOf c r) j := rows_emb (b := c) (k0_off2_eq c) _ r j
  rw [e, cast_eq]
  rfl

/-- Three zeros are the zero offsets. -/
theorem zeros3 : (![0, 0, 0] : Fin 3 → Nat) = fun _ => 0 := by
  funext a; match a with | ⟨0, _⟩ => rfl | ⟨1, _⟩ => rfl | ⟨2, _⟩ => rfl
/-- Two zeros are the zero offsets. -/
theorem zeros2 : (![0, 0] : Fin 2 → Nat) = fun _ => 0 := by
  funext a; match a with | ⟨0, _⟩ => rfl | ⟨1, _⟩ => rfl

/-- The load of the whole receive buffer reads its contents. -/
theorem read_rs (g : (cc0_scratch1 : Ref sig .tc).ty.Contents (Elt F)) :
    rsM.view.readAt (Elt F) (Rect.unit (s := S15x16x256) ![0, 0, 0] S15x16x256.size inb_S15x16x256_S15x16x256_0_0_0).toLoadRect g = g :=
  Memref.readAt_unit_zero (Elt F) cc0_scratch1 zeros3 _ g

/-- The load of the whole reduction buffer reads its contents. -/
theorem read_red (g : (cc0_scratch2 : Ref sig .tc).ty.Contents (Elt F)) :
    (redM : Memref sig .tc .vmem S16x256 .f32).view.readAt (Elt F)
      (Rect.unit (s := S16x256) ![0, 0] S16x256.size inb_S16x256_S16x256_0_0).toLoadRect g = g :=
  Memref.readAt_unit_zero (Elt F) cc0_scratch2 zeros2 _ g

/-- The load of the whole send buffer reads its contents. -/
theorem read_send (g : (cc0_scratch0 : Ref sig .tc).ty.Contents (Elt F)) :
    sendM.view.readAt (Elt F) (Rect.unit (s := S256x256) ![0, 0] S256x256.size inb_S256x256_S256x256_0_0).toLoadRect g = g :=
  Memref.readAt_unit_zero (Elt F) cc0_scratch0 zeros2 _ g

/-- An unmasked store through the whole send buffer leaves what was stored. -/
theorem write_send (f w : (cc0_scratch0 : Ref sig .tc).ty.Contents (Elt F)) :
    (sendM.access (Rect.unit (s := S256x256) ![0, 0] S256x256.size inb_S256x256_S256x256_0_0)).write (Elt F) f w Finset.univ = w :=
  Memref.write_access_unit_zero_univ (Elt F) cc0_scratch0 zeros2 _ f w

/-- An unmasked store through the whole reduction buffer leaves what was stored. -/
theorem write_red (f w : (cc0_scratch2 : Ref sig .tc).ty.Contents (Elt F)) :
    ((redM : Memref sig .tc .vmem S16x256 .f32).access
      (Rect.unit (s := S16x256) ![0, 0] S16x256.size inb_S16x256_S16x256_0_0)).write (Elt F) f w Finset.univ = w :=
  Memref.write_access_unit_zero_univ (Elt F) cc0_scratch2 zeros2 _ f w

/-- info: 'Cert.Kernel.Mlp.store_own' depends on axioms: [propext, Classical.choice, Quot.sound] -/
#guard_msgs in #print axioms Cert.Kernel.Mlp.store_own
/-- info: 'Cert.Kernel.Mlp.land1' depends on axioms: [propext, Classical.choice, Quot.sound] -/
#guard_msgs in #print axioms Cert.Kernel.Mlp.land1

end Cert.Kernel.Mlp

end
-- ==== Proof.ClosingBits.lean ====
/-
  The end of a device's protocol: it closes the cells it alone still holds, and puts its buffers back together.

  Each of a device's sixty own cells has one round; once the device stands past it, with nothing more due on the cell,
  the cell's counter is the device's again, at zero. The row blocks and slots handed back by the fifteen peers, with the
  device's own, are the whole buffers again; the fifteen lent shares of the reduction buffer and the remainder are its
  full share; and the two stores of the sum of the sixteen row blocks leave the device's sum and its rows of the result.
-/
import proofs.«900458_g7700000000000459_dist_mlp2_tp_i_m256_h512_out256_v7x_i16_bf16_1_alg».proof.Proof.StepsBits
import proofs.«900458_g7700000000000459_dist_mlp2_tp_i_m256_h512_out256_v7x_i16_bf16_1_alg».proof.Proof.RegionsBits
import Idealize.SL.ProofMode.BigOp

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx

variable {F : FTy → Type} [FloatOps F]

local notation "𝕄" => MT nD τ sig Unit (Elt F) ℕ UU ℕ

variable (m : (ℓ : Loc nD τ sig) → Buf (Elt F) ℓ)

/-! ## A device closes its own cells -/

/-- A device that has consumed the one round of each of fifteen of its own cells closes them: each cell's counter is
    its own again, at zero. No round after the first has a duty, and the device holds its position at round one with
    nothing taken. -/
theorem close_family (K : Dev nD × Fin 61 → ℕ) (c : Dev nD) (sm : Fin 15 → DmaSem sig) (ix : Fin 15 → Fin 61)
    (hix : ∀ k, kcell (c, ix k) = ((c : Thread nD τ), SemLoc.dma (sm k))) :
    iprop(records m K ∗ bigSep (Finset.univ : Finset (Fin 15)) fun k => atPos ER ((c : Thread nD τ), SemLoc.dma (sm k)) 1 ∅ 0)
      ⊢ iprop(|={Set.univ}=> bigSep (Finset.univ : Finset (Fin 15)) fun k => semVal ((c : Thread nD τ), SemLoc.dma (sm k)) 0) := by
  refine (bigSep_with_persistent (R := records m K)
    (Ψ := fun k => iprop(|={Set.univ}=> semVal ((c : Thread nD τ), SemLoc.dma (sm k)) 0)) fun k _ => ?_).trans (bigSep_fupd _ _)
  refine (sep_mono_left ((rec_inv m K (c, ix k)).trans (Entails.of_eq (by rw [hix k])))).trans ?_
  exact Rounds.cell_close ER (sched m) (Set.mem_univ (K (c, ix k))) (fun h => h) (R := 0 + 1) (duties_later m _)

/-! ## The sixty cells of the four families -/

theorem iS1_inj : Function.Injective iS1 := fun a b h =>
  Fin.ext (by have h' : 1 + a.val = 1 + b.val := congrArg Fin.val h; omega)
theorem iR1_inj : Function.Injective iR1 := fun a b h =>
  Fin.ext (by have h' : 16 + a.val = 16 + b.val := congrArg Fin.val h; omega)
theorem iS2_inj : Function.Injective iS2 := fun a b h =>
  Fin.ext (by have h' : 31 + a.val = 31 + b.val := congrArg Fin.val h; omega)
theorem iR2_inj : Function.Injective iR2 := fun a b h =>
  Fin.ext (by have h' : 46 + a.val = 46 + b.val := congrArg Fin.val h; omega)

/-- The numbers 1 … 60 are the four runs of fifteen. -/
theorem erase_zero_families : (Finset.univ.erase (0 : Fin 61))
    = Finset.univ.image iS1 ∪ (Finset.univ.image iR1 ∪ (Finset.univ.image iS2 ∪ Finset.univ.image iR2)) := by
  decide +kernel
theorem disj_S1 : Disjoint (Finset.univ.image iS1) (Finset.univ.image iR1 ∪ (Finset.univ.image iS2 ∪ Finset.univ.image iR2)) := by
  decide +kernel
theorem disj_R1 : Disjoint (Finset.univ.image iR1) (Finset.univ.image iS2 ∪ Finset.univ.image iR2) := by
  decide +kernel
theorem disj_S2 : Disjoint (Finset.univ.image iS2) (Finset.univ.image iR2) := by
  decide +kernel

/-- The four families' closed cells are the device's sixty cells other than the entry cell, closed. -/
theorem phi1_sems (c : Dev nD) :
    (iprop((bigSep Finset.univ fun k : Fin 15 => semVal (s1Cell c k) 0)
        ∗ (bigSep Finset.univ fun k : Fin 15 => semVal (r1Cell c k) 0)
        ∗ (bigSep Finset.univ fun k : Fin 15 => semVal (s2Cell c k) 0)
        ∗ (bigSep Finset.univ fun k : Fin 15 => semVal (r2Cell c k) 0)) : sProp 𝕄)
      ⊢ bigSep (Finset.univ.erase (0 : Fin 61)) fun i => semVal (kcell (c, i)) 0 := by
  rw [erase_zero_families, bigSep_union disj_S1, bigSep_union disj_R1, bigSep_union disj_S2,
    bigSep_image_of_injOn iS1_inj.injOn, bigSep_image_of_injOn iR1_inj.injOn,
    bigSep_image_of_injOn iS2_inj.injOn, bigSep_image_of_injOn iR2_inj.injOn]
  simp only [kcell_s1, kcell_r1, kcell_s2, kcell_r2]
  exact Entails.of_eq rfl

/-! ## Putting the buffers back together -/

/-- A device's own rows of the result and the fifteen other devices' rows are the whole result buffer. -/
theorem out_join (c : Dev nD) :
    (iprop(((outRowsM c).view.loc (c : Thread nD τ) ↦[(outRowsM c).view.set]{fullShare} OUT m)
        ∗ bigSep (Finset.univ : Finset (Fin 15)) fun k =>
            (outRowsM (bwd c k)).view.loc (c : Thread nD τ) ↦[(outRowsM (bwd c k)).view.set]{fullShare} OUT m) : sProp 𝕄)
      ⊢ ((c : Thread nD τ).loc cc0_stg3_0 ↦{fullShare} OUT m) := by
  rw [out_split c (OUT m), bigSep_univ_at _ c, erase_eq_map c, bigSep_image_of_injOn (fun a _ b _ h => by
    have := congrArg (idxOf c) h; rwa [idxOf_bwd, idxOf_bwd] at this)]

/-- A device's own rows of its send buffer and the fifteen row blocks it sent are the whole send buffer. -/
theorem send_join (c : Dev nD) :
    (iprop(((c : Thread nD τ).loc cc0_scratch0
            ↦[(sendM.access (Rect.unit (s := S256x256) (k0_off2 c) S16x256.size (k0_off2_inb c))).set]{fullShare} Pc m c)
        ∗ bigSep (Finset.univ : Finset (Fin 15)) fun k =>
            (srcM c k).view.loc (c : Thread nD τ) ↦[(srcM c k).view.set]{fullShare} Pc m c) : sProp 𝕄)
      ⊢ ((c : Thread nD τ).loc cc0_scratch0 ↦{fullShare} Pc m c) :=
  Entails.of_eq (send_split c (Pc m c)).symm

/-- The fifteen landed slots are the whole receive buffer. -/
theorem rs_join (c : Dev nD) :
    (iprop(bigSep (Finset.univ : Finset (Fin 15)) fun k => r1Pay m c k) : sProp 𝕄)
      ⊢ ((c : Thread nD τ).loc cc0_scratch1 ↦{fullShare} RS m c) := by
  unfold r1Pay
  exact Entails.of_eq (rs_split c (RS m c)).symm

/-- The fifteen shares lent to the copies and the remainder are the reduction buffer's full share. -/
theorem red_join (c : Dev nD) :
    (iprop((bigSep (Finset.univ : Finset (Fin 15)) fun k => s2Pay m c k)
        ∗ ((c : Thread nD τ).loc cc0_scratch2 ↦{rpow 15} RB m c)) : sProp 𝕄)
      ⊢ ((c : Thread nD τ).loc cc0_scratch2 ↦{fullShare} RB m c) := by
  unfold s2Pay
  exact (red_split c (RB m c)).2

/-! ## The two stores of the sum -/

/-- The reduction buffer after the store of the sum of the loaded row blocks holds the device's sum. -/
theorem reduce_red (c : Dev nD) (fD : (cc0_scratch2 : Ref sig .tc).ty.Contents (Elt F)) :
    ((redM : Memref sig .tc .vmem S16x256 .f32).access (Rect.unit (s := S16x256) ![0, 0] S16x256.size inb_S16x256_S16x256_0_0)).write
        (Elt F) fD
        (k0_pay4
          (sendM.view.readAt (Elt F) (Rect.unit (s := S256x256) (k0_off2 c) S16x256.size (k0_off2_inb c)).toLoadRect (Pc m c))
          (rsM.view.readAt (Elt F) (Rect.unit (s := S15x16x256) ![0, 0, 0] S15x16x256.size inb_S15x16x256_S15x16x256_0_0_0).toLoadRect (RS m c)))
        Finset.univ
      = RB m c := by
  rw [write_red, read_own, read_rs]
  rfl

/-- A device's own rows of the result, after the store of the sum of the loaded row blocks, hold the result. -/
theorem store_own_reads (c : Dev nD) (f : Buf (Elt F) ((c : Thread nD τ).loc cc0_stg3_0)) :
    ((c : Thread nD τ).loc cc0_stg3_0 ↦[(outRowsM c).view.set]{fullShare}
        (outM.access (Rect.unit (s := S256x256) (k0_off2 c) S16x256.size (k0_off2_inb c))).write (Elt F) f
          (k0_pay3
            (sendM.view.readAt (Elt F) (Rect.unit (s := S256x256) (k0_off2 c) S16x256.size (k0_off2_inb c)).toLoadRect (Pc m c))
            (rsM.view.readAt (Elt F) (Rect.unit (s := S15x16x256) ![0, 0, 0] S15x16x256.size inb_S15x16x256_S15x16x256_0_0_0).toLoadRect (RS m c)))
          Finset.univ : sProp 𝕄)
      = ((c : Thread nD τ).loc cc0_stg3_0 ↦[(outRowsM c).view.set]{fullShare} OUT m) := by
  rw [read_own, read_rs]
  exact store_own m c f

/-- info: 'Cert.Kernel.Mlp.close_family' depends on axioms: [propext, Classical.choice, Quot.sound] -/
#guard_msgs in #print axioms Cert.Kernel.Mlp.close_family
/-- info: 'Cert.Kernel.Mlp.phi1_sems' depends on axioms: [propext, Classical.choice, Quot.sound] -/
#guard_msgs in #print axioms Cert.Kernel.Mlp.phi1_sems
/-- info: 'Cert.Kernel.Mlp.out_join' depends on axioms: [propext, Classical.choice, Quot.sound] -/
#guard_msgs in #print axioms Cert.Kernel.Mlp.out_join

/-- info: 'Cert.Kernel.Mlp.store_own_reads' depends on axioms: [propext, Classical.choice, Quot.sound] -/
#guard_msgs in #print axioms Cert.Kernel.Mlp.store_own_reads

end Cert.Kernel.Mlp

end
-- ==== Proof.BodyBits.lean ====
/-
  One device's body, stepped from what the launch hands it to what it hands back.
-/
import proofs.«900458_g7700000000000459_dist_mlp2_tp_i_m256_h512_out256_v7x_i16_bf16_1_alg».proof.Proof.StepsBits
import proofs.«900458_g7700000000000459_dist_mlp2_tp_i_m256_h512_out256_v7x_i16_bf16_1_alg».proof.Proof.LevelsBits
import proofs.«900458_g7700000000000459_dist_mlp2_tp_i_m256_h512_out256_v7x_i16_bf16_1_alg».proof.Proof.ClosingBits

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ)

theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

/-! ## Reindexing -/

theorem bigSep_rev (Φ : Fin 15 → sProp 𝕄) : bigSep Finset.univ (fun k => Φ (rev k)) = bigSep Finset.univ Φ :=
  (bigSep_univ_equiv revEquiv Φ).symm

theorem erase_eq_image_fwd : ∀ c : Dev nD, (Finset.univ.erase c : Finset (Dev nD)) = (Finset.univ : Finset (Fin 15)).image (fwd c) := by decide

theorem others_fwd (c : Dev nD) (Φ : Dev nD → sProp 𝕄) : bigSep (Finset.univ.erase c) Φ = bigSep Finset.univ (fun k : Fin 15 => Φ (fwd c k)) := by
  rw [erase_eq_image_fwd, bigSep_image_of_injOn (fun a _ b _ h => fwd_inj c a b h)]
theorem others_bwd (c : Dev nD) (Φ : Dev nD → sProp 𝕄) : bigSep (Finset.univ.erase c) Φ = bigSep Finset.univ (fun k : Fin 15 => Φ (bwd c k)) := by
  rw [erase_eq_map, bigSep_image_of_injOn (fun a _ b _ h => by have := congrArg (idxOf c) h; rwa [idxOf_bwd, idxOf_bwd] at this)]

theorem fin61_cover : (Finset.univ : Finset (Fin 61)) = insert 0 (((Finset.univ.image iS1 ∪ Finset.univ.image iR1) ∪ Finset.univ.image iS2) ∪ Finset.univ.image iR2) := by decide

/-- A `bigSep` over a device's sixty-one cells: the entry cell and the four families. -/
theorem fin61_split (Φ : Fin 61 → sProp 𝕄) :
    bigSep Finset.univ Φ = iprop(Φ 0 ∗ (((bigSep Finset.univ fun k => Φ (iS1 k)) ∗ bigSep Finset.univ fun k => Φ (iR1 k)) ∗ bigSep Finset.univ fun k => Φ (iS2 k)) ∗ bigSep Finset.univ fun k => Φ (iR2 k)) := by
  rw [fin61_cover, bigSep_insert' (by decide), bigSep_union (by decide), bigSep_union (by decide), bigSep_union (by decide),
    bigSep_image_of_injOn (fun a _ b _ h => iS1_inj h), bigSep_image_of_injOn (fun a _ b _ h => iR1_inj h),
    bigSep_image_of_injOn (fun a _ b _ h => iS2_inj h), bigSep_image_of_injOn (fun a _ b _ h => iR2_inj h)]
  rfl

theorem slotE_intro (c : Dev nD) (k : Fin 15) (f : Buf (Elt F) ((slotM k).view.loc (c : Thread nD τ))) :
    ((slotM k).view.loc (c : Thread nD τ) ↦[(slotM k).view.set]{fullShare} f : sProp 𝕄) ⊢ slotE c k := by
  unfold slotE; iintro H; iexists f; iexact H
theorem rowsE_intro (c d : Dev nD) (f : Buf (Elt F) ((outRowsM d).view.loc (c : Thread nD τ))) :
    ((outRowsM d).view.loc (c : Thread nD τ) ↦[(outRowsM d).view.set]{fullShare} f : sProp 𝕄) ⊢ rowsE c d := by
  unfold rowsE; iintro H; iexists f; iexact H

/-! ## The partial product stored -/

theorem read_x (g : (cc0_stg0_0 : Ref sig .tc).ty.Contents (Elt F)) :
    xM.view.readAt (Elt F) (Rect.unit (s := S256x256) ![0, 0] S256x256.size inb_S256x256_S256x256_0_0).toLoadRect g = g :=
  Memref.readAt_unit_zero (Elt F) cc0_stg0_0 zeros2 _ g
theorem read_w1 (g : (cc0_stg1_0 : Ref sig .tc).ty.Contents (Elt F)) :
    w1M.view.readAt (Elt F) (Rect.unit (s := S256x512) ![0, 0] S256x512.size inb_S256x512_S256x512_0_0).toLoadRect g = g :=
  Memref.readAt_unit_zero (Elt F) cc0_stg1_0 zeros2 _ g
theorem read_w2 (g : (cc0_stg2_0 : Ref sig .tc).ty.Contents (Elt F)) :
    w2M.view.readAt (Elt F) (Rect.unit (s := S512x256) ![0, 0] S512x256.size inb_S512x256_S512x256_0_0).toLoadRect g = g :=
  Memref.readAt_unit_zero (Elt F) cc0_stg2_0 zeros2 _ g

/-- The send buffer after the store holds the device's partial product. -/
theorem send_store (c : Dev nD) (fS : (cc0_scratch0 : Ref sig .tc).ty.Contents (Elt F)) :
    (sendM.access (Rect.unit (s := S256x256) ![0, 0] S256x256.size inb_S256x256_S256x256_0_0)).write (Elt F) fS
      (k0_pay2 (k0_pay1
        (xM.view.readAt (Elt F) (Rect.unit (s := S256x256) ![0, 0] S256x256.size inb_S256x256_S256x256_0_0).toLoadRect (Xc m c))
        (w1M.view.readAt (Elt F) (Rect.unit (s := S256x512) ![0, 0] S256x512.size inb_S256x512_S256x512_0_0).toLoadRect (W1c m c))
        (w2M.view.readAt (Elt F) (Rect.unit (s := S512x256) ![0, 0] S512x256.size inb_S512x256_S512x256_0_0).toLoadRect (W2c m c)))) Finset.univ
      = Pc m c := by
  rw [write_send, read_x, read_w1, read_w2]; rfl

/-! ## The body -/

/-- What the body hands back: the scratch buffers whole and its own cells closed, nothing owed, the three argument windows as
    found and the result window holding the gathered sums. -/
def bodyPost (c : Dev nD) : sProp 𝕄 :=
  iprop(Φ₁ c ∗ (dats m 0 c).owesAt () t0_0.succ
    ∗ (∃ f, ⌜f = (dats m 0 c).after 0 t0_0⌝ ∗ (c : Thread nD τ).loc cc0_stg0_0 ↦{fullShare} f)
    ∗ (∃ f, ⌜f = (dats m 0 c).after 1 t0_0⌝ ∗ (c : Thread nD τ).loc cc0_stg1_0 ↦{fullShare} f)
    ∗ (∃ f, ⌜f = (dats m 0 c).after 2 t0_0⌝ ∗ (c : Thread nD τ).loc cc0_stg2_0 ↦{fullShare} f)
    ∗ (∃ f, ⌜f = (dats m 0 c).after 3 t0_0⌝ ∗ (c : Thread nD τ).loc cc0_stg3_0 ↦{fullShare} f))

set_option maxRecDepth 65536 in
set_option maxHeartbeats 4000000 in
/-- The body, one rule per statement in program order. -/
theorem sound_body (c : Dev nD) (Kt : PUnit → sProp 𝕄) :
    iprop((dats m 0 c).Φ t0_0.castSucc ∗ (dats m 0 c).owesAt () t0_0.castSucc
        ∗ (∃ d f, ⌜f = (dats m 0 c).before 0 t0_0 d⌝ ∗ (c : Thread nD τ).loc cc0_stg0_0 ↦{fullShare} f)
        ∗ (∃ d f, ⌜f = (dats m 0 c).before 1 t0_0 d⌝ ∗ (c : Thread nD τ).loc cc0_stg1_0 ↦{fullShare} f)
        ∗ (∃ d f, ⌜f = (dats m 0 c).before 2 t0_0 d⌝ ∗ (c : Thread nD τ).loc cc0_stg2_0 ↦{fullShare} f)
        ∗ (∃ d f, ⌜f = (dats m 0 c).before 3 t0_0 d⌝ ∗ (c : Thread nD τ).loc cc0_stg3_0 ↦{fullShare} f)
        ∗ (bodyPost m c -∗ Kt ⟨⟩))
      ⊢ wp frame (wpE (defs₀ (F := F)) 𝒱₀ (c : Thread nD τ) none) Set.univ
          (cc0_body (Memref.whole cc0_stg0_0) (Memref.isWhole_whole _) (Memref.whole cc0_stg1_0) (Memref.isWhole_whole _) (Memref.whole cc0_stg2_0) (Memref.isWhole_whole _)
            (Memref.whole cc0_stg3_0) (Memref.isWhole_whole _) (Memref.whole cc0_scratch0) (Memref.isWhole_whole _) (Memref.whole cc0_scratch1) (Memref.isWhole_whole _)
            (Memref.whole cc0_scratch2) (Memref.isWhole_whole _) cc0_scratch3 cc0_scratch4 cc0_scratch5 cc0_scratch6) Kt := by
  simp only [cc0_body_eq_skeleton]; unfold cc0_body_skel
  simp only [k0_part27_eq_skeleton]; unfold k0_part27_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel k0_part18_skel k0_part19_skel k0_part20_skel k0_part21_skel k0_part22_skel k0_part23_skel k0_part24_skel k0_part25_skel k0_part26_skel
  simp only [semSignalWord, semWaitWord, Prog.lift, Prog.bind_op, Prog.bind_ret, Prog.pure_eq_ret, wp_deviceId]
  simp only [dev1_eq c, dev2_eq c, dev3_eq c, dev4_eq c, dev5_eq c, dev6_eq c, dev7_eq c, dev8_eq c, dev9_eq c, dev10_eq c, dev11_eq c, dev12_eq c, dev13_eq c, dev14_eq c, dev15_eq c, dev16_eq c, dev17_eq c, dev18_eq c, dev19_eq c, dev20_eq c, dev21_eq c, dev22_eq c, dev23_eq c, dev24_eq c, dev25_eq c, dev26_eq c, dev27_eq c, dev28_eq c, dev29_eq c, dev30_eq c, dev31_eq c, dev32_eq c, dev33_eq c, dev34_eq c, dev35_eq c, dev36_eq c, dev37_eq c, dev38_eq c, dev39_eq c, dev40_eq c, dev41_eq c, dev42_eq c, dev43_eq c, dev44_eq c, dev45_eq c]
  rw [show (dats m 0 c).Φ t0_0.castSucc = Φ₀ m c from rfl]
  unfold Φ₀ start ghost creds scratch payToks positions Dat.owesAt Pipeline.owesWithin
  rw [show (dats m 0 c).owed t0_0.castSucc = O₀ c from rfl, bigSep_sep', bigSep_sep', bigSep_sep', bigSep_sep', fin61_split]
  iintro ⟨⟨⟨⟨%K, #Hrec, ⟨HaB, ⟨⟨⟨HaS1, HaR1⟩, HaS2⟩, HaR2⟩⟩, ⟨HtB, HtR1, HtR2, HtS1, HtS2⟩⟩, ⟨HcB, HcR1, HcR2⟩, #Hlev⟩, ⟨%fS, HS⟩, ⟨%fR, HR⟩, ⟨%fD, HD⟩⟩, ⟨%W0, %hW0, HO⟩,
    ⟨%d0, %g0, %hg0, Hx⟩, ⟨%d1, %g1, %hg1, Hw1⟩, ⟨%d2, %g2, %hg2, Hw2⟩, ⟨%d3, %g3, %hg3, Hout⟩, Hk⟩
  -- the receive buffer by slots, the result buffer by row blocks
  ihave HR := (Entails.of_eq (rs_split c fR)) $$ HR
  ihave Hout := (Entails.of_eq ((out_split c g3).trans ((bigSep_univ_at _ c).trans (congrArg (fun X => iprop(_ ∗ X)) (others_fwd c _))))) $$ Hout
  icases Hout with ⟨Hown, Hothers⟩
  ihave HA := (show iprop(records m K ∗ (∃ W, owes (c : Thread nD τ) (O₀ c) W)
      ∗ (bigSep Finset.univ fun k : Fin 15 => dutyTok ER (barCell (fwd c k)) 0 c)
      ∗ (bigSep Finset.univ fun k : Fin 15 => (slotM k).view.loc (c : Thread nD τ) ↦[(slotM k).view.set]{fullShare} fR)
      ∗ (bigSep Finset.univ fun k : Fin 15 => (outRowsM (fwd c k)).view.loc (c : Thread nD τ) ↦[(outRowsM (fwd c k)).view.set]{fullShare} g3))
      ⊢ SA m K c 0 from by
    unfold SA
    rw [ge_zero, bigSep_sep', bigSep_sep', bigSep_rev (fun j => slotE (F := F) c j)]
    iintro ⟨#H1, H2, H3, H4, H5⟩
    isplitr; · iexact H1
    isplitl [H2]; · iexact H2
    isplitl [H3]; · iexact H3
    isplitl [H4]
    · iapply (show (bigSep Finset.univ (fun k : Fin 15 => (slotM k).view.loc (c : Thread nD τ) ↦[(slotM k).view.set]{fullShare} fR) : sProp 𝕄) ⊢ bigSep Finset.univ (fun k : Fin 15 => slotE c k) from
        bigSep_mono (fun k _ => slotE_intro c k fR)) $$ H4
    · iapply (show (bigSep Finset.univ (fun k : Fin 15 => (outRowsM (fwd c k)).view.loc (c : Thread nD τ) ↦[(outRowsM (fwd c k)).view.set]{fullShare} g3) : sProp 𝕄) ⊢ bigSep Finset.univ (fun k : Fin 15 => rowsE c (fwd c k)) from
        bigSep_mono (fun k _ => rowsE_intro c (fwd c k) g3)) $$ H5) $$ [HO HtB HR Hothers]
  · isplitr; · iexact Hrec
    isplitl [HO]; · iexists W0; iexact HO
    isplitl [HtB]; · iexact HtB
    isplitl [HR]; · iexact HR
    iexact Hothers
  iapply (step_sig' m K c 0 0 1 rfl rfl _ rfl (by decide)) $$ HA; iintro HA
  iapply (step_sig' m K c 1 1 2 rfl rfl _ rfl (by decide)) $$ HA; iintro HA
  iapply (step_sig' m K c 2 2 3 rfl rfl _ rfl (by decide)) $$ HA; iintro HA
  iapply (step_sig' m K c 3 3 4 rfl rfl _ rfl (by decide)) $$ HA; iintro HA
  iapply (step_sig' m K c 4 4 5 rfl rfl _ rfl (by decide)) $$ HA; iintro HA
  iapply (step_sig' m K c 5 5 6 rfl rfl _ rfl (by decide)) $$ HA; iintro HA
  iapply (step_sig' m K c 6 6 7 rfl rfl _ rfl (by decide)) $$ HA; iintro HA
  iapply (step_sig' m K c 7 7 8 rfl rfl _ rfl (by decide)) $$ HA; iintro HA
  iapply (step_sig' m K c 8 8 9 rfl rfl _ rfl (by decide)) $$ HA; iintro HA
  iapply (step_sig' m K c 9 9 10 rfl rfl _ rfl (by decide)) $$ HA; iintro HA
  iapply (step_sig' m K c 10 10 11 rfl rfl _ rfl (by decide)) $$ HA; iintro HA
  iapply (step_sig' m K c 11 11 12 rfl rfl _ rfl (by decide)) $$ HA; iintro HA
  iapply (step_sig' m K c 12 12 13 rfl rfl _ rfl (by decide)) $$ HA; iintro HA
  iapply (step_sig' m K c 13 13 14 rfl rfl _ rfl (by decide)) $$ HA; iintro HA
  iapply (step_sig' m K c 14 14 15 rfl rfl _ rfl (by decide)) $$ HA; iintro HA
  -- the partial product: three loads, then the send buffer stored whole
  have hz2 : (![0, 0] : Fin 2 → Nat) = fun _ => 0 := funext fun a => by fin_cases a <;> rfl
  have hx : g0 = Xc m c := by rw [hg0]; unfold Dat.before; rw [if_pos (fetch0_0 t0_0)]; rfl
  have hw1 : g1 = W1c m c := by rw [hg1]; unfold Dat.before; rw [if_pos (fetch0_1 t0_0)]; rfl
  have hw2 : g2 = W2c m c := by rw [hg2]; unfold Dat.before; rw [if_pos (fetch0_2 t0_0)]; rfl
  subst hx hw1 hw2
  iapply (wp_load 𝒱₀ (c : Thread nD τ) none Set.univ (m := xM) (Finset.subset_univ _)) $$ Hx; iintro Hx
  iapply (wp_load 𝒱₀ (c : Thread nD τ) none Set.univ (m := w1M) (Finset.subset_univ _)) $$ Hw1; iintro Hw1
  iapply (wp_load 𝒱₀ (c : Thread nD τ) none Set.univ (m := w2M) (Finset.subset_univ _)) $$ Hw2; iintro Hw2
  iapply (wp_load 𝒱₀ (c : Thread nD τ) none Set.univ (m := sendM) (Finset.subset_univ _)) $$ HS; iintro HS
  iapply (wp_store 𝒱₀ (c : Thread nD τ) none Set.univ (m := sendM) (r := Rect.unit (s := S256x256) ![0, 0] S256x256.size inb_S256x256_S256x256_0_0)
    (Mk := Finset.univ) (Finset.subset_univ _)) $$ HS; iintro HS
  -- the send buffer holds the partial product
  ihave HS := (Entails.of_eq (congrArg (fun f => (((c : Thread nD τ).loc cc0_scratch0) ↦{fullShare} f : sProp 𝕄)) (send_store m c fS))) $$ HS
  -- the entry wait
  ihave HO := (show SA m K c 15 ⊢ iprop(∃ W, owes (c : Thread nD τ) (owing c 0 15 15) W) from by
    unfold SA; rw [ge_fifteen, bigSep_empty]; iintro ⟨-, H, -⟩; iexact H) $$ HA
  icases HO with ⟨%W1, HO⟩
  ihave HaB := (Entails.of_eq (congrArg (fun g => (atPos ER g 0 ∅ 0 : sProp 𝕄)) (kcell_bar c))) $$ HaB
  iapply (step_barwait m K c (by decide) W1 (mayWait_bar c 15 15)) $$ [HcB HO HaB]
  · isplitr; · iexact Hrec
    isplitr; · iexact Hlev
    isplitl [HcB]; · iexact HcB
    isplitl [HO]; · iexact HO
    iexact HaB
  iintro ⟨HO, HaB, Hgot⟩
  ihave Hgot := (Entails.of_eq (bigSep_sep' Finset.univ (fun k : Fin 15 => slotE (F := F) (fwd c k) k) (fun k => rowsE (fwd c k) c))) $$ Hgot
  icases Hgot with ⟨Hslots, Hrows⟩
  -- the send buffer by row blocks
  ihave HS := (Entails.of_eq (send_split c (Pc m c))) $$ HS
  icases HS with ⟨HSown, HSsrc⟩
  ihave HB := (show iprop(records m K ∗ (∃ W, owes (c : Thread nD τ) (owing c 0 15 15) W)
      ∗ (bigSep Finset.univ fun k : Fin 15 => dutyTok ER (s1Cell c k) 0 c)
      ∗ (bigSep Finset.univ fun k : Fin 15 => dutyTok ER (r1Cell (fwd c k) k) 0 c)
      ∗ (bigSep Finset.univ fun k : Fin 15 => (srcM c k).view.loc (c : Thread nD τ) ↦[(srcM c k).view.set]{fullShare} Pc m c)
      ∗ (bigSep Finset.univ fun k : Fin 15 => slotE (F := F) (fwd c k) k))
      ⊢ SB m K c 0 from by
    unfold SB s1Pay
    rw [ge_zero, lt_zero, bigSep_empty, bigSep_sep', bigSep_sep', bigSep_sep']
    iintro ⟨#H1, H2, H3, H4, H5, H6⟩
    isplitr; · iexact H1
    isplitl [H2]; · iexact H2
    isplitl [H3 H4 H5 H6]
    · isplitl [H3]; · iexact H3
      isplitl [H4]; · iexact H4
      isplitl [H5]; · iexact H5
      iexact H6
    iempintro) $$ [HO HtS1 HtR1 HSsrc Hslots]
  · isplitr; · iexact Hrec
    isplitl [HO]; · iexact HO
    isplitl [HtS1]; · iexact HtS1
    isplitl [HtR1]; · iexact HtR1
    isplitl [HSsrc]; · iexact HSsrc
    iexact Hslots
  iapply (step_send1' m K c 0 0 1 rfl rfl _ (dev16_eq c) (fun fd => by unfold r1Pay; exact Entails.of_eq (land1 m c 0 fd))) $$ HB; iintro HB
  iapply (step_send1' m K c 1 1 2 rfl rfl _ (dev17_eq c) (fun fd => by unfold r1Pay; exact Entails.of_eq (land1 m c 1 fd))) $$ HB; iintro HB
  iapply (step_send1' m K c 2 2 3 rfl rfl _ (dev18_eq c) (fun fd => by unfold r1Pay; exact Entails.of_eq (land1 m c 2 fd))) $$ HB; iintro HB
  iapply (step_send1' m K c 3 3 4 rfl rfl _ (dev19_eq c) (fun fd => by unfold r1Pay; exact Entails.of_eq (land1 m c 3 fd))) $$ HB; iintro HB
  iapply (step_send1' m K c 4 4 5 rfl rfl _ (dev20_eq c) (fun fd => by unfold r1Pay; exact Entails.of_eq (land1 m c 4 fd))) $$ HB; iintro HB
  iapply (step_send1' m K c 5 5 6 rfl rfl _ (dev21_eq c) (fun fd => by unfold r1Pay; exact Entails.of_eq (land1 m c 5 fd))) $$ HB; iintro HB
  iapply (step_send1' m K c 6 6 7 rfl rfl _ (dev22_eq c) (fun fd => by unfold r1Pay; exact Entails.of_eq (land1 m c 6 fd))) $$ HB; iintro HB
  iapply (step_send1' m K c 7 7 8 rfl rfl _ (dev23_eq c) (fun fd => by unfold r1Pay; exact Entails.of_eq (land1 m c 7 fd))) $$ HB; iintro HB
  iapply (step_send1' m K c 8 8 9 rfl rfl _ (dev24_eq c) (fun fd => by unfold r1Pay; exact Entails.of_eq (land1 m c 8 fd))) $$ HB; iintro HB
  iapply (step_send1' m K c 9 9 10 rfl rfl _ (dev25_eq c) (fun fd => by unfold r1Pay; exact Entails.of_eq (land1 m c 9 fd))) $$ HB; iintro HB
  iapply (step_send1' m K c 10 10 11 rfl rfl _ (dev26_eq c) (fun fd => by unfold r1Pay; exact Entails.of_eq (land1 m c 10 fd))) $$ HB; iintro HB
  iapply (step_send1' m K c 11 11 12 rfl rfl _ (dev27_eq c) (fun fd => by unfold r1Pay; exact Entails.of_eq (land1 m c 11 fd))) $$ HB; iintro HB
  iapply (step_send1' m K c 12 12 13 rfl rfl _ (dev28_eq c) (fun fd => by unfold r1Pay; exact Entails.of_eq (land1 m c 12 fd))) $$ HB; iintro HB
  iapply (step_send1' m K c 13 13 14 rfl rfl _ (dev29_eq c) (fun fd => by unfold r1Pay; exact Entails.of_eq (land1 m c 13 fd))) $$ HB; iintro HB
  iapply (step_send1' m K c 14 14 15 rfl rfl _ (dev30_eq c) (fun fd => by unfold r1Pay; exact Entails.of_eq (land1 m c 14 fd))) $$ HB; iintro HB
  -- the first-phase arrivals
  ihave HB := (show SB m K c 15 ⊢ iprop((∃ W, owes (c : Thread nD τ) (owing c 0 0 15) W) ∗ (bigSep Finset.univ fun k : Fin 15 => cred (tallyAt (s1Cell c k) () N1))) from by
    unfold SB; rw [ge_fifteen, bigSep_empty, lt_fifteen]
    iintro ⟨-, H, -, H2⟩
    isplitl [H]; · iexact H
    iexact H2) $$ HB
  icases HB with ⟨HO, HcS1⟩
  ihave HaR1 := (Entails.of_eq (bigSep_congr (s := (Finset.univ : Finset (Fin 15))) fun k _ => congrArg (fun g => (atPos ER g 0 ∅ 0 : sProp 𝕄)) (kcell_r1 c k))) $$ HaR1
  ihave HC := (show iprop(records m K ∗ levAts L lv ∗ (∃ W, owes (c : Thread nD τ) (owing c 0 0 15) W)
      ∗ (bigSep Finset.univ fun k : Fin 15 => cred (tallyAt (r1Cell c k) () N1))
      ∗ (bigSep Finset.univ fun k : Fin 15 => atPos ER (r1Cell c k) 0 ∅ 0))
      ⊢ SW m K c r1 N1 (r1Pay m c) (owing c 0 0 15) 0 from by
    unfold SW
    rw [ge_zero, lt_zero, bigSep_empty, bigSep_sep']
    iintro ⟨#H1, #H2, H3, H4, H5⟩
    isplitr; · iexact H1
    isplitr; · iexact H2
    isplitl [H3]; · iexact H3
    isplitl [H4 H5]
    · isplitl [H4]; · iexact H4
      iexact H5
    iempintro) $$ [HO HcR1 HaR1]
  · isplitr; · iexact Hrec
    isplitr; · iexact Hlev
    isplitl [HO]; · iexact HO
    isplitl [HcR1]; · iexact HcR1
    iexact HaR1
  iapply (step_wait' m K c r1 iR1 (kcell_r1 c) N1 (expect_r1 m c) (r1Pay m c) (rest_r1 m c) (owing c 0 0 15) (fun k => mayWait_r1 c k 15) 0 0 1 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 1 1 2 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 2 2 3 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 3 3 4 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 4 4 5 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 5 5 6 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 6 6 7 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 7 7 8 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 8 8 9 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 9 9 10 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 10 10 11 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 11 11 12 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 12 12 13 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 13 13 14 rfl rfl _ rfl (by first | rfl | decide)) $$ HC; iintro HC
  iapply (step_wait' m K c r1 iR1 (kcell_r1 c) N1 (expect_r1 m c) (r1Pay m c) (rest_r1 m c) (owing c 0 0 15) (fun k => mayWait_r1 c k 15) 14 14 15 rfl rfl _ rfl (by first | rfl | decide)) $$ HC; iintro HC
  ihave HC := (show SW m K c r1 N1 (r1Pay m c) (owing c 0 0 15) 15
      ⊢ iprop((∃ W, owes (c : Thread nD τ) (owing c 0 0 15) W) ∗ (bigSep Finset.univ fun k : Fin 15 => atPos ER (r1Cell c k) 1 ∅ 0) ∗ (bigSep Finset.univ fun k : Fin 15 => r1Pay m c k)) from by
    unfold SW
    rw [ge_fifteen, bigSep_empty, lt_fifteen, bigSep_sep']
    iintro ⟨-, -, H3, -, H5, H6⟩
    isplitl [H3]; · iexact H3
    isplitl [H5]; · iexact H5
    iexact H6) $$ HC
  icases HC with ⟨HO, HaR1, Hslots⟩
  -- the reduction: the own rows, the fifteen slots, their sum into the reduction buffer and into the own rows of the result
  ihave HR := (rs_join m c) $$ Hslots
  iapply (wp_load 𝒱₀ (c : Thread nD τ) none Set.univ (m := sendM) (S := (sendM.access (Rect.unit (s := S256x256) (k0_off2 c) S16x256.size (k0_off2_inb c))).set)
    (by rw [View.set_slice]; exact fun _ h => h)) $$ HSown; iintro HSown
  iapply (wp_load 𝒱₀ (c : Thread nD τ) none Set.univ (m := rsM) (Finset.subset_univ _)) $$ HR; iintro HR
  iapply (wp_load 𝒱₀ (c : Thread nD τ) none Set.univ (m := redM) (Finset.subset_univ _)) $$ HD; iintro HD
  iapply (wp_store 𝒱₀ (c : Thread nD τ) none Set.univ (m := redM) (r := Rect.unit (s := S16x256) ![0, 0] S16x256.size inb_S16x256_S16x256_0_0)
    (Mk := Finset.univ) (Finset.subset_univ _)) $$ HD; iintro HD
  ihave HD := (Entails.of_eq (congrArg (fun f => (((c : Thread nD τ).loc cc0_scratch2) ↦{fullShare} f : sProp 𝕄)) (reduce_red m c fD))) $$ HD
  iapply (wp_load 𝒱₀ (c : Thread nD τ) none Set.univ (m := outM) (S := (outRowsM c).view.set)
    (by rw [← own_store_set c, View.setOn_univ, View.set_slice]; exact fun _ h => h)) $$ Hown; iintro Hown
  iapply (wp_store 𝒱₀ (c : Thread nD τ) none Set.univ (m := outM) (r := Rect.unit (s := S256x256) (k0_off2 c) S16x256.size (k0_off2_inb c))
    (Mk := Finset.univ) (S := (outRowsM c).view.set) (by rw [own_store_set c])) $$ Hown; iintro Hown
  ihave Hown := (Entails.of_eq (store_own_reads m c g3)) $$ Hown
  -- fifteen shares of the reduction buffer, one per copy
  ihave HD := ((red_split c (RB m c)).1) $$ HD
  icases HD with ⟨Hshares, HDrest⟩
  ihave HDD := (show iprop(records m K ∗ (∃ W, owes (c : Thread nD τ) (owing c 0 0 15) W)
      ∗ (bigSep Finset.univ fun k : Fin 15 => dutyTok ER (s2Cell c k) 0 c)
      ∗ (bigSep Finset.univ fun k : Fin 15 => dutyTok ER (r2Cell (fwd c k) k) 0 c)
      ∗ (bigSep Finset.univ fun k : Fin 15 => (redM : Memref sig .tc .vmem S16x256 .f32).view.loc (c : Thread nD τ) ↦[(redM : Memref sig .tc .vmem S16x256 .f32).view.set]{q2 k} RB m c)
      ∗ (bigSep Finset.univ fun k : Fin 15 => rowsE (F := F) (fwd c k) c))
      ⊢ SD m K c 0 from by
    unfold SD s2Pay
    rw [ge_zero, lt_zero, bigSep_empty, bigSep_sep', bigSep_sep', bigSep_sep']
    iintro ⟨#H1, H2, H3, H4, H5, H6⟩
    isplitr; · iexact H1
    isplitl [H2]; · iexact H2
    isplitl [H3 H4 H5 H6]
    · isplitl [H3]; · iexact H3
      isplitl [H4]; · iexact H4
      isplitl [H5]; · iexact H5
      iexact H6
    iempintro) $$ [HO HtS2 HtR2 Hshares Hrows]
  · isplitr; · iexact Hrec
    isplitl [HO]; · iexact HO
    isplitl [HtS2]; · iexact HtS2
    isplitl [HtR2]; · iexact HtR2
    isplitl [Hshares]; · iexact Hshares
    iexact Hrows
  iapply (step_send2' m K c 0 0 1 rfl rfl _ (dev31_eq c) (fun fd => by unfold r2Pay; rw [bwd_fwd]; exact Entails.of_eq (land2 m c 0 fd))) $$ HDD; iintro HDD
  iapply (step_send2' m K c 1 1 2 rfl rfl _ (dev32_eq c) (fun fd => by unfold r2Pay; rw [bwd_fwd]; exact Entails.of_eq (land2 m c 1 fd))) $$ HDD; iintro HDD
  iapply (step_send2' m K c 2 2 3 rfl rfl _ (dev33_eq c) (fun fd => by unfold r2Pay; rw [bwd_fwd]; exact Entails.of_eq (land2 m c 2 fd))) $$ HDD; iintro HDD
  iapply (step_send2' m K c 3 3 4 rfl rfl _ (dev34_eq c) (fun fd => by unfold r2Pay; rw [bwd_fwd]; exact Entails.of_eq (land2 m c 3 fd))) $$ HDD; iintro HDD
  iapply (step_send2' m K c 4 4 5 rfl rfl _ (dev35_eq c) (fun fd => by unfold r2Pay; rw [bwd_fwd]; exact Entails.of_eq (land2 m c 4 fd))) $$ HDD; iintro HDD
  iapply (step_send2' m K c 5 5 6 rfl rfl _ (dev36_eq c) (fun fd => by unfold r2Pay; rw [bwd_fwd]; exact Entails.of_eq (land2 m c 5 fd))) $$ HDD; iintro HDD
  iapply (step_send2' m K c 6 6 7 rfl rfl _ (dev37_eq c) (fun fd => by unfold r2Pay; rw [bwd_fwd]; exact Entails.of_eq (land2 m c 6 fd))) $$ HDD; iintro HDD
  iapply (step_send2' m K c 7 7 8 rfl rfl _ (dev38_eq c) (fun fd => by unfold r2Pay; rw [bwd_fwd]; exact Entails.of_eq (land2 m c 7 fd))) $$ HDD; iintro HDD
  iapply (step_send2' m K c 8 8 9 rfl rfl _ (dev39_eq c) (fun fd => by unfold r2Pay; rw [bwd_fwd]; exact Entails.of_eq (land2 m c 8 fd))) $$ HDD; iintro HDD
  iapply (step_send2' m K c 9 9 10 rfl rfl _ (dev40_eq c) (fun fd => by unfold r2Pay; rw [bwd_fwd]; exact Entails.of_eq (land2 m c 9 fd))) $$ HDD; iintro HDD
  iapply (step_send2' m K c 10 10 11 rfl rfl _ (dev41_eq c) (fun fd => by unfold r2Pay; rw [bwd_fwd]; exact Entails.of_eq (land2 m c 10 fd))) $$ HDD; iintro HDD
  iapply (step_send2' m K c 11 11 12 rfl rfl _ (dev42_eq c) (fun fd => by unfold r2Pay; rw [bwd_fwd]; exact Entails.of_eq (land2 m c 11 fd))) $$ HDD; iintro HDD
  iapply (step_send2' m K c 12 12 13 rfl rfl _ (dev43_eq c) (fun fd => by unfold r2Pay; rw [bwd_fwd]; exact Entails.of_eq (land2 m c 12 fd))) $$ HDD; iintro HDD
  iapply (step_send2' m K c 13 13 14 rfl rfl _ (dev44_eq c) (fun fd => by unfold r2Pay; rw [bwd_fwd]; exact Entails.of_eq (land2 m c 13 fd))) $$ HDD; iintro HDD
  iapply (step_send2' m K c 14 14 15 rfl rfl _ (dev45_eq c) (fun fd => by unfold r2Pay; rw [bwd_fwd]; exact Entails.of_eq (land2 m c 14 fd))) $$ HDD; iintro HDD
  ihave HDD := (show SD m K c 15 ⊢ iprop((∃ W, owes (c : Thread nD τ) (owing c 0 0 0) W) ∗ (bigSep Finset.univ fun k : Fin 15 => cred (tallyAt (s2Cell c k) () N2))) from by
    unfold SD; rw [ge_fifteen, bigSep_empty, lt_fifteen]
    iintro ⟨-, H, -, H2⟩
    isplitl [H]; · iexact H
    iexact H2) $$ HDD
  icases HDD with ⟨HO, HcS2⟩
  -- the second-phase arrivals
  ihave HaR2 := (Entails.of_eq (bigSep_congr (s := (Finset.univ : Finset (Fin 15))) fun k _ => congrArg (fun g => (atPos ER g 0 ∅ 0 : sProp 𝕄)) (kcell_r2 c k))) $$ HaR2
  ihave HE := (show iprop(records m K ∗ levAts L lv ∗ (∃ W, owes (c : Thread nD τ) (owing c 0 0 0) W)
      ∗ (bigSep Finset.univ fun k : Fin 15 => cred (tallyAt (r2Cell c k) () N2))
      ∗ (bigSep Finset.univ fun k : Fin 15 => atPos ER (r2Cell c k) 0 ∅ 0))
      ⊢ SW m K c r2 N2 (r2Pay m c) (owing c 0 0 0) 0 from by
    unfold SW
    rw [ge_zero, lt_zero, bigSep_empty, bigSep_sep']
    iintro ⟨#H1, #H2, H3, H4, H5⟩
    isplitr; · iexact H1
    isplitr; · iexact H2
    isplitl [H3]; · iexact H3
    isplitl [H4 H5]
    · isplitl [H4]; · iexact H4
      iexact H5
    iempintro) $$ [HO HcR2 HaR2]
  · isplitr; · iexact Hrec
    isplitr; · iexact Hlev
    isplitl [HO]; · iexact HO
    isplitl [HcR2]; · iexact HcR2
    iexact HaR2
  iapply (step_wait' m K c r2 iR2 (kcell_r2 c) N2 (expect_r2 m c) (r2Pay m c) (rest_r2 m c) (owing c 0 0 0) (fun k => mayWait_r2 c k) 0 0 1 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 1 1 2 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 2 2 3 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 3 3 4 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 4 4 5 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 5 5 6 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 6 6 7 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 7 7 8 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 8 8 9 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 9 9 10 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 10 10 11 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 11 11 12 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 12 12 13 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 13 13 14 rfl rfl _ rfl (by first | rfl | decide)) $$ HE; iintro HE
  iapply (step_wait' m K c r2 iR2 (kcell_r2 c) N2 (expect_r2 m c) (r2Pay m c) (rest_r2 m c) (owing c 0 0 0) (fun k => mayWait_r2 c k) 14 14 15 rfl rfl _ rfl (by first | rfl | decide)) $$ HE; iintro HE
  ihave HE := (show SW m K c r2 N2 (r2Pay m c) (owing c 0 0 0) 15
      ⊢ iprop((∃ W, owes (c : Thread nD τ) (owing c 0 0 0) W) ∗ (bigSep Finset.univ fun k : Fin 15 => atPos ER (r2Cell c k) 1 ∅ 0) ∗ (bigSep Finset.univ fun k : Fin 15 => r2Pay m c k)) from by
    unfold SW
    rw [ge_fifteen, bigSep_empty, lt_fifteen, bigSep_sep']
    iintro ⟨-, -, H3, -, H5, H6⟩
    isplitl [H3]; · iexact H3
    isplitl [H5]; · iexact H5
    iexact H6) $$ HE
  icases HE with ⟨HO, HaR2, Hrows2⟩
  -- the departures: the rows of the send buffer come back
  ihave HaS1 := (Entails.of_eq (bigSep_congr (s := (Finset.univ : Finset (Fin 15))) fun k _ => congrArg (fun g => (atPos ER g 0 ∅ 0 : sProp 𝕄)) (kcell_s1 c k))) $$ HaS1
  ihave HF := (show iprop(records m K ∗ levAts L lv ∗ (∃ W, owes (c : Thread nD τ) (owing c 0 0 0) W)
      ∗ (bigSep Finset.univ fun k : Fin 15 => cred (tallyAt (s1Cell c k) () N1))
      ∗ (bigSep Finset.univ fun k : Fin 15 => atPos ER (s1Cell c k) 0 ∅ 0))
      ⊢ SW m K c s1 N1 (s1Pay m c) (owing c 0 0 0) 0 from by
    unfold SW
    rw [ge_zero, lt_zero, bigSep_empty, bigSep_sep']
    iintro ⟨#H1, #H2, H3, H4, H5⟩
    isplitr; · iexact H1
    isplitr; · iexact H2
    isplitl [H3]; · iexact H3
    isplitl [H4 H5]
    · isplitl [H4]; · iexact H4
      iexact H5
    iempintro) $$ [HO HcS1 HaS1]
  · isplitr; · iexact Hrec
    isplitr; · iexact Hlev
    isplitl [HO]; · iexact HO
    isplitl [HcS1]; · iexact HcS1
    iexact HaS1
  iapply (step_wait' m K c s1 iS1 (kcell_s1 c) N1 (expect_s1 m c) (s1Pay m c) (rest_s1 m c) (owing c 0 0 0) (fun k => mayWait_low c (SemLoc.dma (s1 k)) (lv_s1 c k ()) 0 0 0) 0 0 1 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 1 1 2 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 2 2 3 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 3 3 4 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 4 4 5 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 5 5 6 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 6 6 7 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 7 7 8 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 8 8 9 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 9 9 10 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 10 10 11 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 11 11 12 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 12 12 13 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 13 13 14 rfl rfl _ rfl (by first | rfl | decide)) $$ HF; iintro HF
  iapply (step_wait' m K c s1 iS1 (kcell_s1 c) N1 (expect_s1 m c) (s1Pay m c) (rest_s1 m c) (owing c 0 0 0) (fun k => mayWait_low c (SemLoc.dma (s1 k)) (lv_s1 c k ()) 0 0 0) 14 14 15 rfl rfl _ rfl (by first | rfl | decide)) $$ HF; iintro HF
  ihave HF := (show SW m K c s1 N1 (s1Pay m c) (owing c 0 0 0) 15
      ⊢ iprop((∃ W, owes (c : Thread nD τ) (owing c 0 0 0) W) ∗ (bigSep Finset.univ fun k : Fin 15 => atPos ER (s1Cell c k) 1 ∅ 0) ∗ (bigSep Finset.univ fun k : Fin 15 => s1Pay m c k)) from by
    unfold SW
    rw [ge_fifteen, bigSep_empty, lt_fifteen, bigSep_sep']
    iintro ⟨-, -, H3, -, H5, H6⟩
    isplitl [H3]; · iexact H3
    isplitl [H5]; · iexact H5
    iexact H6) $$ HF
  icases HF with ⟨HO, HaS1, Hsrcs⟩
  -- and the shares of the reduction buffer
  ihave HaS2 := (Entails.of_eq (bigSep_congr (s := (Finset.univ : Finset (Fin 15))) fun k _ => congrArg (fun g => (atPos ER g 0 ∅ 0 : sProp 𝕄)) (kcell_s2 c k))) $$ HaS2
  ihave HG := (show iprop(records m K ∗ levAts L lv ∗ (∃ W, owes (c : Thread nD τ) (owing c 0 0 0) W)
      ∗ (bigSep Finset.univ fun k : Fin 15 => cred (tallyAt (s2Cell c k) () N2))
      ∗ (bigSep Finset.univ fun k : Fin 15 => atPos ER (s2Cell c k) 0 ∅ 0))
      ⊢ SW m K c s2 N2 (s2Pay m c) (owing c 0 0 0) 0 from by
    unfold SW
    rw [ge_zero, lt_zero, bigSep_empty, bigSep_sep']
    iintro ⟨#H1, #H2, H3, H4, H5⟩
    isplitr; · iexact H1
    isplitr; · iexact H2
    isplitl [H3]; · iexact H3
    isplitl [H4 H5]
    · isplitl [H4]; · iexact H4
      iexact H5
    iempintro) $$ [HO HcS2 HaS2]
  · isplitr; · iexact Hrec
    isplitr; · iexact Hlev
    isplitl [HO]; · iexact HO
    isplitl [HcS2]; · iexact HcS2
    iexact HaS2
  iapply (step_wait' m K c s2 iS2 (kcell_s2 c) N2 (expect_s2 m c) (s2Pay m c) (rest_s2 m c) (owing c 0 0 0) (fun k => mayWait_low c (SemLoc.dma (s2 k)) (lv_s2 c k ()) 0 0 0) 0 0 1 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 1 1 2 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 2 2 3 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 3 3 4 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 4 4 5 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 5 5 6 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 6 6 7 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 7 7 8 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 8 8 9 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 9 9 10 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 10 10 11 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 11 11 12 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 12 12 13 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 13 13 14 rfl rfl _ rfl (by first | rfl | decide)) $$ HG; iintro HG
  iapply (step_wait' m K c s2 iS2 (kcell_s2 c) N2 (expect_s2 m c) (s2Pay m c) (rest_s2 m c) (owing c 0 0 0) (fun k => mayWait_low c (SemLoc.dma (s2 k)) (lv_s2 c k ()) 0 0 0) 14 14 15 rfl rfl _ rfl (by first | rfl | decide)) $$ HG; iintro HG
  ihave HG := (show SW m K c s2 N2 (s2Pay m c) (owing c 0 0 0) 15
      ⊢ iprop((∃ W, owes (c : Thread nD τ) (owing c 0 0 0) W) ∗ (bigSep Finset.univ fun k : Fin 15 => atPos ER (s2Cell c k) 1 ∅ 0) ∗ (bigSep Finset.univ fun k : Fin 15 => s2Pay m c k)) from by
    unfold SW
    rw [ge_fifteen, bigSep_empty, lt_fifteen, bigSep_sep']
    iintro ⟨-, -, H3, -, H5, H6⟩
    isplitl [H3]; · iexact H3
    isplitl [H5]; · iexact H5
    iexact H6) $$ HG
  icases HG with ⟨HO, HaS2, Hshares⟩
  -- the buffers whole again
  ihave HS := (send_join m c) $$ [HSown Hsrcs]
  · isplitl [HSown]; · iexact HSown
    iexact Hsrcs
  ihave HD := (red_join m c) $$ [Hshares HDrest]
  · isplitl [Hshares]; · iexact Hshares
    iexact HDrest
  ihave Hout := (out_join m c) $$ [Hown Hrows2]
  · isplitl [Hown]; · iexact Hown
    unfold r2Pay; iexact Hrows2
  -- the sixty own cells close
  imod (close_family m K c s1 iS1 (kcell_s1 c)) $$ [HaS1] with HzS1
  · isplitr; · iexact Hrec
    iexact HaS1
  imod (close_family m K c r1 iR1 (kcell_r1 c)) $$ [HaR1] with HzR1
  · isplitr; · iexact Hrec
    iexact HaR1
  imod (close_family m K c s2 iS2 (kcell_s2 c)) $$ [HaS2] with HzS2
  · isplitr; · iexact Hrec
    iexact HaS2
  imod (close_family m K c r2 iR2 (kcell_r2 c)) $$ [HaR2] with HzR2
  · isplitr; · iexact Hrec
    iexact HaR2
  rw [wp_ret]; imodintro
  iapply Hk
  unfold bodyPost Φ₁ scratch Dat.owesAt Pipeline.owesWithin
  rw [show (dats m 0 c).owed t0_0.succ = 0 from rfl]
  isplitl [HS HR HD HzS1 HzR1 HzS2 HzR2]
  · isplitl [HS HR HD]
    · isplitl [HS]; · iexists _; iexact HS
      isplitl [HR]; · iexists _; iexact HR
      iexists _; iexact HD
    iapply (phi1_sems c)
    isplitl [HzS1]; · iexact HzS1
    isplitl [HzR1]; · iexact HzR1
    isplitl [HzS2]; · iexact HzS2
    iexact HzR2
  isplitl [HO]
  · icases HO with ⟨%Wf, HO⟩
    iexists Wf
    isplitr; · ipureintro; exact fun _ _ => Or.inl trivial
    rw [owing_zero]; iexact HO
  isplitl [Hx]
  · iexists _; isplitr; · (ipureintro; rfl)
    iexact Hx
  isplitl [Hw1]
  · iexists _; isplitr; · (ipureintro; rfl)
    iexact Hw1
  isplitl [Hw2]
  · iexists _; isplitr; · (ipureintro; rfl)
    iexact Hw2
  iexists _; isplitr; · (ipureintro; rfl)
  iexact Hout

set_option maxRecDepth 8000 in
/-- The library's body obligation on device `c`: the windows opened, the body run, the windows closed. -/
theorem body_obligation (c : Dev nD) : BodyObligation (dats (F := F) m 0 c) (defs₀ (F := F)) 𝒱₀ () Set.univ := fun t => by
  rw [fin_N0 t]
  rw [bigSep_W0, bigSep_W0]
  simp only [owns_whole_eq]
  show _ ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _)
      (Memref.whole cc0_stg3_0) (Memref.isWhole_whole _) (Memref.whole cc0_scratch0) (Memref.isWhole_whole _) (Memref.whole cc0_scratch1) (Memref.isWhole_whole _)
      (Memref.whole cc0_scratch2) (Memref.isWhole_whole _) cc0_scratch3 cc0_scratch4 cc0_scratch5 cc0_scratch6) (fun _ => bodyPost m c)
  iintro ⟨HΦ, Ho, Hx, Hw1, Hw2, Hout⟩
  iapply (sound_body m c fun _ => bodyPost m c)
  isplitl [HΦ]; · iexact HΦ
  isplitl [Ho]; · iexact Ho
  isplitl [Hx]; · iexact Hx
  isplitl [Hw1]; · iexact Hw1
  isplitl [Hw2]; · iexact Hw2
  isplitl [Hout]; · iexact Hout
  iintro H; iexact H

/-- info: 'Cert.Kernel.Mlp.body_obligation' depends on axioms: [propext, Classical.choice, Quot.sound] -/
#guard_msgs in #print axioms body_obligation

end Cert.Kernel.Mlp

end
-- ==== Proof.LaunchBits.lean ====
/-
  The launch of the sixteen-device kernel: the ghost state of the rounds discipline allocated for all devices under
  one update, the duty tokens dealt to the devices that pay them, the launch credit read as the credit of each device's
  own waits, and the run of @main from any memory with zero counters.
-/
import proofs.«900458_g7700000000000459_dist_mlp2_tp_i_m256_h512_out256_v7x_i16_bf16_1_alg».proof.Proof.ProtoBits
import proofs.«900458_g7700000000000459_dist_mlp2_tp_i_m256_h512_out256_v7x_i16_bf16_1_alg».proof.Proof.LevelsBits

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## The kernel's own semaphores -/

/-- The kernel's sixty scoped DMA semaphores, as the launch indexes them: a device's cells but the entry cell. -/
abbrev osem : Fin 60 → SemLoc sig := fun i => csem i.succ

theorem ownSemFacts : Pipeline.OwnSemFacts cfg0.spec osem :=
  ⟨by decide, fun a b h => Fin.succ_injective _ (csem_injective h), by decide⟩

theorem share_eq (m : (ℓ : Loc nD τ sig) → Buf (Elt F) ℓ) (c : Dev nD) (w : Fin cfg0.W) : (dats m 0 c).share w = fullShare := by
  unfold Dat.share; split <;> rfl

/-! ## Sums over `Fin (n + 1)`, the first index apart -/

theorem erase_zero_eq (n : ℕ) : (Finset.univ.erase (0 : Fin (n + 1))) = Finset.univ.map ⟨Fin.succ, Fin.succ_injective n⟩ := by
  ext i
  rw [Finset.mem_erase, Finset.mem_map]
  constructor
  · rintro ⟨hi, -⟩
    obtain ⟨j, rfl⟩ := Fin.exists_succ_eq.mpr hi
    exact ⟨j, Finset.mem_univ _, rfl⟩
  · rintro ⟨j, -, rfl⟩
    exact ⟨Fin.succ_ne_zero j, Finset.mem_univ _⟩

theorem bigSep_erase_zero {n : ℕ} (Φ : Fin (n + 1) → sProp 𝕄) :
    bigSep (Finset.univ.erase (0 : Fin (n + 1))) Φ = bigSep Finset.univ fun k : Fin n => Φ k.succ := by
  rw [erase_zero_eq, bigSep_map]; rfl

theorem bigSep_fin_succ {n : ℕ} (Φ : Fin (n + 1) → sProp 𝕄) :
    bigSep Finset.univ Φ = iprop(Φ 0 ∗ bigSep Finset.univ fun k : Fin n => Φ k.succ) := by
  rw [bigSep_univ_at Φ 0, bigSep_erase_zero]

theorem bigSep_fin5 (Φ : Fin 5 → sProp 𝕄) : bigSep Finset.univ Φ = iprop(Φ 0 ∗ Φ 1 ∗ Φ 2 ∗ Φ 3 ∗ Φ 4) :=
  bigSep_univ_eq_bigSepL [0, 1, 2, 3, 4] (by decide) (by decide) Φ

/-! ## The cells and the tokens the launch element mints -/

theorem kcell_injective : Function.Injective (kcell : Dev nD × Fin 61 → GSem nD τ sig) := by
  rintro ⟨c, k⟩ ⟨c', k'⟩ h
  have h1 : c = c' := congrArg (fun g : GSem nD τ sig => g.1.1) h
  subst h1
  have h2 : csem k = csem k' := congrArg Prod.snd h
  rw [csem_injective h2]
def cellsF : Finset (GSem nD τ sig) := Finset.univ.map ⟨kcell, kcell_injective⟩

/-- The duty tokens, listed by the device `c` that PAYS the duty: per `k`, its entry signal and its two arrivals at its
    `k`-th successor's cells, and its own two departures. -/
def tokCell (c : Dev nD) (k : Fin 15) : Fin 5 → GSem nD τ sig
  | 0 => barCell (fwd c k) | 1 => r1Cell (fwd c k) k | 2 => r2Cell (fwd c k) k | 3 => s1Cell c k | 4 => s2Cell c k
def tokOf (x : Dev nD × Fin 15 × Fin 5) : GSem nD τ sig × ℕ × Dev nD := (tokCell x.1 x.2.1 x.2.2, 0, x.1)

/-- A token names its payer; its cell's kind names which duty and, but for an entry cell, the index; an entry cell's
    device is the payer's successor, which names the index. -/
def tokInvK (c' c : Dev nD) : Kind → Dev nD × Fin 15 × Fin 5
  | .bar => (c, idxOf c' c, 0)
  | .r1 k => (c, k, 1)
  | .r2 k => (c, k, 2)
  | .s1 k => (c, k, 3)
  | .s2 k => (c, k, 4)
  | .other => (c, 0, 0)
def tokInv (y : GSem nD τ sig × ℕ × Dev nD) : Dev nD × Fin 15 × Fin 5 := tokInvK y.1.1.1 y.2.2 (kindOf y.1.2)

theorem tokInv_tokOf : ∀ x : Dev nD × Fin 15 × Fin 5, tokInv (tokOf x) = x
  | (c, k, 0) => by
    show tokInvK (fwd c k) c (kindOf (.reg barS)) = _
    rw [kind_bar]
    show (c, idxOf (fwd c k) c, (0 : Fin 5)) = _
    rw [idxOf_fwd]
  | (c, k, 1) => by show tokInvK (fwd c k) c (kindOf (.dma (r1 k))) = _; rw [kind_r1]; rfl
  | (c, k, 2) => by show tokInvK (fwd c k) c (kindOf (.dma (r2 k))) = _; rw [kind_r2]; rfl
  | (c, k, 3) => by show tokInvK c c (kindOf (.dma (s1 k))) = _; rw [kind_s1]; rfl
  | (c, k, 4) => by show tokInvK c c (kindOf (.dma (s2 k))) = _; rw [kind_s2]; rfl

theorem tokOf_injective : Function.Injective tokOf := Function.LeftInverse.injective tokInv_tokOf
def toksF : Finset (GSem nD τ sig × ℕ × Dev nD) := Finset.univ.map ⟨tokOf, tokOf_injective⟩

def u₀ : UU :=
  (initOf (Pipeline.cells cfgs cellOf_inj) (Pipeline.launchToks cfgs cellOf_inj), initOf cellsF toksF)

/-- What the launch element deals device `c` (the theorem's `G`): the round state, position and reached-mark of each of
    its cells, and the tokens of the duties it pays. -/
def G (m : (ℓ : Loc nD τ sig) → Buf (Elt F) ℓ) (c : Dev nD) : sProp 𝕄 :=
  iprop((bigSep Finset.univ fun i : Fin 61 => roundState ER (sched m) (kcell (c, i)) 0)
    ∗ (bigSep Finset.univ fun i : Fin 61 => iprop(atPos ER (kcell (c, i)) 0 ∅ 0 ∗ reached ER (kcell (c, i)) 0)) ∗ payToks c)

/-- What the global step makes of it (`G'`). -/
def G' (m : (ℓ : Loc nD τ sig) → Buf (Elt F) ℓ) (c : Dev nD) : sProp 𝕄 := iprop(∃ K, ghost m K c)

theorem fund_cells (m : (ℓ : Loc nD τ sig) → Buf (Elt F) ℓ) :
    BI.own (ER (initOf cellsF toksF)) ⊢ (|==> bigSep Finset.univ (G m) : sProp 𝕄) := by
  have hX (Φ : GSem nD τ sig → sProp 𝕄) : bigSep cellsF Φ = bigSep Finset.univ fun c : Dev nD => bigSep Finset.univ fun i : Fin 61 => Φ (kcell (c, i)) := by
    unfold cellsF; rw [bigSep_map, bigSep_univ_prod]; rfl
  have hT : bigSep toksF (fun x => (dutyTok ER x.1 x.2.1 x.2.2 : sProp 𝕄)) = bigSep Finset.univ fun c : Dev nD => payToks c := by
    unfold toksF; rw [bigSep_map, bigSep_univ_prod]
    refine bigSep_congr fun c _ => ?_
    rw [bigSep_univ_prod]
    unfold payToks
    exact bigSep_congr fun k _ => by rw [bigSep_fin5]; rfl
  iintro HX
  imod (Rounds.fund ER (sched m) cellsF toksF) $$ HX with ⟨Hst, Hr, Hat, Htok⟩
  imodintro
  ihave Hst' := (Entails.of_eq (hX fun g => roundState ER (sched m) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## The cells' invariants allocated, and the regrouping -/

/-- The kernel's own sixty semaphores at zero; -/
theorem ownSems0_eq (c : Dev nD) : (Pipeline.ownSems0 (Ix := Unit) (Name := ℕ) (U := UU) (Lvl := ℕ) (Val := Elt F) (τ := τ) osem c : sProp 𝕄)
    = bigSep Finset.univ fun i : Fin 60 => semVal (kcell (c, i.succ)) 0 := rfl
/-- the runtime's barrier semaphore the launch's one unscoped semaphore. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun i : Fin 61 => semVal (kcell (c, i)) 0 : sProp 𝕄) := by
  rw [ownSems0_eq, unscopedSems0_eq, bigSep_fin_succ (fun i : Fin 61 => (semVal (kcell (c, i)) 0 : sProp 𝕄))]
  iintro ⟨HS, HB⟩
  isplitl [HB]; · iexact HB
  iexact HS

theorem core_alloc (m : (ℓ : Loc nD τ sig) → Buf (Elt F) ℓ) (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun i : Fin 61 => iprop(∃ κ : ℕ, cellInv ER (sched m) κ (kcell (c, i))))
          ∗ (bigSep Finset.univ fun i : Fin 61 => iprop(atPos ER (kcell (c, i)) 0 ∅ 0 ∗ reached ER (kcell (c, i)) 0)) ∗ payToks c) := by
  unfold G
  iintro ⟨Hos, Hus, Hst, Hat, Htok⟩
  ihave Hv := (sems0_eq (F := F) c) $$ [Hos Hus]
  · isplitl [Hos] <;> iassumption
  imod (show iprop((bigSep Finset.univ fun i : Fin 61 => semVal (kcell (c, i)) 0) ∗ bigSep Finset.univ fun i : Fin 61 => roundState ER (sched m) (kcell (c, i)) 0)
      ⊢ (|={Set.univ}=> bigSep Finset.univ fun i : Fin 61 => iprop(∃ κ : ℕ, cellInv ER (sched m) κ (kcell (c, i))) : sProp 𝕄) from by
        rw [← bigSep_sep']
        exact (bigSep_mono fun i _ => (Rounds.body_intro ER (sched m) (kcell (c, i))).trans inv_alloc).trans (bigSep_fupd _ _)) $$ [Hv Hst] with Hinv
  · isplitl [Hv] <;> iassumption
  imodintro
  isplitl [Hinv]; · iexact Hinv
  isplitl [Hat]; · iexact Hat
  iexact Htok

theorem ghost_intro (m : (ℓ : Loc nD τ sig) → Buf (Elt F) ℓ) (K : Dev nD × Fin 61 → ℕ) (c : Dev nD) :
    iprop(records m K ∗ positions c ∗ payToks c) ⊢ G' m c := by
  unfold G' ghost
  iintro H; iexists K; iexact H

/-- Every cell's invariant and reached-mark is persistent and goes to every device; a device keeps its positions and
    the tokens of the duties it pays. -/
theorem regroup (m : (ℓ : Loc nD τ sig) → Buf (Elt F) ℓ) :
    (bigSep Finset.univ fun c : Dev nD => iprop((bigSep Finset.univ fun i : Fin 61 => iprop(∃ κ : ℕ, cellInv ER (sched m) κ (kcell (c, i))))
          ∗ (bigSep Finset.univ fun i : Fin 61 => iprop(atPos ER (kcell (c, i)) 0 ∅ 0 ∗ reached ER (kcell (c, i)) 0)) ∗ payToks c) : sProp 𝕄)
      ⊢ bigSep Finset.univ (G' m) := by
  rw [bigSep_sep', bigSep_sep', ← bigSep_univ_prod (fun ck : Dev nD × Fin 61 => iprop(∃ κ : ℕ, cellInv ER (sched m) κ (kcell ck))),
    bigSep_congr (s := Finset.univ) (fun (c : Dev nD) _ => bigSep_sep' Finset.univ (fun i : Fin 61 => (atPos ER (kcell (c, i)) 0 ∅ 0 : sProp 𝕄)) (fun i => reached ER (kcell (c, i)) 0)),
    bigSep_sep', ← bigSep_univ_prod (fun ck : Dev nD × Fin 61 => (reached ER (kcell ck) 0 : sProp 𝕄))]
  iintro ⟨HI, ⟨Hat, #HR⟩, Htok⟩
  ihave HK := (BI.bigSep_exists_pi Finset.univ (fun (ck : Dev nD × Fin 61) (κ : ℕ) => (cellInv ER (sched m) κ (kcell ck) : sProp 𝕄))) $$ HI
  icases HK with ⟨%K, #HI⟩
  iapply (bigSep_with_persistent (R := records m K) fun c _ => ghost_intro m K c)
  isplitr
  · unfold records; isplitl; · iexact HI
    iexact HR
  · iapply (Entails.of_eq (bigSep_sep' Finset.univ (fun c : Dev nD => positions c) payToks).symm)
    unfold positions
    isplitl [Hat]; · iexact Hat
    iexact Htok

/-- The global step (`hglob`): own AND unscoped semaphores of every device at once. -/
theorem glob (m : (ℓ : Loc nD τ sig) → Buf (Elt F) ℓ) :
    (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => core_alloc m c).trans (bigSep_fupd _ _)).trans (BI.fupd_mono (regroup m))

/-! ## The launch credit -/

/-- A debt summed as `owe` sums it — the last of the fifteen first — is the sum over the fifteen indices. -/
theorem owe_range (t owe : ℕ → CellTallies nD τ sig Unit) (h0 : owe 0 = 0) (hs : ∀ n, owe (n + 1) = owe n + t (14 - n)) (n : ℕ) :
    owe n = ∑ i ∈ Finset.range n, t (14 - i) := by
  induction n with
  | zero => rw [h0, Finset.range_zero, Finset.sum_empty]
  | succ n ih => rw [hs, ih, Finset.sum_range_succ]

theorem owe_fin (t owe : ℕ → CellTallies nD τ sig Unit) (h0 : owe 0 = 0) (hs : ∀ n, owe (n + 1) = owe n + t (14 - n)) :
    owe 15 = ∑ k : Fin 15, t k.val := by
  rw [owe_range t owe h0 hs 15, Fin.sum_univ_eq_sum_range (fun j => t j) 15, ← Finset.sum_range_reflect (fun j => t j) 15]

theorem oweB_eq (c : Dev nD) : oweB c 15 = ∑ k : Fin 15, tallyAt (((fwd c k : Dev nD) : Thread nD τ), SemLoc.reg barS) () 1 := by
  rw [owe_fin (tB c) (oweB c) rfl (fun _ => rfl)]
  exact Finset.sum_congr rfl fun k _ => by unfold tB; rw [dif_pos k.isLt]
theorem owe1_eq (c : Dev nD) : owe1 c 15 = ∑ k : Fin 15, tallyAt (((fwd c k : Dev nD) : Thread nD τ), SemLoc.dma (r1 k)) () N1 := by
  rw [owe_fin (t1 c) (owe1 c) rfl (fun _ => rfl)]
  exact Finset.sum_congr rfl fun k _ => by unfold t1; rw [dif_pos k.isLt]
theorem owe2_eq (c : Dev nD) : owe2 c 15 = ∑ k : Fin 15, tallyAt (((fwd c k : Dev nD) : Thread nD τ), SemLoc.dma (r2 k)) () N2 := by
  rw [owe_fin (t2 c) (owe2 c) rfl (fun _ => rfl)]
  exact Finset.sum_congr rfl fun k _ => by unfold t2; rw [dif_pos k.isLt]

/-- Fifteen units on one cell. -/
theorem sum_units (g : GSem nD τ sig) : (∑ _k : Fin 15, (tallyAt g () 1 : CellTallies nD τ sig Unit)) = tallyAt g () 15 := by
  funext g'; ext
  rw [Finset.sum_apply, Finsupp.finsetSum_apply]
  simp only [tallyAt_apply]
  rw [Finset.sum_const, Finset.card_univ, Fintype.card_fin, smul_eq_mul]
  split_ifs <;> rfl

/-- The entry signals all devices owe device `c`: one unit from each of its fifteen predecessors. -/
theorem cred_bar (c : Dev nD) :
    (Pipeline.launchCred (fun d : Dev nD => oweB d 15) c : sProp 𝕄) ⊢ cred (tallyAt (barCell c) () 15) := by
  rw [show (fun d : Dev nD => oweB d 15) = fun d => ∑ k : Fin 15, tallyAt (((fwd d k : Dev nD) : Thread nD τ), SemLoc.reg barS) () 1 from funext fun d => oweB_eq d,
    Pipeline.launchCred_sum]
  refine (bigSep_mono fun k _ => Pipeline.launchCred_tallyAt (.reg barS) (fun d => fwd d k) (fun c => bwd c k) (fun c => fwd_bwd c k) (fun d => bwd_fwd d k) () 1 c).trans ?_
  exact Entails.of_eq ((Pipeline.cred_finsetSum Finset.univ (fun _ : Fin 15 => (tallyAt (barCell c) () 1 : CellTallies nD τ sig Unit))).symm.trans
    (congrArg cred (sum_units (barCell c))))

/-- The first-phase arrivals: on each receive cell `k` of `c`, the credit of the copy its `k`-th predecessor sends. -/
theorem cred_r1 (c : Dev nD) :
    (Pipeline.launchCred (fun d : Dev nD => owe1 d 15) c : sProp 𝕄) ⊢ bigSep (Finset.univ : Finset (Fin 15)) fun k => cred (tallyAt (r1Cell c k) () N1) := by
  rw [show (fun d : Dev nD => owe1 d 15) = fun d => ∑ k : Fin 15, tallyAt (((fwd d k : Dev nD) : Thread nD τ), SemLoc.dma (r1 k)) () N1 from funext fun d => owe1_eq d,
    Pipeline.launchCred_sum]
  exact bigSep_mono fun k _ => Pipeline.launchCred_tallyAt (.dma (r1 k)) (fun d => fwd d k) (fun c => bwd c k) (fun c => fwd_bwd c k) (fun d => bwd_fwd d k) () N1 c
theorem cred_r2 (c : Dev nD) :
    (Pipeline.launchCred (fun d : Dev nD => owe2 d 15) c : sProp 𝕄) ⊢ bigSep (Finset.univ : Finset (Fin 15)) fun k => cred (tallyAt (r2Cell c k) () N2) := by
  rw [show (fun d : Dev nD => owe2 d 15) = fun d => ∑ k : Fin 15, tallyAt (((fwd d k : Dev nD) : Thread nD τ), SemLoc.dma (r2 k)) () N2 from funext fun d => owe2_eq d,
    Pipeline.launchCred_sum]
  exact bigSep_mono fun k _ => Pipeline.launchCred_tallyAt (.dma (r2 k)) (fun d => fwd d k) (fun c => bwd c k) (fun c => fwd_bwd c k) (fun d => bwd_fwd d k) () N2 c

/-- What the launch deals device `c` for the units the others owe its cells. -/
theorem creds_intro (c : Dev nD) : (Pipeline.launchCred O₀ c : sProp 𝕄) ⊢ creds c := by
  show (Pipeline.launchCred (fun d : Dev nD => (owe2 d 15 + owe1 d 15) + oweB d 15) c : sProp 𝕄) ⊢ _
  rw [Pipeline.launchCred_add, Pipeline.launchCred_add]
  unfold creds
  iintro ⟨⟨H2, H1⟩, HB⟩
  isplitl [HB]; · iapply (cred_bar (F := F) c); iexact HB
  isplitl [H1]; · iapply (cred_r1 (F := F) c); iexact H1
  iapply (cred_r2 (F := F) c); iexact H2

/-! ## The theorem's side conditions -/

theorem start_intro (m : (ℓ : Loc nD τ sig) → Buf (Elt F) ℓ) (ρ : Dev nD → PrngReg) (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m c)
      ⊢ |={Set.univ}=> iprop(start m c ∗ emp) := by
  iintro ⟨-, Hlev, Hcr, -, HG⟩
  ihave Hc := (creds_intro (F := F) c) $$ Hcr
  imodintro
  unfold start G'
  isplitl
  · isplitl [HG]; · iexact HG
    isplitl [Hc]; · iexact Hc
    iexact Hlev
  · iempintro

theorem phi0_intro (m : (ℓ : Loc nD τ sig) → Buf (Elt F) ℓ) (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀ scratch
  iintro ⟨Hs, -, Hr⟩
  isplitl [Hs]; · iexact Hs
  iexact Hr

theorem phi1_exit (m : (ℓ : Loc nD τ sig) → Buf (Elt F) ℓ) (c : Dev nD) :
    (dats m 0 c).Φ (Fin.last cfg0.N) ⊢ iprop(emp ∗ Pipeline.ownSems0 osem c ∗ Pipeline.scopedRest cfg0.spec c) := by
  rw [show (dats m 0 c).Φ (Fin.last cfg0.N) = Φ₁ c from rfl, scopedRest0_eq, ownSems0_eq]
  unfold Φ₁ scratch
  rw [bigSep_erase_zero (fun i : Fin 61 => (semVal (kcell (c, i)) 0 : sProp 𝕄))]
  iintro ⟨Hr, Hz⟩
  isplitr; · iempintro
  isplitl [Hz]; · iexact Hz
  iexact Hr

/-- The windows' staging semaphores are the first four DMA semaphores: level 0, below everything a device owes. -/
theorem waits (m : (ℓ : Loc nD τ sig) → Buf (Elt F) ℓ) (c : Dev nD) : (levAts L lv : sProp 𝕄) ⊢ Pipeline.cellsWaits cfgs (dats m) () 0 c :=
  Pipeline.cellsWaits_intro cfgs (dats m) () 0 c fun w s t => by
    rcases t with ⟨_ | _, ht⟩
    · exact mayWait_low c _ (lv_low c _ (by fin_cases w <;> fin_cases s <;> decide) ()) 15 15 15
    · exact mayWait_none c _

/-! ## The run -/

set_option maxRecDepth 8000 in
/-- At the compiled mesh of sixteen devices, for any float values, from any memory with zero counters: every weakly fair
    execution of @main terminates, and every final state has each device's arrays at the contents the proof data name. -/
theorem run_main (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩
      (fun r => ∀ c : Dev nD, ∀ w : Fin cfg0.W, r.2.mem ((cfg0.win w).arr.view.loc (c : Thread nD τ)) = (dats m 0 c).arrAt w cfg0.N) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := hbody) (hne := block_pos0) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_pair _ _) $$ Hu
      icases H with ⟨HP, HX⟩
      imod (fund_cells m) $$ HX with HG
      imodintro
      isplitl [HP] <;> iassumption)
    (hglob := glob m)
    (hA := fun _ _ => rfl) (hpf := fun _ k => k.elim0)
    (X := start m) (Y := fun _ => iprop(emp)) (Z := fun _ => iprop(emp))
    (hX := start_intro m ρ) (hin := phi0_intro m) (hout := phi1_exit m)
    (QY := fun _ _ => True)
    (hY := fun c s' => by
      iintro ⟨-, -, HSI⟩
      imodintro
      isplitr; · ipureintro; trivial
      iexact HSI)
    (hQ := fun _ h c w => (h c).1 w)

/-- info: 'Cert.Kernel.Mlp.run_main' depends on axioms: [propext, Classical.choice, Quot.sound] -/
#guard_msgs in #print axioms run_main

end Cert.Kernel.Mlp

end
-- ==== Proof.FinalBits.lean ====
/-
  What each device's arrays hold after the run: an argument window's block is its whole array, so the argument arrays
  are never written and the one write-back of the result window writes the whole result array; the run of @main read
  at the arguments and at the result.
-/
import proofs.«900458_g7700000000000459_dist_mlp2_tp_i_m256_h512_out256_v7x_i16_bf16_1_alg».proof.Proof.LaunchBits
import proofs.«900458_g7700000000000459_dist_mlp2_tp_i_m256_h512_out256_v7x_i16_bf16_1_alg».proof.Proof.Gen.Kernel.Frame

noncomputable section

namespace Cert.Kernel.Mlp

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

/-! ## What the windows' arrays hold after the run -/

/-- An argument window's block is its whole array: every index of the one point is zero. -/
theorem win_off0 (w : Fin cfg0.W) : (fun a => (cfg0.win w).index t0_0 a * (cfg0.win w).size a) = fun _ => 0 := by
  fin_cases w <;> (funext a; fin_cases a <;> rfl)

/-- What device `c` holds of the first argument when the body runs is its copy of the array, -/
theorem Xc_eq (m : (ℓ : Loc nD τ sig) → Buf (Elt F) ℓ) (c : Dev nD) : Xc m c = m ((c : Thread nD τ).loc main_arg0) := by
  unfold Xc iblk
  exact Memref.read_access_unit_zero (Elt F) main_arg0 (win_off0 0) _ _
/-- of the second and third its blocks of the weights. -/
theorem W1c_eq (m : (ℓ : Loc nD τ sig) → Buf (Elt F) ℓ) (c : Dev nD) : W1c m c = m ((c : Thread nD τ).loc main_arg1) := by
  unfold W1c iblk
  exact Memref.read_access_unit_zero (Elt F) main_arg1 (win_off0 1) _ _
theorem W2c_eq (m : (ℓ : Loc nD τ sig) → Buf (Elt F) ℓ) (c : Dev nD) : W2c m c = m ((c : Thread nD τ).loc main_arg2) := by
  unfold W2c iblk
  exact Memref.read_access_unit_zero (Elt F) main_arg2 (win_off0 2) _ _

/-- An argument array is never written. -/
theorem final_in (m : (ℓ : Loc nD τ sig) → Buf (Elt F) ℓ) (c : Dev nD) (w : Fin cfg0.W) (hw : (cfg0.win w).isOut = false) :
    (dats m 0 c).arrAt w cfg0.N = m ((cfg0.win w).arr.view.loc (c : Thread nD τ)) :=
  (dats m 0 c).arrAt_in w hw _

/-- The result array ends holding what the body left in the result window: the one write-back writes the whole array. -/
theorem final_out (m : (ℓ : Loc nD τ sig) → Buf (Elt F) ℓ) (c : Dev nD) : (dats m 0 c).arrAt 3 cfg0.N = OUT m := by
  show (dats m 0 c).arrAt 3 (t0_0.val + 1) = _
  rw [Dat.arrAt_succ, if_pos (flush0_3 t0_0)]
  exact Memref.write_access_unit_zero_univ (Elt F) main_v1 (win_off0 3) _ _ _

/-! ## The run, read at the arguments and at the result -/

/-- The arguments of @main end as they began, on every device. -/
theorem frame_run (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 0).trans (final_in m c 0 rfl), (h c 1).trans (final_in m c 1 rfl), (h c 2).trans (final_in m c 2 rfl)⟩)
    (run_main m ρ hbody)

/-- And the result array ends, on every device, at the gathered sums. -/
theorem value_run (m : (ℓ : Loc nD τ sig) → Buf (Elt F) ℓ) (ρ : Dev nD → PrngReg)
    (hbody : ∀ c : Dev nD, BodyObligation (dats (F := F) m 0 c) (defs₀ (F := F)) 𝒱₀ () Set.univ) :
    θ_run defs (onTc (τ := τ) (main (F := F))) ⟨m, fun _ => 0, ρ⟩ (fun r => ∀ c : Dev nD,
      r.2.mem ((c.tc : Thread nD τ).loc main_v1) = OUT m
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨(h c 3).trans (final_out m c), (h c 0).trans (final_in m c 0 rfl), (h c 1).trans (final_in m c 1 rfl),
      (h c 2).trans (final_in m c 2 rfl)⟩)
    (run_main m ρ hbody)

end Cert.Kernel.Mlp

end
-- ==== Proof.lean ====
/-
  The five claims about the sixteen-device two-layer perceptron, proved.

  Each device forms the partial product of its slice of the hidden axis, the sixteen devices exchange row blocks of the
  partial products, each adds the sixteen blocks of its own rows, and the sums are gathered on every device. The
  kernel's text is read twice — at the bit-exact instance as printed, and at the extended reals — and the proof of its
  protocol is written once, for any float instance, and stated over each reading's names.

  1. The kernel as printed runs — every weakly fair execution terminates, nothing faulting — and leaves its three
     argument arrays unchanged on every device: the run of @main from the launch (`Cert.Kernel.Mlp.run_main`) under the
     body's proof on each device (`Cert.Kernel.Mlp.body_obligation`), read at the argument arrays, which no write-back
     touches (`Cert.Kernel.Mlp.frame_run`).
  2. The same of the kernel read at the extended reals (`Cert.KernelIdeal.Mlp.frame_KI`).
  3. The reference runs and leaves its arguments unchanged: its operations in order, each writing its own result
     (`Cert.KernelIdeal.Mlp.frame_RI`, over the generated run of the reference).
  4. The reading at the extended reals rewrote no operation of the kernel: nothing is to be shown
     (`Cert.KernelIdeal.Mlp.preserves`).
  5. At the extended reals, from memories where every device holds the input, its 512 columns of the first weights
     and its 512 rows of the second, every device's result array ends holding the reference's result: the run leaves
     there the gathered sums of the sixteen partial products' row blocks (`Cert.KernelIdeal.Mlp.value_run`), entry
     `(i, j)` of which is the sum over the sixteen devices of the sums over their 512 hidden units — the sum over all
     8192 hidden units, the reference's entry (`Cert.MlpValue.outOf_eq_reference`); addition of extended reals is
     commutative and associative, so no entry is assumed finite (`Cert.KernelIdeal.Mlp.algebraic`).
-/
import proofs.«900458_g7700000000000459_dist_mlp2_tp_i_m256_h512_out256_v7x_i16_bf16_1_alg».proof.Defs
import proofs.«900458_g7700000000000459_dist_mlp2_tp_i_m256_h512_out256_v7x_i16_bf16_1_alg».proof.Proof.Gen.Kernel
import proofs.«900458_g7700000000000459_dist_mlp2_tp_i_m256_h512_out256_v7x_i16_bf16_1_alg».proof.Proof.Gen.KernelIdeal
import proofs.«900458_g7700000000000459_dist_mlp2_tp_i_m256_h512_out256_v7x_i16_bf16_1_alg».proof.Proof.Gen.ReferenceIdeal
import proofs.«900458_g7700000000000459_dist_mlp2_tp_i_m256_h512_out256_v7x_i16_bf16_1_alg».proof.Proof.Gen.Pre_finite_inputs_Kernel
import proofs.«900458_g7700000000000459_dist_mlp2_tp_i_m256_h512_out256_v7x_i16_bf16_1_alg».proof.Proof.Gen.Pre_finite_inputs_ReferenceIdeal
import proofs.«900458_g7700000000000459_dist_mlp2_tp_i_m256_h512_out256_v7x_i16_bf16_1_alg».proof.Proof.Body
import proofs.«900458_g7700000000000459_dist_mlp2_tp_i_m256_h512_out256_v7x_i16_bf16_1_alg».proof.Proof.Assemble
import proofs.«900458_g7700000000000459_dist_mlp2_tp_i_m256_h512_out256_v7x_i16_bf16_1_alg».proof.Proof.BodyBits
import proofs.«900458_g7700000000000459_dist_mlp2_tp_i_m256_h512_out256_v7x_i16_bf16_1_alg».proof.Proof.FinalBits

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Pre_finite_inputs_Kernel.Gen.facts,
    Cert.Pre_finite_inputs_ReferenceIdeal.Gen.facts,
    fun m ρ _ => Cert.Kernel.Mlp.frame_run (F := Bits) m ρ (Cert.Kernel.Mlp.body_obligation m),
    Cert.KernelIdeal.Mlp.frame_KI (fun m c => Cert.KernelIdeal.Mlp.body_obligation m c),
    Cert.KernelIdeal.Mlp.frame_RI,
    Cert.KernelIdeal.Mlp.preserves,
    Cert.KernelIdeal.Mlp.algebraic (fun m c => Cert.KernelIdeal.Mlp.body_obligation m c)⟩

end Cert.Proof

end
